-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1600000 : Shape := ⟨1, ![1600000]⟩
abbrev S_ : Shape := ⟨0, ![]⟩
abbrev S100000 : Shape := ⟨1, ![100000]⟩
abbrev S1600000x1 : Shape := ⟨2, ![1600000, 1]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  reducesTo_S100000_S_d0 : S100000.ReducesTo [0] S_
  scatter_S100000_S1600000x1_S1600000_n_0_0_1_wf : ScatterDims.WF S100000 S1600000x1 S1600000 [] [0] [0] 1

variable [Facts]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def fn_part4 {F : FTy → Type} [FloatOps F] (main_arg15 : IVec S1600000 32) (main_v63 : IVec S_ 1) (main_v67 : IVec S_ 1) : IVec S_ 1 :=
  let main_v68 : IVec S_ 1 := andi main_v63 main_v67
  let main_c_26 : IVec S_ 32 := constantI S_ 32 1#32
  let main_v69 : IVec S1600000 32 := broadcastInDim S1600000 ![] bcast_S_S1600000 main_c_26
  let main_c_27 : IVec S_ 32 := constantI S_ 32 0#32
  let main_v70 : IVec S100000 32 := broadcastInDim S100000 ![] bcast_S_S100000 main_c_27
  let main_v71 : IVec S1600000x1 32 := broadcastInDim S1600000x1 ![0] bcast_S1600000_S1600000x1_0 main_arg15
  let main_v72 : IVec S100000 32 := (fun x i u => Host.scatter scatter_S100000_S1600000x1_S1600000_n_0_0_1 IntOp.addi x i u) main_v70 main_v71 main_v69
  let main_c_28 : IVec S_ 32 := constantI S_ 32 0#32
  let main_v73 : IVec S100000 32 := broadcastInDim S100000 ![] bcast_S_S100000 main_c_28
  let main_v74 : IVec S100000 1 := cmpi .sgt main_v72 main_v73
  let main_c_29 : IVec S_ 1 := constantI S_ 1 1#1
  let main_v75 : IVec S_ 1 := (fun x v => Host.reduce IntOp.andi x v reducesTo_S100000_S_d0 h_S_) main_v74 main_c_29
  let main_v76 : IVec S_ 1 := andi main_v68 main_v75
  main_v76

def fn_part3 {F : FTy → Type} [FloatOps F] (main_arg11 : FVec F S128 .f32) (main_arg12 : FVec F S128 .f32) (main_arg13 : FVec F S128 .f32) (main_arg15 : IVec S1600000 32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_v63 main_v67

def fn_part2 {F : FTy → Type} [FloatOps F] (main_arg7 : FVec F S128 .f32) (main_arg8 : FVec F S128x256 .f32) (main_arg9 : FVec F S256 .f32) (main_arg10 : FVec F S256x128 .f32) (main_arg11 : FVec F S128 .f32) (main_arg12 : FVec F S128 .f32) (main_arg13 : FVec F S128 .f32) (main_arg15 : IVec S1600000 32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x256 .f32 := Host.absf main_arg8
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x128 .f32 := Host.absf main_arg10
  let main_cst_18 : FVec F S_ .f32 := constant S_ .f32 0x7F800000#32
  let main_v50 : FVec F S256x128 .f32 := broadcastInDim S256x128 ![] bcast_S_S256x128 main_cst_18
  fn_part3 (F := F) main_arg11 main_arg12 main_arg13 main_arg15 main_v48 main_v49 main_v50

def fn_part1 {F : FTy → Type} [FloatOps F] (main_arg4 : FVec F S128x128 .f32) (main_arg5 : FVec F S128 .f32) (main_arg6 : FVec F S128 .f32) (main_arg7 : FVec F S128 .f32) (main_arg8 : FVec F S128x256 .f32) (main_arg9 : FVec F S256 .f32) (main_arg10 : FVec F S256x128 .f32) (main_arg11 : FVec F S128 .f32) (main_arg12 : FVec F S128 .f32) (main_arg13 : FVec F S128 .f32) (main_arg15 : IVec S1600000 32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg15 main_v33

def fn {F : FTy → Type} [FloatOps F] (main_arg0 : FVec F S100000x128 .f32) (main_arg1 : FVec F S128x128 .f32) (main_arg2 : FVec F S128x128 .f32) (main_arg3 : FVec F S128x128 .f32) (main_arg4 : FVec F S128x128 .f32) (main_arg5 : FVec F S128 .f32) (main_arg6 : FVec F S128 .f32) (main_arg7 : FVec F S128 .f32) (main_arg8 : FVec F S128x256 .f32) (main_arg9 : FVec F S256 .f32) (main_arg10 : FVec F S256x128 .f32) (main_arg11 : FVec F S128 .f32) (main_arg12 : FVec F S128 .f32) (main_arg13 : FVec F S128 .f32) (main_arg14 : IVec S1600000 32) (main_arg15 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg15 main_v13 main_v16
-- ==== Kernel.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1600000 : Shape := ⟨1, ![1600000]⟩
abbrev S128x384 : Shape := ⟨2, ![128, 384]⟩
abbrev S100000x384 : Shape := ⟨2, ![100000, 384]⟩
abbrev S2000x128 : Shape := ⟨2, ![2000, 128]⟩
abbrev S2000x384 : Shape := ⟨2, ![2000, 384]⟩
abbrev S100000x8x16 : Shape := ⟨3, ![100000, 8, 16]⟩
abbrev S_ : Shape := ⟨0, ![]⟩
abbrev S1600000x1 : Shape := ⟨2, ![1600000, 1]⟩
abbrev S1600000x8x16 : Shape := ⟨3, ![1600000, 8, 16]⟩
abbrev S1600000x8 : Shape := ⟨2, ![1600000, 8]⟩
abbrev S1600000x8x1 : Shape := ⟨3, ![1600000, 8, 1]⟩
abbrev S100000x8 : Shape := ⟨2, ![100000, 8]⟩
abbrev S100000x8x1 : Shape := ⟨3, ![100000, 8, 1]⟩
abbrev S1x128 : Shape := ⟨2, ![1, 128]⟩
abbrev S1x256 : Shape := ⟨2, ![1, 256]⟩
abbrev S2000x256 : Shape := ⟨2, ![2000, 256]⟩

abbrev nBuf : Space → Nat
  | .hbm => 111
  | .vmem => 37
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1600000, .i32⟩
  | .hbm, ⟨15, _⟩ => ⟨S1600000, .i32⟩
  | .hbm, ⟨16, _⟩ => ⟨S128x384, .f32⟩
  | .hbm, ⟨17, _⟩ => ⟨S100000x384, .f32⟩
  | .hbm, ⟨18, _⟩ => ⟨S100000x128, .f32⟩
  | .hbm, ⟨19, _⟩ => ⟨S100000x8x16, .f32⟩
  | .hbm, ⟨20, _⟩ => ⟨S100000x128, .f32⟩
  | .hbm, ⟨21, _⟩ => ⟨S100000x8x16, .f32⟩
  | .hbm, ⟨22, _⟩ => ⟨S100000x128, .f32⟩
  | .hbm, ⟨23, _⟩ => ⟨S100000x8x16, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x8x16, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x8x16, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x8x16, .f32⟩
  | .hbm, ⟨51, _⟩ => ⟨S1600000x8x16, .f32⟩
  | .hbm, ⟨52, _⟩ => ⟨S_, .f32⟩
  | .hbm, ⟨53, _⟩ => ⟨S1600000x8, .f32⟩
  | .hbm, ⟨54, _⟩ => ⟨S_, .f32⟩
  | .hbm, ⟨55, _⟩ => ⟨S1600000x8, .f32⟩
  | .hbm, ⟨56, _⟩ => ⟨S1600000x8, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S1600000x8, .f32⟩
  | .hbm, ⟨61, _⟩ => ⟨S1600000x8, .f32⟩
  | .hbm, ⟨62, _⟩ => ⟨S_, .f32⟩
  | .hbm, ⟨63, _⟩ => ⟨S1600000x8, .f32⟩
  | .hbm, ⟨64, _⟩ => ⟨S1600000x8, .f32⟩
  | .hbm, ⟨65, _⟩ => ⟨S1600000x8, .f32⟩
  | .hbm, ⟨66, _⟩ => ⟨S1600000x8x1, .f32⟩
  | .hbm, ⟨67, _⟩ => ⟨S1600000x8x16, .f32⟩
  | .hbm, ⟨68, _⟩ => ⟨S1600000x8x16, .f32⟩
  | .hbm, ⟨69, _⟩ => ⟨S_, .f32⟩
  | .hbm, ⟨70, _⟩ => ⟨S100000x8x16, .f32⟩
  | .hbm, ⟨71, _⟩ => ⟨S1600000x1, .i32⟩
  | .hbm, ⟨72, _⟩ => ⟨S100000x8x16, .f32⟩
  | .hbm, ⟨73, _⟩ => ⟨S_, .f32⟩
  | .hbm, ⟨74, _⟩ => ⟨S100000x8, .f32⟩
  | .hbm, ⟨75, _⟩ => ⟨S1600000x1, .i32⟩
  | .hbm, ⟨76, _⟩ => ⟨S100000x8, .f32⟩
  | .hbm, ⟨77, _⟩ => ⟨S100000x8x1, .f32⟩
  | .hbm, ⟨78, _⟩ => ⟨S100000x8x16, .f32⟩
  | .hbm, ⟨79, _⟩ => ⟨S100000x8x16, .f32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S_, .f32⟩
  | .hbm, ⟨89, _⟩ => ⟨S1x128, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S1x128, .f32⟩
  | .hbm, ⟨94, _⟩ => ⟨S1x128, .f32⟩
  | .hbm, ⟨95, _⟩ => ⟨S1x256, .f32⟩
  | .hbm, ⟨96, _⟩ => ⟨S1x128, .f32⟩
  | .hbm, ⟨97, _⟩ => ⟨S100000x128, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S_, .f32⟩
  | .hbm, ⟨104, _⟩ => ⟨S1x128, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S1x128, .f32⟩
  | .hbm, ⟨109, _⟩ => ⟨S1x128, .f32⟩
  | .hbm, ⟨110, _⟩ => ⟨S100000x128, .f32⟩
  | .local _ .vmem, ⟨0, _⟩ => ⟨S2000x128, .f32⟩
  | .local _ .vmem, ⟨1, _⟩ => ⟨S2000x128, .f32⟩
  | .local _ .vmem, ⟨2, _⟩ => ⟨S128x384, .f32⟩
  | .local _ .vmem, ⟨3, _⟩ => ⟨S2000x384, .f32⟩
  | .local _ .vmem, ⟨4, _⟩ => ⟨S2000x384, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S128x128, .f32⟩
  | .local _ .vmem, ⟨10, _⟩ => ⟨S1x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S1x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S1x128, .f32⟩
  | .local _ .vmem, ⟨21, _⟩ => ⟨S128x256, .f32⟩
  | .local _ .vmem, ⟨22, _⟩ => ⟨S1x256, .f32⟩
  | .local _ .vmem, ⟨23, _⟩ => ⟨S256x128, .f32⟩
  | .local _ .vmem, ⟨24, _⟩ => ⟨S1x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S1x128, .f32⟩
  | .local _ .vmem, ⟨29, _⟩ => ⟨S2000x128, .f32⟩
  | .local _ .vmem, ⟨30, _⟩ => ⟨S2000x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S2000x128, .f32⟩
  | .local _ .vmem, ⟨36, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_1 : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst : Ref sig .tc := ⟨.hbm, 52, rfl⟩
abbrev main_v30 : Ref sig .tc := ⟨.hbm, 53, rfl⟩
abbrev main_cst_5 : Ref sig .tc := ⟨.hbm, 54, rfl⟩
abbrev main_v31 : Ref sig .tc := ⟨.hbm, 55, rfl⟩
abbrev main_v32 : Ref sig .tc := ⟨.hbm, 56, rfl⟩
abbrev main_cst_6 : Ref sig .tc := ⟨.hbm, 57, rfl⟩
abbrev main_cst_7 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_cst_8 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_9 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v49_2 : Ref sig .tc := ⟨.hbm, 84, rfl⟩
abbrev main_cst_10 : Ref sig .tc := ⟨.hbm, 85, rfl⟩
abbrev main_v50 : Ref sig .tc := ⟨.hbm, 86, rfl⟩
abbrev main_v51 : Ref sig .tc := ⟨.hbm, 87, rfl⟩
abbrev main_cst_11 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60_0 : Ref sig .tc := ⟨.hbm, 97, rfl⟩
abbrev main_v60_1 : Ref sig .tc := ⟨.hbm, 98, rfl⟩
abbrev main_v60_2 : Ref sig .tc := ⟨.hbm, 99, rfl⟩
abbrev main_cst_12 : Ref sig .tc := ⟨.hbm, 100, rfl⟩
abbrev main_v61 : Ref sig .tc := ⟨.hbm, 101, rfl⟩
abbrev main_v62 : Ref sig .tc := ⟨.hbm, 102, rfl⟩
abbrev main_cst_13 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg6_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg9_1 : Ref sig .tc := ⟨.vmem, 26, rfl⟩
abbrev cc2_stg10_0 : Ref sig .tc := ⟨.vmem, 27, rfl⟩
abbrev cc2_stg11_0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg5_1 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc1_sem5_0 : DmaSem sig := 13
abbrev cc1_sem6_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem9_0 : DmaSem sig := 25
abbrev cc2_sem9_1 : DmaSem sig := 26
abbrev cc2_sem10_0 : DmaSem sig := 27
abbrev cc2_sem11_0 : DmaSem sig := 28
abbrev cc3_sem0_0 : DmaSem sig := 29
abbrev cc3_sem0_1 : DmaSem sig := 30
abbrev cc3_sem1_0 : DmaSem sig := 31
abbrev cc3_sem2_0 : DmaSem sig := 32
abbrev cc3_sem3_0 : DmaSem sig := 33
abbrev cc3_sem4_0 : DmaSem sig := 34
abbrev cc3_sem5_0 : DmaSem sig := 35
abbrev cc3_sem5_1 : DmaSem sig := 36

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S2000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1x128 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  concatenates_S128x128_S128x128_S128x128_S128x384_d1 : Shape.Concatenates [S128x128, S128x128, S128x128] S128x384 1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S2000x384_S2000x384_0_0 : ∀ a, (![0, 0] : Fin 2 → Nat) a + S2000x384.size a ≤ S2000x384.size a
  h_S2000x384 : 0 < S2000x384.numel
  slices_S100000x384_S100000x128_0_0 : S100000x384.Slices ![0, 0] S100000x128
  shapeCasts_S100000x128_S100000x8x16 : S100000x128.ShapeCasts S100000x8x16
  slices_S100000x384_S100000x128_0_128 : S100000x384.Slices ![0, 128] S100000x128
  slices_S100000x384_S100000x128_0_256 : S100000x384.Slices ![0, 256] S100000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x8x16_S1600000x8_d2 : S1600000x8x16.ReducesTo [2] S1600000x8
  h_S_ : 0 < S_.numel
  bcast_S_S1600000x8 : S_.BroadcastsInDim S1600000x8 (![] : Fin 0 → Fin S1600000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S100000x8x16 : S_.BroadcastsInDim S100000x8x16 (![] : Fin 0 → Fin S100000x8x16.rank)
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  bcast_S100000x8x1_S100000x8x16_0_1_2 : S100000x8x1.BroadcastsInDim S100000x8x16 (![0, 1, 2] : Fin 3 → Fin S100000x8x16.rank)
  shapeCasts_S100000x8x16_S100000x128 : S100000x8x16.ShapeCasts S100000x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S1x128_S1x128 : S1x128.ShapeCasts S1x128
  broadcasts_S1x128_S2000x128 : S1x128.Broadcasts S2000x128
  reduces_S2000x128_S128 : S2000x128.Reduces [0] S128
  bcast_S_S1x128 : S_.BroadcastsInDim S1x128 (![] : Fin 0 → Fin S1x128.rank)
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  dot_S2000x128_S128x384_S2000x384_1_0_0_1_n_n_wf : DotDims.WF S2000x128 S128x384 S2000x384 [1] [0] [0] [1] [] []
  gather_S100000x8x16_S1600000x1_S1600000x8x16_12_0_n_n_0_1_1816_wf : GatherDims.WF S100000x8x16 S1600000x1 S1600000x8x16 [1, 2] [0] [] [0] [] 1 ![1, 8, 16]
  scatter_S100000x8x16_S1600000x1_S1600000x8x16_12_0_0_1_wf : ScatterDims.WF S100000x8x16 S1600000x1 S1600000x8x16 [1, 2] [0] [0] 1
  scatter_S100000x8_S1600000x1_S1600000x8_1_0_0_1_wf : ScatterDims.WF S100000x8 S1600000x1 S1600000x8 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x384.size a ≤ S128x384.size a
  hwx0_1 : ∀ i : grid0.Coords, EltTy.bits .f32 = 32 ∨ (Rect.block (s := S128x384) S128x384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x384.size a ≤ S100000x384.size a
  hwx0_2 : ∀ i : grid0.Coords, EltTy.bits .f32 = 32 ∨ (Rect.block (s := S100000x384) S2000x384.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x256.size a ≤ S128x256.size a
  hwx2_5 : ∀ i : grid2.Coords, EltTy.bits .f32 = 32 ∨ (Rect.block (s := S128x256) S128x256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256x128.size a ≤ S256x128.size a
  hwx2_7 : ∀ i : grid2.Coords, EltTy.bits .f32 = 32 ∨ (Rect.block (s := S256x128) S256x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S2000x128.size a ≤ S100000x128.size a
  hwx2_9 : ∀ i : grid2.Coords, EltTy.bits .f32 = 32 ∨ (Rect.block (s := S100000x128) S2000x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S1x128.size a ≤ S1x128.size a
  hwx2_11 : ∀ i : grid2.Coords, EltTy.bits .f32 = 32 ∨ (Rect.block (s := S1x128) S1x128.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S100000x128.size a
  hwx3_5 : ∀ i : grid3.Coords, EltTy.bits .f32 = 32 ∨ (Rect.block (s := S100000x128) S2000x128.size (cc3_transform_5 i) (hinb3_5 i)).WholeWords (EltTy.packing .f32)

variable [Facts₀]

def dot_S2000x128_S128x384_S2000x384_1_0_0_1_n_n : DotDims S2000x128 S128x384 S2000x384 where
  lhsContracting := [1]
  rhsContracting := [0]
  lhsNonContracting := [0]
  rhsNonContracting := [1]
  lhsBatch := []
  rhsBatch := []
  wf := dot_S2000x128_S128x384_S2000x384_1_0_0_1_n_n_wf
def gather_S100000x8x16_S1600000x1_S1600000x8x16_12_0_n_n_0_1_1816 : GatherDims S100000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S100000x8x16_S1600000x1_S1600000x8x16_12_0_n_n_0_1_1816_wf
def scatter_S100000x8x16_S1600000x1_S1600000x8x16_12_0_0_1 : ScatterDims S100000x8x16 S1600000x1 S1600000x8x16 where
  updateWindowDims := [1, 2]
  insertedWindowDims := [0]
  scatterDimsToOperandDims := [0]
  indexVectorDim := 1
  wf := scatter_S100000x8x16_S1600000x1_S1600000x8x16_12_0_0_1_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S128x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2000x384.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v49_1) S1x128.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49_2) S1x128.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49_0) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v55) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S128x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg10) S256x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v59) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v60_0) S2000x128.size cc2_transform_9 reads2_9 true false 2 stage2_9 sem2_9
    hrank2 hreads2_9 hinb2_9 nbuf2_9 (Memref.isWhole_whole _) hwx2_9 hstage2_9

abbrev win2_10 : Pipeline.Window sig grid2 :=
  Pipeline.Window.ofSpec (Memref.whole main_v60_1) S1x128.size cc2_transform_10 reads2_10 true true 1 stage2_10 sem2_10
    hrank2 hreads2_10 hinb2_10 nbuf2_10 (Memref.isWhole_whole _) hwx2_10 hstage2_10

abbrev win2_11 : Pipeline.Window sig grid2 :=
  Pipeline.Window.ofSpec (Memref.whole main_v60_2) S1x128.size cc2_transform_11 reads2_11 true true 1 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v60_0) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v66) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v67) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v68) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v69) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S1600000 : Shape := ⟨1, ![1600000]⟩
abbrev S100000x8x16 : Shape := ⟨3, ![100000, 8, 16]⟩
abbrev S_ : Shape := ⟨0, ![]⟩
abbrev S1600000x1 : Shape := ⟨2, ![1600000, 1]⟩
abbrev S1600000x8x16 : Shape := ⟨3, ![1600000, 8, 16]⟩
abbrev S1600000x8 : Shape := ⟨2, ![1600000, 8]⟩
abbrev S1600000x8x1 : Shape := ⟨3, ![1600000, 8, 1]⟩
abbrev S100000x8 : Shape := ⟨2, ![100000, 8]⟩
abbrev S100000x8x1 : Shape := ⟨3, ![100000, 8, 1]⟩
abbrev S1x128 : Shape := ⟨2, ![1, 128]⟩
abbrev S100000x256 : Shape := ⟨2, ![100000, 256]⟩
abbrev S1x256 : Shape := ⟨2, ![1, 256]⟩

abbrev nBuf : Space → Nat
  | .hbm => 156
  | .vmem => 0
  | .smem => 0
  | _ => 0

abbrev hbmTy0_0 (i : Nat) : BufTy := match i % 128 with
  | 0 => ⟨S100000x128, .f32⟩
  | 1 => ⟨S128x128, .f32⟩
  | 2 => ⟨S128x128, .f32⟩
  | 3 => ⟨S128x128, .f32⟩
  | 4 => ⟨S128x128, .f32⟩
  | 5 => ⟨S128, .f32⟩
  | 6 => ⟨S128, .f32⟩
  | 7 => ⟨S128, .f32⟩
  | 8 => ⟨S128x256, .f32⟩
  | 9 => ⟨S256, .f32⟩
  | 10 => ⟨S256x128, .f32⟩
  | 11 => ⟨S128, .f32⟩
  | 12 => ⟨S128, .f32⟩
  | 13 => ⟨S128, .f32⟩
  | 14 => ⟨S1600000, .i32⟩
  | 15 => ⟨S1600000, .i32⟩
  | 16 => ⟨S100000x128, .f32⟩
  | 17 => ⟨S100000x8x16, .f32⟩
  | 18 => ⟨S100000x128, .f32⟩
  | 19 => ⟨S100000x8x16, .f32⟩
  | 20 => ⟨S100000x128, .f32⟩
  | 21 => ⟨S100000x8x16, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x8x16, .f32⟩
  | 31 => ⟨S_, .i32⟩
  | 32 => ⟨S1600000, .i32⟩
  | 33 => ⟨S1600000, .i1⟩
  | 34 => ⟨S_, .i32⟩
  | 35 => ⟨S1600000, .i32⟩
  | 36 => ⟨S1600000, .i32⟩
  | 37 => ⟨S1600000, .i32⟩
  | 38 => ⟨S1600000x1, .i32⟩
  | 39 => ⟨S1600000x8x16, .f32⟩
  | 40 => ⟨S1600000x8x16, .f32⟩
  | 41 => ⟨S_, .f32⟩
  | 42 => ⟨S1600000x8, .f32⟩
  | 43 => ⟨S_, .f32⟩
  | 44 => ⟨S1600000x8, .f32⟩
  | 45 => ⟨S1600000x8, .f32⟩
  | 46 => ⟨S_, .f32⟩
  | 47 => ⟨S_, .f32⟩
  | 48 => ⟨S_, .f32⟩
  | 49 => ⟨S1600000x8, .f32⟩
  | 50 => ⟨S1600000x8, .f32⟩
  | 51 => ⟨S_, .f32⟩
  | 52 => ⟨S1600000x8, .f32⟩
  | 53 => ⟨S1600000x8, .f32⟩
  | 54 => ⟨S1600000x8, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x8x16, .f32⟩
  | 64 => ⟨S1600000x8x1, .f32⟩
  | 65 => ⟨S1600000x8x16, .f32⟩
  | 66 => ⟨S1600000x8x16, .f32⟩
  | 67 => ⟨S_, .f32⟩
  | 68 => ⟨S100000x8x16, .f32⟩
  | 69 => ⟨S1600000x1, .i32⟩
  | 70 => ⟨S100000x8x16, .f32⟩
  | 71 => ⟨S_, .f32⟩
  | 72 => ⟨S100000x8, .f32⟩
  | 73 => ⟨S1600000x1, .i32⟩
  | 74 => ⟨S100000x8, .f32⟩
  | 75 => ⟨S100000x8x1, .f32⟩
  | 76 => ⟨S100000x8x16, .f32⟩
  | 77 => ⟨S100000x8x16, .f32⟩
  | 78 => ⟨S100000x128, .f32⟩
  | 79 => ⟨S100000x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S128, .f32⟩
  | 86 => ⟨S_, .f32⟩
  | 87 => ⟨S128, .f32⟩
  | 88 => ⟨S128, .f32⟩
  | 89 => ⟨S1x128, .f32⟩
  | 90 => ⟨S100000x128, .f32⟩
  | 91 => ⟨S100000x128, .f32⟩
  | 92 => ⟨S100000x128, .f32⟩
  | 93 => ⟨S_, .f32⟩
  | 94 => ⟨S128, .f32⟩
  | 95 => ⟨S_, .f32⟩
  | 96 => ⟨S128, .f32⟩
  | 97 => ⟨S128, .f32⟩
  | 98 => ⟨S1x128, .f32⟩
  | 99 => ⟨S100000x128, .f32⟩
  | 100 => ⟨S100000x128, .f32⟩
  | 101 => ⟨S_, .f32⟩
  | 102 => ⟨S128, .f32⟩
  | 103 => ⟨S128, .f32⟩
  | 104 => ⟨S128, .f32⟩
  | 105 => ⟨S1x128, .f32⟩
  | 106 => ⟨S100000x128, .f32⟩
  | 107 => ⟨S100000x128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S100000x256, .f32⟩
  | 115 => ⟨S1x256, .f32⟩
  | 116 => ⟨S100000x256, .f32⟩
  | 117 => ⟨S100000x256, .f32⟩
  | 118 => ⟨S_, .f32⟩
  | 119 => ⟨S100000x256, .f32⟩
  | 120 => ⟨S100000x256, .f32⟩
  | 121 => ⟨S100000x128, .f32⟩
  | 122 => ⟨S1x128, .f32⟩
  | 123 => ⟨S100000x128, .f32⟩
  | 124 => ⟨S100000x128, .f32⟩
  | 125 => ⟨S100000x128, .f32⟩
  | 126 => ⟨S_, .f32⟩
  | 127 => ⟨S128, .f32⟩
  | _ => ⟨S100000x128, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S100000x128, .f32⟩
  | 5 => ⟨S100000x128, .f32⟩
  | 6 => ⟨S100000x128, .f32⟩
  | 7 => ⟨S_, .f32⟩
  | 8 => ⟨S128, .f32⟩
  | 9 => ⟨S_, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S_, .f32⟩
  | 16 => ⟨S128, .f32⟩
  | 17 => ⟨S128, .f32⟩
  | 18 => ⟨S128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S1x128, .f32⟩
  | 26 => ⟨S100000x128, .f32⟩
  | 27 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c : Ref sig .tc := ⟨.hbm, 22, rfl⟩
abbrev main_v6 : Ref sig .tc := ⟨.hbm, 23, rfl⟩
abbrev main_v7 : Ref sig .tc := ⟨.hbm, 24, rfl⟩
abbrev main_c_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_1 : Ref sig .tc := ⟨.hbm, 31, rfl⟩
abbrev main_v13 : Ref sig .tc := ⟨.hbm, 32, rfl⟩
abbrev main_v14 : Ref sig .tc := ⟨.hbm, 33, rfl⟩
abbrev main_c_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_cst_5 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v24 : Ref sig .tc := ⟨.hbm, 53, rfl⟩
abbrev main_v25 : Ref sig .tc := ⟨.hbm, 54, rfl⟩
abbrev main_c_6 : Ref sig .tc := ⟨.hbm, 55, rfl⟩
abbrev main_v26 : Ref sig .tc := ⟨.hbm, 56, rfl⟩
abbrev main_v27 : Ref sig .tc := ⟨.hbm, 57, rfl⟩
abbrev main_c_7 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_cst_8 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_9 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_cst_10 : Ref sig .tc := ⟨.hbm, 84, rfl⟩
abbrev main_v51 : Ref sig .tc := ⟨.hbm, 85, rfl⟩
abbrev main_cst_11 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_12 : Ref sig .tc := ⟨.hbm, 93, rfl⟩
abbrev main_v58 : Ref sig .tc := ⟨.hbm, 94, rfl⟩
abbrev main_cst_13 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_cst_14 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_call1_cst : Ref sig .tc := ⟨.hbm, 118, rfl⟩
abbrev main_call1_v0 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_15 : Ref sig .tc := ⟨.hbm, 126, rfl⟩
abbrev main_v86 : Ref sig .tc := ⟨.hbm, 127, rfl⟩
abbrev main_cst_16 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_cst_17 : Ref sig .tc := ⟨.hbm, 135, rfl⟩
abbrev main_v93 : Ref sig .tc := ⟨.hbm, 136, rfl⟩
abbrev main_cst_18 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_cst_19 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩

abbrev nD : Nat := 1
abbrev τ : Topo := Topo.v7x

variable {F : FTy → Type} [FloatOps F]

class Facts₀ : Prop where
  shapeCasts_S100000x128_S100000x8x16 : S100000x128.ShapeCasts S100000x8x16
  bcast_S_S1600000 : S_.BroadcastsInDim S1600000 (![] : Fin 0 → Fin S1600000.rank)
  bcast_S1600000_S1600000x1_0 : S1600000.BroadcastsInDim S1600000x1 (![0] : Fin 1 → Fin S1600000x1.rank)
  reducesTo_S1600000x8x16_S1600000x8_d2 : S1600000x8x16.ReducesTo [2] S1600000x8
  h_S_ : 0 < S_.numel
  bcast_S_S1600000x8 : S_.BroadcastsInDim S1600000x8 (![] : Fin 0 → Fin S1600000x8.rank)
  bcast_S1600000x8_S1600000x8x1_0_1 : S1600000x8.BroadcastsInDim S1600000x8x1 (![0, 1] : Fin 2 → Fin S1600000x8x1.rank)
  bcast_S1600000x8x1_S1600000x8x16_0_1_2 : S1600000x8x1.BroadcastsInDim S1600000x8x16 (![0, 1, 2] : Fin 3 → Fin S1600000x8x16.rank)
  bcast_S_S100000x8x16 : S_.BroadcastsInDim S100000x8x16 (![] : Fin 0 → Fin S100000x8x16.rank)
  bcast_S_S100000x8 : S_.BroadcastsInDim S100000x8 (![] : Fin 0 → Fin S100000x8.rank)
  bcast_S100000x8_S100000x8x1_0_1 : S100000x8.BroadcastsInDim S100000x8x1 (![0, 1] : Fin 2 → Fin S100000x8x1.rank)
  bcast_S100000x8x1_S100000x8x16_0_1_2 : S100000x8x1.BroadcastsInDim S100000x8x16 (![0, 1, 2] : Fin 3 → Fin S100000x8x16.rank)
  shapeCasts_S100000x8x16_S100000x128 : S100000x8x16.ShapeCasts S100000x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  bcast_S_S128 : S_.BroadcastsInDim S128 (![] : Fin 0 → Fin S128.rank)
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  bcast_S_S100000x256 : S_.BroadcastsInDim S100000x256 (![] : Fin 0 → Fin S100000x256.rank)
  dot_S100000x128_S128x128_S100000x128_1_0_0_1_n_n_wf : DotDims.WF S100000x128 S128x128 S100000x128 [1] [0] [0] [1] [] []
  gather_S100000x8x16_S1600000x1_S1600000x8x16_12_0_n_n_0_1_1816_wf : GatherDims.WF S100000x8x16 S1600000x1 S1600000x8x16 [1, 2] [0] [] [0] [] 1 ![1, 8, 16]
  scatter_S100000x8x16_S1600000x1_S1600000x8x16_12_0_0_1_wf : ScatterDims.WF S100000x8x16 S1600000x1 S1600000x8x16 [1, 2] [0] [0] 1
  scatter_S100000x8_S1600000x1_S1600000x8_1_0_0_1_wf : ScatterDims.WF S100000x8 S1600000x1 S1600000x8 [1] [0] [0] 1
  dot_S100000x128_S128x256_S100000x256_1_0_0_1_n_n_wf : DotDims.WF S100000x128 S128x256 S100000x256 [1] [0] [0] [1] [] []
  dot_S100000x256_S256x128_S100000x128_1_0_0_1_n_n_wf : DotDims.WF S100000x256 S256x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x8x16_S1600000x1_S1600000x8x16_12_0_n_n_0_1_1816 : GatherDims S100000x8x16 S1600000x1 S1600000x8x16 where
  offsetDims := [1, 2]
  collapsedSliceDims := [0]
  operandBatchingDims := []
  startIndicesBatchingDims := []
  startIndexMap := [0]
  indexVectorDim := 1
  sliceSizes := ![1, 8, 16]
  wf := gather_S100000x8x16_S1600000x1_S1600000x8x16_12_0_n_n_0_1_1816_wf
def scatter_S100000x8x16_S1600000x1_S1600000x8x16_12_0_0_1 : ScatterDims S100000x8x16 S1600000x1 S1600000x8x16 where
  updateWindowDims := [1, 2]
  insertedWindowDims := [0]
  scatterDimsToOperandDims := [0]
  indexVectorDim := 1
  wf := scatter_S100000x8x16_S1600000x1_S1600000x8x16_12_0_0_1_wf
def scatter_S100000x8_S1600000x1_S1600000x8_1_0_0_1 : ScatterDims S100000x8 S1600000x1 S1600000x8 where
  updateWindowDims := [1]
  insertedWindowDims := [0]
  scatterDimsToOperandDims := [0]
  indexVectorDim := 1
  wf := scatter_S100000x8_S1600000x1_S1600000x8_1_0_0_1_wf
def dot_S100000x128_S128x256_S100000x256_1_0_0_1_n_n : DotDims S100000x128 S128x256 S100000x256 where
  lhsContracting := [1]
  rhsContracting := [0]
  lhsNonContracting := [0]
  rhsNonContracting := [1]
  lhsBatch := []
  rhsBatch := []
  wf := dot_S100000x128_S128x256_S100000x256_1_0_0_1_n_n_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.K.AsmBase.lean ====
import proofs.«158489_j47493748359308_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed reading of the TensorCore's buffers: what a region's proof data are stated at. -/
abbrev VT (F : FTy → Type) := (c : Dev nD) → (b : Ref sig .tc) → Buf (Elt F) ((c : Thread nD τ).loc b)

/-- One buffer replaced in a reading of all references. -/
def put (c : Dev nD) (r₀ : Ref sig .tc) (x : Buf (Elt F) ((c : Thread nD τ).loc r₀))
    (d : (r : Ref sig .tc) → Buf (Elt F) ((c : Thread nD τ).loc r)) : (r : Ref sig .tc) → Buf (Elt F) ((c : Thread nD τ).loc r) :=
  fun r => if h : r₀ = r then h ▸ x else d r

theorem put_same (c : Dev nD) (r₀ : Ref sig .tc) (x : Buf (Elt F) ((c : Thread nD τ).loc r₀))
    (d : (r : Ref sig .tc) → Buf (Elt F) ((c : Thread nD τ).loc r)) : put c r₀ x d r₀ = x := by
  unfold put; rw [dif_pos rfl]

theorem put_of_ne (c : Dev nD) (r₀ r : Ref sig .tc) (h : r₀ ≠ r) (x : Buf (Elt F) ((c : Thread nD τ).loc r₀))
    (d : (r : Ref sig .tc) → Buf (Elt F) ((c : Thread nD τ).loc r)) : put c r₀ x d r = d r := by
  unfold put; rw [dif_neg h]

end Cert.Kernel.Asm

end
-- ==== Proof.K.AsmData.lean ====
import proofs.«158489_j47493748359308_1_alg».proof.Proof.K.AsmBase

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run over @main's segments takes of the four kernel regions: per region the proof data at a parameter
    (the buffer contents the region is entered from), read off that parameter, with the invariant of a region that
    keeps nothing but its scoped rest and the generator register, full shares, nothing owed, and the body's obligation. -/
structure Halves (F : FTy → Type) [FloatOps F] where
  /-- Region 0: its proof data at the contents the region is entered from, and what the run needs of them. -/
  d0 : VT F → (c : Dev nD) → Dat τ (Elt F) Unit ℕ (UR sig nD τ) ℕ cfg0 c
  A0 : ∀ V c w, (d0 V c).A w = V c (Pipeline.arrRef spec0 w)
  Φ0 : ∀ V c t, (d0 V c).Φ t = Pipeline.ΦA spec0 c
  q0 : ∀ V c w, (d0 V c).q w = fullShare
  owed0 : ∀ V c t, (d0 V c).owed t = 0
  rec0 : ∀ V c t, (d0 V c).recorded t = Set.univ
  body0 : ∀ V c, BodyObligation (d0 V c) (defs₀ (F := F)) Variants.none () Set.univ
  /-- Region 1: its proof data at the contents the region is entered from, and what the run needs of them. -/
  d1 : VT F → (c : Dev nD) → Dat τ (Elt F) Unit ℕ (UR sig nD τ) ℕ cfg1 c
  A1 : ∀ V c w, (d1 V c).A w = V c (Pipeline.arrRef spec1 w)
  Φ1 : ∀ V c t, (d1 V c).Φ t = Pipeline.ΦA spec1 c
  q1 : ∀ V c w, (d1 V c).q w = fullShare
  owed1 : ∀ V c t, (d1 V c).owed t = 0
  rec1 : ∀ V c t, (d1 V c).recorded t = Set.univ
  body1 : ∀ V c, BodyObligation (d1 V c) (defs₀ (F := F)) Variants.none () Set.univ
  /-- Region 2: its proof data at the contents the region is entered from, and what the run needs of them. -/
  d2 : VT F → (c : Dev nD) → Dat τ (Elt F) Unit ℕ (UR sig nD τ) ℕ cfg2 c
  A2 : ∀ V c w, (d2 V c).A w = V c (Pipeline.arrRef spec2 w)
  Φ2 : ∀ V c t, (d2 V c).Φ t = Pipeline.ΦA spec2 c
  q2 : ∀ V c w, (d2 V c).q w = fullShare
  owed2 : ∀ V c t, (d2 V c).owed t = 0
  rec2 : ∀ V c t, (d2 V c).recorded t = Set.univ
  body2 : ∀ V c, BodyObligation (d2 V c) (defs₀ (F := F)) Variants.none () Set.univ
  /-- Region 3: its proof data at the contents the region is entered from, and what the run needs of them. -/
  d3 : VT F → (c : Dev nD) → Dat τ (Elt F) Unit ℕ (UR sig nD τ) ℕ cfg3 c
  A3 : ∀ V c w, (d3 V c).A w = V c (Pipeline.arrRef spec3 w)
  Φ3 : ∀ V c t, (d3 V c).Φ t = Pipeline.ΦA spec3 c
  q3 : ∀ V c w, (d3 V c).q w = fullShare
  owed3 : ∀ V c t, (d3 V c).owed t = 0
  rec3 : ∀ V c t, (d3 V c).recorded t = Set.univ
  body3 : ∀ V c, BodyObligation (d3 V c) (defs₀ (F := F)) Variants.none () Set.univ

variable (H : Halves F) (m : (ℓ : Loc nD τ sig) → Buf (Elt F) ℓ)

/-- The launch contents read at every reference (what a buffer no region names holds in `outs`: never read). -/
abbrev dflt (c : Dev nD) : (r : Ref sig .tc) → Buf (Elt F) ((c : Thread nD τ).loc r) := fun r => m ((c : Thread nD τ).loc r)

/-! ## The contents at each boundary, region by region: each region's outputs are what its proof data fold to -/

/-- Region 0 is entered after the first host stretch. -/
abbrev B1 : VT F := fun c b => Gen.V1 m c b
/-- What region 0 leaves in its output array. -/
def o2 (c : Dev nD) : Buf (Elt F) ((c : Thread nD τ).loc main_v1) := (H.d0 (B1 m) c).arrAt 2 cfg0.N
def outsA : Gen.Outs (F := F) := fun _ r c => put c main_v1 (o2 H m c) (dflt m c) r
/-- Region 1 is entered after the three host stretches that follow region 0. -/
abbrev B5 : VT F := fun c b => Gen.V5 m (outsA H m) c b
def o6_0 (c : Dev nD) : Buf (Elt F) ((c : Thread nD τ).loc main_v49_0) := (H.d1 (B5 H m) c).arrAt 4 cfg1.N
def o6_1 (c : Dev nD) : Buf (Elt F) ((c : Thread nD τ).loc main_v49_1) := (H.d1 (B5 H m) c).arrAt 5 cfg1.N
def o6_2 (c : Dev nD) : Buf (Elt F) ((c : Thread nD τ).loc main_v49_2) := (H.d1 (B5 H m) c).arrAt 6 cfg1.N
def outsB : Gen.Outs (F := F) := fun J r c =>
  if J = 6 then put c main_v49_0 (o6_0 H m c) (put c main_v49_1 (o6_1 H m c) (put c main_v49_2 (o6_2 H m c) (dflt m c))) r
  else outsA H m J r c
abbrev B7 : VT F := fun c b => Gen.V7 m (outsB H m) c b
def o8_0 (c : Dev nD) : Buf (Elt F) ((c : Thread nD τ).loc main_v60_0) := (H.d2 (B7 H m) c).arrAt 9 cfg2.N
def o8_1 (c : Dev nD) : Buf (Elt F) ((c : Thread nD τ).loc main_v60_1) := (H.d2 (B7 H m) c).arrAt 10 cfg2.N
def o8_2 (c : Dev nD) : Buf (Elt F) ((c : Thread nD τ).loc main_v60_2) := (H.d2 (B7 H m) c).arrAt 11 cfg2.N
def outsC : Gen.Outs (F := F) := fun J r c =>
  if J = 8 then put c main_v60_0 (o8_0 H m c) (put c main_v60_1 (o8_1 H m c) (put c main_v60_2 (o8_2 H m c) (dflt m c))) r
  else outsB H m J r c
abbrev B9 : VT F := fun c b => Gen.V9 m (outsC H m) c b
def o10 (c : Dev nD) : Buf (Elt F) ((c : Thread nD τ).loc main_v69) := (H.d3 (B9 H m) c).arrAt 5 cfg3.N
/-- What the four regions leave, as the unknowns the boundary valuations are written over. -/
def outs : Gen.Outs (F := F) := fun J r c =>
  if J = 10 then put c main_v69 (o10 H m c) (dflt m c) r else outsC H m J r c

theorem outs_2 (r : Ref sig .tc) (c : Dev nD) : outs H m 2 r c = outsA H m 2 r c := by
  unfold outs outsC outsB; rw [if_neg (by decide), if_neg (by decide), if_neg (by decide)]
theorem outsB_2 (r : Ref sig .tc) (c : Dev nD) : outsB H m 2 r c = outsA H m 2 r c := by
  unfold outsB; rw [if_neg (by decide)]
theorem outsC_2 (r : Ref sig .tc) (c : Dev nD) : outsC H m 2 r c = outsA H m 2 r c := by
  unfold outsC; rw [if_neg (by decide)]; exact outsB_2 H m r c
theorem outs_6 (r : Ref sig .tc) (c : Dev nD) : outs H m 6 r c = outsB H m 6 r c := by
  unfold outs outsC; rw [if_neg (by decide), if_neg (by decide)]
theorem outsC_6 (r : Ref sig .tc) (c : Dev nD) : outsC H m 6 r c = outsB H m 6 r c := by
  unfold outsC; rw [if_neg (by decide)]
theorem outs_8 (r : Ref sig .tc) (c : Dev nD) : outs H m 8 r c = outsC H m 8 r c := by
  unfold outs; rw [if_neg (by decide)]

/-- The boundary contents over the final unknowns are the staged ones: each stage reads only earlier regions' outputs. -/
theorem V2_eq (c : Dev nD) : Gen.V2 m (outs H m) c = Gen.V2 m (outsA H m) c :=
  congrArg (Function.update (Gen.V1 m c) (main_v1 : DevRef τ sig)) (outs_2 H m main_v1 c)
theorem V5_eq (c : Dev nD) : Gen.V5 m (outs H m) c = Gen.V5 m (outsA H m) c :=
  congrArg (fun v => StableHlo.after hostOps1_2 (StableHlo.after hostOps1_1 (StableHlo.after hostOps1 v))) (V2_eq H m c)
theorem V5B_eq (c : Dev nD) : Gen.V5 m (outsB H m) c = Gen.V5 m (outsA H m) c :=
  congrArg (fun v => StableHlo.after hostOps1_2 (StableHlo.after hostOps1_1 (StableHlo.after hostOps1 v)))
    (congrArg (Function.update (Gen.V1 m c) (main_v1 : DevRef τ sig)) (outsB_2 H m main_v1 c))
theorem V5C_eq (c : Dev nD) : Gen.V5 m (outsC H m) c = Gen.V5 m (outsA H m) c :=
  congrArg (fun v => StableHlo.after hostOps1_2 (StableHlo.after hostOps1_1 (StableHlo.after hostOps1 v)))
    (congrArg (Function.update (Gen.V1 m c) (main_v1 : DevRef τ sig)) (outsC_2 H m main_v1 c))

theorem V6_eq (c : Dev nD) : Gen.V6 m (outs H m) c = Gen.V6 m (outsB H m) c := by
  show Function.update (Function.update (Function.update (Gen.V5 m (outs H m) c) (main_v49_0 : DevRef τ sig) (outs H m 6 main_v49_0 c)) (main_v49_1 : DevRef τ sig) (outs H m 6 main_v49_1 c)) (main_v49_2 : DevRef τ sig) (outs H m 6 main_v49_2 c)
    = Function.update (Function.update (Function.update (Gen.V5 m (outsB H m) c) (main_v49_0 : DevRef τ sig) (outsB H m 6 main_v49_0 c)) (main_v49_1 : DevRef τ sig) (outsB H m 6 main_v49_1 c)) (main_v49_2 : DevRef τ sig) (outsB H m 6 main_v49_2 c)
  rw [V5_eq, V5B_eq, outs_6, outs_6, outs_6]
theorem V6C_eq (c : Dev nD) : Gen.V6 m (outsC H m) c = Gen.V6 m (outsB H m) c := by
  show Function.update (Function.update (Function.update (Gen.V5 m (outsC H m) c) (main_v49_0 : DevRef τ sig) (outsC H m 6 main_v49_0 c)) (main_v49_1 : DevRef τ sig) (outsC H m 6 main_v49_1 c)) (main_v49_2 : DevRef τ sig) (outsC H m 6 main_v49_2 c)
    = Function.update (Function.update (Function.update (Gen.V5 m (outsB H m) c) (main_v49_0 : DevRef τ sig) (outsB H m 6 main_v49_0 c)) (main_v49_1 : DevRef τ sig) (outsB H m 6 main_v49_1 c)) (main_v49_2 : DevRef τ sig) (outsB H m 6 main_v49_2 c)
  rw [V5C_eq, V5B_eq, outsC_6, outsC_6, outsC_6]
theorem V7_eq (c : Dev nD) : Gen.V7 m (outs H m) c = Gen.V7 m (outsB H m) c :=
  congrArg (StableHlo.after hostOps2) (V6_eq H m c)
theorem V7C_eq (c : Dev nD) : Gen.V7 m (outsC H m) c = Gen.V7 m (outsB H m) c :=
  congrArg (StableHlo.after hostOps2) (V6C_eq H m c)
theorem V8_eq (c : Dev nD) : Gen.V8 m (outs H m) c = Gen.V8 m (outsC H m) c := by
  show Function.update (Function.update (Function.update (Gen.V7 m (outs H m) c) (main_v60_0 : DevRef τ sig) (outs H m 8 main_v60_0 c)) (main_v60_1 : DevRef τ sig) (outs H m 8 main_v60_1 c)) (main_v60_2 : DevRef τ sig) (outs H m 8 main_v60_2 c)
    = Function.update (Function.update (Function.update (Gen.V7 m (outsC H m) c) (main_v60_0 : DevRef τ sig) (outsC H m 8 main_v60_0 c)) (main_v60_1 : DevRef τ sig) (outsC H m 8 main_v60_1 c)) (main_v60_2 : DevRef τ sig) (outsC H m 8 main_v60_2 c)
  rw [V7_eq, V7C_eq, outs_8, outs_8, outs_8]
theorem V9_eq (c : Dev nD) : Gen.V9 m (outs H m) c = Gen.V9 m (outsC H m) c :=
  congrArg (StableHlo.after hostOps3) (V8_eq H m c)

/-- Every pipeline's proof data, each at its region's entry contents. -/
def pdats : (p : Fin 4) → (c : Dev nD) → Dat τ (Elt F) Unit ℕ (UR sig nD τ) ℕ (cfgs p) c
  | ⟨0, _⟩ => fun c => H.d0 (B1 m) c
  | ⟨1, _⟩ => fun c => H.d1 (B5 H m) c
  | ⟨2, _⟩ => fun c => H.d2 (B7 H m) c
  | ⟨3, _⟩ => fun c => H.d3 (B9 H m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

end Cert.Kernel.Asm

end
-- ==== Proof.K.AsmReg0.lean ====
import proofs.«158489_j47493748359308_1_alg».proof.Proof.K.AsmData

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 0's proof data read each array off the contents the region is entered from. -/
theorem entryA0 (c : Dev nD) (w : Fin cfg0.W) : (pdats H m 0 c).A w = Gen.V1 m c (Pipeline.arrRef spec0 w) :=
  (fun w => H.A0 _ c w) w

/-- After region 0 the boundary contents hold, at its output `main_v1`, what its proof data fold to. -/
theorem out0_2 (c : Dev nD) : (Gen.V2 m (outs H m) c main_v1 : Buf (Elt F) ((c : Thread nD τ).loc main_v1)) = o2 H m c := by
  have e1 : (Gen.V2 m (outs H m) c main_v1 : Buf (Elt F) ((c : Thread nD τ).loc main_v1)) = outs H m 2 main_v1 c := Function.update_self _ _ _
  have e2 : outs H m 2 main_v1 c = o2 H m c := by
    rw [outs_2]; unfold outsA; exact (put_same c main_v1 _ _)
  exact e1.trans e2

/-- At region 0's exit each of its arrays holds what the pipeline leaves: an input as entered, an output its write-backs folded. -/
theorem hF0 (c : Dev nD) : ∀ w : Fin cfg0.W, (pdats H m 0 c).arrAt w cfg0.N = Gen.V2 m (outs H m) c (Pipeline.arrRef spec0 w) := fun w =>
  match w with
    | ⟨0, _⟩ => ((pdats H m 0 c).arrAt_in ⟨0, by decide⟩ rfl _).trans ((entryA0 H m c ⟨0, by decide⟩).trans (Gen.V2_of m (outs H m) c (Pipeline.arrRef spec0 ⟨0, by decide⟩) (by decide)).symm)
    | ⟨1, _⟩ => ((pdats H m 0 c).arrAt_in ⟨1, by decide⟩ rfl _).trans ((entryA0 H m c ⟨1, by decide⟩).trans (Gen.V2_of m (outs H m) c (Pipeline.arrRef spec0 ⟨1, by decide⟩) (by decide)).symm)
    | ⟨2, _⟩ => (out0_2 H m c).symm

/-- Every buffer that is no array of region 0 holds at the exit what it held at entry. -/
theorem hrest0 (c : Dev nD) : ∀ b : Ref sig .tc, b ∉ Finset.univ.image (Pipeline.arrRef spec0) → Gen.V2 m (outs H m) c b = Gen.V1 m c b :=
  fun b hb => Gen.V2_of m (outs H m) c b (fun hmem => by
    simp only [List.mem_cons, List.mem_singleton, List.not_mem_nil, or_false] at hmem
    subst hmem; exact hb (Finset.mem_image.mpr ⟨⟨2, by decide⟩, Finset.mem_univ _, rfl⟩))

set_option backward.isDefEq.respectTransparency.types false in
/-- REGION 0 over the thread state "every unscoped buffer at the boundary's contents, the generator register at some
    state, nothing owed": its arrays split out of the unscoped buffers and put back at the exit contents; the generator
    register into the region's invariant and out; no semaphore of the kernel's own. -/
def reg0 : Pipeline.RegionSeg (pcfgs (F := F)) adm (pdats H m) () defs₀ 𝒱₀ L lv 0 where
  win := launch0.win.to₀
  block_pos := launch0.block_pos
  stage_whole := launch0.stage_whole
  K := PEmpty
  osem k := k.elim
  ho := Pipeline.OwnSemFacts.none _
  hbody c := (H.body0 (B1 m) c).loose
  hwaits := Pipeline.hwaits_of_owed_zero _ _ _ _ L lv 0 fun c t => H.owed0 _ c t
  pre c := iprop(StableHlo.held (c : Thread nD τ) (Pipeline.ucRefs τ sig) (Gen.V1 m c) ∗ R c)
  post c := iprop(StableHlo.held (c : Thread nD τ) (Pipeline.ucRefs τ sig) (Gen.V2 m (outs H m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) adm (pdats H m) launch0.win launch0.arr_whole c
      ((pdats H m 0 c).share_full fun w => H.q0 _ c w) (fun b => Gen.V1 m c b) (entryA0 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec0 _ c 0).symm ▸ Set.mem_univ _)
      rw [show (pdats H m 0 c).owed 0 = 0 from H.owed0 _ c 0]
      iexact HO
    isplitl [Hp]; · iexact Hp
    iexact Hrest
  hin c := by
    rw [show (pdats H m 0 c).Φ 0 = Pipeline.ΦA spec0 c from H.Φ0 _ c 0]; unfold Pipeline.ΦA
    iintro ⟨Hp, -, Hr⟩
    isplitl [Hr]; · iexact Hr
    iexact Hp
  hout c := by
    rw [Pipeline.ownSems0_none, show (pdats H m 0 c).Φ (Fin.last _) = Pipeline.ΦA spec0 c from H.Φ0 _ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m) ((pdats H m 0 c).share_full fun w => H.q0 _ c w)
      (fun b => Gen.V1 m c b) (fun b => Gen.V2 m (outs H m) c b) ((pdats H m 0 c).arrAt · cfg0.N) (hF0 H m c) (hrest0 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 0 c).owed (Fin.last _) = 0 from H.owed0 _ c _]
    iexact HO

end Cert.Kernel.Asm

end
-- ==== Proof.K.AsmReg1.lean ====
import proofs.«158489_j47493748359308_1_alg».proof.Proof.K.AsmData

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 1's proof data read each array off the contents the region is entered from. -/
theorem entryA1 (c : Dev nD) (w : Fin cfg1.W) : (pdats H m 1 c).A w = Gen.V5 m (outs H m) c (Pipeline.arrRef spec1 w) :=
  (fun w => show (H.d1 (B5 H m) c).A w = _ from (H.A1 (B5 H m) c w).trans (congrFun (V5_eq H m c).symm (Proc.devRef .tc (Pipeline.arrRef spec1 w)))) w

/-- After region 1 the boundary contents hold, at its output `main_v49_0`, what its proof data fold to. -/
theorem out1_4 (c : Dev nD) : (Gen.V6 m (outs H m) c main_v49_0 : Buf (Elt F) ((c : Thread nD τ).loc main_v49_0)) = o6_0 H m c := by
  have e1 : (Gen.V6 m (outs H m) c main_v49_0 : Buf (Elt F) ((c : Thread nD τ).loc main_v49_0)) = outs H m 6 main_v49_0 c := (Function.update_of_ne (StableHlo.devRef_ne_of_ne (by decide) : (Proc.devRef .tc main_v49_0 : DevRef τ sig) ≠ Proc.devRef .tc main_v49_2) _ _).trans <| (Function.update_of_ne (StableHlo.devRef_ne_of_ne (by decide) : (Proc.devRef .tc main_v49_0 : DevRef τ sig) ≠ Proc.devRef .tc main_v49_1) _ _).trans (Function.update_self _ _ _)
  have e2 : outs H m 6 main_v49_0 c = o6_0 H m c := by
    rw [outs_6]; unfold outsB; rw [if_pos rfl]; exact (put_same c main_v49_0 _ _)
  exact e1.trans e2
/-- After region 1 the boundary contents hold, at its output `main_v49_1`, what its proof data fold to. -/
theorem out1_5 (c : Dev nD) : (Gen.V6 m (outs H m) c main_v49_1 : Buf (Elt F) ((c : Thread nD τ).loc main_v49_1)) = o6_1 H m c := by
  have e1 : (Gen.V6 m (outs H m) c main_v49_1 : Buf (Elt F) ((c : Thread nD τ).loc main_v49_1)) = outs H m 6 main_v49_1 c := (Function.update_of_ne (StableHlo.devRef_ne_of_ne (by decide) : (Proc.devRef .tc main_v49_1 : DevRef τ sig) ≠ Proc.devRef .tc main_v49_2) _ _).trans (Function.update_self _ _ _)
  have e2 : outs H m 6 main_v49_1 c = o6_1 H m c := by
    rw [outs_6]; unfold outsB; rw [if_pos rfl]; exact (put_of_ne c main_v49_0 main_v49_1 (by decide) _ _).trans <| (put_same c main_v49_1 _ _)
  exact e1.trans e2
/-- After region 1 the boundary contents hold, at its output `main_v49_2`, what its proof data fold to. -/
theorem out1_6 (c : Dev nD) : (Gen.V6 m (outs H m) c main_v49_2 : Buf (Elt F) ((c : Thread nD τ).loc main_v49_2)) = o6_2 H m c := by
  have e1 : (Gen.V6 m (outs H m) c main_v49_2 : Buf (Elt F) ((c : Thread nD τ).loc main_v49_2)) = outs H m 6 main_v49_2 c := Function.update_self _ _ _
  have e2 : outs H m 6 main_v49_2 c = o6_2 H m c := by
    rw [outs_6]; unfold outsB; rw [if_pos rfl]; exact (put_of_ne c main_v49_0 main_v49_2 (by decide) _ _).trans <| (put_of_ne c main_v49_1 main_v49_2 (by decide) _ _).trans <| (put_same c main_v49_2 _ _)
  exact e1.trans e2

/-- At region 1's exit each of its arrays holds what the pipeline leaves: an input as entered, an output its write-backs folded. -/
theorem hF1 (c : Dev nD) : ∀ w : Fin cfg1.W, (pdats H m 1 c).arrAt w cfg1.N = Gen.V6 m (outs H m) c (Pipeline.arrRef spec1 w) := fun w =>
  match w with
    | ⟨0, _⟩ => ((pdats H m 1 c).arrAt_in ⟨0, by decide⟩ rfl _).trans ((entryA1 H m c ⟨0, by decide⟩).trans (Gen.V6_of m (outs H m) c (Pipeline.arrRef spec1 ⟨0, by decide⟩) (by decide)).symm)
    | ⟨1, _⟩ => ((pdats H m 1 c).arrAt_in ⟨1, by decide⟩ rfl _).trans ((entryA1 H m c ⟨1, by decide⟩).trans (Gen.V6_of m (outs H m) c (Pipeline.arrRef spec1 ⟨1, by decide⟩) (by decide)).symm)
    | ⟨2, _⟩ => ((pdats H m 1 c).arrAt_in ⟨2, by decide⟩ rfl _).trans ((entryA1 H m c ⟨2, by decide⟩).trans (Gen.V6_of m (outs H m) c (Pipeline.arrRef spec1 ⟨2, by decide⟩) (by decide)).symm)
    | ⟨3, _⟩ => ((pdats H m 1 c).arrAt_in ⟨3, by decide⟩ rfl _).trans ((entryA1 H m c ⟨3, by decide⟩).trans (Gen.V6_of m (outs H m) c (Pipeline.arrRef spec1 ⟨3, by decide⟩) (by decide)).symm)
    | ⟨4, _⟩ => (out1_4 H m c).symm
    | ⟨5, _⟩ => (out1_5 H m c).symm
    | ⟨6, _⟩ => (out1_6 H m c).symm

/-- Every buffer that is no array of region 1 holds at the exit what it held at entry. -/
theorem hrest1 (c : Dev nD) : ∀ b : Ref sig .tc, b ∉ Finset.univ.image (Pipeline.arrRef spec1) → Gen.V6 m (outs H m) c b = Gen.V5 m (outs H m) c b :=
  fun b hb => Gen.V6_of m (outs H m) c b (fun hmem => by
    simp only [List.mem_cons, List.mem_singleton, List.not_mem_nil, or_false] at hmem
    rcases hmem with rfl | rfl | rfl
    · exact hb (Finset.mem_image.mpr ⟨⟨4, by decide⟩, Finset.mem_univ _, rfl⟩)
    · exact hb (Finset.mem_image.mpr ⟨⟨5, by decide⟩, Finset.mem_univ _, rfl⟩)
    · exact hb (Finset.mem_image.mpr ⟨⟨6, by decide⟩, Finset.mem_univ _, rfl⟩))

set_option backward.isDefEq.respectTransparency.types false in
/-- REGION 1 over the thread state "every unscoped buffer at the boundary's contents, the generator register at some
    state, nothing owed": its arrays split out of the unscoped buffers and put back at the exit contents; the generator
    register into the region's invariant and out; no semaphore of the kernel's own. -/
def reg1 : Pipeline.RegionSeg (pcfgs (F := F)) adm (pdats H m) () defs₀ 𝒱₀ L lv 1 where
  win := launch1.win.to₀
  block_pos := launch1.block_pos
  stage_whole := launch1.stage_whole
  K := PEmpty
  osem k := k.elim
  ho := Pipeline.OwnSemFacts.none _
  hbody c := (H.body1 (B5 H m) c).loose
  hwaits := Pipeline.hwaits_of_owed_zero _ _ _ _ L lv 1 fun c t => H.owed1 _ c t
  pre c := iprop(StableHlo.held (c : Thread nD τ) (Pipeline.ucRefs τ sig) (Gen.V5 m (outs H m) c) ∗ R c)
  post c := iprop(StableHlo.held (c : Thread nD τ) (Pipeline.ucRefs τ sig) (Gen.V6 m (outs H m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outs H m) c b)
  hentry c := by
    rw [Pipeline.ownSems0_none]
    have hsplit := Pipeline.arrays_of_unscopedBufs (p := 1) (pcfgs (F := F)) adm (pdats H m) launch1.win launch1.arr_whole c
      ((pdats H m 1 c).share_full fun w => H.q1 _ c w) (fun b => Gen.V5 m (outs H m) c b) (entryA1 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec1 _ c 0).symm ▸ Set.mem_univ _)
      rw [show (pdats H m 1 c).owed 0 = 0 from H.owed1 _ c 0]
      iexact HO
    isplitl [Hp]; · iexact Hp
    iexact Hrest
  hin c := by
    rw [show (pdats H m 1 c).Φ 0 = Pipeline.ΦA spec1 c from H.Φ1 _ c 0]; unfold Pipeline.ΦA
    iintro ⟨Hp, -, Hr⟩
    isplitl [Hr]; · iexact Hr
    iexact Hp
  hout c := by
    rw [Pipeline.ownSems0_none, show (pdats H m 1 c).Φ (Fin.last _) = Pipeline.ΦA spec1 c from H.Φ1 _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m) ((pdats H m 1 c).share_full fun w => H.q1 _ c w)
      (fun b => Gen.V5 m (outs H m) c b) (fun b => Gen.V6 m (outs H m) c b) ((pdats H m 1 c).arrAt · cfg1.N) (hF1 H m c) (hrest1 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 1 c).owed (Fin.last _) = 0 from H.owed1 _ c _]
    iexact HO

end Cert.Kernel.Asm

end
-- ==== Proof.K.AsmReg2.lean ====
import proofs.«158489_j47493748359308_1_alg».proof.Proof.K.AsmData

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 2's proof data read each array off the contents the region is entered from. -/
theorem entryA2 (c : Dev nD) (w : Fin cfg2.W) : (pdats H m 2 c).A w = Gen.V7 m (outs H m) c (Pipeline.arrRef spec2 w) :=
  (fun w => show (H.d2 (B7 H m) c).A w = _ from (H.A2 (B7 H m) c w).trans (congrFun (V7_eq H m c).symm (Proc.devRef .tc (Pipeline.arrRef spec2 w)))) w

/-- After region 2 the boundary contents hold, at its output `main_v60_0`, what its proof data fold to. -/
theorem out2_9 (c : Dev nD) : (Gen.V8 m (outs H m) c main_v60_0 : Buf (Elt F) ((c : Thread nD τ).loc main_v60_0)) = o8_0 H m c := by
  have e1 : (Gen.V8 m (outs H m) c main_v60_0 : Buf (Elt F) ((c : Thread nD τ).loc main_v60_0)) = outs H m 8 main_v60_0 c := (Function.update_of_ne (StableHlo.devRef_ne_of_ne (by decide) : (Proc.devRef .tc main_v60_0 : DevRef τ sig) ≠ Proc.devRef .tc main_v60_2) _ _).trans <| (Function.update_of_ne (StableHlo.devRef_ne_of_ne (by decide) : (Proc.devRef .tc main_v60_0 : DevRef τ sig) ≠ Proc.devRef .tc main_v60_1) _ _).trans (Function.update_self _ _ _)
  have e2 : outs H m 8 main_v60_0 c = o8_0 H m c := by
    rw [outs_8]; unfold outsC; rw [if_pos rfl]; exact (put_same c main_v60_0 _ _)
  exact e1.trans e2
/-- After region 2 the boundary contents hold, at its output `main_v60_1`, what its proof data fold to. -/
theorem out2_10 (c : Dev nD) : (Gen.V8 m (outs H m) c main_v60_1 : Buf (Elt F) ((c : Thread nD τ).loc main_v60_1)) = o8_1 H m c := by
  have e1 : (Gen.V8 m (outs H m) c main_v60_1 : Buf (Elt F) ((c : Thread nD τ).loc main_v60_1)) = outs H m 8 main_v60_1 c := (Function.update_of_ne (StableHlo.devRef_ne_of_ne (by decide) : (Proc.devRef .tc main_v60_1 : DevRef τ sig) ≠ Proc.devRef .tc main_v60_2) _ _).trans (Function.update_self _ _ _)
  have e2 : outs H m 8 main_v60_1 c = o8_1 H m c := by
    rw [outs_8]; unfold outsC; rw [if_pos rfl]; exact (put_of_ne c main_v60_0 main_v60_1 (by decide) _ _).trans <| (put_same c main_v60_1 _ _)
  exact e1.trans e2
/-- After region 2 the boundary contents hold, at its output `main_v60_2`, what its proof data fold to. -/
theorem out2_11 (c : Dev nD) : (Gen.V8 m (outs H m) c main_v60_2 : Buf (Elt F) ((c : Thread nD τ).loc main_v60_2)) = o8_2 H m c := by
  have e1 : (Gen.V8 m (outs H m) c main_v60_2 : Buf (Elt F) ((c : Thread nD τ).loc main_v60_2)) = outs H m 8 main_v60_2 c := Function.update_self _ _ _
  have e2 : outs H m 8 main_v60_2 c = o8_2 H m c := by
    rw [outs_8]; unfold outsC; rw [if_pos rfl]; exact (put_of_ne c main_v60_0 main_v60_2 (by decide) _ _).trans <| (put_of_ne c main_v60_1 main_v60_2 (by decide) _ _).trans <| (put_same c main_v60_2 _ _)
  exact e1.trans e2

/-- At region 2's exit each of its arrays holds what the pipeline leaves: an input as entered, an output its write-backs folded. -/
theorem hF2 (c : Dev nD) : ∀ w : Fin cfg2.W, (pdats H m 2 c).arrAt w cfg2.N = Gen.V8 m (outs H m) c (Pipeline.arrRef spec2 w) := fun w =>
  match w with
    | ⟨0, _⟩ => ((pdats H m 2 c).arrAt_in ⟨0, by decide⟩ rfl _).trans ((entryA2 H m c ⟨0, by decide⟩).trans (Gen.V8_of m (outs H m) c (Pipeline.arrRef spec2 ⟨0, by decide⟩) (by decide)).symm)
    | ⟨1, _⟩ => ((pdats H m 2 c).arrAt_in ⟨1, by decide⟩ rfl _).trans ((entryA2 H m c ⟨1, by decide⟩).trans (Gen.V8_of m (outs H m) c (Pipeline.arrRef spec2 ⟨1, by decide⟩) (by decide)).symm)
    | ⟨2, _⟩ => ((pdats H m 2 c).arrAt_in ⟨2, by decide⟩ rfl _).trans ((entryA2 H m c ⟨2, by decide⟩).trans (Gen.V8_of m (outs H m) c (Pipeline.arrRef spec2 ⟨2, by decide⟩) (by decide)).symm)
    | ⟨3, _⟩ => ((pdats H m 2 c).arrAt_in ⟨3, by decide⟩ rfl _).trans ((entryA2 H m c ⟨3, by decide⟩).trans (Gen.V8_of m (outs H m) c (Pipeline.arrRef spec2 ⟨3, by decide⟩) (by decide)).symm)
    | ⟨4, _⟩ => ((pdats H m 2 c).arrAt_in ⟨4, by decide⟩ rfl _).trans ((entryA2 H m c ⟨4, by decide⟩).trans (Gen.V8_of m (outs H m) c (Pipeline.arrRef spec2 ⟨4, by decide⟩) (by decide)).symm)
    | ⟨5, _⟩ => ((pdats H m 2 c).arrAt_in ⟨5, by decide⟩ rfl _).trans ((entryA2 H m c ⟨5, by decide⟩).trans (Gen.V8_of m (outs H m) c (Pipeline.arrRef spec2 ⟨5, by decide⟩) (by decide)).symm)
    | ⟨6, _⟩ => ((pdats H m 2 c).arrAt_in ⟨6, by decide⟩ rfl _).trans ((entryA2 H m c ⟨6, by decide⟩).trans (Gen.V8_of m (outs H m) c (Pipeline.arrRef spec2 ⟨6, by decide⟩) (by decide)).symm)
    | ⟨7, _⟩ => ((pdats H m 2 c).arrAt_in ⟨7, by decide⟩ rfl _).trans ((entryA2 H m c ⟨7, by decide⟩).trans (Gen.V8_of m (outs H m) c (Pipeline.arrRef spec2 ⟨7, by decide⟩) (by decide)).symm)
    | ⟨8, _⟩ => ((pdats H m 2 c).arrAt_in ⟨8, by decide⟩ rfl _).trans ((entryA2 H m c ⟨8, by decide⟩).trans (Gen.V8_of m (outs H m) c (Pipeline.arrRef spec2 ⟨8, by decide⟩) (by decide)).symm)
    | ⟨9, _⟩ => (out2_9 H m c).symm
    | ⟨10, _⟩ => (out2_10 H m c).symm
    | ⟨11, _⟩ => (out2_11 H m c).symm

/-- Every buffer that is no array of region 2 holds at the exit what it held at entry. -/
theorem hrest2 (c : Dev nD) : ∀ b : Ref sig .tc, b ∉ Finset.univ.image (Pipeline.arrRef spec2) → Gen.V8 m (outs H m) c b = Gen.V7 m (outs H m) c b :=
  fun b hb => Gen.V8_of m (outs H m) c b (fun hmem => by
    simp only [List.mem_cons, List.mem_singleton, List.not_mem_nil, or_false] at hmem
    rcases hmem with rfl | rfl | rfl
    · exact hb (Finset.mem_image.mpr ⟨⟨9, by decide⟩, Finset.mem_univ _, rfl⟩)
    · exact hb (Finset.mem_image.mpr ⟨⟨10, by decide⟩, Finset.mem_univ _, rfl⟩)
    · exact hb (Finset.mem_image.mpr ⟨⟨11, by decide⟩, Finset.mem_univ _, rfl⟩))

set_option backward.isDefEq.respectTransparency.types false in
/-- REGION 2 over the thread state "every unscoped buffer at the boundary's contents, the generator register at some
    state, nothing owed": its arrays split out of the unscoped buffers and put back at the exit contents; the generator
    register into the region's invariant and out; no semaphore of the kernel's own. -/
def reg2 : Pipeline.RegionSeg (pcfgs (F := F)) adm (pdats H m) () defs₀ 𝒱₀ L lv 2 where
  win := launch2.win.to₀
  block_pos := launch2.block_pos
  stage_whole := launch2.stage_whole
  K := PEmpty
  osem k := k.elim
  ho := Pipeline.OwnSemFacts.none _
  hbody c := (H.body2 (B7 H m) c).loose
  hwaits := Pipeline.hwaits_of_owed_zero _ _ _ _ L lv 2 fun c t => H.owed2 _ c t
  pre c := iprop(StableHlo.held (c : Thread nD τ) (Pipeline.ucRefs τ sig) (Gen.V7 m (outs H m) c) ∗ R c)
  post c := iprop(StableHlo.held (c : Thread nD τ) (Pipeline.ucRefs τ sig) (Gen.V8 m (outs H m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V7 m (outs H m) c b)
  hentry c := by
    rw [Pipeline.ownSems0_none]
    have hsplit := Pipeline.arrays_of_unscopedBufs (p := 2) (pcfgs (F := F)) adm (pdats H m) launch2.win launch2.arr_whole c
      ((pdats H m 2 c).share_full fun w => H.q2 _ c w) (fun b => Gen.V7 m (outs H m) c b) (entryA2 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec2 _ c 0).symm ▸ Set.mem_univ _)
      rw [show (pdats H m 2 c).owed 0 = 0 from H.owed2 _ c 0]
      iexact HO
    isplitl [Hp]; · iexact Hp
    iexact Hrest
  hin c := by
    rw [show (pdats H m 2 c).Φ 0 = Pipeline.ΦA spec2 c from H.Φ2 _ c 0]; unfold Pipeline.ΦA
    iintro ⟨Hp, -, Hr⟩
    isplitl [Hr]; · iexact Hr
    iexact Hp
  hout c := by
    rw [Pipeline.ownSems0_none, show (pdats H m 2 c).Φ (Fin.last _) = Pipeline.ΦA spec2 c from H.Φ2 _ c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H m) ((pdats H m 2 c).share_full fun w => H.q2 _ c w)
      (fun b => Gen.V7 m (outs H m) c b) (fun b => Gen.V8 m (outs H m) c b) ((pdats H m 2 c).arrAt · cfg2.N) (hF2 H m c) (hrest2 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 2 c).owed (Fin.last _) = 0 from H.owed2 _ c _]
    iexact HO

end Cert.Kernel.Asm

end
-- ==== Proof.K.AsmReg3.lean ====
import proofs.«158489_j47493748359308_1_alg».proof.Proof.K.AsmData

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 3's proof data read each array off the contents the region is entered from. -/
theorem entryA3 (c : Dev nD) (w : Fin cfg3.W) : (pdats H m 3 c).A w = Gen.V9 m (outs H m) c (Pipeline.arrRef spec3 w) :=
  (fun w => show (H.d3 (B9 H m) c).A w = _ from (H.A3 (B9 H m) c w).trans (congrFun (V9_eq H m c).symm (Proc.devRef .tc (Pipeline.arrRef spec3 w)))) w

/-- After region 3 the boundary contents hold, at its output `main_v69`, what its proof data fold to. -/
theorem out3_5 (c : Dev nD) : (Gen.V10 m (outs H m) c main_v69 : Buf (Elt F) ((c : Thread nD τ).loc main_v69)) = o10 H m c := by
  have e1 : (Gen.V10 m (outs H m) c main_v69 : Buf (Elt F) ((c : Thread nD τ).loc main_v69)) = outs H m 10 main_v69 c := Function.update_self _ _ _
  have e2 : outs H m 10 main_v69 c = o10 H m c := by
    unfold outs; rw [if_pos rfl]; exact (put_same c main_v69 _ _)
  exact e1.trans e2

/-- At region 3's exit each of its arrays holds what the pipeline leaves: an input as entered, an output its write-backs folded. -/
theorem hF3 (c : Dev nD) : ∀ w : Fin cfg3.W, (pdats H m 3 c).arrAt w cfg3.N = Gen.V10 m (outs H m) c (Pipeline.arrRef spec3 w) := fun w =>
  match w with
    | ⟨0, _⟩ => ((pdats H m 3 c).arrAt_in ⟨0, by decide⟩ rfl _).trans ((entryA3 H m c ⟨0, by decide⟩).trans (Gen.V10_of m (outs H m) c (Pipeline.arrRef spec3 ⟨0, by decide⟩) (by decide)).symm)
    | ⟨1, _⟩ => ((pdats H m 3 c).arrAt_in ⟨1, by decide⟩ rfl _).trans ((entryA3 H m c ⟨1, by decide⟩).trans (Gen.V10_of m (outs H m) c (Pipeline.arrRef spec3 ⟨1, by decide⟩) (by decide)).symm)
    | ⟨2, _⟩ => ((pdats H m 3 c).arrAt_in ⟨2, by decide⟩ rfl _).trans ((entryA3 H m c ⟨2, by decide⟩).trans (Gen.V10_of m (outs H m) c (Pipeline.arrRef spec3 ⟨2, by decide⟩) (by decide)).symm)
    | ⟨3, _⟩ => ((pdats H m 3 c).arrAt_in ⟨3, by decide⟩ rfl _).trans ((entryA3 H m c ⟨3, by decide⟩).trans (Gen.V10_of m (outs H m) c (Pipeline.arrRef spec3 ⟨3, by decide⟩) (by decide)).symm)
    | ⟨4, _⟩ => ((pdats H m 3 c).arrAt_in ⟨4, by decide⟩ rfl _).trans ((entryA3 H m c ⟨4, by decide⟩).trans (Gen.V10_of m (outs H m) c (Pipeline.arrRef spec3 ⟨4, by decide⟩) (by decide)).symm)
    | ⟨5, _⟩ => (out3_5 H m c).symm

/-- Every buffer that is no array of region 3 holds at the exit what it held at entry. -/
theorem hrest3 (c : Dev nD) : ∀ b : Ref sig .tc, b ∉ Finset.univ.image (Pipeline.arrRef spec3) → Gen.V10 m (outs H m) c b = Gen.V9 m (outs H m) c b :=
  fun b hb => Gen.V10_of m (outs H m) c b (fun hmem => by
    simp only [List.mem_cons, List.mem_singleton, List.not_mem_nil, or_false] at hmem
    subst hmem; exact hb (Finset.mem_image.mpr ⟨⟨5, by decide⟩, Finset.mem_univ _, rfl⟩))

set_option backward.isDefEq.respectTransparency.types false in
/-- REGION 3 over the thread state "every unscoped buffer at the boundary's contents, the generator register at some
    state, nothing owed": its arrays split out of the unscoped buffers and put back at the exit contents; the generator
    register into the region's invariant and out; no semaphore of the kernel's own. -/
def reg3 : Pipeline.RegionSeg (pcfgs (F := F)) adm (pdats H m) () defs₀ 𝒱₀ L lv 3 where
  win := launch3.win.to₀
  block_pos := launch3.block_pos
  stage_whole := launch3.stage_whole
  K := PEmpty
  osem k := k.elim
  ho := Pipeline.OwnSemFacts.none _
  hbody c := (H.body3 (B9 H m) c).loose
  hwaits := Pipeline.hwaits_of_owed_zero _ _ _ _ L lv 3 fun c t => H.owed3 _ c t
  pre c := iprop(StableHlo.held (c : Thread nD τ) (Pipeline.ucRefs τ sig) (Gen.V9 m (outs H m) c) ∗ R c)
  post c := iprop(StableHlo.held (c : Thread nD τ) (Pipeline.ucRefs τ sig) (Gen.V10 m (outs H m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V9 m (outs H m) c b)
  hentry c := by
    rw [Pipeline.ownSems0_none]
    have hsplit := Pipeline.arrays_of_unscopedBufs (p := 3) (pcfgs (F := F)) adm (pdats H m) launch3.win launch3.arr_whole c
      ((pdats H m 3 c).share_full fun w => H.q3 _ c w) (fun b => Gen.V9 m (outs H m) c b) (entryA3 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec3 _ c 0).symm ▸ Set.mem_univ _)
      rw [show (pdats H m 3 c).owed 0 = 0 from H.owed3 _ c 0]
      iexact HO
    isplitl [Hp]; · iexact Hp
    iexact Hrest
  hin c := by
    rw [show (pdats H m 3 c).Φ 0 = Pipeline.ΦA spec3 c from H.Φ3 _ c 0]; unfold Pipeline.ΦA
    iintro ⟨Hp, -, Hr⟩
    isplitl [Hr]; · iexact Hr
    iexact Hp
  hout c := by
    rw [Pipeline.ownSems0_none, show (pdats H m 3 c).Φ (Fin.last _) = Pipeline.ΦA spec3 c from H.Φ3 _ c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats H m) ((pdats H m 3 c).share_full fun w => H.q3 _ c w)
      (fun b => Gen.V9 m (outs H m) c b) (fun b => Gen.V10 m (outs H m) c b) ((pdats H m 3 c).arrAt · cfg3.N) (hF3 H m c) (hrest3 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 3 c).owed (Fin.last _) = 0 from H.owed3 _ c _]
    iexact HO

end Cert.Kernel.Asm

end
-- ==== Proof.K.AsmRun.lean ====
import proofs.«158489_j47493748359308_1_alg».proof.Proof.K.AsmReg0
import proofs.«158489_j47493748359308_1_alg».proof.Proof.K.AsmReg1
import proofs.«158489_j47493748359308_1_alg».proof.Proof.K.AsmReg2
import proofs.«158489_j47493748359308_1_alg».proof.Proof.K.AsmReg3

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's ten items as segments on core `c`: the host stretches over the boundary contents, the four regions' records. -/
abbrev segs (c : Dev nD) : List (Pipeline.Seg (pcfgs (F := F)) adm (pdats H m) () defs₀ 𝒱₀ L lv) :=
  Gen.segs m (outs H m) 𝒱₀ L lv (fun _ c => R c) () (pdats H m) (reg0 H m) (reg1 H m) (reg2 H m) (reg3 H m) c

set_option backward.isDefEq.respectTransparency.types false in
/-- THE RUN: from any memory with zero counters every weakly fair execution of @main terminates, nothing faulting, and
    every final memory holds, at every unscoped TensorCore buffer, the last boundary's contents — the arguments as
    launched and the result at what region 3's proof data fold to. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V10 m (outs H m) c b) :=
  Pipeline.θ_run_regions_kit_dev (pcfgs (F := F)) adm (pdats H m) () cellOf_inj emb₁ defs₀ 𝒱₀ L lv m ρ main (segs H m)
    (fun c Q => by
      rewrite [main_chain c, Pipeline.Seg.run_eq_chain,
        show (segs H m c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V10 m (outs H m) c))
    (hch := fun c => ⟨.rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V10 m (outs H m) c b)
    (hfin := fun c s' => by
      iintro ⟨Hh, HSI⟩
      unfold StableHlo.held
      imodintro
      iapply (pointsTo_read_all (Pipeline.ucRefs τ sig) (fun b => (((c : Thread nD τ)).1, b)) (Gen.V10 m (outs H m) c) s')
      isplitl [Hh] <;> iassumption)
    (hQ := fun _ h => h)

include H in
/-- THE FRAME at any `F`: the run, read at the sixteen arguments (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (Gen.V10_main_arg0 m (outs H m) c),
    (h c _ (mem_uc main_arg1 (by decide))).trans (Gen.V10_main_arg1 m (outs H m) c),
    (h c _ (mem_uc main_arg2 (by decide))).trans (Gen.V10_main_arg2 m (outs H m) c),
    (h c _ (mem_uc main_arg3 (by decide))).trans (Gen.V10_main_arg3 m (outs H m) c),
    (h c _ (mem_uc main_arg4 (by decide))).trans (Gen.V10_main_arg4 m (outs H m) c),
    (h c _ (mem_uc main_arg5 (by decide))).trans (Gen.V10_main_arg5 m (outs H m) c),
    (h c _ (mem_uc main_arg6 (by decide))).trans (Gen.V10_main_arg6 m (outs H m) c),
    (h c _ (mem_uc main_arg7 (by decide))).trans (Gen.V10_main_arg7 m (outs H m) c),
    (h c _ (mem_uc main_arg8 (by decide))).trans (Gen.V10_main_arg8 m (outs H m) c),
    (h c _ (mem_uc main_arg9 (by decide))).trans (Gen.V10_main_arg9 m (outs H m) c),
    (h c _ (mem_uc main_arg10 (by decide))).trans (Gen.V10_main_arg10 m (outs H m) c),
    (h c _ (mem_uc main_arg11 (by decide))).trans (Gen.V10_main_arg11 m (outs H m) c),
    (h c _ (mem_uc main_arg12 (by decide))).trans (Gen.V10_main_arg12 m (outs H m) c),
    (h c _ (mem_uc main_arg13 (by decide))).trans (Gen.V10_main_arg13 m (outs H m) c),
    (h c _ (mem_uc main_arg14 (by decide))).trans (Gen.V10_main_arg14 m (outs H m) c),
    (h c _ (mem_uc main_arg15 (by decide))).trans (Gen.V10_main_arg15 m (outs H m) c)⟩) (run_all H m ρ)

/-- THE RUN WITH THE RESULT NAMED: the result buffer ends at what region 3's proof data fold to, the arguments as launched. -/
theorem run_value : θ_run defs (onTc (τ := τ) (main (F := F))) ⟨m, fun _ => 0, ρ⟩ (fun r => ∀ c : Dev nD,
      r.2.mem ((c.tc : Thread nD τ).loc main_v69) = o10 H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_v69 (by decide))).trans (out3_5 H m c),
    (h c _ (mem_uc main_arg0 (by decide))).trans (Gen.V10_main_arg0 m (outs H m) c),
    (h c _ (mem_uc main_arg1 (by decide))).trans (Gen.V10_main_arg1 m (outs H m) c),
    (h c _ (mem_uc main_arg2 (by decide))).trans (Gen.V10_main_arg2 m (outs H m) c),
    (h c _ (mem_uc main_arg3 (by decide))).trans (Gen.V10_main_arg3 m (outs H m) c),
    (h c _ (mem_uc main_arg4 (by decide))).trans (Gen.V10_main_arg4 m (outs H m) c),
    (h c _ (mem_uc main_arg5 (by decide))).trans (Gen.V10_main_arg5 m (outs H m) c),
    (h c _ (mem_uc main_arg6 (by decide))).trans (Gen.V10_main_arg6 m (outs H m) c),
    (h c _ (mem_uc main_arg7 (by decide))).trans (Gen.V10_main_arg7 m (outs H m) c),
    (h c _ (mem_uc main_arg8 (by decide))).trans (Gen.V10_main_arg8 m (outs H m) c),
    (h c _ (mem_uc main_arg9 (by decide))).trans (Gen.V10_main_arg9 m (outs H m) c),
    (h c _ (mem_uc main_arg10 (by decide))).trans (Gen.V10_main_arg10 m (outs H m) c),
    (h c _ (mem_uc main_arg11 (by decide))).trans (Gen.V10_main_arg11 m (outs H m) c),
    (h c _ (mem_uc main_arg12 (by decide))).trans (Gen.V10_main_arg12 m (outs H m) c),
    (h c _ (mem_uc main_arg13 (by decide))).trans (Gen.V10_main_arg13 m (outs H m) c),
    (h c _ (mem_uc main_arg14 (by decide))).trans (Gen.V10_main_arg14 m (outs H m) c),
    (h c _ (mem_uc main_arg15 (by decide))).trans (Gen.V10_main_arg15 m (outs H m) c)⟩) (run_all H m ρ)

end Cert.Kernel.Asm

end
-- ==== Proof.K.R0.lean ====
import proofs.«158489_j47493748359308_1_alg».proof.Proof.Gen.Kernel.Launch
import proofs.«158489_j47493748359308_1_alg».proof.Proof.Gen.Kernel.Skeleton
import proofs.«158489_j47493748359308_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The projection region: a row tile times the whole weight matrix, one output tile per grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (an unfetched
    window's block index has not moved), for any proof data over the entry arrays whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole row tile, the whole weight matrix and the whole output tile, as rectangles. -/
abbrev rA : Rect S2000x128 := Rect.unit (s := S2000x128) ![0, 0] S2000x128.size inb_S2000x128_S2000x128_0_0
abbrev rW : Rect S128x384 := Rect.unit (s := S128x384) ![0, 0] S128x384.size inb_S128x384_S128x384_0_0
abbrev rO : Rect S2000x384 := Rect.unit (s := S2000x384) ![0, 0] S2000x384.size inb_S2000x384_S2000x384_0_0

/-- The output tile after the body, from the input blocks: the body's one store, over the whole tile. -/
def out_2 (x0 : Vec F S2000x128 .f32) (x1 : Vec F S128x384 .f32) : Vec F S2000x384 .f32 :=
  View.canon [⟨rO, k0_pay1 (View.ld x0 rA) (View.ld x1 rW)⟩]

/-- The one store covers the tile. -/
theorem cover_2 (p0 : Vec F S2000x384 .f32) (y : S2000x384.Idx) :
    ∃ pc ∈ ([⟨rO, p0⟩] : List (View.Piece (Elt F) S2000x384 .f32)), y ∈ pc.1.set :=
  View.cover_of_tiled [⟨rO, p0⟩] S2000x384.size (by rfl) y

/-! ## The body's triple -/

set_option maxHeartbeats 1000000 in
/-- The body on whole staging memrefs, the inputs' at read contents and the output's at anything, runs to the
    continuation holding the inputs' as they were and the output's at `out_2` of the inputs'. -/
theorem sound_kernel (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-! ## The pipeline's proof data -/

/-- The proof data on core `c`: the arrays as the region finds them; after the body at point `t` each input's
    buffer at its block and the output's at `out_2` of the input blocks; the invariant the scoped rest and the
    pseudo-random number register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out_2 (iblk V c 0 t) (iblk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out_2 (iblk V c 0 t) (iblk V c 1 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and
    the core's debt pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.R0

end
-- ==== Proof.K.R1Runs.lean ====
import proofs.«158489_j47493748359308_1_alg».proof.Proof.Gen.Kernel.Launch
import proofs.«158489_j47493748359308_1_alg».proof.Proof.Gen.Kernel.Skeleton
import proofs.«158489_j47493748359308_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the output projection): what every case of its body shares

The body adds the projected attention tile and the bias to the input tile, stores the result, and adds the
tile's column sums and column sums of squares to two row accumulators which the first grid point zeroes.
Everything here is stated at the buffer contents `V` the region is entered with. -/

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the grid coordinate is zero. -/
abbrev cond (i : grid1.Coords) : Prop := (Scalar.cmpi .ne (Scalar.extui (Scalar.cmpi .eq (BitVec.ofNat 32 (i 0).val) 0#32)) 0#32) = 1#1
/-- It holds at the first point only: decided over the grid. -/
theorem hcond : ∀ t : Fin cfg1.N, cond (grid1.coords t) ↔ t.val % 50 = 0 :=
  (by decide +kernel : ∀ t : Fin grid1.N, cond (grid1.coords t) ↔ t.val % 50 = 0)

/-! ## The staging memrefs the body is called with -/

/-- One staging buffer of each output window, through which its contents are stated (the choice does not matter). -/
abbrev VO4 : View sig .tc .vmem S2000x128 .f32 := (Memref.whole cc1_stg4_0 : Memref sig .tc .vmem S2000x128 .f32).view
abbrev VO5 : View sig .tc .vmem S1x128 .f32 := (Memref.whole cc1_stg5_0 : Memref sig .tc .vmem S1x128 .f32).view
abbrev VO6 : View sig .tc .vmem S1x128 .f32 := (Memref.whole cc1_stg6_0 : Memref sig .tc .vmem S1x128 .f32).view
abbrev ms0 (t : Fin cfg1.N) : Memref sig .tc .vmem S2000x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2000x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)

end Cert.Kernel.R1

end
-- ==== Proof.K.R1RunA.lean ====
import proofs.«158489_j47493748359308_1_alg».proof.Proof.K.R1Runs

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, the first grid point: the accumulators are zeroed, then this tile is added -/

set_option maxHeartbeats 1000000 in
/-- What the body's stores leave in each output's staging memref, as pieces (last first), when the grid coordinate is zero,
    with the proof that on whole staging memrefs — the inputs' at their contents, the outputs' at anything —
    the body runs to the continuation holding the inputs' as they were and each output's buffer with its pieces written. -/
noncomputable def kernelRun_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) :
    Σ' (L4 : List (View.Piece (Elt F) S2000x128 .f32)) (L5 : List (View.Piece (Elt F) S1x128 .f32)),
    { L6 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__out_proj_kernel i arg1 harg1 arg2 harg2 arg3 harg3 arg4 harg4 arg5 harg5 arg6 harg6 arg7 harg7) K } := by
  refine ⟨?_, ?_, ?_, fun E K => ?run⟩
  case run =>
    simp only [cc1__out_proj_kernel_eq_skeleton]; unfold cc1__out_proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.Kernel.R1

end
-- ==== Proof.K.R1RunB.lean ====
import proofs.«158489_j47493748359308_1_alg».proof.Proof.K.R1RunA

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, a later grid point: this tile is added to what the point before left -/

set_option maxHeartbeats 1000000 in
/-- What the body's stores leave in each output's staging memref, as pieces (last first), when the grid coordinate is not zero,
    with the proof that on whole staging memrefs — the inputs' at their contents, the two accumulators' at their running contents, the tile output's at anything —
    the body runs to the continuation holding the inputs' as they were and each output's buffer with its pieces written. -/
noncomputable def kernelRun_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) :
    Σ' (L4 : List (View.Piece (Elt F) S2000x128 .f32)) (L5 : List (View.Piece (Elt F) S1x128 .f32)),
    { L6 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__out_proj_kernel i arg1 harg1 arg2 harg2 arg3 harg3 arg4 harg4 arg5 harg5 arg6 harg6 arg7 harg7) K } := by
  refine ⟨?_, ?_, ?_, fun E K => ?run⟩
  case run =>
    simp only [cc1__out_proj_kernel_eq_skeleton]; unfold cc1__out_proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.Kernel.R1

end
-- ==== Proof.K.R1Frame.lean ====
import proofs.«158489_j47493748359308_1_alg».proof.Proof.K.R1RunB

set_option maxRecDepth 16384

noncomputable section

namespace Cert.Kernel.R1

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the output projection): its frame half at the entry contents `V`

What the three outputs hold after each grid point, the proof data, and the body obligation. -/

/-! ## What each case leaves in each output's staging buffer -/

/-- The pieces the first-point run leaves for output 4 tile its block, so they cover it. -/
theorem cover_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) (y : S2000x128.Idx) :
    ∃ pc ∈ (kernelRun_A c i arg1 harg1 arg2 harg2 arg3 harg3 arg4 harg4 arg5 harg5 arg6 harg6 arg7 harg7 hc x0 x1 x2 x3).1, y ∈ pc.1.set :=
  View.cover_of_tiledL (kernelRun_A c i arg1 harg1 arg2 harg2 arg3 harg3 arg4 harg4 arg5 harg5 arg6 harg6 arg7 harg7 hc x0 x1 x2 x3).1 S2000x128.size (by sl_kernel_rfl) y

/-- What the first-point run leaves in output 4's staging buffer: its pieces read back over anything. -/
def out_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) : Vec F S2000x128 .f32 :=
  VO4.read (Elt F) (VO4.writes (Elt F) VO4.junk (kernelRun_A c i arg1 harg1 arg2 harg2 arg3 harg3 arg4 harg4 arg5 harg5 arg6 harg6 arg7 harg7 hc x0 x1 x2 x3).1)

/-- The pieces the first-point run leaves for output 5 tile its block, so they cover it. -/
theorem cover_A_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) (y : S1x128.Idx) :
    ∃ pc ∈ (kernelRun_A c i arg1 harg1 arg2 harg2 arg3 harg3 arg4 harg4 arg5 harg5 arg6 harg6 arg7 harg7 hc x0 x1 x2 x3).2.1, y ∈ pc.1.set :=
  View.cover_of_tiledL (kernelRun_A c i arg1 harg1 arg2 harg2 arg3 harg3 arg4 harg4 arg5 harg5 arg6 harg6 arg7 harg7 hc x0 x1 x2 x3).2.1 S1x128.size (by sl_kernel_rfl) y

/-- What the first-point run leaves in output 5's staging buffer: its pieces read back over anything. -/
def out_A_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) : Vec F S1x128 .f32 :=
  VO5.read (Elt F) (VO5.writes (Elt F) VO5.junk (kernelRun_A c i arg1 harg1 arg2 harg2 arg3 harg3 arg4 harg4 arg5 harg5 arg6 harg6 arg7 harg7 hc x0 x1 x2 x3).2.1)

/-- The pieces the first-point run leaves for output 6 tile its block, so they cover it. -/
theorem cover_A_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) (y : S1x128.Idx) :
    ∃ pc ∈ (kernelRun_A c i arg1 harg1 arg2 harg2 arg3 harg3 arg4 harg4 arg5 harg5 arg6 harg6 arg7 harg7 hc x0 x1 x2 x3).2.2.1, y ∈ pc.1.set :=
  View.cover_of_tiledL (kernelRun_A c i arg1 harg1 arg2 harg2 arg3 harg3 arg4 harg4 arg5 harg5 arg6 harg6 arg7 harg7 hc x0 x1 x2 x3).2.2.1 S1x128.size (by sl_kernel_rfl) y

/-- What the first-point run leaves in output 6's staging buffer: its pieces read back over anything. -/
def out_A_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) : Vec F S1x128 .f32 :=
  VO6.read (Elt F) (VO6.writes (Elt F) VO6.junk (kernelRun_A c i arg1 harg1 arg2 harg2 arg3 harg3 arg4 harg4 arg5 harg5 arg6 harg6 arg7 harg7 hc x0 x1 x2 x3).2.2.1)

/-- The pieces the later-point run leaves for output 4 tile its block, so they cover it. -/
theorem cover_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) (y : S2000x128.Idx) :
    ∃ pc ∈ (kernelRun_B c i arg1 harg1 arg2 harg2 arg3 harg3 arg4 harg4 arg5 harg5 arg6 harg6 arg7 harg7 hc x0 x1 x2 x3 xo5 xo6).1, y ∈ pc.1.set :=
  View.cover_of_tiledL (kernelRun_B c i arg1 harg1 arg2 harg2 arg3 harg3 arg4 harg4 arg5 harg5 arg6 harg6 arg7 harg7 hc x0 x1 x2 x3 xo5 xo6).1 S2000x128.size (by sl_kernel_rfl) y

/-- What the later-point run leaves in output 4's staging buffer: its pieces read back over anything. -/
def out_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) : Vec F S2000x128 .f32 :=
  VO4.read (Elt F) (VO4.writes (Elt F) VO4.junk (kernelRun_B c i arg1 harg1 arg2 harg2 arg3 harg3 arg4 harg4 arg5 harg5 arg6 harg6 arg7 harg7 hc x0 x1 x2 x3 xo5 xo6).1)

/-- The pieces the later-point run leaves for output 5 tile its block, so they cover it. -/
theorem cover_B_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) (y : S1x128.Idx) :
    ∃ pc ∈ (kernelRun_B c i arg1 harg1 arg2 harg2 arg3 harg3 arg4 harg4 arg5 harg5 arg6 harg6 arg7 harg7 hc x0 x1 x2 x3 xo5 xo6).2.1, y ∈ pc.1.set :=
  View.cover_of_tiledL (kernelRun_B c i arg1 harg1 arg2 harg2 arg3 harg3 arg4 harg4 arg5 harg5 arg6 harg6 arg7 harg7 hc x0 x1 x2 x3 xo5 xo6).2.1 S1x128.size (by sl_kernel_rfl) y

/-- What the later-point run leaves in output 5's staging buffer: its pieces read back over anything. -/
def out_B_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) : Vec F S1x128 .f32 :=
  VO5.read (Elt F) (VO5.writes (Elt F) VO5.junk (kernelRun_B c i arg1 harg1 arg2 harg2 arg3 harg3 arg4 harg4 arg5 harg5 arg6 harg6 arg7 harg7 hc x0 x1 x2 x3 xo5 xo6).2.1)

/-- The pieces the later-point run leaves for output 6 tile its block, so they cover it. -/
theorem cover_B_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) (y : S1x128.Idx) :
    ∃ pc ∈ (kernelRun_B c i arg1 harg1 arg2 harg2 arg3 harg3 arg4 harg4 arg5 harg5 arg6 harg6 arg7 harg7 hc x0 x1 x2 x3 xo5 xo6).2.2.1, y ∈ pc.1.set :=
  View.cover_of_tiledL (kernelRun_B c i arg1 harg1 arg2 harg2 arg3 harg3 arg4 harg4 arg5 harg5 arg6 harg6 arg7 harg7 hc x0 x1 x2 x3 xo5 xo6).2.2.1 S1x128.size (by sl_kernel_rfl) y

/-- What the later-point run leaves in output 6's staging buffer: its pieces read back over anything. -/
def out_B_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) : Vec F S1x128 .f32 :=
  VO6.read (Elt F) (VO6.writes (Elt F) VO6.junk (kernelRun_B c i arg1 harg1 arg2 harg2 arg3 harg3 arg4 harg4 arg5 harg5 arg6 harg6 arg7 harg7 hc x0 x1 x2 x3 xo5 xo6).2.2.1)

/-! ## What the outputs hold after each point -/

/-- THE ACCUMULATION. What the three outputs' staging buffers hold after the body at position `n`: at the first point
    the tile, and its column sums and column sums of squares added to zero; at a later point the tile, and its column
    sums added to what the point before left in the two accumulators (their buffers are not written back between). -/
def outsAt (c : Dev nD) : (n : ℕ) → n < cfg1.N → Vec F S2000x128 .f32 × Vec F S1x128 .f32 × Vec F S1x128 .f32
  | 0, hn => (out_A_4 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩),
       out_A_5 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩),
       out_A_6 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 50 = 0 then
      (out_A_4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩),
       out_A_5 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩),
       out_A_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩))
    else
      (out_B_4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
       out_B_5 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
       out_B_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)

/-- `outsAt` at the first point. -/
theorem outsAt_A (c : Dev nD) (t : Fin cfg1.N) (h0 : t.val % 50 = 0) :
    outsAt V c t.val t.isLt = (out_A_4 c (grid1.coords t) (ms0 t) (hs0 t) (ms1 t) (hs1 t) (ms2 t) (hs2 t) (ms3 t) (hs3 t) (ms4 t) (hs4 t) (ms5 t) (hs5 t) (ms6 t) (hs6 t) ((hcond t).mpr h0) (iblk V c 0 t) (iblk V c 1 t) (iblk V c 2 t) (iblk V c 3 t),
       out_A_5 c (grid1.coords t) (ms0 t) (hs0 t) (ms1 t) (hs1 t) (ms2 t) (hs2 t) (ms3 t) (hs3 t) (ms4 t) (hs4 t) (ms5 t) (hs5 t) (ms6 t) (hs6 t) ((hcond t).mpr h0) (iblk V c 0 t) (iblk V c 1 t) (iblk V c 2 t) (iblk V c 3 t),
       out_A_6 c (grid1.coords t) (ms0 t) (hs0 t) (ms1 t) (hs1 t) (ms2 t) (hs2 t) (ms3 t) (hs3 t) (ms4 t) (hs4 t) (ms5 t) (hs5 t) (ms6 t) (hs6 t) ((hcond t).mpr h0) (iblk V c 0 t) (iblk V c 1 t) (iblk V c 2 t) (iblk V c 3 t)) := by
  obtain ⟨n, hn⟩ := t
  cases n with
  | zero => exact rfl
  | succ n => exact (dif_pos h0).trans rfl

/-- `outsAt` at a later point: over what the point before left. -/
theorem outsAt_B (c : Dev nD) (t : Fin cfg1.N) (h0 : ¬t.val % 50 = 0) :
    outsAt V c t.val t.isLt = (out_B_4 c (grid1.coords t) (ms0 t) (hs0 t) (ms1 t) (hs1 t) (ms2 t) (hs2 t) (ms3 t) (hs3 t) (ms4 t) (hs4 t) (ms5 t) (hs5 t) (ms6 t) (hs6 t) (fun h => h0 ((hcond t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
       out_B_5 c (grid1.coords t) (ms0 t) (hs0 t) (ms1 t) (hs1 t) (ms2 t) (hs2 t) (ms3 t) (hs3 t) (ms4 t) (hs4 t) (ms5 t) (hs5 t) (ms6 t) (hs6 t) (fun h => h0 ((hcond t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
       out_B_6 c (grid1.coords t) (ms0 t) (hs0 t) (ms1 t) (hs1 t) (ms2 t) (hs2 t) (ms3 t) (hs3 t) (ms4 t) (hs4 t) (ms5 t) (hs5 t) (ms6 t) (hs6 t) (fun h => h0 ((hcond t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt`; the invariant the scoped rest and the
    generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem after_5 (c : Dev nD) (t : Fin cfg1.N) : (dat V c).after 5 t = (outsAt V c t.val t.isLt).2.1 := by dsimp only [dat]
theorem after_6 (c : Dev nD) (t : Fin cfg1.N) : (dat V c).after 6 t = (outsAt V c t.val t.isLt).2.2 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-- At a later point accumulator 5's staging buffer holds what the body left at the point before: the point is not the
    first and the buffer was not written back between (it is written back at the last point only). -/
theorem before_5_B (c : Dev nD) (t : Fin cfg1.N) (h0 : ¬t.val % 50 = 0) (d) :
    (dat V c).before 5 t d = (outsAt V c (t.val - 1) (Nat.lt_of_le_of_lt (Nat.sub_le _ _) t.isLt)).2.1 := by
  have hN : t.val < 50 := lt_of_lt_of_eq t.isLt (show cfg1.N = 50 from N_1)
  rw [Dat.before_out_kept _ 5 rfl t (by omega) (Bool.eq_false_iff.mpr fun h => by have := (flush1_5 _).mp h; dsimp only at this; omega)
    (fun _ => rfl) (fun _ _ => rfl)]
  dsimp only [dat]

/-- At a later point accumulator 6's staging buffer holds what the body left at the point before: the point is not the
    first and the buffer was not written back between (it is written back at the last point only). -/
theorem before_6_B (c : Dev nD) (t : Fin cfg1.N) (h0 : ¬t.val % 50 = 0) (d) :
    (dat V c).before 6 t d = (outsAt V c (t.val - 1) (Nat.lt_of_le_of_lt (Nat.sub_le _ _) t.isLt)).2.2 := by
  have hN : t.val < 50 := lt_of_lt_of_eq t.isLt (show cfg1.N = 50 from N_1)
  rw [Dat.before_out_kept _ 6 rfl t (by omega) (Bool.eq_false_iff.mpr fun h => by have := (flush1_6 _).mp h; dsimp only at this; omega)
    (fun _ => rfl) (fun _ _ => rfl)]
  dsimp only [dat]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 1600000 in
/-- The body at any point: the inputs' memrefs hold their blocks; the closed form says which case the point is in; at a
    later point the two accumulators hold what the point before left; so the case's run applies; the invariant passes
    through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  have hN : t.val < 50 := lt_of_lt_of_eq t.isLt (show cfg1.N = 50 from N_1)
  by_cases h0 : t.val % 50 = 0
  · rw [outsAt_A V c t h0]
    dsimp only
    unfold out_A_4 out_A_5 out_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid1.coords t) _ _ _ _ _ _ _ _ _ _ _ _ _ _ ((hcond t).mpr h0) (iblk V c 0 t) (iblk V c 1 t) (iblk V c 2 t) (iblk V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_4 c _ _ _ _ _ _ _ _ _ _ _ _ _ _ _ _ _ _ _ _)
    isplitl [H5]
    · unfold owns; iexists _; isplitr
      swap; · iexact H5
      ipureintro; exact View.read_writes_of_cover _ _ _ _ _ (cover_A_5 c _ _ _ _ _ _ _ _ _ _ _ _ _ _ _ _ _ _ _ _)
    unfold owns; iexists _; isplitr
    swap; · iexact H6
    ipureintro; exact View.read_writes_of_cover _ _ _ _ _ (cover_A_6 c _ _ _ _ _ _ _ _ _ _ _ _ _ _ _ _ _ _ _ _)
  · rw [outsAt_B V c t h0]
    dsimp only
    simp only [before_5_B V c t h0, before_6_B V c t h0]
    unfold out_B_4 out_B_5 out_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_B c (grid1.coords t) _ _ _ _ _ _ _ _ _ _ _ _ _ _ (fun h => h0 ((hcond t).mp h)) (iblk V c 0 t) (iblk V c 1 t) (iblk V c 2 t) (iblk V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_B_4 c _ _ _ _ _ _ _ _ _ _ _ _ _ _ _ _ _ _ _ _ _ _)
    isplitl [H5]
    · unfold owns; iexists _; isplitr
      swap; · iexact H5
      ipureintro; exact View.read_writes_of_cover _ _ _ _ _ (cover_B_5 c _ _ _ _ _ _ _ _ _ _ _ _ _ _ _ _ _ _ _ _ _ _)
    unfold owns; iexists _; isplitr
    swap; · iexact H6
    ipureintro; exact View.read_writes_of_cover _ _ _ _ _ (cover_B_6 c _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.Kernel.R1

end
-- ==== Proof.K.R2Runs.lean ====
import proofs.«158489_j47493748359308_1_alg».proof.Proof.Gen.Kernel.Launch
import proofs.«158489_j47493748359308_1_alg».proof.Proof.Gen.Kernel.Skeleton
import proofs.«158489_j47493748359308_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The feed-forward region (the third kernel call), at the buffer contents `V` found when it is entered

Twelve windows: nine inputs (the row tile of the pre-normalisation activations, the batch statistics and affine
parameters, the two weight matrices and their biases) and three outputs (the row tile of the result, and the two
`(1,128)` blocks that accumulate the column sum and the column sum of squares over all fifty row tiles). -/

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or not, for any proof
    data whose array is the entry contents and whose body leaves the block in place. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether fetched there or not, for any proof
    data whose array is the entry contents and whose body leaves the block in place. -/
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether fetched there or not, for any proof
    data whose array is the entry contents and whose body leaves the block in place. -/
theorem before_in2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether fetched there or not, for any proof
    data whose array is the entry contents and whose body leaves the block in place. -/
theorem before_in3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether fetched there or not, for any proof
    data whose array is the entry contents and whose body leaves the block in place. -/
theorem before_in4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether fetched there or not, for any proof
    data whose array is the entry contents and whose body leaves the block in place. -/
theorem before_in5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether fetched there or not, for any proof
    data whose array is the entry contents and whose body leaves the block in place. -/
theorem before_in6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, whether fetched there or not, for any proof
    data whose array is the entry contents and whose body leaves the block in place. -/
theorem before_in7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, whether fetched there or not, for any proof
    data whose array is the entry contents and whose body leaves the block in place. -/
theorem before_in8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch: is this the first row tile? -/

/-- The condition of the body's one conditional, from the grid coordinate: the tile index is zero. -/
abbrev cond0 (i : grid2.Coords) : Prop := (Scalar.cmpi .ne (Scalar.extui (Scalar.cmpi .eq (BitVec.ofNat 32 (i 0).val) 0#32)) 0#32) = 1#1
/-- It holds at the first point only — decided over the fifty points. -/
theorem hcond0 : ∀ t : Fin cfg2.N, cond0 (grid2.coords t) ↔ t.val = 0 :=
  (by decide +kernel : ∀ t : Fin grid2.N, cond0 (grid2.coords t) ↔ t.val = 0)

/-! ## The staging memrefs the body is called with at a point -/

abbrev ms0 (t : Fin cfg2.N) : Memref sig .tc .vmem S2000x128 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S128x256 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x256 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S256x128 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1x128 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S2000x128 .f32 := win2_9.stage (cfg2.slots t 9)
abbrev hs9 (t : Fin cfg2.N) : (ms9 t).IsWhole := hstage2_9 ((cfg2.slots t 9).cast nbuf2_9)
abbrev ms10 (t : Fin cfg2.N) : Memref sig .tc .vmem S1x128 .f32 := win2_10.stage (cfg2.slots t 10)
abbrev hs10 (t : Fin cfg2.N) : (ms10 t).IsWhole := hstage2_10 ((cfg2.slots t 10).cast nbuf2_10)
abbrev ms11 (t : Fin cfg2.N) : Memref sig .tc .vmem S1x128 .f32 := win2_11.stage (cfg2.slots t 11)
abbrev hs11 (t : Fin cfg2.N) : (ms11 t).IsWhole := hstage2_11 ((cfg2.slots t 11).cast nbuf2_11)

/-- One staging buffer of each output window, through which its contents are stated (the choice does not matter). -/
abbrev VO9 : View sig .tc .vmem S2000x128 .f32 := (ms9 ⟨0, by decide⟩).view
abbrev VO10 : View sig .tc .vmem S1x128 .f32 := (ms10 ⟨0, by decide⟩).view
abbrev VO11 : View sig .tc .vmem S1x128 .f32 := (ms11 ⟨0, by decide⟩).view

end Cert.Kernel.R2

end
-- ==== Proof.K.R2RunA.lean ====
import proofs.«158489_j47493748359308_1_alg».proof.Proof.K.R2Runs

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The feed-forward body run whole: the first row tile -/

set_option maxHeartbeats 4000000 in
/-- The whole body at the FIRST row tile (the conditional taken: both accumulator blocks are zeroed before anything
    else). On whole staging memrefs — the nine inputs at their contents, the three outputs at anything — the body runs
    to the continuation holding the inputs as they were and each output's buffer with the listed pieces written (last
    first); the piece lists are the witnesses the run finds. -/
noncomputable def kernelRun_A (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) :
    Σ' (L9 : List (View.Piece (Elt F) S2000x128 .f32)) (L10 : List (View.Piece (Elt F) S1x128 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__ffn_kernel_eq_skeleton]; unfold cc2__ffn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

end Cert.Kernel.R2

end
-- ==== Proof.K.R2RunB.lean ====
import proofs.«158489_j47493748359308_1_alg».proof.Proof.K.R2RunA

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The feed-forward body run whole: a later row tile -/

set_option maxHeartbeats 4000000 in
/-- The whole body at any LATER row tile (the conditional not taken). On whole staging memrefs — the nine inputs at
    their contents, the two accumulator blocks at their running contents, the tile output at anything — the body runs
    to the continuation holding the inputs as they were and each output's buffer with the listed pieces written (last
    first); the piece lists are the witnesses the run finds. -/
noncomputable def kernelRun_B (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) :
    Σ' (L9 : List (View.Piece (Elt F) S2000x128 .f32)) (L10 : List (View.Piece (Elt F) S1x128 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ owns (c : Thread nD τ) arg11 fullShare xo10 ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__ffn_kernel_eq_skeleton]; unfold cc2__ffn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

end Cert.Kernel.R2

end
-- ==== Proof.K.R2Frame.lean ====
import proofs.«158489_j47493748359308_1_alg».proof.Proof.K.R2RunB

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The feed-forward region's frame half: what the three outputs hold point by point, the proof data, the body obligation -/

variable (V : (c : Dev nD) → (b : Ref sig .tc) → Buf (Elt F) ((c : Thread nD τ).loc b))

/-! ## What each case leaves in each output's staging buffer -/

/-- The pieces the first-tile run leaves for the row-tile output tile its block, so they cover it. -/
theorem cover_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (y : S2000x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 S2000x128.size (by sl_kernel_rfl) y

/-- What the first-tile run leaves in the row-tile output: its pieces read back over junk. -/
def out_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S2000x128 .f32 :=
  VO9.read (Elt F) (VO9.writes (Elt F) VO9.junk (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1)

/-- The pieces the first-tile run leaves for the column-sum block tile its block, so they cover it. -/
theorem cover_A_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (y : S1x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 S1x128.size (by sl_kernel_rfl) y

/-- What the first-tile run leaves in the column-sum block: its pieces read back over junk. -/
def out_A_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S1x128 .f32 :=
  VO10.read (Elt F) (VO10.writes (Elt F) VO10.junk (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1)

/-- The pieces the first-tile run leaves for the column-sum-of-squares block tile its block, so they cover it. -/
theorem cover_A_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (y : S1x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1 S1x128.size (by sl_kernel_rfl) y

/-- What the first-tile run leaves in the column-sum-of-squares block: its pieces read back over junk. -/
def out_A_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S1x128 .f32 :=
  VO11.read (Elt F) (VO11.writes (Elt F) VO11.junk (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1)

/-- The pieces the later-tile run leaves for the row-tile output tile its block, so they cover it. -/
theorem cover_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) (y : S2000x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).1 S2000x128.size (by sl_kernel_rfl) y

/-- What the later-tile run leaves in the row-tile output: its pieces read back over junk. -/
def out_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) : Vec F S2000x128 .f32 :=
  VO9.read (Elt F) (VO9.writes (Elt F) VO9.junk (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).1)

/-- The pieces the later-tile run leaves for the column-sum block tile its block, so they cover it. -/
theorem cover_B_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) (y : S1x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.1 S1x128.size (by sl_kernel_rfl) y

/-- What the later-tile run leaves in the column-sum block: its pieces read back over junk. -/
def out_B_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) : Vec F S1x128 .f32 :=
  VO10.read (Elt F) (VO10.writes (Elt F) VO10.junk (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.1)

/-- The pieces the later-tile run leaves for the column-sum-of-squares block tile its block, so they cover it. -/
theorem cover_B_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) (y : S1x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.2.1 S1x128.size (by sl_kernel_rfl) y

/-- What the later-tile run leaves in the column-sum-of-squares block: its pieces read back over junk. -/
def out_B_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) : Vec F S1x128 .f32 :=
  VO11.read (Elt F) (VO11.writes (Elt F) VO11.junk (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.2.1)

/-! ## What the outputs hold after each point -/

/-- The three output blocks after a point: the row tile, the running column sum, the running column sum of squares. -/
structure OutBlocks (F : FTy → Type) [FloatOps F] where
  tile : Vec F S2000x128 .f32
  sum : Vec F S1x128 .f32
  sq : Vec F S1x128 .f32

/-- The first-tile run at point `t`'s memrefs and input blocks. -/
def outA (c : Dev nD) (t : Fin cfg2.N) (h0 : t.val = 0) : OutBlocks F :=
  ⟨out_A_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((hcond0 t).mpr h0) (iblk V c 0 t) (iblk V c 1 t) (iblk V c 2 t) (iblk V c 3 t) (iblk V c 4 t) (iblk V c 5 t) (iblk V c 6 t) (iblk V c 7 t) (iblk V c 8 t),
   out_A_10 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((hcond0 t).mpr h0) (iblk V c 0 t) (iblk V c 1 t) (iblk V c 2 t) (iblk V c 3 t) (iblk V c 4 t) (iblk V c 5 t) (iblk V c 6 t) (iblk V c 7 t) (iblk V c 8 t),
   out_A_11 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((hcond0 t).mpr h0) (iblk V c 0 t) (iblk V c 1 t) (iblk V c 2 t) (iblk V c 3 t) (iblk V c 4 t) (iblk V c 5 t) (iblk V c 6 t) (iblk V c 7 t) (iblk V c 8 t)⟩

/-- The later-tile run at point `t`'s memrefs and input blocks, over the running sums `p10`, `p11`. -/
def outB (c : Dev nD) (t : Fin cfg2.N) (h0 : ¬t.val = 0) (p10 p11 : Vec F S1x128 .f32) : OutBlocks F :=
  ⟨out_B_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((hcond0 t).mp h)) (iblk V c 0 t) (iblk V c 1 t) (iblk V c 2 t) (iblk V c 3 t) (iblk V c 4 t) (iblk V c 5 t) (iblk V c 6 t) (iblk V c 7 t) (iblk V c 8 t) p10 p11,
   out_B_10 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((hcond0 t).mp h)) (iblk V c 0 t) (iblk V c 1 t) (iblk V c 2 t) (iblk V c 3 t) (iblk V c 4 t) (iblk V c 5 t) (iblk V c 6 t) (iblk V c 7 t) (iblk V c 8 t) p10 p11,
   out_B_11 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((hcond0 t).mp h)) (iblk V c 0 t) (iblk V c 1 t) (iblk V c 2 t) (iblk V c 3 t) (iblk V c 4 t) (iblk V c 5 t) (iblk V c 6 t) (iblk V c 7 t) (iblk V c 8 t) p10 p11⟩

/-- THE ACCUMULATION. What the three outputs' staging buffers hold after the body at position `n`: at the first
    point the first-tile run; at a later point the later-tile run over the sums the point before left (the two
    accumulator blocks are not written back in between). -/
def outsAt (c : Dev nD) : (n : ℕ) → n < cfg2.N → OutBlocks F
  | 0, hn => outA V c ⟨0, hn⟩ rfl
  | n + 1, hn => outB V c ⟨n + 1, hn⟩ (Nat.succ_ne_zero n)
      (outsAt c n (Nat.lt_of_succ_lt hn)).sum (outsAt c n (Nat.lt_of_succ_lt hn)).sq

/-- At the first point. -/
theorem outsAt_A (c : Dev nD) (t : Fin cfg2.N) (h0 : t.val = 0) : outsAt V c t.val t.isLt = outA V c t h0 := by
  obtain ⟨n, hn⟩ := t
  cases n with
  | zero => rfl
  | succ n => exact absurd h0 (Nat.succ_ne_zero n)

/-- At a later point: over what the point before left. -/
theorem outsAt_B (c : Dev nD) (t : Fin cfg2.N) (h0 : ¬t.val = 0) :
    outsAt V c t.val t.isLt = outB V c t h0
      (outsAt V c (t.val - 1) (Nat.lt_of_le_of_lt (Nat.sub_le _ _) t.isLt)).sum
      (outsAt V c (t.val - 1) (Nat.lt_of_le_of_lt (Nat.sub_le _ _) t.isLt)).sq := by
  obtain ⟨n, hn⟩ := t
  cases n with
  | zero => exact absurd rfl h0
  | succ n => rfl

/-! ## The proof data -/

/-- The proof data of this pipeline on core `c`: the arrays as the region finds them; after the body at point `t`
    each input's buffer at its block and the three outputs' at `outsAt`; the scoped rest and the generator register
    untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).tile
    | ⟨10, _⟩ => (outsAt V c t.val t.isLt).sum
    | ⟨11, _⟩ => (outsAt V c t.val t.isLt).sq
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = (outsAt V c t.val t.isLt).tile := by dsimp only [dat]
theorem after_10 (c : Dev nD) (t : Fin cfg2.N) : (dat V c).after 10 t = (outsAt V c t.val t.isLt).sum := by dsimp only [dat]
theorem after_11 (c : Dev nD) (t : Fin cfg2.N) : (dat V c).after 11 t = (outsAt V c t.val t.isLt).sq := by dsimp only [dat]

/-- Input window 0's staging buffer holds its block at every point. -/
theorem before_0 (c : Dev nD) (t : Fin cfg2.N) (d) : (dat V c).before 0 t d = iblk V c 0 t :=
  before_in0_of V (dat V c) (A_eq V c 0) (after_0 V c) t d
/-- Input window 1's staging buffer holds its block at every point. -/
theorem before_1 (c : Dev nD) (t : Fin cfg2.N) (d) : (dat V c).before 1 t d = iblk V c 1 t :=
  before_in1_of V (dat V c) (A_eq V c 1) (after_1 V c) t d
/-- Input window 2's staging buffer holds its block at every point. -/
theorem before_2 (c : Dev nD) (t : Fin cfg2.N) (d) : (dat V c).before 2 t d = iblk V c 2 t :=
  before_in2_of V (dat V c) (A_eq V c 2) (after_2 V c) t d
/-- Input window 3's staging buffer holds its block at every point. -/
theorem before_3 (c : Dev nD) (t : Fin cfg2.N) (d) : (dat V c).before 3 t d = iblk V c 3 t :=
  before_in3_of V (dat V c) (A_eq V c 3) (after_3 V c) t d
/-- Input window 4's staging buffer holds its block at every point. -/
theorem before_4 (c : Dev nD) (t : Fin cfg2.N) (d) : (dat V c).before 4 t d = iblk V c 4 t :=
  before_in4_of V (dat V c) (A_eq V c 4) (after_4 V c) t d
/-- Input window 5's staging buffer holds its block at every point. -/
theorem before_5 (c : Dev nD) (t : Fin cfg2.N) (d) : (dat V c).before 5 t d = iblk V c 5 t :=
  before_in5_of V (dat V c) (A_eq V c 5) (after_5 V c) t d
/-- Input window 6's staging buffer holds its block at every point. -/
theorem before_6 (c : Dev nD) (t : Fin cfg2.N) (d) : (dat V c).before 6 t d = iblk V c 6 t :=
  before_in6_of V (dat V c) (A_eq V c 6) (after_6 V c) t d
/-- Input window 7's staging buffer holds its block at every point. -/
theorem before_7 (c : Dev nD) (t : Fin cfg2.N) (d) : (dat V c).before 7 t d = iblk V c 7 t :=
  before_in7_of V (dat V c) (A_eq V c 7) (after_7 V c) t d
/-- Input window 8's staging buffer holds its block at every point. -/
theorem before_8 (c : Dev nD) (t : Fin cfg2.N) (d) : (dat V c).before 8 t d = iblk V c 8 t :=
  before_in8_of V (dat V c) (A_eq V c 8) (after_8 V c) t d

/-- At a later point the column-sum block's staging buffer holds what the body left at the point before: the point is
    not the first, and the block is written back only after the last point. -/
theorem before_10_B (c : Dev nD) (t : Fin cfg2.N) (h0 : ¬t.val = 0) (d) :
    (dat V c).before 10 t d = (outsAt V c (t.val - 1) (Nat.lt_of_le_of_lt (Nat.sub_le _ _) t.isLt)).sum := by
  have hN : t.val < 50 := lt_of_lt_of_eq t.isLt (show cfg2.N = 50 from N_2)
  rw [Dat.before_out_kept _ 10 rfl t h0 (Bool.eq_false_iff.mpr fun h => by have := (flush2_10 _).mp h; dsimp only at this; omega)
    (fun _ => rfl) (fun _ _ => rfl)]
  dsimp only [dat]

/-- The same for the column-sum-of-squares block. -/
theorem before_11_B (c : Dev nD) (t : Fin cfg2.N) (h0 : ¬t.val = 0) (d) :
    (dat V c).before 11 t d = (outsAt V c (t.val - 1) (Nat.lt_of_le_of_lt (Nat.sub_le _ _) t.isLt)).sq := by
  have hN : t.val < 50 := lt_of_lt_of_eq t.isLt (show cfg2.N = 50 from N_2)
  rw [Dat.before_out_kept _ 11 rfl t h0 (Bool.eq_false_iff.mpr fun h => by have := (flush2_11 _).mp h; dsimp only at this; omega)
    (fun _ => rfl) (fun _ _ => rfl)]
  dsimp only [dat]

end Cert.Kernel.R2

end
-- ==== Proof.K.R2Body.lean ====
import proofs.«158489_j47493748359308_1_alg».proof.Proof.K.R2Frame

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

/-! # The feed-forward region's body obligation -/

variable (V : (c : Dev nD) → (b : Ref sig .tc) → Buf (Elt F) ((c : Thread nD τ).loc b))

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d)))

/-- and what it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t)
    ∗ owns (c : Thread nD τ) (ms11 t) fullShare ((dat V c).after 11 t))

set_option maxHeartbeats 1600000 in
/-- The body at any point: the inputs' memrefs hold their blocks; the point is the first or a later one; at a later
    one the two accumulator blocks hold what the point before left; so the matching whole-body run applies; the
    invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  by_cases h0 : t.val = 0
  · rw [outsAt_A V c t h0]
    unfold outA out_A_9 out_A_10 out_A_11
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_A c (grid2.coords t) _ _ _ _ _ _ _ _ _ _ _ _ _ _ _ _ _ _ _ _ _ _ _ _ ((hcond0 t).mpr h0) (iblk V c 0 t) (iblk V c 1 t) (iblk V c 2 t) (iblk V c 3 t) (iblk V c 4 t) (iblk V c 5 t) (iblk V c 6 t) (iblk V c 7 t) (iblk V c 8 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_A_10 c _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_A_11 c _ _ _ _ _ _ _ _ _ _ _ _ _ _ _ _ _ _ _ _ _ _ _ _ _ _ _ _ _ _ _ _ _ _ _)
  · rw [outsAt_B V c t h0]
    simp only [before_10_B V c t h0, before_11_B V c t h0]
    unfold outB out_B_9 out_B_10 out_B_11
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_B c (grid2.coords t) _ _ _ _ _ _ _ _ _ _ _ _ _ _ _ _ _ _ _ _ _ _ _ _ (fun h => h0 ((hcond0 t).mp h)) (iblk V c 0 t) (iblk V c 1 t) (iblk V c 2 t) (iblk V c 3 t) (iblk V c 4 t) (iblk V c 5 t) (iblk V c 6 t) (iblk V c 7 t) (iblk V c 8 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_B_9 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_B_10 c _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_B_11 c _ _ _ _ _ _ _ _ _ _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Cert.Kernel.R2

end
-- ==== Proof.K.R3.lean ====
import proofs.«158489_j47493748359308_1_alg».proof.Proof.Gen.Kernel.Launch
import proofs.«158489_j47493748359308_1_alg».proof.Proof.Gen.Kernel.Skeleton
import proofs.«158489_j47493748359308_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.R3

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The final normalisation region: a row tile, four parameter rows, one output tile per grid point -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (an unfetched
    window's block index has not moved), for any proof data over the entry arrays whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole row tile and the whole parameter row, as rectangles. -/
abbrev rT : Rect S2000x128 := Rect.unit (s := S2000x128) ![0, 0] S2000x128.size inb_S2000x128_S2000x128_0_0
abbrev rR : Rect S1x128 := Rect.unit (s := S1x128) ![0, 0] S1x128.size inb_S1x128_S1x128_0_0

/-- The output tile after the body, from the input blocks: the body's one store, over the whole tile. -/
def out_5 (x0 : Vec F S2000x128 .f32) (x1 x2 x3 x4 : Vec F S1x128 .f32) : Vec F S2000x128 .f32 :=
  View.canon [⟨rT, k3_pay1 (View.ld x0 rT) (View.ld x1 rR) (View.ld x2 rR) (View.ld x3 rR) (View.ld x4 rR)⟩]

/-- The one store covers the tile. -/
theorem cover_5 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

/-! ## The body's triple -/

set_option maxHeartbeats 1000000 in
/-- The body on whole staging memrefs, the inputs' at read contents and the output's at anything, runs to the
    continuation holding the inputs' as they were and the output's at `out_5` of the inputs'. -/
theorem sound_kernel (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out_5 x0 x1 x2 x3 x4)) -∗ K ⟨⟩))
      ⊢ wp frame (wpE (defs₀ (F := F)) Variants.none c none) E (cc3__bn_final_kernel i arg1 harg1 arg2 harg2 arg3 harg3 arg4 harg4 arg5 harg5 arg6 harg6) K := by
  simp only [cc3__bn_final_kernel_eq_skeleton]; unfold cc3__bn_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_5 _)

/-! ## The pipeline's proof data -/

/-- The proof data on core `c`: the arrays as the region finds them; after the body at point `t` each input's
    buffer at its block and the output's at `out_5` of the input blocks; the invariant the scoped rest and the
    pseudo-random number register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out_5 (iblk V c 0 t) (iblk V c 1 t) (iblk V c 2 t) (iblk V c 3 t) (iblk V c 4 t)
  Φ _ := Pipeline.ΦA spec3 c
  q _ := fullShare
  owed _ := 0

/-- The proof data's arrays are the region-entry contents. -/
theorem A_eq (c : Dev nD) (w : Fin cfg3.W) : (dat V c).A w = V c (Pipeline.arrRef spec3 w) := by
  dsimp only [dat]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = out_5 (iblk V c 0 t) (iblk V c 1 t) (iblk V c 2 t) (iblk V c 3 t) (iblk V c 4 t) := by dsimp only [dat]

/-- Each input's current staging buffer holds its block at every point, fetched there or not. -/
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d
theorem before_4 (c : Dev nD) (t : Fin cfg3.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any point: the inputs' memrefs hold their blocks, so `sound_kernel` applies; the invariant and
    the core's debt pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W3, bigSep_W3]
  exact sound_body V c t

end Cert.Kernel.R3

end
-- ==== Proof.K.HalvesInst.lean ====
import proofs.«158489_j47493748359308_1_alg».proof.Proof.K.AsmData
import proofs.«158489_j47493748359308_1_alg».proof.Proof.K.R0
import proofs.«158489_j47493748359308_1_alg».proof.Proof.K.R1Frame
import proofs.«158489_j47493748359308_1_alg».proof.Proof.K.R2Body
import proofs.«158489_j47493748359308_1_alg».proof.Proof.K.R3

set_option maxRecDepth 16384

noncomputable section

namespace Cert.Kernel.Asm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four regions' halves: each kernel's proof data and body obligation, stated at the contents the region is entered from. -/
def halves : Halves F where
  d0 := fun V c => R0.dat V c
  A0 := fun V c w => R0.A_eq V c w
  Φ0 := fun _ _ _ => rfl
  q0 := fun _ _ _ => rfl
  owed0 := fun _ _ _ => rfl
  rec0 := fun _ _ _ => rfl
  body0 := fun V c => R0.body_obligation V c
  d1 := fun V c => R1.dat V c
  A1 := fun V c w => R1.A_eq V c w
  Φ1 := fun _ _ _ => rfl
  q1 := fun _ _ _ => rfl
  owed1 := fun _ _ _ => rfl
  rec1 := fun _ _ _ => rfl
  body1 := fun V c => R1.body_obligation V c
  d2 := fun V c => R2.dat V c
  A2 := fun V c w => R2.A_eq V c w
  Φ2 := fun _ _ _ => rfl
  q2 := fun _ _ _ => rfl
  owed2 := fun _ _ _ => rfl
  rec2 := fun _ _ _ => rfl
  body2 := fun V c => R2.body_obligation V c
  d3 := fun V c => R3.dat V c
  A3 := fun V c w => R3.A_eq V c w
  Φ3 := fun _ _ _ => rfl
  q3 := fun _ _ _ => rfl
  owed3 := fun _ _ _ => rfl
  rec3 := fun _ _ _ => rfl
  body3 := fun V c => R3.body_obligation V c

end Cert.Kernel.Asm

end
-- ==== Proof.KI.AsmBase.lean ====
import proofs.«158489_j47493748359308_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A core-indexed reading of the TensorCore's buffers: what a region's proof data are stated at. -/
abbrev VT (F : FTy → Type) := (c : Dev nD) → (b : Ref sig .tc) → Buf (Elt F) ((c : Thread nD τ).loc b)

/-- One buffer replaced in a reading of all references. -/
def put (c : Dev nD) (r₀ : Ref sig .tc) (x : Buf (Elt F) ((c : Thread nD τ).loc r₀))
    (d : (r : Ref sig .tc) → Buf (Elt F) ((c : Thread nD τ).loc r)) : (r : Ref sig .tc) → Buf (Elt F) ((c : Thread nD τ).loc r) :=
  fun r => if h : r₀ = r then h ▸ x else d r

theorem put_same (c : Dev nD) (r₀ : Ref sig .tc) (x : Buf (Elt F) ((c : Thread nD τ).loc r₀))
    (d : (r : Ref sig .tc) → Buf (Elt F) ((c : Thread nD τ).loc r)) : put c r₀ x d r₀ = x := by
  unfold put; rw [dif_pos rfl]

theorem put_of_ne (c : Dev nD) (r₀ r : Ref sig .tc) (h : r₀ ≠ r) (x : Buf (Elt F) ((c : Thread nD τ).loc r₀))
    (d : (r : Ref sig .tc) → Buf (Elt F) ((c : Thread nD τ).loc r)) : put c r₀ x d r = d r := by
  unfold put; rw [dif_neg h]

end Cert.KernelIdeal.Asm

end
-- ==== Proof.KI.AsmData.lean ====
import proofs.«158489_j47493748359308_1_alg».proof.Proof.KI.AsmBase

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the run over @main's segments takes of the four kernel regions: per region the proof data at a parameter
    (the buffer contents the region is entered from), read off that parameter, with the invariant of a region that
    keeps nothing but its scoped rest and the generator register, full shares, nothing owed, and the body's obligation. -/
structure Halves (F : FTy → Type) [FloatOps F] where
  /-- Region 0: its proof data at the contents the region is entered from, and what the run needs of them. -/
  d0 : VT F → (c : Dev nD) → Dat τ (Elt F) Unit ℕ (UR sig nD τ) ℕ cfg0 c
  A0 : ∀ V c w, (d0 V c).A w = V c (Pipeline.arrRef spec0 w)
  Φ0 : ∀ V c t, (d0 V c).Φ t = Pipeline.ΦA spec0 c
  q0 : ∀ V c w, (d0 V c).q w = fullShare
  owed0 : ∀ V c t, (d0 V c).owed t = 0
  rec0 : ∀ V c t, (d0 V c).recorded t = Set.univ
  body0 : ∀ V c, BodyObligation (d0 V c) (defs₀ (F := F)) Variants.none () Set.univ
  /-- Region 1: its proof data at the contents the region is entered from, and what the run needs of them. -/
  d1 : VT F → (c : Dev nD) → Dat τ (Elt F) Unit ℕ (UR sig nD τ) ℕ cfg1 c
  A1 : ∀ V c w, (d1 V c).A w = V c (Pipeline.arrRef spec1 w)
  Φ1 : ∀ V c t, (d1 V c).Φ t = Pipeline.ΦA spec1 c
  q1 : ∀ V c w, (d1 V c).q w = fullShare
  owed1 : ∀ V c t, (d1 V c).owed t = 0
  rec1 : ∀ V c t, (d1 V c).recorded t = Set.univ
  body1 : ∀ V c, BodyObligation (d1 V c) (defs₀ (F := F)) Variants.none () Set.univ
  /-- Region 2: its proof data at the contents the region is entered from, and what the run needs of them. -/
  d2 : VT F → (c : Dev nD) → Dat τ (Elt F) Unit ℕ (UR sig nD τ) ℕ cfg2 c
  A2 : ∀ V c w, (d2 V c).A w = V c (Pipeline.arrRef spec2 w)
  Φ2 : ∀ V c t, (d2 V c).Φ t = Pipeline.ΦA spec2 c
  q2 : ∀ V c w, (d2 V c).q w = fullShare
  owed2 : ∀ V c t, (d2 V c).owed t = 0
  rec2 : ∀ V c t, (d2 V c).recorded t = Set.univ
  body2 : ∀ V c, BodyObligation (d2 V c) (defs₀ (F := F)) Variants.none () Set.univ
  /-- Region 3: its proof data at the contents the region is entered from, and what the run needs of them. -/
  d3 : VT F → (c : Dev nD) → Dat τ (Elt F) Unit ℕ (UR sig nD τ) ℕ cfg3 c
  A3 : ∀ V c w, (d3 V c).A w = V c (Pipeline.arrRef spec3 w)
  Φ3 : ∀ V c t, (d3 V c).Φ t = Pipeline.ΦA spec3 c
  q3 : ∀ V c w, (d3 V c).q w = fullShare
  owed3 : ∀ V c t, (d3 V c).owed t = 0
  rec3 : ∀ V c t, (d3 V c).recorded t = Set.univ
  body3 : ∀ V c, BodyObligation (d3 V c) (defs₀ (F := F)) Variants.none () Set.univ

variable (H : Halves F) (m : (ℓ : Loc nD τ sig) → Buf (Elt F) ℓ)

/-- The launch contents read at every reference (what a buffer no region names holds in `outs`: never read). -/
abbrev dflt (c : Dev nD) : (r : Ref sig .tc) → Buf (Elt F) ((c : Thread nD τ).loc r) := fun r => m ((c : Thread nD τ).loc r)

/-! ## The contents at each boundary, region by region: each region's outputs are what its proof data fold to -/

/-- Region 0 is entered after the first host stretch. -/
abbrev B1 : VT F := fun c b => Gen.V1 m c b
/-- What region 0 leaves in its output array. -/
def o2 (c : Dev nD) : Buf (Elt F) ((c : Thread nD τ).loc main_v1) := (H.d0 (B1 m) c).arrAt 2 cfg0.N
def outsA : Gen.Outs (F := F) := fun _ r c => put c main_v1 (o2 H m c) (dflt m c) r
/-- Region 1 is entered after the three host stretches that follow region 0. -/
abbrev B5 : VT F := fun c b => Gen.V5 m (outsA H m) c b
def o6_0 (c : Dev nD) : Buf (Elt F) ((c : Thread nD τ).loc main_v49_0) := (H.d1 (B5 H m) c).arrAt 4 cfg1.N
def o6_1 (c : Dev nD) : Buf (Elt F) ((c : Thread nD τ).loc main_v49_1) := (H.d1 (B5 H m) c).arrAt 5 cfg1.N
def o6_2 (c : Dev nD) : Buf (Elt F) ((c : Thread nD τ).loc main_v49_2) := (H.d1 (B5 H m) c).arrAt 6 cfg1.N
def outsB : Gen.Outs (F := F) := fun J r c =>
  if J = 6 then put c main_v49_0 (o6_0 H m c) (put c main_v49_1 (o6_1 H m c) (put c main_v49_2 (o6_2 H m c) (dflt m c))) r
  else outsA H m J r c
abbrev B7 : VT F := fun c b => Gen.V7 m (outsB H m) c b
def o8_0 (c : Dev nD) : Buf (Elt F) ((c : Thread nD τ).loc main_v60_0) := (H.d2 (B7 H m) c).arrAt 9 cfg2.N
def o8_1 (c : Dev nD) : Buf (Elt F) ((c : Thread nD τ).loc main_v60_1) := (H.d2 (B7 H m) c).arrAt 10 cfg2.N
def o8_2 (c : Dev nD) : Buf (Elt F) ((c : Thread nD τ).loc main_v60_2) := (H.d2 (B7 H m) c).arrAt 11 cfg2.N
def outsC : Gen.Outs (F := F) := fun J r c =>
  if J = 8 then put c main_v60_0 (o8_0 H m c) (put c main_v60_1 (o8_1 H m c) (put c main_v60_2 (o8_2 H m c) (dflt m c))) r
  else outsB H m J r c
abbrev B9 : VT F := fun c b => Gen.V9 m (outsC H m) c b
def o10 (c : Dev nD) : Buf (Elt F) ((c : Thread nD τ).loc main_v69) := (H.d3 (B9 H m) c).arrAt 5 cfg3.N
/-- What the four regions leave, as the unknowns the boundary valuations are written over. -/
def outs : Gen.Outs (F := F) := fun J r c =>
  if J = 10 then put c main_v69 (o10 H m c) (dflt m c) r else outsC H m J r c

theorem outs_2 (r : Ref sig .tc) (c : Dev nD) : outs H m 2 r c = outsA H m 2 r c := by
  unfold outs outsC outsB; rw [if_neg (by decide), if_neg (by decide), if_neg (by decide)]
theorem outsB_2 (r : Ref sig .tc) (c : Dev nD) : outsB H m 2 r c = outsA H m 2 r c := by
  unfold outsB; rw [if_neg (by decide)]
theorem outsC_2 (r : Ref sig .tc) (c : Dev nD) : outsC H m 2 r c = outsA H m 2 r c := by
  unfold outsC; rw [if_neg (by decide)]; exact outsB_2 H m r c
theorem outs_6 (r : Ref sig .tc) (c : Dev nD) : outs H m 6 r c = outsB H m 6 r c := by
  unfold outs outsC; rw [if_neg (by decide), if_neg (by decide)]
theorem outsC_6 (r : Ref sig .tc) (c : Dev nD) : outsC H m 6 r c = outsB H m 6 r c := by
  unfold outsC; rw [if_neg (by decide)]
theorem outs_8 (r : Ref sig .tc) (c : Dev nD) : outs H m 8 r c = outsC H m 8 r c := by
  unfold outs; rw [if_neg (by decide)]

/-- The boundary contents over the final unknowns are the staged ones: each stage reads only earlier regions' outputs. -/
theorem V2_eq (c : Dev nD) : Gen.V2 m (outs H m) c = Gen.V2 m (outsA H m) c :=
  congrArg (Function.update (Gen.V1 m c) (main_v1 : DevRef τ sig)) (outs_2 H m main_v1 c)
theorem V5_eq (c : Dev nD) : Gen.V5 m (outs H m) c = Gen.V5 m (outsA H m) c :=
  congrArg (fun v => StableHlo.after hostOps1_2 (StableHlo.after hostOps1_1 (StableHlo.after hostOps1 v))) (V2_eq H m c)
theorem V5B_eq (c : Dev nD) : Gen.V5 m (outsB H m) c = Gen.V5 m (outsA H m) c :=
  congrArg (fun v => StableHlo.after hostOps1_2 (StableHlo.after hostOps1_1 (StableHlo.after hostOps1 v)))
    (congrArg (Function.update (Gen.V1 m c) (main_v1 : DevRef τ sig)) (outsB_2 H m main_v1 c))
theorem V5C_eq (c : Dev nD) : Gen.V5 m (outsC H m) c = Gen.V5 m (outsA H m) c :=
  congrArg (fun v => StableHlo.after hostOps1_2 (StableHlo.after hostOps1_1 (StableHlo.after hostOps1 v)))
    (congrArg (Function.update (Gen.V1 m c) (main_v1 : DevRef τ sig)) (outsC_2 H m main_v1 c))

theorem V6_eq (c : Dev nD) : Gen.V6 m (outs H m) c = Gen.V6 m (outsB H m) c := by
  show Function.update (Function.update (Function.update (Gen.V5 m (outs H m) c) (main_v49_0 : DevRef τ sig) (outs H m 6 main_v49_0 c)) (main_v49_1 : DevRef τ sig) (outs H m 6 main_v49_1 c)) (main_v49_2 : DevRef τ sig) (outs H m 6 main_v49_2 c)
    = Function.update (Function.update (Function.update (Gen.V5 m (outsB H m) c) (main_v49_0 : DevRef τ sig) (outsB H m 6 main_v49_0 c)) (main_v49_1 : DevRef τ sig) (outsB H m 6 main_v49_1 c)) (main_v49_2 : DevRef τ sig) (outsB H m 6 main_v49_2 c)
  rw [V5_eq, V5B_eq, outs_6, outs_6, outs_6]
theorem V6C_eq (c : Dev nD) : Gen.V6 m (outsC H m) c = Gen.V6 m (outsB H m) c := by
  show Function.update (Function.update (Function.update (Gen.V5 m (outsC H m) c) (main_v49_0 : DevRef τ sig) (outsC H m 6 main_v49_0 c)) (main_v49_1 : DevRef τ sig) (outsC H m 6 main_v49_1 c)) (main_v49_2 : DevRef τ sig) (outsC H m 6 main_v49_2 c)
    = Function.update (Function.update (Function.update (Gen.V5 m (outsB H m) c) (main_v49_0 : DevRef τ sig) (outsB H m 6 main_v49_0 c)) (main_v49_1 : DevRef τ sig) (outsB H m 6 main_v49_1 c)) (main_v49_2 : DevRef τ sig) (outsB H m 6 main_v49_2 c)
  rw [V5C_eq, V5B_eq, outsC_6, outsC_6, outsC_6]
theorem V7_eq (c : Dev nD) : Gen.V7 m (outs H m) c = Gen.V7 m (outsB H m) c :=
  congrArg (StableHlo.after hostOps2) (V6_eq H m c)
theorem V7C_eq (c : Dev nD) : Gen.V7 m (outsC H m) c = Gen.V7 m (outsB H m) c :=
  congrArg (StableHlo.after hostOps2) (V6C_eq H m c)
theorem V8_eq (c : Dev nD) : Gen.V8 m (outs H m) c = Gen.V8 m (outsC H m) c := by
  show Function.update (Function.update (Function.update (Gen.V7 m (outs H m) c) (main_v60_0 : DevRef τ sig) (outs H m 8 main_v60_0 c)) (main_v60_1 : DevRef τ sig) (outs H m 8 main_v60_1 c)) (main_v60_2 : DevRef τ sig) (outs H m 8 main_v60_2 c)
    = Function.update (Function.update (Function.update (Gen.V7 m (outsC H m) c) (main_v60_0 : DevRef τ sig) (outsC H m 8 main_v60_0 c)) (main_v60_1 : DevRef τ sig) (outsC H m 8 main_v60_1 c)) (main_v60_2 : DevRef τ sig) (outsC H m 8 main_v60_2 c)
  rw [V7_eq, V7C_eq, outs_8, outs_8, outs_8]
theorem V9_eq (c : Dev nD) : Gen.V9 m (outs H m) c = Gen.V9 m (outsC H m) c :=
  congrArg (StableHlo.after hostOps3) (V8_eq H m c)

/-- Every pipeline's proof data, each at its region's entry contents. -/
def pdats : (p : Fin 4) → (c : Dev nD) → Dat τ (Elt F) Unit ℕ (UR sig nD τ) ℕ (cfgs p) c
  | ⟨0, _⟩ => fun c => H.d0 (B1 m) c
  | ⟨1, _⟩ => fun c => H.d1 (B5 H m) c
  | ⟨2, _⟩ => fun c => H.d2 (B7 H m) c
  | ⟨3, _⟩ => fun c => H.d3 (B9 H m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at nothing. -/
abbrev R (c : Dev nD) : sProp 𝕄 := iprop((∃ r, prngReg c r) ∗ ∃ W, owes (c : Thread nD τ) (0 : CellTallies nD τ sig Unit) W)

end Cert.KernelIdeal.Asm

end
-- ==== Proof.KI.AsmReg0.lean ====
import proofs.«158489_j47493748359308_1_alg».proof.Proof.KI.AsmData

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 0's proof data read each array off the contents the region is entered from. -/
theorem entryA0 (c : Dev nD) (w : Fin cfg0.W) : (pdats H m 0 c).A w = Gen.V1 m c (Pipeline.arrRef spec0 w) :=
  (fun w => H.A0 _ c w) w

/-- After region 0 the boundary contents hold, at its output `main_v1`, what its proof data fold to. -/
theorem out0_2 (c : Dev nD) : (Gen.V2 m (outs H m) c main_v1 : Buf (Elt F) ((c : Thread nD τ).loc main_v1)) = o2 H m c := by
  have e1 : (Gen.V2 m (outs H m) c main_v1 : Buf (Elt F) ((c : Thread nD τ).loc main_v1)) = outs H m 2 main_v1 c := Function.update_self _ _ _
  have e2 : outs H m 2 main_v1 c = o2 H m c := by
    rw [outs_2]; unfold outsA; exact (put_same c main_v1 _ _)
  exact e1.trans e2

/-- At region 0's exit each of its arrays holds what the pipeline leaves: an input as entered, an output its write-backs folded. -/
theorem hF0 (c : Dev nD) : ∀ w : Fin cfg0.W, (pdats H m 0 c).arrAt w cfg0.N = Gen.V2 m (outs H m) c (Pipeline.arrRef spec0 w) := fun w =>
  match w with
    | ⟨0, _⟩ => ((pdats H m 0 c).arrAt_in ⟨0, by decide⟩ rfl _).trans ((entryA0 H m c ⟨0, by decide⟩).trans (Gen.V2_of m (outs H m) c (Pipeline.arrRef spec0 ⟨0, by decide⟩) (by decide)).symm)
    | ⟨1, _⟩ => ((pdats H m 0 c).arrAt_in ⟨1, by decide⟩ rfl _).trans ((entryA0 H m c ⟨1, by decide⟩).trans (Gen.V2_of m (outs H m) c (Pipeline.arrRef spec0 ⟨1, by decide⟩) (by decide)).symm)
    | ⟨2, _⟩ => (out0_2 H m c).symm

/-- Every buffer that is no array of region 0 holds at the exit what it held at entry. -/
theorem hrest0 (c : Dev nD) : ∀ b : Ref sig .tc, b ∉ Finset.univ.image (Pipeline.arrRef spec0) → Gen.V2 m (outs H m) c b = Gen.V1 m c b :=
  fun b hb => Gen.V2_of m (outs H m) c b (fun hmem => by
    simp only [List.mem_cons, List.mem_singleton, List.not_mem_nil, or_false] at hmem
    subst hmem; exact hb (Finset.mem_image.mpr ⟨⟨2, by decide⟩, Finset.mem_univ _, rfl⟩))

set_option backward.isDefEq.respectTransparency.types false in
/-- REGION 0 over the thread state "every unscoped buffer at the boundary's contents, the generator register at some
    state, nothing owed": its arrays split out of the unscoped buffers and put back at the exit contents; the generator
    register into the region's invariant and out; no semaphore of the kernel's own. -/
def reg0 : Pipeline.RegionSeg (pcfgs (F := F)) adm (pdats H m) () defs₀ 𝒱₀ L lv 0 where
  win := launch0.win.to₀
  block_pos := launch0.block_pos
  stage_whole := launch0.stage_whole
  K := PEmpty
  osem k := k.elim
  ho := Pipeline.OwnSemFacts.none _
  hbody c := (H.body0 (B1 m) c).loose
  hwaits := Pipeline.hwaits_of_owed_zero _ _ _ _ L lv 0 fun c t => H.owed0 _ c t
  pre c := iprop(StableHlo.held (c : Thread nD τ) (Pipeline.ucRefs τ sig) (Gen.V1 m c) ∗ R c)
  post c := iprop(StableHlo.held (c : Thread nD τ) (Pipeline.ucRefs τ sig) (Gen.V2 m (outs H m) c) ∗ R c)
  X c := iprop(∃ r, prngReg c r)
  Y c := iprop(∃ r, prngReg c r)
  Z c := Pipeline.unscopedRest (Ix := Unit) (Name := ℕ) (U := UR sig nD τ) (Lvl := ℕ) spec0 c (fun b => Gen.V1 m c b)
  hentry c := by
    rw [Pipeline.ownSems0_none]
    have hsplit := Pipeline.arrays_of_unscopedBufs (p := 0) (pcfgs (F := F)) adm (pdats H m) launch0.win launch0.arr_whole c
      ((pdats H m 0 c).share_full fun w => H.q0 _ c w) (fun b => Gen.V1 m c b) (entryA0 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec0 _ c 0).symm ▸ Set.mem_univ _)
      rw [show (pdats H m 0 c).owed 0 = 0 from H.owed0 _ c 0]
      iexact HO
    isplitl [Hp]; · iexact Hp
    iexact Hrest
  hin c := by
    rw [show (pdats H m 0 c).Φ 0 = Pipeline.ΦA spec0 c from H.Φ0 _ c 0]; unfold Pipeline.ΦA
    iintro ⟨Hp, -, Hr⟩
    isplitl [Hr]; · iexact Hr
    iexact Hp
  hout c := by
    rw [Pipeline.ownSems0_none, show (pdats H m 0 c).Φ (Fin.last _) = Pipeline.ΦA spec0 c from H.Φ0 _ c _]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats H m) ((pdats H m 0 c).share_full fun w => H.q0 _ c w)
      (fun b => Gen.V1 m c b) (fun b => Gen.V2 m (outs H m) c b) ((pdats H m 0 c).arrAt · cfg0.N) (hF0 H m c) (hrest0 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 0 c).owed (Fin.last _) = 0 from H.owed0 _ c _]
    iexact HO

end Cert.KernelIdeal.Asm

end
-- ==== Proof.KI.AsmReg1.lean ====
import proofs.«158489_j47493748359308_1_alg».proof.Proof.KI.AsmData

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 1's proof data read each array off the contents the region is entered from. -/
theorem entryA1 (c : Dev nD) (w : Fin cfg1.W) : (pdats H m 1 c).A w = Gen.V5 m (outs H m) c (Pipeline.arrRef spec1 w) :=
  (fun w => show (H.d1 (B5 H m) c).A w = _ from (H.A1 (B5 H m) c w).trans (congrFun (V5_eq H m c).symm (Proc.devRef .tc (Pipeline.arrRef spec1 w)))) w

/-- After region 1 the boundary contents hold, at its output `main_v49_0`, what its proof data fold to. -/
theorem out1_4 (c : Dev nD) : (Gen.V6 m (outs H m) c main_v49_0 : Buf (Elt F) ((c : Thread nD τ).loc main_v49_0)) = o6_0 H m c := by
  have e1 : (Gen.V6 m (outs H m) c main_v49_0 : Buf (Elt F) ((c : Thread nD τ).loc main_v49_0)) = outs H m 6 main_v49_0 c := (Function.update_of_ne (StableHlo.devRef_ne_of_ne (by decide) : (Proc.devRef .tc main_v49_0 : DevRef τ sig) ≠ Proc.devRef .tc main_v49_2) _ _).trans <| (Function.update_of_ne (StableHlo.devRef_ne_of_ne (by decide) : (Proc.devRef .tc main_v49_0 : DevRef τ sig) ≠ Proc.devRef .tc main_v49_1) _ _).trans (Function.update_self _ _ _)
  have e2 : outs H m 6 main_v49_0 c = o6_0 H m c := by
    rw [outs_6]; unfold outsB; rw [if_pos rfl]; exact (put_same c main_v49_0 _ _)
  exact e1.trans e2
/-- After region 1 the boundary contents hold, at its output `main_v49_1`, what its proof data fold to. -/
theorem out1_5 (c : Dev nD) : (Gen.V6 m (outs H m) c main_v49_1 : Buf (Elt F) ((c : Thread nD τ).loc main_v49_1)) = o6_1 H m c := by
  have e1 : (Gen.V6 m (outs H m) c main_v49_1 : Buf (Elt F) ((c : Thread nD τ).loc main_v49_1)) = outs H m 6 main_v49_1 c := (Function.update_of_ne (StableHlo.devRef_ne_of_ne (by decide) : (Proc.devRef .tc main_v49_1 : DevRef τ sig) ≠ Proc.devRef .tc main_v49_2) _ _).trans (Function.update_self _ _ _)
  have e2 : outs H m 6 main_v49_1 c = o6_1 H m c := by
    rw [outs_6]; unfold outsB; rw [if_pos rfl]; exact (put_of_ne c main_v49_0 main_v49_1 (by decide) _ _).trans <| (put_same c main_v49_1 _ _)
  exact e1.trans e2
/-- After region 1 the boundary contents hold, at its output `main_v49_2`, what its proof data fold to. -/
theorem out1_6 (c : Dev nD) : (Gen.V6 m (outs H m) c main_v49_2 : Buf (Elt F) ((c : Thread nD τ).loc main_v49_2)) = o6_2 H m c := by
  have e1 : (Gen.V6 m (outs H m) c main_v49_2 : Buf (Elt F) ((c : Thread nD τ).loc main_v49_2)) = outs H m 6 main_v49_2 c := Function.update_self _ _ _
  have e2 : outs H m 6 main_v49_2 c = o6_2 H m c := by
    rw [outs_6]; unfold outsB; rw [if_pos rfl]; exact (put_of_ne c main_v49_0 main_v49_2 (by decide) _ _).trans <| (put_of_ne c main_v49_1 main_v49_2 (by decide) _ _).trans <| (put_same c main_v49_2 _ _)
  exact e1.trans e2

/-- At region 1's exit each of its arrays holds what the pipeline leaves: an input as entered, an output its write-backs folded. -/
theorem hF1 (c : Dev nD) : ∀ w : Fin cfg1.W, (pdats H m 1 c).arrAt w cfg1.N = Gen.V6 m (outs H m) c (Pipeline.arrRef spec1 w) := fun w =>
  match w with
    | ⟨0, _⟩ => ((pdats H m 1 c).arrAt_in ⟨0, by decide⟩ rfl _).trans ((entryA1 H m c ⟨0, by decide⟩).trans (Gen.V6_of m (outs H m) c (Pipeline.arrRef spec1 ⟨0, by decide⟩) (by decide)).symm)
    | ⟨1, _⟩ => ((pdats H m 1 c).arrAt_in ⟨1, by decide⟩ rfl _).trans ((entryA1 H m c ⟨1, by decide⟩).trans (Gen.V6_of m (outs H m) c (Pipeline.arrRef spec1 ⟨1, by decide⟩) (by decide)).symm)
    | ⟨2, _⟩ => ((pdats H m 1 c).arrAt_in ⟨2, by decide⟩ rfl _).trans ((entryA1 H m c ⟨2, by decide⟩).trans (Gen.V6_of m (outs H m) c (Pipeline.arrRef spec1 ⟨2, by decide⟩) (by decide)).symm)
    | ⟨3, _⟩ => ((pdats H m 1 c).arrAt_in ⟨3, by decide⟩ rfl _).trans ((entryA1 H m c ⟨3, by decide⟩).trans (Gen.V6_of m (outs H m) c (Pipeline.arrRef spec1 ⟨3, by decide⟩) (by decide)).symm)
    | ⟨4, _⟩ => (out1_4 H m c).symm
    | ⟨5, _⟩ => (out1_5 H m c).symm
    | ⟨6, _⟩ => (out1_6 H m c).symm

/-- Every buffer that is no array of region 1 holds at the exit what it held at entry. -/
theorem hrest1 (c : Dev nD) : ∀ b : Ref sig .tc, b ∉ Finset.univ.image (Pipeline.arrRef spec1) → Gen.V6 m (outs H m) c b = Gen.V5 m (outs H m) c b :=
  fun b hb => Gen.V6_of m (outs H m) c b (fun hmem => by
    simp only [List.mem_cons, List.mem_singleton, List.not_mem_nil, or_false] at hmem
    rcases hmem with rfl | rfl | rfl
    · exact hb (Finset.mem_image.mpr ⟨⟨4, by decide⟩, Finset.mem_univ _, rfl⟩)
    · exact hb (Finset.mem_image.mpr ⟨⟨5, by decide⟩, Finset.mem_univ _, rfl⟩)
    · exact hb (Finset.mem_image.mpr ⟨⟨6, by decide⟩, Finset.mem_univ _, rfl⟩))

set_option backward.isDefEq.respectTransparency.types false in
/-- REGION 1 over the thread state "every unscoped buffer at the boundary's contents, the generator register at some
    state, nothing owed": its arrays split out of the unscoped buffers and put back at the exit contents; the generator
    register into the region's invariant and out; no semaphore of the kernel's own. -/
def reg1 : Pipeline.RegionSeg (pcfgs (F := F)) adm (pdats H m) () defs₀ 𝒱₀ L lv 1 where
  win := launch1.win.to₀
  block_pos := launch1.block_pos
  stage_whole := launch1.stage_whole
  K := PEmpty
  osem k := k.elim
  ho := Pipeline.OwnSemFacts.none _
  hbody c := (H.body1 (B5 H m) c).loose
  hwaits := Pipeline.hwaits_of_owed_zero _ _ _ _ L lv 1 fun c t => H.owed1 _ c t
  pre c := iprop(StableHlo.held (c : Thread nD τ) (Pipeline.ucRefs τ sig) (Gen.V5 m (outs H m) c) ∗ R c)
  post c := iprop(StableHlo.held (c : Thread nD τ) (Pipeline.ucRefs τ sig) (Gen.V6 m (outs H m) c) ∗ R c)
  X c := iprop(∃ r, prngReg c r)
  Y c := iprop(∃ r, prngReg c r)
  Z c := Pipeline.unscopedRest (Ix := Unit) (Name := ℕ) (U := UR sig nD τ) (Lvl := ℕ) spec1 c (fun b => Gen.V5 m (outs H m) c b)
  hentry c := by
    rw [Pipeline.ownSems0_none]
    have hsplit := Pipeline.arrays_of_unscopedBufs (p := 1) (pcfgs (F := F)) adm (pdats H m) launch1.win launch1.arr_whole c
      ((pdats H m 1 c).share_full fun w => H.q1 _ c w) (fun b => Gen.V5 m (outs H m) c b) (entryA1 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec1 _ c 0).symm ▸ Set.mem_univ _)
      rw [show (pdats H m 1 c).owed 0 = 0 from H.owed1 _ c 0]
      iexact HO
    isplitl [Hp]; · iexact Hp
    iexact Hrest
  hin c := by
    rw [show (pdats H m 1 c).Φ 0 = Pipeline.ΦA spec1 c from H.Φ1 _ c 0]; unfold Pipeline.ΦA
    iintro ⟨Hp, -, Hr⟩
    isplitl [Hr]; · iexact Hr
    iexact Hp
  hout c := by
    rw [Pipeline.ownSems0_none, show (pdats H m 1 c).Φ (Fin.last _) = Pipeline.ΦA spec1 c from H.Φ1 _ c _]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats H m) ((pdats H m 1 c).share_full fun w => H.q1 _ c w)
      (fun b => Gen.V5 m (outs H m) c b) (fun b => Gen.V6 m (outs H m) c b) ((pdats H m 1 c).arrAt · cfg1.N) (hF1 H m c) (hrest1 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 1 c).owed (Fin.last _) = 0 from H.owed1 _ c _]
    iexact HO

end Cert.KernelIdeal.Asm

end
-- ==== Proof.KI.AsmReg2.lean ====
import proofs.«158489_j47493748359308_1_alg».proof.Proof.KI.AsmData

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 2's proof data read each array off the contents the region is entered from. -/
theorem entryA2 (c : Dev nD) (w : Fin cfg2.W) : (pdats H m 2 c).A w = Gen.V7 m (outs H m) c (Pipeline.arrRef spec2 w) :=
  (fun w => show (H.d2 (B7 H m) c).A w = _ from (H.A2 (B7 H m) c w).trans (congrFun (V7_eq H m c).symm (Proc.devRef .tc (Pipeline.arrRef spec2 w)))) w

/-- After region 2 the boundary contents hold, at its output `main_v60_0`, what its proof data fold to. -/
theorem out2_9 (c : Dev nD) : (Gen.V8 m (outs H m) c main_v60_0 : Buf (Elt F) ((c : Thread nD τ).loc main_v60_0)) = o8_0 H m c := by
  have e1 : (Gen.V8 m (outs H m) c main_v60_0 : Buf (Elt F) ((c : Thread nD τ).loc main_v60_0)) = outs H m 8 main_v60_0 c := (Function.update_of_ne (StableHlo.devRef_ne_of_ne (by decide) : (Proc.devRef .tc main_v60_0 : DevRef τ sig) ≠ Proc.devRef .tc main_v60_2) _ _).trans <| (Function.update_of_ne (StableHlo.devRef_ne_of_ne (by decide) : (Proc.devRef .tc main_v60_0 : DevRef τ sig) ≠ Proc.devRef .tc main_v60_1) _ _).trans (Function.update_self _ _ _)
  have e2 : outs H m 8 main_v60_0 c = o8_0 H m c := by
    rw [outs_8]; unfold outsC; rw [if_pos rfl]; exact (put_same c main_v60_0 _ _)
  exact e1.trans e2
/-- After region 2 the boundary contents hold, at its output `main_v60_1`, what its proof data fold to. -/
theorem out2_10 (c : Dev nD) : (Gen.V8 m (outs H m) c main_v60_1 : Buf (Elt F) ((c : Thread nD τ).loc main_v60_1)) = o8_1 H m c := by
  have e1 : (Gen.V8 m (outs H m) c main_v60_1 : Buf (Elt F) ((c : Thread nD τ).loc main_v60_1)) = outs H m 8 main_v60_1 c := (Function.update_of_ne (StableHlo.devRef_ne_of_ne (by decide) : (Proc.devRef .tc main_v60_1 : DevRef τ sig) ≠ Proc.devRef .tc main_v60_2) _ _).trans (Function.update_self _ _ _)
  have e2 : outs H m 8 main_v60_1 c = o8_1 H m c := by
    rw [outs_8]; unfold outsC; rw [if_pos rfl]; exact (put_of_ne c main_v60_0 main_v60_1 (by decide) _ _).trans <| (put_same c main_v60_1 _ _)
  exact e1.trans e2
/-- After region 2 the boundary contents hold, at its output `main_v60_2`, what its proof data fold to. -/
theorem out2_11 (c : Dev nD) : (Gen.V8 m (outs H m) c main_v60_2 : Buf (Elt F) ((c : Thread nD τ).loc main_v60_2)) = o8_2 H m c := by
  have e1 : (Gen.V8 m (outs H m) c main_v60_2 : Buf (Elt F) ((c : Thread nD τ).loc main_v60_2)) = outs H m 8 main_v60_2 c := Function.update_self _ _ _
  have e2 : outs H m 8 main_v60_2 c = o8_2 H m c := by
    rw [outs_8]; unfold outsC; rw [if_pos rfl]; exact (put_of_ne c main_v60_0 main_v60_2 (by decide) _ _).trans <| (put_of_ne c main_v60_1 main_v60_2 (by decide) _ _).trans <| (put_same c main_v60_2 _ _)
  exact e1.trans e2

/-- At region 2's exit each of its arrays holds what the pipeline leaves: an input as entered, an output its write-backs folded. -/
theorem hF2 (c : Dev nD) : ∀ w : Fin cfg2.W, (pdats H m 2 c).arrAt w cfg2.N = Gen.V8 m (outs H m) c (Pipeline.arrRef spec2 w) := fun w =>
  match w with
    | ⟨0, _⟩ => ((pdats H m 2 c).arrAt_in ⟨0, by decide⟩ rfl _).trans ((entryA2 H m c ⟨0, by decide⟩).trans (Gen.V8_of m (outs H m) c (Pipeline.arrRef spec2 ⟨0, by decide⟩) (by decide)).symm)
    | ⟨1, _⟩ => ((pdats H m 2 c).arrAt_in ⟨1, by decide⟩ rfl _).trans ((entryA2 H m c ⟨1, by decide⟩).trans (Gen.V8_of m (outs H m) c (Pipeline.arrRef spec2 ⟨1, by decide⟩) (by decide)).symm)
    | ⟨2, _⟩ => ((pdats H m 2 c).arrAt_in ⟨2, by decide⟩ rfl _).trans ((entryA2 H m c ⟨2, by decide⟩).trans (Gen.V8_of m (outs H m) c (Pipeline.arrRef spec2 ⟨2, by decide⟩) (by decide)).symm)
    | ⟨3, _⟩ => ((pdats H m 2 c).arrAt_in ⟨3, by decide⟩ rfl _).trans ((entryA2 H m c ⟨3, by decide⟩).trans (Gen.V8_of m (outs H m) c (Pipeline.arrRef spec2 ⟨3, by decide⟩) (by decide)).symm)
    | ⟨4, _⟩ => ((pdats H m 2 c).arrAt_in ⟨4, by decide⟩ rfl _).trans ((entryA2 H m c ⟨4, by decide⟩).trans (Gen.V8_of m (outs H m) c (Pipeline.arrRef spec2 ⟨4, by decide⟩) (by decide)).symm)
    | ⟨5, _⟩ => ((pdats H m 2 c).arrAt_in ⟨5, by decide⟩ rfl _).trans ((entryA2 H m c ⟨5, by decide⟩).trans (Gen.V8_of m (outs H m) c (Pipeline.arrRef spec2 ⟨5, by decide⟩) (by decide)).symm)
    | ⟨6, _⟩ => ((pdats H m 2 c).arrAt_in ⟨6, by decide⟩ rfl _).trans ((entryA2 H m c ⟨6, by decide⟩).trans (Gen.V8_of m (outs H m) c (Pipeline.arrRef spec2 ⟨6, by decide⟩) (by decide)).symm)
    | ⟨7, _⟩ => ((pdats H m 2 c).arrAt_in ⟨7, by decide⟩ rfl _).trans ((entryA2 H m c ⟨7, by decide⟩).trans (Gen.V8_of m (outs H m) c (Pipeline.arrRef spec2 ⟨7, by decide⟩) (by decide)).symm)
    | ⟨8, _⟩ => ((pdats H m 2 c).arrAt_in ⟨8, by decide⟩ rfl _).trans ((entryA2 H m c ⟨8, by decide⟩).trans (Gen.V8_of m (outs H m) c (Pipeline.arrRef spec2 ⟨8, by decide⟩) (by decide)).symm)
    | ⟨9, _⟩ => (out2_9 H m c).symm
    | ⟨10, _⟩ => (out2_10 H m c).symm
    | ⟨11, _⟩ => (out2_11 H m c).symm

/-- Every buffer that is no array of region 2 holds at the exit what it held at entry. -/
theorem hrest2 (c : Dev nD) : ∀ b : Ref sig .tc, b ∉ Finset.univ.image (Pipeline.arrRef spec2) → Gen.V8 m (outs H m) c b = Gen.V7 m (outs H m) c b :=
  fun b hb => Gen.V8_of m (outs H m) c b (fun hmem => by
    simp only [List.mem_cons, List.mem_singleton, List.not_mem_nil, or_false] at hmem
    rcases hmem with rfl | rfl | rfl
    · exact hb (Finset.mem_image.mpr ⟨⟨9, by decide⟩, Finset.mem_univ _, rfl⟩)
    · exact hb (Finset.mem_image.mpr ⟨⟨10, by decide⟩, Finset.mem_univ _, rfl⟩)
    · exact hb (Finset.mem_image.mpr ⟨⟨11, by decide⟩, Finset.mem_univ _, rfl⟩))

set_option backward.isDefEq.respectTransparency.types false in
/-- REGION 2 over the thread state "every unscoped buffer at the boundary's contents, the generator register at some
    state, nothing owed": its arrays split out of the unscoped buffers and put back at the exit contents; the generator
    register into the region's invariant and out; no semaphore of the kernel's own. -/
def reg2 : Pipeline.RegionSeg (pcfgs (F := F)) adm (pdats H m) () defs₀ 𝒱₀ L lv 2 where
  win := launch2.win.to₀
  block_pos := launch2.block_pos
  stage_whole := launch2.stage_whole
  K := PEmpty
  osem k := k.elim
  ho := Pipeline.OwnSemFacts.none _
  hbody c := (H.body2 (B7 H m) c).loose
  hwaits := Pipeline.hwaits_of_owed_zero _ _ _ _ L lv 2 fun c t => H.owed2 _ c t
  pre c := iprop(StableHlo.held (c : Thread nD τ) (Pipeline.ucRefs τ sig) (Gen.V7 m (outs H m) c) ∗ R c)
  post c := iprop(StableHlo.held (c : Thread nD τ) (Pipeline.ucRefs τ sig) (Gen.V8 m (outs H m) c) ∗ R c)
  X c := iprop(∃ r, prngReg c r)
  Y c := iprop(∃ r, prngReg c r)
  Z c := Pipeline.unscopedRest (Ix := Unit) (Name := ℕ) (U := UR sig nD τ) (Lvl := ℕ) spec2 c (fun b => Gen.V7 m (outs H m) c b)
  hentry c := by
    rw [Pipeline.ownSems0_none]
    have hsplit := Pipeline.arrays_of_unscopedBufs (p := 2) (pcfgs (F := F)) adm (pdats H m) launch2.win launch2.arr_whole c
      ((pdats H m 2 c).share_full fun w => H.q2 _ c w) (fun b => Gen.V7 m (outs H m) c b) (entryA2 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec2 _ c 0).symm ▸ Set.mem_univ _)
      rw [show (pdats H m 2 c).owed 0 = 0 from H.owed2 _ c 0]
      iexact HO
    isplitl [Hp]; · iexact Hp
    iexact Hrest
  hin c := by
    rw [show (pdats H m 2 c).Φ 0 = Pipeline.ΦA spec2 c from H.Φ2 _ c 0]; unfold Pipeline.ΦA
    iintro ⟨Hp, -, Hr⟩
    isplitl [Hr]; · iexact Hr
    iexact Hp
  hout c := by
    rw [Pipeline.ownSems0_none, show (pdats H m 2 c).Φ (Fin.last _) = Pipeline.ΦA spec2 c from H.Φ2 _ c _]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats H m) ((pdats H m 2 c).share_full fun w => H.q2 _ c w)
      (fun b => Gen.V7 m (outs H m) c b) (fun b => Gen.V8 m (outs H m) c b) ((pdats H m 2 c).arrAt · cfg2.N) (hF2 H m c) (hrest2 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 2 c).owed (Fin.last _) = 0 from H.owed2 _ c _]
    iexact HO

end Cert.KernelIdeal.Asm

end
-- ==== Proof.KI.AsmReg3.lean ====
import proofs.«158489_j47493748359308_1_alg».proof.Proof.KI.AsmData

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ)

/-- Region 3's proof data read each array off the contents the region is entered from. -/
theorem entryA3 (c : Dev nD) (w : Fin cfg3.W) : (pdats H m 3 c).A w = Gen.V9 m (outs H m) c (Pipeline.arrRef spec3 w) :=
  (fun w => show (H.d3 (B9 H m) c).A w = _ from (H.A3 (B9 H m) c w).trans (congrFun (V9_eq H m c).symm (Proc.devRef .tc (Pipeline.arrRef spec3 w)))) w

/-- After region 3 the boundary contents hold, at its output `main_v69`, what its proof data fold to. -/
theorem out3_5 (c : Dev nD) : (Gen.V10 m (outs H m) c main_v69 : Buf (Elt F) ((c : Thread nD τ).loc main_v69)) = o10 H m c := by
  have e1 : (Gen.V10 m (outs H m) c main_v69 : Buf (Elt F) ((c : Thread nD τ).loc main_v69)) = outs H m 10 main_v69 c := Function.update_self _ _ _
  have e2 : outs H m 10 main_v69 c = o10 H m c := by
    unfold outs; rw [if_pos rfl]; exact (put_same c main_v69 _ _)
  exact e1.trans e2

/-- At region 3's exit each of its arrays holds what the pipeline leaves: an input as entered, an output its write-backs folded. -/
theorem hF3 (c : Dev nD) : ∀ w : Fin cfg3.W, (pdats H m 3 c).arrAt w cfg3.N = Gen.V10 m (outs H m) c (Pipeline.arrRef spec3 w) := fun w =>
  match w with
    | ⟨0, _⟩ => ((pdats H m 3 c).arrAt_in ⟨0, by decide⟩ rfl _).trans ((entryA3 H m c ⟨0, by decide⟩).trans (Gen.V10_of m (outs H m) c (Pipeline.arrRef spec3 ⟨0, by decide⟩) (by decide)).symm)
    | ⟨1, _⟩ => ((pdats H m 3 c).arrAt_in ⟨1, by decide⟩ rfl _).trans ((entryA3 H m c ⟨1, by decide⟩).trans (Gen.V10_of m (outs H m) c (Pipeline.arrRef spec3 ⟨1, by decide⟩) (by decide)).symm)
    | ⟨2, _⟩ => ((pdats H m 3 c).arrAt_in ⟨2, by decide⟩ rfl _).trans ((entryA3 H m c ⟨2, by decide⟩).trans (Gen.V10_of m (outs H m) c (Pipeline.arrRef spec3 ⟨2, by decide⟩) (by decide)).symm)
    | ⟨3, _⟩ => ((pdats H m 3 c).arrAt_in ⟨3, by decide⟩ rfl _).trans ((entryA3 H m c ⟨3, by decide⟩).trans (Gen.V10_of m (outs H m) c (Pipeline.arrRef spec3 ⟨3, by decide⟩) (by decide)).symm)
    | ⟨4, _⟩ => ((pdats H m 3 c).arrAt_in ⟨4, by decide⟩ rfl _).trans ((entryA3 H m c ⟨4, by decide⟩).trans (Gen.V10_of m (outs H m) c (Pipeline.arrRef spec3 ⟨4, by decide⟩) (by decide)).symm)
    | ⟨5, _⟩ => (out3_5 H m c).symm

/-- Every buffer that is no array of region 3 holds at the exit what it held at entry. -/
theorem hrest3 (c : Dev nD) : ∀ b : Ref sig .tc, b ∉ Finset.univ.image (Pipeline.arrRef spec3) → Gen.V10 m (outs H m) c b = Gen.V9 m (outs H m) c b :=
  fun b hb => Gen.V10_of m (outs H m) c b (fun hmem => by
    simp only [List.mem_cons, List.mem_singleton, List.not_mem_nil, or_false] at hmem
    subst hmem; exact hb (Finset.mem_image.mpr ⟨⟨5, by decide⟩, Finset.mem_univ _, rfl⟩))

set_option backward.isDefEq.respectTransparency.types false in
/-- REGION 3 over the thread state "every unscoped buffer at the boundary's contents, the generator register at some
    state, nothing owed": its arrays split out of the unscoped buffers and put back at the exit contents; the generator
    register into the region's invariant and out; no semaphore of the kernel's own. -/
def reg3 : Pipeline.RegionSeg (pcfgs (F := F)) adm (pdats H m) () defs₀ 𝒱₀ L lv 3 where
  win := launch3.win.to₀
  block_pos := launch3.block_pos
  stage_whole := launch3.stage_whole
  K := PEmpty
  osem k := k.elim
  ho := Pipeline.OwnSemFacts.none _
  hbody c := (H.body3 (B9 H m) c).loose
  hwaits := Pipeline.hwaits_of_owed_zero _ _ _ _ L lv 3 fun c t => H.owed3 _ c t
  pre c := iprop(StableHlo.held (c : Thread nD τ) (Pipeline.ucRefs τ sig) (Gen.V9 m (outs H m) c) ∗ R c)
  post c := iprop(StableHlo.held (c : Thread nD τ) (Pipeline.ucRefs τ sig) (Gen.V10 m (outs H m) c) ∗ R c)
  X c := iprop(∃ r, prngReg c r)
  Y c := iprop(∃ r, prngReg c r)
  Z c := Pipeline.unscopedRest (Ix := Unit) (Name := ℕ) (U := UR sig nD τ) (Lvl := ℕ) spec3 c (fun b => Gen.V9 m (outs H m) c b)
  hentry c := by
    rw [Pipeline.ownSems0_none]
    have hsplit := Pipeline.arrays_of_unscopedBufs (p := 3) (pcfgs (F := F)) adm (pdats H m) launch3.win launch3.arr_whole c
      ((pdats H m 3 c).share_full fun w => H.q3 _ c w) (fun b => Gen.V9 m (outs H m) c b) (entryA3 H m c)
    rw [Pipeline.unscopedBufs_held] at hsplit
    iintro ⟨⟨Hub, Hp, HO⟩, -, -⟩
    ihave H' := hsplit $$ Hub
    icases H' with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl ((H.rec3 _ c 0).symm ▸ Set.mem_univ _)
      rw [show (pdats H m 3 c).owed 0 = 0 from H.owed3 _ c 0]
      iexact HO
    isplitl [Hp]; · iexact Hp
    iexact Hrest
  hin c := by
    rw [show (pdats H m 3 c).Φ 0 = Pipeline.ΦA spec3 c from H.Φ3 _ c 0]; unfold Pipeline.ΦA
    iintro ⟨Hp, -, Hr⟩
    isplitl [Hr]; · iexact Hr
    iexact Hp
  hout c := by
    rw [Pipeline.ownSems0_none, show (pdats H m 3 c).Φ (Fin.last _) = Pipeline.ΦA spec3 c from H.Φ3 _ c _]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats H m) ((pdats H m 3 c).share_full fun w => H.q3 _ c w)
      (fun b => Gen.V9 m (outs H m) c b) (fun b => Gen.V10 m (outs H m) c b) ((pdats H m 3 c).arrAt · cfg3.N) (hF3 H m c) (hrest3 H m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W
    rw [show (pdats H m 3 c).owed (Fin.last _) = 0 from H.owed3 _ c _]
    iexact HO

end Cert.KernelIdeal.Asm

end
-- ==== Proof.KI.AsmRun.lean ====
import proofs.«158489_j47493748359308_1_alg».proof.Proof.KI.AsmReg0
import proofs.«158489_j47493748359308_1_alg».proof.Proof.KI.AsmReg1
import proofs.«158489_j47493748359308_1_alg».proof.Proof.KI.AsmReg2
import proofs.«158489_j47493748359308_1_alg».proof.Proof.KI.AsmReg3

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (H : Halves F) (m : (ℓ : Loc nD τ sig) → Buf (Elt F) ℓ) (ρ : Dev nD → PrngReg)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- @main's ten items as segments on core `c`: the host stretches over the boundary contents, the four regions' records. -/
abbrev segs (c : Dev nD) : List (Pipeline.Seg (pcfgs (F := F)) adm (pdats H m) () defs₀ 𝒱₀ L lv) :=
  Gen.segs m (outs H m) 𝒱₀ L lv (fun _ c => R c) () (pdats H m) (reg0 H m) (reg1 H m) (reg2 H m) (reg3 H m) c

set_option backward.isDefEq.respectTransparency.types false in
/-- THE RUN: from any memory with zero counters every weakly fair execution of @main terminates, nothing faulting, and
    every final memory holds, at every unscoped TensorCore buffer, the last boundary's contents — the arguments as
    launched and the result at what region 3's proof data fold to. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V10 m (outs H m) c b) :=
  Pipeline.θ_run_regions_kit_dev (pcfgs (F := F)) adm (pdats H m) () cellOf_inj emb₁ defs₀ 𝒱₀ L lv m ρ main (segs H m)
    (fun c Q => by
      rewrite [main_chain c, Pipeline.Seg.run_eq_chain,
        show (segs H m c).map Pipeline.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      exact .rfl)
    (fun c => by simp only [segs, Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c))
    (Tₙ := fun c => StableHlo.held (c : Thread nD τ) (Pipeline.ucRefs τ sig) (Gen.V10 m (outs H m) c))
    (hch := fun c => ⟨.rfl, .rfl, .rfl, .rfl, .rfl, .rfl, .rfl, .rfl, .rfl, .rfl,
      sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V10 m (outs H m) c b)
    (hfin := fun c s' => by
      iintro ⟨Hh, HSI⟩
      unfold StableHlo.held
      imodintro
      iapply (pointsTo_read_all (Pipeline.ucRefs τ sig) (fun b => (((c : Thread nD τ)).1, b)) (Gen.V10 m (outs H m) c) s')
      isplitl [Hh] <;> iassumption)
    (hQ := fun _ h => h)

include H in
/-- THE FRAME at any `F`: the run, read at the sixteen arguments (no host stretch writes one, no region may change one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_arg0 (by decide))).trans (Gen.V10_main_arg0 m (outs H m) c),
    (h c _ (mem_uc main_arg1 (by decide))).trans (Gen.V10_main_arg1 m (outs H m) c),
    (h c _ (mem_uc main_arg2 (by decide))).trans (Gen.V10_main_arg2 m (outs H m) c),
    (h c _ (mem_uc main_arg3 (by decide))).trans (Gen.V10_main_arg3 m (outs H m) c),
    (h c _ (mem_uc main_arg4 (by decide))).trans (Gen.V10_main_arg4 m (outs H m) c),
    (h c _ (mem_uc main_arg5 (by decide))).trans (Gen.V10_main_arg5 m (outs H m) c),
    (h c _ (mem_uc main_arg6 (by decide))).trans (Gen.V10_main_arg6 m (outs H m) c),
    (h c _ (mem_uc main_arg7 (by decide))).trans (Gen.V10_main_arg7 m (outs H m) c),
    (h c _ (mem_uc main_arg8 (by decide))).trans (Gen.V10_main_arg8 m (outs H m) c),
    (h c _ (mem_uc main_arg9 (by decide))).trans (Gen.V10_main_arg9 m (outs H m) c),
    (h c _ (mem_uc main_arg10 (by decide))).trans (Gen.V10_main_arg10 m (outs H m) c),
    (h c _ (mem_uc main_arg11 (by decide))).trans (Gen.V10_main_arg11 m (outs H m) c),
    (h c _ (mem_uc main_arg12 (by decide))).trans (Gen.V10_main_arg12 m (outs H m) c),
    (h c _ (mem_uc main_arg13 (by decide))).trans (Gen.V10_main_arg13 m (outs H m) c),
    (h c _ (mem_uc main_arg14 (by decide))).trans (Gen.V10_main_arg14 m (outs H m) c),
    (h c _ (mem_uc main_arg15 (by decide))).trans (Gen.V10_main_arg15 m (outs H m) c)⟩) (run_all H m ρ)

/-- THE RUN WITH THE RESULT NAMED: the result buffer ends at what region 3's proof data fold to, the arguments as launched. -/
theorem run_value : θ_run defs (onTc (τ := τ) (main (F := F))) ⟨m, fun _ => 0, ρ⟩ (fun r => ∀ c : Dev nD,
      r.2.mem ((c.tc : Thread nD τ).loc main_v69) = o10 H m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c _ (mem_uc main_v69 (by decide))).trans (out3_5 H m c),
    (h c _ (mem_uc main_arg0 (by decide))).trans (Gen.V10_main_arg0 m (outs H m) c),
    (h c _ (mem_uc main_arg1 (by decide))).trans (Gen.V10_main_arg1 m (outs H m) c),
    (h c _ (mem_uc main_arg2 (by decide))).trans (Gen.V10_main_arg2 m (outs H m) c),
    (h c _ (mem_uc main_arg3 (by decide))).trans (Gen.V10_main_arg3 m (outs H m) c),
    (h c _ (mem_uc main_arg4 (by decide))).trans (Gen.V10_main_arg4 m (outs H m) c),
    (h c _ (mem_uc main_arg5 (by decide))).trans (Gen.V10_main_arg5 m (outs H m) c),
    (h c _ (mem_uc main_arg6 (by decide))).trans (Gen.V10_main_arg6 m (outs H m) c),
    (h c _ (mem_uc main_arg7 (by decide))).trans (Gen.V10_main_arg7 m (outs H m) c),
    (h c _ (mem_uc main_arg8 (by decide))).trans (Gen.V10_main_arg8 m (outs H m) c),
    (h c _ (mem_uc main_arg9 (by decide))).trans (Gen.V10_main_arg9 m (outs H m) c),
    (h c _ (mem_uc main_arg10 (by decide))).trans (Gen.V10_main_arg10 m (outs H m) c),
    (h c _ (mem_uc main_arg11 (by decide))).trans (Gen.V10_main_arg11 m (outs H m) c),
    (h c _ (mem_uc main_arg12 (by decide))).trans (Gen.V10_main_arg12 m (outs H m) c),
    (h c _ (mem_uc main_arg13 (by decide))).trans (Gen.V10_main_arg13 m (outs H m) c),
    (h c _ (mem_uc main_arg14 (by decide))).trans (Gen.V10_main_arg14 m (outs H m) c),
    (h c _ (mem_uc main_arg15 (by decide))).trans (Gen.V10_main_arg15 m (outs H m) c)⟩) (run_all H m ρ)

end Cert.KernelIdeal.Asm

end
-- ==== Proof.KI.R0.lean ====
import proofs.«158489_j47493748359308_1_alg».proof.Proof.Gen.KernelIdeal.Launch
import proofs.«158489_j47493748359308_1_alg».proof.Proof.Gen.KernelIdeal.Skeleton
import proofs.«158489_j47493748359308_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The projection region: a row tile times the whole weight matrix, one output tile per grid point -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's current staging buffer holds its block at every point, fetched there or not (an unfetched
    window's block index has not moved), for any proof data over the entry arrays whose body leaves the block in place. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The whole row tile, the whole weight matrix and the whole output tile, as rectangles. -/
abbrev rA : Rect S2000x128 := Rect.unit (s := S2000x128) ![0, 0] S2000x128.size inb_S2000x128_S2000x128_0_0
abbrev rW : Rect S128x384 := Rect.unit (s := S128x384) ![0, 0] S128x384.size inb_S128x384_S128x384_0_0
abbrev rO : Rect S2000x384 := Rect.unit (s := S2000x384) ![0, 0] S2000x384.size inb_S2000x384_S2000x384_0_0

/-- The output tile after the body, from the input blocks: the body's one store, over the whole tile. -/
def out_2 (x0 : Vec F S2000x128 .f32) (x1 : Vec F S128x384 .f32) : Vec F S2000x384 .f32 :=
  View.canon [⟨rO, k0_pay1 (View.ld x0 rA) (View.ld x1 rW)⟩]

/-- The one store covers the tile. -/
theorem cover_2 (p0 : Vec F S2000x384 .f32) (y : S2000x384.Idx) :
    ∃ pc ∈ ([⟨rO, p0⟩] : List (View.Piece (Elt F) S2000x384 .f32)), y ∈ pc.1.set :=
  View.cover_of_tiled [⟨rO, p0⟩] S2000x384.size (by rfl) y

/-! ## The body's triple -/

set_option maxHeartbeats 1000000 in
/-- The body on whole staging memrefs, the inputs' at read contents and the output's at anything, runs to the
    continuation holding the inputs' as they were and the output's at `out_2` of the inputs'. -/
theorem sound_kernel (c : Dev nD) (E : Set ℕ) (i : grid0.Coords) (arg1 : Memref sig .tc .vmem S2000x128 .f32) (harg1 : arg1.IsWhole) (arg2 : Memref sig .tc .vmem S128x384 .f32) (harg2 : arg2.IsWhole) (arg3 : Memref sig .tc .vmem S2000x384 .f32) (harg3 : arg3.IsWhole)
    (x0 : Vec F S2000x128 .f32) (x1 : Vec F S128x384 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out_2 x0 x1)) -∗ K ⟨⟩))
      ⊢ wp frame (wpE (defs₀ (F := F)) Variants.none c none) E (cc0__qkv_kernel i arg1 harg1 arg2 harg2 arg3 harg3) K := by
  simp only [cc0__qkv_kernel_eq_skeleton]; unfold cc0__qkv_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover_2 _)

/-! ## The pipeline's proof data -/

/-- The proof data on core `c`: the arrays as the region finds them; after the body at point `t` each input's
    buffer at its block and the output's at `out_2` of the input blocks; the invariant the scoped rest and the
    pseudo-random number register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => out_2 (iblk V c 0 t) (iblk V c 1 t)
  Φ _ := Pipeline.ΦA spec0 c
  q _ := fullShare
  owed _ := 0

/-- The proof data's arrays are the region-entry contents. -/
theorem A_eq (c : Dev nD) (w : Fin cfg0.W) : (dat V c).A w = V c (Pipeline.arrRef spec0 w) := by
  dsimp only [dat]

/-- What the body leaves, window by window. -/
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = out_2 (iblk V c 0 t) (iblk V c 1 t) := by dsimp only [dat]

/-- Each input's current staging buffer holds its block at every point, fetched there or not. -/
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d

/-! ## The body obligation, at a generic point -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t))

/-- The body at any point: the inputs' memrefs hold their blocks, so `sound_kernel` applies; the invariant and
    the core's debt pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (sound_kernel c Set.univ _ _ _ _ _ _ _ (iblk V c 0 t) (iblk V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.R0

end
-- ==== Proof.KI.R1Runs.lean ====
import proofs.«158489_j47493748359308_1_alg».proof.Proof.Gen.KernelIdeal.Launch
import proofs.«158489_j47493748359308_1_alg».proof.Proof.Gen.KernelIdeal.Skeleton
import proofs.«158489_j47493748359308_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the output projection): what every case of its body shares

The body adds the projected attention tile and the bias to the input tile, stores the result, and adds the
tile's column sums and column sums of squares to two row accumulators which the first grid point zeroes.
Everything here is stated at the buffer contents `V` the region is entered with. -/

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place. -/
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place. -/
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place. -/
theorem before_3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch condition -/

/-- The condition of the body's one conditional: the grid coordinate is zero. -/
abbrev cond (i : grid1.Coords) : Prop := (Scalar.cmpi .ne (Scalar.extui (Scalar.cmpi .eq (BitVec.ofNat 32 (i 0).val) 0#32)) 0#32) = 1#1
/-- It holds at the first point only: decided over the grid. -/
theorem hcond : ∀ t : Fin cfg1.N, cond (grid1.coords t) ↔ t.val % 50 = 0 :=
  (by decide +kernel : ∀ t : Fin grid1.N, cond (grid1.coords t) ↔ t.val % 50 = 0)

/-! ## The staging memrefs the body is called with -/

/-- One staging buffer of each output window, through which its contents are stated (the choice does not matter). -/
abbrev VO4 : View sig .tc .vmem S2000x128 .f32 := (Memref.whole cc1_stg4_0 : Memref sig .tc .vmem S2000x128 .f32).view
abbrev VO5 : View sig .tc .vmem S1x128 .f32 := (Memref.whole cc1_stg5_0 : Memref sig .tc .vmem S1x128 .f32).view
abbrev VO6 : View sig .tc .vmem S1x128 .f32 := (Memref.whole cc1_stg6_0 : Memref sig .tc .vmem S1x128 .f32).view
abbrev ms0 (t : Fin cfg1.N) : Memref sig .tc .vmem S2000x128 .f32 := win1_0.stage (cfg1.slots t 0)
abbrev hs0 (t : Fin cfg1.N) : (ms0 t).IsWhole := hstage1_0 ((cfg1.slots t 0).cast nbuf1_0)
abbrev ms1 (t : Fin cfg1.N) : Memref sig .tc .vmem S2000x128 .f32 := win1_1.stage (cfg1.slots t 1)
abbrev hs1 (t : Fin cfg1.N) : (ms1 t).IsWhole := hstage1_1 ((cfg1.slots t 1).cast nbuf1_1)
abbrev ms2 (t : Fin cfg1.N) : Memref sig .tc .vmem S128x128 .f32 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x128 .f32 := win1_3.stage (cfg1.slots t 3)
abbrev hs3 (t : Fin cfg1.N) : (ms3 t).IsWhole := hstage1_3 ((cfg1.slots t 3).cast nbuf1_3)
abbrev ms4 (t : Fin cfg1.N) : Memref sig .tc .vmem S2000x128 .f32 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x128 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x128 .f32 := win1_6.stage (cfg1.slots t 6)
abbrev hs6 (t : Fin cfg1.N) : (ms6 t).IsWhole := hstage1_6 ((cfg1.slots t 6).cast nbuf1_6)

end Cert.KernelIdeal.R1

end
-- ==== Proof.KI.R1RunA.lean ====
import proofs.«158489_j47493748359308_1_alg».proof.Proof.KI.R1Runs

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, the first grid point: the accumulators are zeroed, then this tile is added -/

set_option maxHeartbeats 1000000 in
/-- What the body's stores leave in each output's staging memref, as pieces (last first), when the grid coordinate is zero,
    with the proof that on whole staging memrefs — the inputs' at their contents, the outputs' at anything —
    the body runs to the continuation holding the inputs' as they were and each output's buffer with its pieces written. -/
noncomputable def kernelRun_A (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) :
    Σ' (L4 : List (View.Piece (Elt F) S2000x128 .f32)) (L5 : List (View.Piece (Elt F) S1x128 .f32)),
    { L6 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__out_proj_kernel i arg1 harg1 arg2 harg2 arg3 harg3 arg4 harg4 arg5 harg5 arg6 harg6 arg7 harg7) K } := by
  refine ⟨?_, ?_, ?_, fun E K => ?run⟩
  case run =>
    simp only [cc1__out_proj_kernel_eq_skeleton]; unfold cc1__out_proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
    obtain rfl := harg1.eq_unread hf0; obtain rfl := harg2.eq_unread hf1; obtain rfl := harg3.eq_unread hf2; obtain rfl := harg4.eq_unread hf3
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.KernelIdeal.R1

end
-- ==== Proof.KI.R1RunB.lean ====
import proofs.«158489_j47493748359308_1_alg».proof.Proof.KI.R1RunA

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1, a later grid point: this tile is added to what the point before left -/

set_option maxHeartbeats 1000000 in
/-- What the body's stores leave in each output's staging memref, as pieces (last first), when the grid coordinate is not zero,
    with the proof that on whole staging memrefs — the inputs' at their contents, the two accumulators' at their running contents, the tile output's at anything —
    the body runs to the continuation holding the inputs' as they were and each output's buffer with its pieces written. -/
noncomputable def kernelRun_B (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) :
    Σ' (L4 : List (View.Piece (Elt F) S2000x128 .f32)) (L5 : List (View.Piece (Elt F) S1x128 .f32)),
    { L6 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ owns (c : Thread nD τ) arg6 fullShare xo5 ∗ owns (c : Thread nD τ) arg7 fullShare xo6
            ∗ (iprop(owns (c : Thread nD τ) arg1 fullShare x0 ∗ owns (c : Thread nD τ) arg2 fullShare x1 ∗ owns (c : Thread nD τ) arg3 fullShare x2 ∗ owns (c : Thread nD τ) arg4 fullShare x3
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)
                ∗ (∃ f, arg7.view.loc (c : Thread nD τ) ↦[arg7.view.set]{fullShare} arg7.view.writes (Elt F) f L6)) -∗ K ⟨⟩))
          ⊢ wp frame (wpE (defs₀ (F := F)) Variants.none c none) E (cc1__out_proj_kernel i arg1 harg1 arg2 harg2 arg3 harg3 arg4 harg4 arg5 harg5 arg6 harg6 arg7 harg7) K } := by
  refine ⟨?_, ?_, ?_, fun E K => ?run⟩
  case run =>
    simp only [cc1__out_proj_kernel_eq_skeleton]; unfold cc1__out_proj_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6
    sl_exec (disch := first | exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    iexists _; iexact H6

end Cert.KernelIdeal.R1

end
-- ==== Proof.KI.R1Frame.lean ====
import proofs.«158489_j47493748359308_1_alg».proof.Proof.KI.R1RunB

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the output projection): its frame half at the entry contents `V`

What the three outputs hold after each grid point, the proof data, and the body obligation. -/

/-! ## What each case leaves in each output's staging buffer -/

/-- The pieces the first-point run leaves for output 4 tile its block, so they cover it. -/
theorem cover_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) (y : S2000x128.Idx) :
    ∃ pc ∈ (kernelRun_A c i arg1 harg1 arg2 harg2 arg3 harg3 arg4 harg4 arg5 harg5 arg6 harg6 arg7 harg7 hc x0 x1 x2 x3).1, y ∈ pc.1.set :=
  View.cover_of_tiledL (kernelRun_A c i arg1 harg1 arg2 harg2 arg3 harg3 arg4 harg4 arg5 harg5 arg6 harg6 arg7 harg7 hc x0 x1 x2 x3).1 S2000x128.size (by sl_kernel_rfl) y

/-- What the first-point run leaves in output 4's staging buffer: its pieces read back over anything. -/
def out_A_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) : Vec F S2000x128 .f32 :=
  VO4.read (Elt F) (VO4.writes (Elt F) VO4.junk (kernelRun_A c i arg1 harg1 arg2 harg2 arg3 harg3 arg4 harg4 arg5 harg5 arg6 harg6 arg7 harg7 hc x0 x1 x2 x3).1)

/-- The pieces the first-point run leaves for output 5 tile its block, so they cover it. -/
theorem cover_A_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) (y : S1x128.Idx) :
    ∃ pc ∈ (kernelRun_A c i arg1 harg1 arg2 harg2 arg3 harg3 arg4 harg4 arg5 harg5 arg6 harg6 arg7 harg7 hc x0 x1 x2 x3).2.1, y ∈ pc.1.set :=
  View.cover_of_tiledL (kernelRun_A c i arg1 harg1 arg2 harg2 arg3 harg3 arg4 harg4 arg5 harg5 arg6 harg6 arg7 harg7 hc x0 x1 x2 x3).2.1 S1x128.size (by sl_kernel_rfl) y

/-- What the first-point run leaves in output 5's staging buffer: its pieces read back over anything. -/
def out_A_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) : Vec F S1x128 .f32 :=
  VO5.read (Elt F) (VO5.writes (Elt F) VO5.junk (kernelRun_A c i arg1 harg1 arg2 harg2 arg3 harg3 arg4 harg4 arg5 harg5 arg6 harg6 arg7 harg7 hc x0 x1 x2 x3).2.1)

/-- The pieces the first-point run leaves for output 6 tile its block, so they cover it. -/
theorem cover_A_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) (y : S1x128.Idx) :
    ∃ pc ∈ (kernelRun_A c i arg1 harg1 arg2 harg2 arg3 harg3 arg4 harg4 arg5 harg5 arg6 harg6 arg7 harg7 hc x0 x1 x2 x3).2.2.1, y ∈ pc.1.set :=
  View.cover_of_tiledL (kernelRun_A c i arg1 harg1 arg2 harg2 arg3 harg3 arg4 harg4 arg5 harg5 arg6 harg6 arg7 harg7 hc x0 x1 x2 x3).2.2.1 S1x128.size (by sl_kernel_rfl) y

/-- What the first-point run leaves in output 6's staging buffer: its pieces read back over anything. -/
def out_A_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i)
    (x0 : Vec F S2000x128 .f32) (x1 : Vec F S2000x128 .f32) (x2 : Vec F S128x128 .f32) (x3 : Vec F S1x128 .f32) : Vec F S1x128 .f32 :=
  VO6.read (Elt F) (VO6.writes (Elt F) VO6.junk (kernelRun_A c i arg1 harg1 arg2 harg2 arg3 harg3 arg4 harg4 arg5 harg5 arg6 harg6 arg7 harg7 hc x0 x1 x2 x3).2.2.1)

/-- The pieces the later-point run leaves for output 4 tile its block, so they cover it. -/
theorem cover_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) (y : S2000x128.Idx) :
    ∃ pc ∈ (kernelRun_B c i arg1 harg1 arg2 harg2 arg3 harg3 arg4 harg4 arg5 harg5 arg6 harg6 arg7 harg7 hc x0 x1 x2 x3 xo5 xo6).1, y ∈ pc.1.set :=
  View.cover_of_tiledL (kernelRun_B c i arg1 harg1 arg2 harg2 arg3 harg3 arg4 harg4 arg5 harg5 arg6 harg6 arg7 harg7 hc x0 x1 x2 x3 xo5 xo6).1 S2000x128.size (by sl_kernel_rfl) y

/-- What the later-point run leaves in output 4's staging buffer: its pieces read back over anything. -/
def out_B_4 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) : Vec F S2000x128 .f32 :=
  VO4.read (Elt F) (VO4.writes (Elt F) VO4.junk (kernelRun_B c i arg1 harg1 arg2 harg2 arg3 harg3 arg4 harg4 arg5 harg5 arg6 harg6 arg7 harg7 hc x0 x1 x2 x3 xo5 xo6).1)

/-- The pieces the later-point run leaves for output 5 tile its block, so they cover it. -/
theorem cover_B_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) (y : S1x128.Idx) :
    ∃ pc ∈ (kernelRun_B c i arg1 harg1 arg2 harg2 arg3 harg3 arg4 harg4 arg5 harg5 arg6 harg6 arg7 harg7 hc x0 x1 x2 x3 xo5 xo6).2.1, y ∈ pc.1.set :=
  View.cover_of_tiledL (kernelRun_B c i arg1 harg1 arg2 harg2 arg3 harg3 arg4 harg4 arg5 harg5 arg6 harg6 arg7 harg7 hc x0 x1 x2 x3 xo5 xo6).2.1 S1x128.size (by sl_kernel_rfl) y

/-- What the later-point run leaves in output 5's staging buffer: its pieces read back over anything. -/
def out_B_5 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) : Vec F S1x128 .f32 :=
  VO5.read (Elt F) (VO5.writes (Elt F) VO5.junk (kernelRun_B c i arg1 harg1 arg2 harg2 arg3 harg3 arg4 harg4 arg5 harg5 arg6 harg6 arg7 harg7 hc x0 x1 x2 x3 xo5 xo6).2.1)

/-- The pieces the later-point run leaves for output 6 tile its block, so they cover it. -/
theorem cover_B_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) (y : S1x128.Idx) :
    ∃ pc ∈ (kernelRun_B c i arg1 harg1 arg2 harg2 arg3 harg3 arg4 harg4 arg5 harg5 arg6 harg6 arg7 harg7 hc x0 x1 x2 x3 xo5 xo6).2.2.1, y ∈ pc.1.set :=
  View.cover_of_tiledL (kernelRun_B c i arg1 harg1 arg2 harg2 arg3 harg3 arg4 harg4 arg5 harg5 arg6 harg6 arg7 harg7 hc x0 x1 x2 x3 xo5 xo6).2.2.1 S1x128.size (by sl_kernel_rfl) y

/-- What the later-point run leaves in output 6's staging buffer: its pieces read back over anything. -/
def out_B_6 (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i)
    (x0 : Vec F S2000x128 .f32) (x1 : Vec F S2000x128 .f32) (x2 : Vec F S128x128 .f32) (x3 : Vec F S1x128 .f32) (xo5 : Vec F S1x128 .f32) (xo6 : Vec F S1x128 .f32) : Vec F S1x128 .f32 :=
  VO6.read (Elt F) (VO6.writes (Elt F) VO6.junk (kernelRun_B c i arg1 harg1 arg2 harg2 arg3 harg3 arg4 harg4 arg5 harg5 arg6 harg6 arg7 harg7 hc x0 x1 x2 x3 xo5 xo6).2.2.1)

/-! ## What the outputs hold after each point -/

/-- THE ACCUMULATION. What the three outputs' staging buffers hold after the body at position `n`: at the first point
    the tile, and its column sums and column sums of squares added to zero; at a later point the tile, and its column
    sums added to what the point before left in the two accumulators (their buffers are not written back between). -/
def outsAt (c : Dev nD) : (n : ℕ) → n < cfg1.N → Vec F S2000x128 .f32 × Vec F S1x128 .f32 × Vec F S1x128 .f32
  | 0, hn => (out_A_4 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩),
       out_A_5 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩),
       out_A_6 c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) ((hcond ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 50 = 0 then
      (out_A_4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩),
       out_A_5 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩),
       out_A_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) ((hcond ⟨n + 1, hn⟩).mpr h0) (iblk V c 0 ⟨n + 1, hn⟩) (iblk V c 1 ⟨n + 1, hn⟩) (iblk V c 2 ⟨n + 1, hn⟩) (iblk V c 3 ⟨n + 1, hn⟩))
    else
      (out_B_4 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
       out_B_5 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2,
       out_B_6 c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (fun h => h0 ((hcond ⟨n + 1, hn⟩).mp h)) (iblk V c 0 ⟨n + 1, hn⟩) (iblk V c 1 ⟨n + 1, hn⟩) (iblk V c 2 ⟨n + 1, hn⟩) (iblk V c 3 ⟨n + 1, hn⟩) (outsAt c n (Nat.lt_of_succ_lt hn)).2.1 (outsAt c n (Nat.lt_of_succ_lt hn)).2.2)

/-- `outsAt` at the first point. -/
theorem outsAt_A (c : Dev nD) (t : Fin cfg1.N) (h0 : t.val % 50 = 0) :
    outsAt V c t.val t.isLt = (out_A_4 c (grid1.coords t) (ms0 t) (hs0 t) (ms1 t) (hs1 t) (ms2 t) (hs2 t) (ms3 t) (hs3 t) (ms4 t) (hs4 t) (ms5 t) (hs5 t) (ms6 t) (hs6 t) ((hcond t).mpr h0) (iblk V c 0 t) (iblk V c 1 t) (iblk V c 2 t) (iblk V c 3 t),
       out_A_5 c (grid1.coords t) (ms0 t) (hs0 t) (ms1 t) (hs1 t) (ms2 t) (hs2 t) (ms3 t) (hs3 t) (ms4 t) (hs4 t) (ms5 t) (hs5 t) (ms6 t) (hs6 t) ((hcond t).mpr h0) (iblk V c 0 t) (iblk V c 1 t) (iblk V c 2 t) (iblk V c 3 t),
       out_A_6 c (grid1.coords t) (ms0 t) (hs0 t) (ms1 t) (hs1 t) (ms2 t) (hs2 t) (ms3 t) (hs3 t) (ms4 t) (hs4 t) (ms5 t) (hs5 t) (ms6 t) (hs6 t) ((hcond t).mpr h0) (iblk V c 0 t) (iblk V c 1 t) (iblk V c 2 t) (iblk V c 3 t)) := by
  obtain ⟨n, hn⟩ := t
  cases n with
  | zero => exact rfl
  | succ n => exact (dif_pos h0).trans rfl

/-- `outsAt` at a later point: over what the point before left. -/
theorem outsAt_B (c : Dev nD) (t : Fin cfg1.N) (h0 : ¬t.val % 50 = 0) :
    outsAt V c t.val t.isLt = (out_B_4 c (grid1.coords t) (ms0 t) (hs0 t) (ms1 t) (hs1 t) (ms2 t) (hs2 t) (ms3 t) (hs3 t) (ms4 t) (hs4 t) (ms5 t) (hs5 t) (ms6 t) (hs6 t) (fun h => h0 ((hcond t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
       out_B_5 c (grid1.coords t) (ms0 t) (hs0 t) (ms1 t) (hs1 t) (ms2 t) (hs2 t) (ms3 t) (hs3 t) (ms4 t) (hs4 t) (ms5 t) (hs5 t) (ms6 t) (hs6 t) (fun h => h0 ((hcond t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2,
       out_B_6 c (grid1.coords t) (ms0 t) (hs0 t) (ms1 t) (hs1 t) (ms2 t) (hs2 t) (ms3 t) (hs3 t) (ms4 t) (hs4 t) (ms5 t) (hs5 t) (ms6 t) (hs6 t) (fun h => h0 ((hcond t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of the region's pipeline on core `c`: the arrays as the region finds them (`V`); after the body at
    point `t` each input's buffer at its block and the outputs' at `outsAt`; the invariant the scoped rest and the
    generator register; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt V c t.val t.isLt).1
    | ⟨5, _⟩ => (outsAt V c t.val t.isLt).2.1
    | ⟨6, _⟩ => (outsAt V c t.val t.isLt).2.2
  Φ _ := Pipeline.ΦA spec1 c
  q _ := fullShare
  owed _ := 0

/-- The proof data's arrays are the region-entry contents. -/
theorem A_eq (c : Dev nD) (w : Fin cfg1.W) : (dat V c).A w = V c (Pipeline.arrRef spec1 w) := by
  dsimp only [dat]

/-- What the body leaves, window by window. -/
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = (outsAt V c t.val t.isLt).1 := by dsimp only [dat]
theorem after_5 (c : Dev nD) (t : Fin cfg1.N) : (dat V c).after 5 t = (outsAt V c t.val t.isLt).2.1 := by dsimp only [dat]
theorem after_6 (c : Dev nD) (t : Fin cfg1.N) : (dat V c).after 6 t = (outsAt V c t.val t.isLt).2.2 := by dsimp only [dat]

/-- Each input's current staging buffer holds its block at every point, fetched there or not. -/
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d
theorem before_3 (c : Dev nD) (t : Fin cfg1.N) (d) : (dat V c).before 3 t d = iblk V c 3 t :=
  before_3_of V (dat V c) (A_eq V c 3) (after_3 V c) t d

/-- At a later point accumulator 5's staging buffer holds what the body left at the point before: the point is not the
    first and the buffer was not written back between (it is written back at the last point only). -/
theorem before_5_B (c : Dev nD) (t : Fin cfg1.N) (h0 : ¬t.val % 50 = 0) (d) :
    (dat V c).before 5 t d = (outsAt V c (t.val - 1) (Nat.lt_of_le_of_lt (Nat.sub_le _ _) t.isLt)).2.1 := by
  have hN : t.val < 50 := lt_of_lt_of_eq t.isLt (show cfg1.N = 50 from N_1)
  rw [Dat.before_out_kept _ 5 rfl t (by omega) (Bool.eq_false_iff.mpr fun h => by have := (flush1_5 _).mp h; dsimp only at this; omega)
    (fun _ => rfl) (fun _ _ => rfl)]
  dsimp only [dat]

/-- At a later point accumulator 6's staging buffer holds what the body left at the point before: the point is not the
    first and the buffer was not written back between (it is written back at the last point only). -/
theorem before_6_B (c : Dev nD) (t : Fin cfg1.N) (h0 : ¬t.val % 50 = 0) (d) :
    (dat V c).before 6 t d = (outsAt V c (t.val - 1) (Nat.lt_of_le_of_lt (Nat.sub_le _ _) t.isLt)).2.2 := by
  have hN : t.val < 50 := lt_of_lt_of_eq t.isLt (show cfg1.N = 50 from N_1)
  rw [Dat.before_out_kept _ 6 rfl t (by omega) (Bool.eq_false_iff.mpr fun h => by have := (flush1_6 _).mp h; dsimp only at this; omega)
    (fun _ => rfl) (fun _ _ => rfl)]
  dsimp only [dat]

/-! ## The body obligation, at a generic point -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t))

set_option maxHeartbeats 1600000 in
/-- The body at any point: the inputs' memrefs hold their blocks; the closed form says which case the point is in; at a
    later point the two accumulators hold what the point before left; so the case's run applies; the invariant passes
    through unread; the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3]
  rw [show (dat V c).Φ t.succ = (dat V c).Φ t.castSucc from rfl,
    show (dat V c).owesAt () t.succ = (dat V c).owesAt () t.castSucc from rfl,
    after_0, after_1, after_2, after_3, after_4, after_5, after_6]
  have hN : t.val < 50 := lt_of_lt_of_eq t.isLt (show cfg1.N = 50 from N_1)
  by_cases h0 : t.val % 50 = 0
  · rw [outsAt_A V c t h0]
    dsimp only
    unfold out_A_4 out_A_5 out_A_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_A c (grid1.coords t) _ _ _ _ _ _ _ _ _ _ _ _ _ _ ((hcond t).mpr h0) (iblk V c 0 t) (iblk V c 1 t) (iblk V c 2 t) (iblk V c 3 t)).2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_A_4 c _ _ _ _ _ _ _ _ _ _ _ _ _ _ _ _ _ _ _ _)
    isplitl [H5]
    · unfold owns; iexists _; isplitr
      swap; · iexact H5
      ipureintro; exact View.read_writes_of_cover _ _ _ _ _ (cover_A_5 c _ _ _ _ _ _ _ _ _ _ _ _ _ _ _ _ _ _ _ _)
    unfold owns; iexists _; isplitr
    swap; · iexact H6
    ipureintro; exact View.read_writes_of_cover _ _ _ _ _ (cover_A_6 c _ _ _ _ _ _ _ _ _ _ _ _ _ _ _ _ _ _ _ _)
  · rw [outsAt_B V c t h0]
    dsimp only
    simp only [before_5_B V c t h0, before_6_B V c t h0]
    unfold out_B_4 out_B_5 out_B_6
    iintro ⟨HΦ, Ho, ⟨%d0, H0⟩, ⟨%d1, H1⟩, ⟨%d2, H2⟩, ⟨%d3, H3⟩, ⟨%d4, H4⟩, ⟨%d5, H5⟩, ⟨%d6, H6⟩⟩
    iapply ((kernelRun_B c (grid1.coords t) _ _ _ _ _ _ _ _ _ _ _ _ _ _ (fun h => h0 ((hcond t).mp h)) (iblk V c 0 t) (iblk V c 1 t) (iblk V c 2 t) (iblk V c 3 t) _ _).2.2.2 Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    iintro ⟨H0, H1, H2, H3, ⟨%e4, H4⟩, ⟨%e5, H5⟩, ⟨%e6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]
    · unfold owns; iexists _; isplitr
      swap; · iexact H4
      ipureintro; exact View.read_writes_of_cover _ _ _ _ _ (cover_B_4 c _ _ _ _ _ _ _ _ _ _ _ _ _ _ _ _ _ _ _ _ _ _)
    isplitl [H5]
    · unfold owns; iexists _; isplitr
      swap; · iexact H5
      ipureintro; exact View.read_writes_of_cover _ _ _ _ _ (cover_B_5 c _ _ _ _ _ _ _ _ _ _ _ _ _ _ _ _ _ _ _ _ _ _)
    unfold owns; iexists _; isplitr
    swap; · iexact H6
    ipureintro; exact View.read_writes_of_cover _ _ _ _ _ (cover_B_6 c _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

end Cert.KernelIdeal.R1

end
-- ==== Proof.KI.R2Runs.lean ====
import proofs.«158489_j47493748359308_1_alg».proof.Proof.Gen.KernelIdeal.Launch
import proofs.«158489_j47493748359308_1_alg».proof.Proof.Gen.KernelIdeal.Skeleton
import proofs.«158489_j47493748359308_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The feed-forward region (the third kernel call), at the buffer contents `V` found when it is entered

Twelve windows: nine inputs (the row tile of the pre-normalisation activations, the batch statistics and affine
parameters, the two weight matrices and their biases) and three outputs (the row tile of the result, and the two
`(1,128)` blocks that accumulate the column sum and the column sum of squares over all fifty row tiles). -/

variable (V : (c : Dev nD) → (b : Ref sig .tc) → Buf (Elt F) ((c : Thread nD τ).loc b))

/-- Window `w`'s block at grid point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's staging buffer holds its block at every point, whether fetched there or not, for any proof
    data whose array is the entry contents and whose body leaves the block in place. -/
theorem before_in0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's staging buffer holds its block at every point, whether fetched there or not, for any proof
    data whose array is the entry contents and whose body leaves the block in place. -/
theorem before_in1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's staging buffer holds its block at every point, whether fetched there or not, for any proof
    data whose array is the entry contents and whose body leaves the block in place. -/
theorem before_in2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's staging buffer holds its block at every point, whether fetched there or not, for any proof
    data whose array is the entry contents and whose body leaves the block in place. -/
theorem before_in3_of {c : Dev nD} (dat : Dat τ (Elt F) Unit ℕ (UR sig nD τ) ℕ cfg2 c) (hA : dat.A 3 = V c (Pipeline.arrRef spec2 3))
    (hafter : ∀ t, dat.after 3 t = iblk V c 3 t) (t : Fin cfg2.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's staging buffer holds its block at every point, whether fetched there or not, for any proof
    data whose array is the entry contents and whose body leaves the block in place. -/
theorem before_in4_of {c : Dev nD} (dat : Dat τ (Elt F) Unit ℕ (UR sig nD τ) ℕ cfg2 c) (hA : dat.A 4 = V c (Pipeline.arrRef spec2 4))
    (hafter : ∀ t, dat.after 4 t = iblk V c 4 t) (t : Fin cfg2.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's staging buffer holds its block at every point, whether fetched there or not, for any proof
    data whose array is the entry contents and whose body leaves the block in place. -/
theorem before_in5_of {c : Dev nD} (dat : Dat τ (Elt F) Unit ℕ (UR sig nD τ) ℕ cfg2 c) (hA : dat.A 5 = V c (Pipeline.arrRef spec2 5))
    (hafter : ∀ t, dat.after 5 t = iblk V c 5 t) (t : Fin cfg2.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's staging buffer holds its block at every point, whether fetched there or not, for any proof
    data whose array is the entry contents and whose body leaves the block in place. -/
theorem before_in6_of {c : Dev nD} (dat : Dat τ (Elt F) Unit ℕ (UR sig nD τ) ℕ cfg2 c) (hA : dat.A 6 = V c (Pipeline.arrRef spec2 6))
    (hafter : ∀ t, dat.after 6 t = iblk V c 6 t) (t : Fin cfg2.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's staging buffer holds its block at every point, whether fetched there or not, for any proof
    data whose array is the entry contents and whose body leaves the block in place. -/
theorem before_in7_of {c : Dev nD} (dat : Dat τ (Elt F) Unit ℕ (UR sig nD τ) ℕ cfg2 c) (hA : dat.A 7 = V c (Pipeline.arrRef spec2 7))
    (hafter : ∀ t, dat.after 7 t = iblk V c 7 t) (t : Fin cfg2.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's staging buffer holds its block at every point, whether fetched there or not, for any proof
    data whose array is the entry contents and whose body leaves the block in place. -/
theorem before_in8_of {c : Dev nD} (dat : Dat τ (Elt F) Unit ℕ (UR sig nD τ) ℕ cfg2 c) (hA : dat.A 8 = V c (Pipeline.arrRef spec2 8))
    (hafter : ∀ t, dat.after 8 t = iblk V c 8 t) (t : Fin cfg2.N) (d) : dat.before 8 t d = iblk V c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-! ## The body's branch: is this the first row tile? -/

/-- The condition of the body's one conditional, from the grid coordinate: the tile index is zero. -/
abbrev cond0 (i : grid2.Coords) : Prop := (Scalar.cmpi .ne (Scalar.extui (Scalar.cmpi .eq (BitVec.ofNat 32 (i 0).val) 0#32)) 0#32) = 1#1
/-- It holds at the first point only — decided over the fifty points. -/
theorem hcond0 : ∀ t : Fin cfg2.N, cond0 (grid2.coords t) ↔ t.val = 0 :=
  (by decide +kernel : ∀ t : Fin grid2.N, cond0 (grid2.coords t) ↔ t.val = 0)

/-! ## The staging memrefs the body is called with at a point -/

abbrev ms0 (t : Fin cfg2.N) : Memref sig .tc .vmem S2000x128 .f32 := win2_0.stage (cfg2.slots t 0)
abbrev hs0 (t : Fin cfg2.N) : (ms0 t).IsWhole := hstage2_0 ((cfg2.slots t 0).cast nbuf2_0)
abbrev ms1 (t : Fin cfg2.N) : Memref sig .tc .vmem S1x128 .f32 := win2_1.stage (cfg2.slots t 1)
abbrev hs1 (t : Fin cfg2.N) : (ms1 t).IsWhole := hstage2_1 ((cfg2.slots t 1).cast nbuf2_1)
abbrev ms2 (t : Fin cfg2.N) : Memref sig .tc .vmem S1x128 .f32 := win2_2.stage (cfg2.slots t 2)
abbrev hs2 (t : Fin cfg2.N) : (ms2 t).IsWhole := hstage2_2 ((cfg2.slots t 2).cast nbuf2_2)
abbrev ms3 (t : Fin cfg2.N) : Memref sig .tc .vmem S1x128 .f32 := win2_3.stage (cfg2.slots t 3)
abbrev hs3 (t : Fin cfg2.N) : (ms3 t).IsWhole := hstage2_3 ((cfg2.slots t 3).cast nbuf2_3)
abbrev ms4 (t : Fin cfg2.N) : Memref sig .tc .vmem S1x128 .f32 := win2_4.stage (cfg2.slots t 4)
abbrev hs4 (t : Fin cfg2.N) : (ms4 t).IsWhole := hstage2_4 ((cfg2.slots t 4).cast nbuf2_4)
abbrev ms5 (t : Fin cfg2.N) : Memref sig .tc .vmem S128x256 .f32 := win2_5.stage (cfg2.slots t 5)
abbrev hs5 (t : Fin cfg2.N) : (ms5 t).IsWhole := hstage2_5 ((cfg2.slots t 5).cast nbuf2_5)
abbrev ms6 (t : Fin cfg2.N) : Memref sig .tc .vmem S1x256 .f32 := win2_6.stage (cfg2.slots t 6)
abbrev hs6 (t : Fin cfg2.N) : (ms6 t).IsWhole := hstage2_6 ((cfg2.slots t 6).cast nbuf2_6)
abbrev ms7 (t : Fin cfg2.N) : Memref sig .tc .vmem S256x128 .f32 := win2_7.stage (cfg2.slots t 7)
abbrev hs7 (t : Fin cfg2.N) : (ms7 t).IsWhole := hstage2_7 ((cfg2.slots t 7).cast nbuf2_7)
abbrev ms8 (t : Fin cfg2.N) : Memref sig .tc .vmem S1x128 .f32 := win2_8.stage (cfg2.slots t 8)
abbrev hs8 (t : Fin cfg2.N) : (ms8 t).IsWhole := hstage2_8 ((cfg2.slots t 8).cast nbuf2_8)
abbrev ms9 (t : Fin cfg2.N) : Memref sig .tc .vmem S2000x128 .f32 := win2_9.stage (cfg2.slots t 9)
abbrev hs9 (t : Fin cfg2.N) : (ms9 t).IsWhole := hstage2_9 ((cfg2.slots t 9).cast nbuf2_9)
abbrev ms10 (t : Fin cfg2.N) : Memref sig .tc .vmem S1x128 .f32 := win2_10.stage (cfg2.slots t 10)
abbrev hs10 (t : Fin cfg2.N) : (ms10 t).IsWhole := hstage2_10 ((cfg2.slots t 10).cast nbuf2_10)
abbrev ms11 (t : Fin cfg2.N) : Memref sig .tc .vmem S1x128 .f32 := win2_11.stage (cfg2.slots t 11)
abbrev hs11 (t : Fin cfg2.N) : (ms11 t).IsWhole := hstage2_11 ((cfg2.slots t 11).cast nbuf2_11)

/-- One staging buffer of each output window, through which its contents are stated (the choice does not matter). -/
abbrev VO9 : View sig .tc .vmem S2000x128 .f32 := (ms9 ⟨0, by decide⟩).view
abbrev VO10 : View sig .tc .vmem S1x128 .f32 := (ms10 ⟨0, by decide⟩).view
abbrev VO11 : View sig .tc .vmem S1x128 .f32 := (ms11 ⟨0, by decide⟩).view

end Cert.KernelIdeal.R2

end
-- ==== Proof.KI.R2RunA.lean ====
import proofs.«158489_j47493748359308_1_alg».proof.Proof.KI.R2Runs

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The feed-forward body run whole: the first row tile -/

set_option maxHeartbeats 4000000 in
/-- The whole body at the FIRST row tile (the conditional taken: both accumulator blocks are zeroed before anything
    else). On whole staging memrefs — the nine inputs at their contents, the three outputs at anything — the body runs
    to the continuation holding the inputs as they were and each output's buffer with the listed pieces written (last
    first); the piece lists are the witnesses the run finds. -/
noncomputable def kernelRun_A (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) :
    Σ' (L9 : List (View.Piece (Elt F) S2000x128 .f32)) (L10 : List (View.Piece (Elt F) S1x128 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__ffn_kernel_eq_skeleton]; unfold cc2__ffn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

end Cert.KernelIdeal.R2

end
-- ==== Proof.KI.R2RunB.lean ====
import proofs.«158489_j47493748359308_1_alg».proof.Proof.KI.R2RunA

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The feed-forward body run whole: a later row tile -/

set_option maxHeartbeats 4000000 in
/-- The whole body at any LATER row tile (the conditional not taken). On whole staging memrefs — the nine inputs at
    their contents, the two accumulator blocks at their running contents, the tile output at anything — the body runs
    to the continuation holding the inputs as they were and each output's buffer with the listed pieces written (last
    first); the piece lists are the witnesses the run finds. -/
noncomputable def kernelRun_B (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) :
    Σ' (L9 : List (View.Piece (Elt F) S2000x128 .f32)) (L10 : List (View.Piece (Elt F) S1x128 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
            ∗ (∃ d, owns (c : Thread nD τ) arg10 fullShare d) ∗ owns (c : Thread nD τ) arg11 fullShare xo10 ∗ owns (c : Thread nD τ) arg12 fullShare xo11
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8
                ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc2__ffn_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc2__ffn_kernel_eq_skeleton]; unfold cc2__ffn_kernel_skel
    simp only [k2_part1_eq_skeleton]; unfold k2_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg11.eq_unread hf10; obtain rfl := harg12.eq_unread hf11
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    iexists _; iexact H11

end Cert.KernelIdeal.R2

end
-- ==== Proof.KI.R2Frame.lean ====
import proofs.«158489_j47493748359308_1_alg».proof.Proof.KI.R2RunB

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The feed-forward region's frame half: what the three outputs hold point by point, the proof data, the body obligation -/

variable (V : (c : Dev nD) → (b : Ref sig .tc) → Buf (Elt F) ((c : Thread nD τ).loc b))

/-! ## What each case leaves in each output's staging buffer -/

/-- The pieces the first-tile run leaves for the row-tile output tile its block, so they cover it. -/
theorem cover_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (y : S2000x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1 S2000x128.size (by sl_kernel_rfl) y

/-- What the first-tile run leaves in the row-tile output: its pieces read back over junk. -/
def out_A_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S2000x128 .f32 :=
  VO9.read (Elt F) (VO9.writes (Elt F) VO9.junk (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).1)

/-- The pieces the first-tile run leaves for the column-sum block tile its block, so they cover it. -/
theorem cover_A_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (y : S1x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1 S1x128.size (by sl_kernel_rfl) y

/-- What the first-tile run leaves in the column-sum block: its pieces read back over junk. -/
def out_A_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S1x128 .f32 :=
  VO10.read (Elt F) (VO10.writes (Elt F) VO10.junk (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.1)

/-- The pieces the first-tile run leaves for the column-sum-of-squares block tile its block, so they cover it. -/
theorem cover_A_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (y : S1x128.Idx) :
    ∃ pc ∈ (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1, y ∈ pc.1.set :=
  View.cover_of_tiledL (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1 S1x128.size (by sl_kernel_rfl) y

/-- What the first-tile run leaves in the column-sum-of-squares block: its pieces read back over junk. -/
def out_A_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S1x128 .f32 :=
  VO11.read (Elt F) (VO11.writes (Elt F) VO11.junk (kernelRun_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8).2.2.1)

/-- The pieces the later-tile run leaves for the row-tile output tile its block, so they cover it. -/
theorem cover_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) (y : S2000x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).1 S2000x128.size (by sl_kernel_rfl) y

/-- What the later-tile run leaves in the row-tile output: its pieces read back over junk. -/
def out_B_9 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) : Vec F S2000x128 .f32 :=
  VO9.read (Elt F) (VO9.writes (Elt F) VO9.junk (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).1)

/-- The pieces the later-tile run leaves for the column-sum block tile its block, so they cover it. -/
theorem cover_B_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) (y : S1x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.1 S1x128.size (by sl_kernel_rfl) y

/-- What the later-tile run leaves in the column-sum block: its pieces read back over junk. -/
def out_B_10 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) : Vec F S1x128 .f32 :=
  VO10.read (Elt F) (VO10.writes (Elt F) VO10.junk (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.1)

/-- The pieces the later-tile run leaves for the column-sum-of-squares block tile its block, so they cover it. -/
theorem cover_B_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) (y : S1x128.Idx) :
    ∃ pc ∈ (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.2.1, y ∈ pc.1.set :=
  View.cover_of_tiledL (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.2.1 S1x128.size (by sl_kernel_rfl) y

/-- What the later-tile run leaves in the column-sum-of-squares block: its pieces read back over junk. -/
def out_B_11 (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) : Vec F S1x128 .f32 :=
  VO11.read (Elt F) (VO11.writes (Elt F) VO11.junk (kernelRun_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11).2.2.1)

/-! ## What the outputs hold after each point -/

/-- The three output blocks after a point: the row tile, the running column sum, the running column sum of squares. -/
structure OutBlocks (F : FTy → Type) [FloatOps F] where
  tile : Vec F S2000x128 .f32
  sum : Vec F S1x128 .f32
  sq : Vec F S1x128 .f32

/-- The first-tile run at point `t`'s memrefs and input blocks. -/
def outA (c : Dev nD) (t : Fin cfg2.N) (h0 : t.val = 0) : OutBlocks F :=
  ⟨out_A_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((hcond0 t).mpr h0) (iblk V c 0 t) (iblk V c 1 t) (iblk V c 2 t) (iblk V c 3 t) (iblk V c 4 t) (iblk V c 5 t) (iblk V c 6 t) (iblk V c 7 t) (iblk V c 8 t),
   out_A_10 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((hcond0 t).mpr h0) (iblk V c 0 t) (iblk V c 1 t) (iblk V c 2 t) (iblk V c 3 t) (iblk V c 4 t) (iblk V c 5 t) (iblk V c 6 t) (iblk V c 7 t) (iblk V c 8 t),
   out_A_11 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) ((hcond0 t).mpr h0) (iblk V c 0 t) (iblk V c 1 t) (iblk V c 2 t) (iblk V c 3 t) (iblk V c 4 t) (iblk V c 5 t) (iblk V c 6 t) (iblk V c 7 t) (iblk V c 8 t)⟩

/-- The later-tile run at point `t`'s memrefs and input blocks, over the running sums `p10`, `p11`. -/
def outB (c : Dev nD) (t : Fin cfg2.N) (h0 : ¬t.val = 0) (p10 p11 : Vec F S1x128 .f32) : OutBlocks F :=
  ⟨out_B_9 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((hcond0 t).mp h)) (iblk V c 0 t) (iblk V c 1 t) (iblk V c 2 t) (iblk V c 3 t) (iblk V c 4 t) (iblk V c 5 t) (iblk V c 6 t) (iblk V c 7 t) (iblk V c 8 t) p10 p11,
   out_B_10 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((hcond0 t).mp h)) (iblk V c 0 t) (iblk V c 1 t) (iblk V c 2 t) (iblk V c 3 t) (iblk V c 4 t) (iblk V c 5 t) (iblk V c 6 t) (iblk V c 7 t) (iblk V c 8 t) p10 p11,
   out_B_11 c (grid2.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) (ms10 t) (hs10 t) (ms11 t) (hs11 t) (fun h => h0 ((hcond0 t).mp h)) (iblk V c 0 t) (iblk V c 1 t) (iblk V c 2 t) (iblk V c 3 t) (iblk V c 4 t) (iblk V c 5 t) (iblk V c 6 t) (iblk V c 7 t) (iblk V c 8 t) p10 p11⟩

/-- THE ACCUMULATION. What the three outputs' staging buffers hold after the body at position `n`: at the first
    point the first-tile run; at a later point the later-tile run over the sums the point before left (the two
    accumulator blocks are not written back in between). -/
def outsAt (c : Dev nD) : (n : ℕ) → n < cfg2.N → OutBlocks F
  | 0, hn => outA V c ⟨0, hn⟩ rfl
  | n + 1, hn => outB V c ⟨n + 1, hn⟩ (Nat.succ_ne_zero n)
      (outsAt c n (Nat.lt_of_succ_lt hn)).sum (outsAt c n (Nat.lt_of_succ_lt hn)).sq

/-- At the first point. -/
theorem outsAt_A (c : Dev nD) (t : Fin cfg2.N) (h0 : t.val = 0) : outsAt V c t.val t.isLt = outA V c t h0 := by
  obtain ⟨n, hn⟩ := t
  cases n with
  | zero => rfl
  | succ n => exact absurd h0 (Nat.succ_ne_zero n)

/-- At a later point: over what the point before left. -/
theorem outsAt_B (c : Dev nD) (t : Fin cfg2.N) (h0 : ¬t.val = 0) :
    outsAt V c t.val t.isLt = outB V c t h0
      (outsAt V c (t.val - 1) (Nat.lt_of_le_of_lt (Nat.sub_le _ _) t.isLt)).sum
      (outsAt V c (t.val - 1) (Nat.lt_of_le_of_lt (Nat.sub_le _ _) t.isLt)).sq := by
  obtain ⟨n, hn⟩ := t
  cases n with
  | zero => exact absurd rfl h0
  | succ n => rfl

/-! ## The proof data -/

/-- The proof data of this pipeline on core `c`: the arrays as the region finds them; after the body at point `t`
    each input's buffer at its block and the three outputs' at `outsAt`; the scoped rest and the generator register
    untouched; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => (outsAt V c t.val t.isLt).tile
    | ⟨10, _⟩ => (outsAt V c t.val t.isLt).sum
    | ⟨11, _⟩ => (outsAt V c t.val t.isLt).sq
  Φ _ := Pipeline.ΦA spec2 c
  q _ := fullShare
  owed _ := 0

/-- The proof data's arrays are the region-entry contents. -/
theorem A_eq (c : Dev nD) (w : Fin cfg2.W) : (dat V c).A w = V c (Pipeline.arrRef spec2 w) := by
  dsimp only [dat]

theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = iblk V c 3 t := by dsimp only [dat]
theorem after_4 (c : Dev nD) (t : Fin cfg2.N) : (dat V c).after 4 t = iblk V c 4 t := by dsimp only [dat]
theorem after_5 (c : Dev nD) (t : Fin cfg2.N) : (dat V c).after 5 t = iblk V c 5 t := by dsimp only [dat]
theorem after_6 (c : Dev nD) (t : Fin cfg2.N) : (dat V c).after 6 t = iblk V c 6 t := by dsimp only [dat]
theorem after_7 (c : Dev nD) (t : Fin cfg2.N) : (dat V c).after 7 t = iblk V c 7 t := by dsimp only [dat]
theorem after_8 (c : Dev nD) (t : Fin cfg2.N) : (dat V c).after 8 t = iblk V c 8 t := by dsimp only [dat]
theorem after_9 (c : Dev nD) (t : Fin cfg2.N) : (dat V c).after 9 t = (outsAt V c t.val t.isLt).tile := by dsimp only [dat]
theorem after_10 (c : Dev nD) (t : Fin cfg2.N) : (dat V c).after 10 t = (outsAt V c t.val t.isLt).sum := by dsimp only [dat]
theorem after_11 (c : Dev nD) (t : Fin cfg2.N) : (dat V c).after 11 t = (outsAt V c t.val t.isLt).sq := by dsimp only [dat]

/-- Input window 0's staging buffer holds its block at every point. -/
theorem before_0 (c : Dev nD) (t : Fin cfg2.N) (d) : (dat V c).before 0 t d = iblk V c 0 t :=
  before_in0_of V (dat V c) (A_eq V c 0) (after_0 V c) t d
/-- Input window 1's staging buffer holds its block at every point. -/
theorem before_1 (c : Dev nD) (t : Fin cfg2.N) (d) : (dat V c).before 1 t d = iblk V c 1 t :=
  before_in1_of V (dat V c) (A_eq V c 1) (after_1 V c) t d
/-- Input window 2's staging buffer holds its block at every point. -/
theorem before_2 (c : Dev nD) (t : Fin cfg2.N) (d) : (dat V c).before 2 t d = iblk V c 2 t :=
  before_in2_of V (dat V c) (A_eq V c 2) (after_2 V c) t d
/-- Input window 3's staging buffer holds its block at every point. -/
theorem before_3 (c : Dev nD) (t : Fin cfg2.N) (d) : (dat V c).before 3 t d = iblk V c 3 t :=
  before_in3_of V (dat V c) (A_eq V c 3) (after_3 V c) t d
/-- Input window 4's staging buffer holds its block at every point. -/
theorem before_4 (c : Dev nD) (t : Fin cfg2.N) (d) : (dat V c).before 4 t d = iblk V c 4 t :=
  before_in4_of V (dat V c) (A_eq V c 4) (after_4 V c) t d
/-- Input window 5's staging buffer holds its block at every point. -/
theorem before_5 (c : Dev nD) (t : Fin cfg2.N) (d) : (dat V c).before 5 t d = iblk V c 5 t :=
  before_in5_of V (dat V c) (A_eq V c 5) (after_5 V c) t d
/-- Input window 6's staging buffer holds its block at every point. -/
theorem before_6 (c : Dev nD) (t : Fin cfg2.N) (d) : (dat V c).before 6 t d = iblk V c 6 t :=
  before_in6_of V (dat V c) (A_eq V c 6) (after_6 V c) t d
/-- Input window 7's staging buffer holds its block at every point. -/
theorem before_7 (c : Dev nD) (t : Fin cfg2.N) (d) : (dat V c).before 7 t d = iblk V c 7 t :=
  before_in7_of V (dat V c) (A_eq V c 7) (after_7 V c) t d
/-- Input window 8's staging buffer holds its block at every point. -/
theorem before_8 (c : Dev nD) (t : Fin cfg2.N) (d) : (dat V c).before 8 t d = iblk V c 8 t :=
  before_in8_of V (dat V c) (A_eq V c 8) (after_8 V c) t d

/-- At a later point the column-sum block's staging buffer holds what the body left at the point before: the point is
    not the first, and the block is written back only after the last point. -/
theorem before_10_B (c : Dev nD) (t : Fin cfg2.N) (h0 : ¬t.val = 0) (d) :
    (dat V c).before 10 t d = (outsAt V c (t.val - 1) (Nat.lt_of_le_of_lt (Nat.sub_le _ _) t.isLt)).sum := by
  have hN : t.val < 50 := lt_of_lt_of_eq t.isLt (show cfg2.N = 50 from N_2)
  rw [Dat.before_out_kept _ 10 rfl t h0 (Bool.eq_false_iff.mpr fun h => by have := (flush2_10 _).mp h; dsimp only at this; omega)
    (fun _ => rfl) (fun _ _ => rfl)]
  dsimp only [dat]

/-- The same for the column-sum-of-squares block. -/
theorem before_11_B (c : Dev nD) (t : Fin cfg2.N) (h0 : ¬t.val = 0) (d) :
    (dat V c).before 11 t d = (outsAt V c (t.val - 1) (Nat.lt_of_le_of_lt (Nat.sub_le _ _) t.isLt)).sq := by
  have hN : t.val < 50 := lt_of_lt_of_eq t.isLt (show cfg2.N = 50 from N_2)
  rw [Dat.before_out_kept _ 11 rfl t h0 (Bool.eq_false_iff.mpr fun h => by have := (flush2_11 _).mp h; dsimp only at this; omega)
    (fun _ => rfl) (fun _ _ => rfl)]
  dsimp only [dat]

end Cert.KernelIdeal.R2

end
-- ==== Proof.KI.R2Body.lean ====
import proofs.«158489_j47493748359308_1_alg».proof.Proof.KI.R2Frame

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The feed-forward region's body obligation -/

variable (V : (c : Dev nD) → (b : Ref sig .tc) → Buf (Elt F) ((c : Thread nD τ).loc b))

/-- What the body is called with at point `t`, the windows one by one, -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d))
    ∗ (∃ d, owns (c : Thread nD τ) (ms10 t) fullShare ((dat V c).before 10 t d))
    ∗ (∃ d, owns (c : Thread nD τ) (ms11 t) fullShare ((dat V c).before 11 t d)))

/-- and what it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t)
    ∗ owns (c : Thread nD τ) (ms10 t) fullShare ((dat V c).after 10 t)
    ∗ owns (c : Thread nD τ) (ms11 t) fullShare ((dat V c).after 11 t))

set_option maxHeartbeats 1600000 in
/-- The body at any point: the inputs' memrefs hold their blocks; the point is the first or a later one; at a later
    one the two accumulator blocks hold what the point before left; so the matching whole-body run applies; the
    invariant passes through unread; the core owes nothing throughout. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2, before_3, before_4, before_5, before_6, before_7, before_8]
  rw [show (dat V c).Φ t.succ = (dat V c).Φ t.castSucc from rfl,
    show (dat V c).owesAt () t.succ = (dat V c).owesAt () t.castSucc from rfl,
    after_0, after_1, after_2, after_3, after_4, after_5, after_6, after_7, after_8, after_9, after_10, after_11]
  by_cases h0 : t.val = 0
  · rw [outsAt_A V c t h0]
    unfold outA out_A_9 out_A_10 out_A_11
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_A c (grid2.coords t) _ _ _ _ _ _ _ _ _ _ _ _ _ _ _ _ _ _ _ _ _ _ _ _ ((hcond0 t).mpr h0) (iblk V c 0 t) (iblk V c 1 t) (iblk V c 2 t) (iblk V c 3 t) (iblk V c 4 t) (iblk V c 5 t) (iblk V c 6 t) (iblk V c 7 t) (iblk V c 8 t)).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_A_9 c _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_A_10 c _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_A_11 c _ _ _ _ _ _ _ _ _ _ _ _ _ _ _ _ _ _ _ _ _ _ _ _ _ _ _ _ _ _ _ _ _ _ _)
  · rw [outsAt_B V c t h0]
    simp only [before_10_B V c t h0, before_11_B V c t h0]
    unfold outB out_B_9 out_B_10 out_B_11
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((kernelRun_B c (grid2.coords t) _ _ _ _ _ _ _ _ _ _ _ _ _ _ _ _ _ _ _ _ _ _ _ _ (fun h => h0 ((hcond0 t).mp h)) (iblk V c 0 t) (iblk V c 1 t) (iblk V c 2 t) (iblk V c 3 t) (iblk V c 4 t) (iblk V c 5 t) (iblk V c 6 t) (iblk V c 7 t) (iblk V c 8 t) _ _).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexact H10
    isplitl [H11]; · iexact H11
    iintro ⟨H0, H1, H2, H3, H4, H5, H6, H7, H8, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (cover_B_9 c _ _ _ _ _ _ _ _ _ _ _ _ _ _ _ _ _ _ _ _ _ _ _ _ _ _ _ _ _ _ _ _ _ _ _ _ _)
    isplitl [H10]
    · unfold owns; iexists _; isplitr
      swap; · iexact H10
      ipureintro; exact View.read_writes_of_cover _ _ _ _ _ (cover_B_10 c _ _ _ _ _ _ _ _ _ _ _ _ _ _ _ _ _ _ _ _ _ _ _ _ _ _ _ _ _ _ _ _ _ _ _ _ _)
    unfold owns; iexists _; isplitr
    swap; · iexact H11
    ipureintro; exact View.read_writes_of_cover _ _ _ _ _ (cover_B_11 c _ _ _ _ _ _ _ _ _ _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W2, bigSep_W2]
  exact sound_body V c t

end Cert.KernelIdeal.R2

end
-- ==== Proof.KI.R3.lean ====
import proofs.«158489_j47493748359308_1_alg».proof.Proof.Gen.KernelIdeal.Launch
import proofs.«158489_j47493748359308_1_alg».proof.Proof.Gen.KernelIdeal.Skeleton
import proofs.«158489_j47493748359308_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.R3

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The final normalisation region: a row tile, four parameter rows, one output tile per grid point -/

/-- Window `w`'s block at point `t`, read off its array as the region finds it. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! An input window's current staging buffer holds its block at every point, fetched there or not (an unfetched
    window's block index has not moved), for any proof data over the entry arrays whose body leaves the block in place. -/
theorem before_0_of {c : Dev nD} (dat : Dat τ (Elt F) Unit ℕ (UR sig nD τ) ℕ cfg3 c) (hA : dat.A 0 = V c (Pipeline.arrRef spec3 0))
    (hafter : ∀ t, dat.after 0 t = iblk V c 0 t) (t : Fin cfg3.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg3 c) (hA : dat.A 1 = V c (Pipeline.arrRef spec3 1))
    (hafter : ∀ t, dat.after 1 t = iblk V c 1 t) (t : Fin cfg3.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg3 c) (hA : dat.A 2 = V c (Pipeline.arrRef spec3 2))
    (hafter : ∀ t, dat.after 2 t = iblk V c 2 t) (t : Fin cfg3.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg3 c) (hA : dat.A 3 = V c (Pipeline.arrRef spec3 3))
    (hafter : ∀ t, dat.after 3 t = iblk V c 3 t) (t : Fin cfg3.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg3 c) (hA : dat.A 4 = V c (Pipeline.arrRef spec3 4))
    (hafter : ∀ t, dat.after 4 t = iblk V c 4 t) (t : Fin cfg3.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- The whole row tile and the whole parameter row, as rectangles. -/
abbrev rT : Rect S2000x128 := Rect.unit (s := S2000x128) ![0, 0] S2000x128.size inb_S2000x128_S2000x128_0_0
abbrev rR : Rect S1x128 := Rect.unit (s := S1x128) ![0, 0] S1x128.size inb_S1x128_S1x128_0_0

/-- The output tile after the body, from the input blocks: the body's one store, over the whole tile. -/
def out_5 (x0 : Vec F S2000x128 .f32) (x1 x2 x3 x4 : Vec F S1x128 .f32) : Vec F S2000x128 .f32 :=
  View.canon [⟨rT, k3_pay1 (View.ld x0 rT) (View.ld x1 rR) (View.ld x2 rR) (View.ld x3 rR) (View.ld x4 rR)⟩]

/-- The one store covers the tile. -/
theorem cover_5 (p0 : Vec F S2000x128 .f32) (y : S2000x128.Idx) :
    ∃ pc ∈ ([⟨rT, p0⟩] : List (View.Piece (Elt F) S2000x128 .f32)), y ∈ pc.1.set :=
  View.cover_of_tiled [⟨rT, p0⟩] S2000x128.size (by rfl) y

/-! ## The body's triple -/

set_option maxHeartbeats 1000000 in
/-- The body on whole staging memrefs, the inputs' at read contents and the output's at anything, runs to the
    continuation holding the inputs' as they were and the output's at `out_5` of the inputs'. -/
theorem sound_kernel (c : Dev nD) (E : Set ℕ) (i : grid3.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S2000x128 .f32) (harg6 : arg6.IsWhole)
    (x0 : Vec F S2000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out_5 x0 x1 x2 x3 x4)) -∗ K ⟨⟩))
      ⊢ wp frame (wpE (defs₀ (F := F)) Variants.none c none) E (cc3__bn_final_kernel i arg1 harg1 arg2 harg2 arg3 harg3 arg4 harg4 arg5 harg5 arg6 harg6) K := by
  simp only [cc3__bn_final_kernel_eq_skeleton]; unfold cc3__bn_final_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover_5 _)

/-! ## The pipeline's proof data -/

/-- The proof data on core `c`: the arrays as the region finds them; after the body at point `t` each input's
    buffer at its block and the output's at `out_5` of the input blocks; the invariant the scoped rest and the
    pseudo-random number register, untouched; nothing owed; full shares. -/
def dat (c : Dev nD) : Dat τ (Elt F) Unit ℕ (UR sig nD τ) ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => out_5 (iblk V c 0 t) (iblk V c 1 t) (iblk V c 2 t) (iblk V c 3 t) (iblk V c 4 t)
  Φ _ := Pipeline.ΦA spec3 c
  q _ := fullShare
  owed _ := 0

/-- The proof data's arrays are the region-entry contents. -/
theorem A_eq (c : Dev nD) (w : Fin cfg3.W) : (dat V c).A w = V c (Pipeline.arrRef spec3 w) := by
  dsimp only [dat]

/-- What the body leaves, window by window. -/
theorem after_0 (c : Dev nD) (t : Fin cfg3.N) : (dat V c).after 0 t = iblk V c 0 t := by dsimp only [dat]
theorem after_1 (c : Dev nD) (t : Fin cfg3.N) : (dat V c).after 1 t = iblk V c 1 t := by dsimp only [dat]
theorem after_2 (c : Dev nD) (t : Fin cfg3.N) : (dat V c).after 2 t = iblk V c 2 t := by dsimp only [dat]
theorem after_3 (c : Dev nD) (t : Fin cfg3.N) : (dat V c).after 3 t = iblk V c 3 t := by dsimp only [dat]
theorem after_4 (c : Dev nD) (t : Fin cfg3.N) : (dat V c).after 4 t = iblk V c 4 t := by dsimp only [dat]
theorem after_5 (c : Dev nD) (t : Fin cfg3.N) : (dat V c).after 5 t = out_5 (iblk V c 0 t) (iblk V c 1 t) (iblk V c 2 t) (iblk V c 3 t) (iblk V c 4 t) := by dsimp only [dat]

/-- Each input's current staging buffer holds its block at every point, fetched there or not. -/
theorem before_0 (c : Dev nD) (t : Fin cfg3.N) (d) : (dat V c).before 0 t d = iblk V c 0 t :=
  before_0_of V (dat V c) (A_eq V c 0) (after_0 V c) t d
theorem before_1 (c : Dev nD) (t : Fin cfg3.N) (d) : (dat V c).before 1 t d = iblk V c 1 t :=
  before_1_of V (dat V c) (A_eq V c 1) (after_1 V c) t d
theorem before_2 (c : Dev nD) (t : Fin cfg3.N) (d) : (dat V c).before 2 t d = iblk V c 2 t :=
  before_2_of V (dat V c) (A_eq V c 2) (after_2 V c) t d
theorem before_3 (c : Dev nD) (t : Fin cfg3.N) (d) : (dat V c).before 3 t d = iblk V c 3 t :=
  before_3_of V (dat V c) (A_eq V c 3) (after_3 V c) t d
theorem before_4 (c : Dev nD) (t : Fin cfg3.N) (d) : (dat V c).before 4 t d = iblk V c 4 t :=
  before_4_of V (dat V c) (A_eq V c 4) (after_4 V c) t d

/-! ## The body obligation, at a generic point -/

/-- What the body is called with at point `t`, the windows one by one, -/
def bodyPre (c : Dev nD) (t : Fin cfg3.N) : sProp 𝕄 :=
  iprop((dat V c).Φ t.castSucc ∗ (dat V c).owesAt () t.castSucc
    ∗ (∃ d, owns (c : Thread nD τ) (st3_0 t) fullShare ((dat V c).before 0 t d))
    ∗ (∃ d, owns (c : Thread nD τ) (st3_1 t) fullShare ((dat V c).before 1 t d))
    ∗ (∃ d, owns (c : Thread nD τ) (st3_2 t) fullShare ((dat V c).before 2 t d))
    ∗ (∃ d, owns (c : Thread nD τ) (st3_3 t) fullShare ((dat V c).before 3 t d))
    ∗ (∃ d, owns (c : Thread nD τ) (st3_4 t) fullShare ((dat V c).before 4 t d))
    ∗ (∃ d, owns (c : Thread nD τ) (st3_5 t) fullShare ((dat V c).before 5 t d)))

/-- and what it returns. -/
def bodyPost (c : Dev nD) (t : Fin cfg3.N) : sProp 𝕄 :=
  iprop((dat V c).Φ t.succ ∗ (dat V c).owesAt () t.succ
    ∗ owns (c : Thread nD τ) (st3_0 t) fullShare ((dat V c).after 0 t)
    ∗ owns (c : Thread nD τ) (st3_1 t) fullShare ((dat V c).after 1 t)
    ∗ owns (c : Thread nD τ) (st3_2 t) fullShare ((dat V c).after 2 t)
    ∗ owns (c : Thread nD τ) (st3_3 t) fullShare ((dat V c).after 3 t)
    ∗ owns (c : Thread nD τ) (st3_4 t) fullShare ((dat V c).after 4 t)
    ∗ owns (c : Thread nD τ) (st3_5 t) fullShare ((dat V c).after 5 t))

/-- The body at any point: the inputs' memrefs hold their blocks, so `sound_kernel` applies; the invariant and
    the core's debt pass through unread. -/
theorem sound_body (c : Dev nD) (t : Fin cfg3.N) :
    bodyPre V c t ⊢ wp frame (wpE (defs₀ (F := F)) Variants.none c none) Set.univ (bodyAt3 t) (fun _ => bodyPost V c t) := by
  unfold bodyPre bodyPost bodyAt3
  simp only [before_0, before_1, before_2, before_3, before_4]
  rw [show (dat V c).Φ t.succ = (dat V c).Φ t.castSucc from rfl,
    show (dat V c).owesAt () t.succ = (dat V c).owesAt () t.castSucc from rfl,
    after_0, after_1, after_2, after_3, after_4, after_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ _ _ _ _ _ _ _ _ _ _ _ _ _ (iblk V c 0 t) (iblk V c 1 t) (iblk V c 2 t) (iblk V c 3 t) (iblk V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dat (F := F) V c) (defs₀ (F := F)) Variants.none () Set.univ := fun t => by
  rw [bigSep_W3, bigSep_W3]
  exact sound_body V c t

end Cert.KernelIdeal.R3

end
-- ==== Proof.KI.HalvesInst.lean ====
import proofs.«158489_j47493748359308_1_alg».proof.Proof.KI.AsmData
import proofs.«158489_j47493748359308_1_alg».proof.Proof.KI.R0
import proofs.«158489_j47493748359308_1_alg».proof.Proof.KI.R1Frame
import proofs.«158489_j47493748359308_1_alg».proof.Proof.KI.R2Body
import proofs.«158489_j47493748359308_1_alg».proof.Proof.KI.R3

set_option maxRecDepth 16384

noncomputable section

namespace Cert.KernelIdeal.Asm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four regions' halves: each kernel's proof data and body obligation, stated at the contents the region is entered from. -/
def halves : Halves F where
  d0 := fun V c => R0.dat V c
  A0 := fun V c w => R0.A_eq V c w
  Φ0 := fun _ _ _ => rfl
  q0 := fun _ _ _ => rfl
  owed0 := fun _ _ _ => rfl
  rec0 := fun _ _ _ => rfl
  body0 := fun V c => R0.body_obligation V c
  d1 := fun V c => R1.dat V c
  A1 := fun V c w => R1.A_eq V c w
  Φ1 := fun _ _ _ => rfl
  q1 := fun _ _ _ => rfl
  owed1 := fun _ _ _ => rfl
  rec1 := fun _ _ _ => rfl
  body1 := fun V c => R1.body_obligation V c
  d2 := fun V c => R2.dat V c
  A2 := fun V c w => R2.A_eq V c w
  Φ2 := fun _ _ _ => rfl
  q2 := fun _ _ _ => rfl
  owed2 := fun _ _ _ => rfl
  rec2 := fun _ _ _ => rfl
  body2 := fun V c => R2.body_obligation V c
  d3 := fun V c => R3.dat V c
  A3 := fun V c w => R3.A_eq V c w
  Φ3 := fun _ _ _ => rfl
  q3 := fun _ _ _ => rfl
  owed3 := fun _ _ _ => rfl
  rec3 := fun _ _ _ => rfl
  body3 := fun V c => R3.body_obligation V c

end Cert.KernelIdeal.Asm

end
-- ==== Proof.KI.AttnKer.lean ====
import proofs.«158489_j47493748359308_1_alg».proof.Proof.Gen.KernelIdeal.Regions
import Idealize.ShloMosaic.Lib.StableHlo.Run

/-!
# The host stretch between the projection kernel and the output-projection kernel, as one function

Between the first and the second kernel the host slices the three projections `Q`, `K`, `V` out of the fused
product, reads their 128 columns as 8 heads of 16, gathers the rows at the edges' endpoints, forms per edge and head
the score `exp (min 5 (max (-5) (⟨K[src], Q[dst]⟩ · ¼)))`, sums the scores and the score-weighted `V[src]` over
the edges landing on each node, and divides.  `attnK` is that computation over `Q`, `K`, `V` and the edge list, in
the order the operations are printed; the contents of the buffer the second kernel reads are `attnK` of the slices.
-/

set_option maxRecDepth 16384

noncomputable section

namespace Cert.KernelIdeal.KV

open Cert.KernelIdeal Cert.KernelIdeal.Gen Idealize.ShloMosaic Idealize.ShloMosaic.TcCoe Idealize.SL.Sem Idealize.ShloMosaic.StableHlo

variable {F : FTy → Type} [FloatOps F]

/-- Columns `off … off+127` of the fused product, read as 8 heads of 16. -/
def headsAt0 (qkv : (⟨S100000x384, .f32⟩ : BufTy).Contents (Elt F)) : (⟨S100000x8x16, .f32⟩ : BufTy).Contents (Elt F) :=
  shapeCast _ (extractStridedSlice S100000x128 ![0, 0] qkv slices_S100000x384_S100000x128_0_0) shapeCasts_S100000x128_S100000x8x16
def headsAt128 (qkv : (⟨S100000x384, .f32⟩ : BufTy).Contents (Elt F)) : (⟨S100000x8x16, .f32⟩ : BufTy).Contents (Elt F) :=
  shapeCast _ (extractStridedSlice S100000x128 ![0, 128] qkv slices_S100000x384_S100000x128_0_128) shapeCasts_S100000x128_S100000x8x16
def headsAt256 (qkv : (⟨S100000x384, .f32⟩ : BufTy).Contents (Elt F)) : (⟨S100000x8x16, .f32⟩ : BufTy).Contents (Elt F) :=
  shapeCast _ (extractStridedSlice S100000x128 ![0, 256] qkv slices_S100000x384_S100000x128_0_256) shapeCasts_S100000x128_S100000x8x16

/-- An index array made ready for a gather: a negative index counted from the end, then one index per row. -/
def edgeRow (e : (⟨S1600000, .i32⟩ : BufTy).Contents (Elt F)) : (⟨S1600000x1, .i32⟩ : BufTy).Contents (Elt F) :=
  let c : (⟨S_, .i32⟩ : BufTy).Contents (Elt F) := constantI S_ 32 0#32
  let v8 : (⟨S1600000, .i32⟩ : BufTy).Contents (Elt F) := broadcastInDim S1600000 ![] bcast_S_S1600000 c
  let v9 : (⟨S1600000, .i1⟩ : BufTy).Contents (Elt F) := cmpi .slt e v8
  let c_0 : (⟨S_, .i32⟩ : BufTy).Contents (Elt F) := constantI S_ 32 100000#32
  let v10 : (⟨S1600000, .i32⟩ : BufTy).Contents (Elt F) := broadcastInDim S1600000 ![] bcast_S_S1600000 c_0
  let v11 : (⟨S1600000, .i32⟩ : BufTy).Contents (Elt F) := addi e v10
  let v12 : (⟨S1600000, .i32⟩ : BufTy).Contents (Elt F) := select v9 v11 e
  broadcastInDim S1600000x1 ![0] bcast_S1600000_S1600000x1_0 v12

/-- The score of each edge and head: `exp (min 5 (max (-5) (⟨K[src], Q[dst]⟩ · ¼)))`. -/
def scoreK (Q K : (⟨S100000x8x16, .f32⟩ : BufTy).Contents (Elt F)) (src dst : (⟨S1600000, .i32⟩ : BufTy).Contents (Elt F)) : (⟨S1600000x8, .f32⟩ : BufTy).Contents (Elt F) :=
  let v14 : (⟨S1600000x8x16, .f32⟩ : BufTy).Contents (Elt F) := Host.gather gather_S100000x8x16_S1600000x1_S1600000x8x16_12_0_n_n_0_1_1816 K (edgeRow src)
  let v21 : (⟨S1600000x8x16, .f32⟩ : BufTy).Contents (Elt F) := Host.gather gather_S100000x8x16_S1600000x1_S1600000x8x16_12_0_n_n_0_1_1816 Q (edgeRow dst)
  let v29 : (⟨S1600000x8x16, .f32⟩ : BufTy).Contents (Elt F) := mulf v14 v21
  let cst : (⟨S_, .f32⟩ : BufTy).Contents (Elt F) := constant S_ .f32 0x00000000#32
  let v30 : (⟨S1600000x8, .f32⟩ : BufTy).Contents (Elt F) := Host.reduceAdd v29 cst reducesTo_S1600000x8x16_S1600000x8_d2 h_S_
  let cst_5 : (⟨S_, .f32⟩ : BufTy).Contents (Elt F) := constant S_ .f32 0x3E800000#32
  let v31 : (⟨S1600000x8, .f32⟩ : BufTy).Contents (Elt F) := broadcastInDim S1600000x8 ![] bcast_S_S1600000x8 cst_5
  let v32 : (⟨S1600000x8, .f32⟩ : BufTy).Contents (Elt F) := mulf v30 v31
  let cst_6 : (⟨S_, .f32⟩ : BufTy).Contents (Elt F) := constant S_ .f32 0xC0A00000#32
  let cst_7 : (⟨S_, .f32⟩ : BufTy).Contents (Elt F) := constant S_ .f32 0x40A00000#32
  let call0_v0 : (⟨S_, .f32⟩ : BufTy).Contents (Elt F) := id cst_6
  let call0_v1 : (⟨S1600000x8, .f32⟩ : BufTy).Contents (Elt F) := broadcastInDim S1600000x8 ![] bcast_S_S1600000x8 call0_v0
  let call0_v2 : (⟨S1600000x8, .f32⟩ : BufTy).Contents (Elt F) := maximumf call0_v1 v32
  let call0_v3 : (⟨S_, .f32⟩ : BufTy).Contents (Elt F) := id cst_7
  let call0_v4 : (⟨S1600000x8, .f32⟩ : BufTy).Contents (Elt F) := broadcastInDim S1600000x8 ![] bcast_S_S1600000x8 call0_v3
  let v33 : (⟨S1600000x8, .f32⟩ : BufTy).Contents (Elt F) := minimumf call0_v4 call0_v2
  Host.exp v33

/-- The aggregation over the edges: per node and head the sum of the scores of the edges landing on it and the sum of
    `V[src]` weighted by them, and their quotient, the 8 heads of 16 read as 128 columns. -/
def attnK (Q K V : (⟨S100000x8x16, .f32⟩ : BufTy).Contents (Elt F)) (src dst : (⟨S1600000, .i32⟩ : BufTy).Contents (Elt F)) : (⟨S100000x128, .f32⟩ : BufTy).Contents (Elt F) :=
  let v34 : (⟨S1600000x8, .f32⟩ : BufTy).Contents (Elt F) := scoreK Q K src dst
  let v28 : (⟨S1600000x8x16, .f32⟩ : BufTy).Contents (Elt F) := Host.gather gather_S100000x8x16_S1600000x1_S1600000x8x16_12_0_n_n_0_1_1816 V (edgeRow src)
  let v35 : (⟨S1600000x8x1, .f32⟩ : BufTy).Contents (Elt F) := broadcastInDim S1600000x8x1 ![0, 1] bcast_S1600000x8_S1600000x8x1_0_1 v34
  let v36 : (⟨S1600000x8x16, .f32⟩ : BufTy).Contents (Elt F) := broadcastInDim S1600000x8x16 ![0, 1, 2] bcast_S1600000x8x1_S1600000x8x16_0_1_2 v35
  let v37 : (⟨S1600000x8x16, .f32⟩ : BufTy).Contents (Elt F) := mulf v28 v36
  let cst_8 : (⟨S_, .f32⟩ : BufTy).Contents (Elt F) := constant S_ .f32 0x00000000#32
  let v38 : (⟨S100000x8x16, .f32⟩ : BufTy).Contents (Elt F) := broadcastInDim S100000x8x16 ![] bcast_S_S100000x8x16 cst_8
  let v39 : (⟨S1600000x1, .i32⟩ : BufTy).Contents (Elt F) := broadcastInDim S1600000x1 ![0] bcast_S1600000_S1600000x1_0 dst
  let v40 : (⟨S100000x8x16, .f32⟩ : BufTy).Contents (Elt F) := Host.scatterAdd scatter_S100000x8x16_S1600000x1_S1600000x8x16_12_0_0_1 v38 v39 v37
  let cst_9 : (⟨S_, .f32⟩ : BufTy).Contents (Elt F) := constant S_ .f32 0x00000000#32
  let v41 : (⟨S100000x8, .f32⟩ : BufTy).Contents (Elt F) := broadcastInDim S100000x8 ![] bcast_S_S100000x8 cst_9
  let v42 : (⟨S1600000x1, .i32⟩ : BufTy).Contents (Elt F) := broadcastInDim S1600000x1 ![0] bcast_S1600000_S1600000x1_0 dst
  let v43 : (⟨S100000x8, .f32⟩ : BufTy).Contents (Elt F) := Host.scatterAdd scatter_S100000x8_S1600000x1_S1600000x8_1_0_0_1 v41 v42 v34
  let v44 : (⟨S100000x8x1, .f32⟩ : BufTy).Contents (Elt F) := broadcastInDim S100000x8x1 ![0, 1] bcast_S100000x8_S100000x8x1_0_1 v43
  let v45 : (⟨S100000x8x16, .f32⟩ : BufTy).Contents (Elt F) := broadcastInDim S100000x8x16 ![0, 1, 2] bcast_S100000x8x1_S100000x8x16_0_1_2 v44
  let v46 : (⟨S100000x8x16, .f32⟩ : BufTy).Contents (Elt F) := Host.divf v40 v45
  shapeCast _ v46 shapeCasts_S100000x8x16_S100000x128

/-- After the three host stretches that follow the first kernel, the buffer the second kernel reads as its second
    operand holds `attnK` of the three slices of the first kernel's result and the edge list. -/
theorem attn_after (W : Valuation τ sig (Elt F)) :
    StableHlo.after hostOps1_2 (StableHlo.after hostOps1_1 (StableHlo.after hostOps1 W)) (Proc.devRef .tc main_v47)
      = attnK (headsAt0 (W (Proc.devRef .tc main_v1))) (headsAt128 (W (Proc.devRef .tc main_v1))) (headsAt256 (W (Proc.devRef .tc main_v1)))
          (W (Proc.devRef .tc main_arg14)) (W (Proc.devRef .tc main_arg15)) := by
  after_results_simp
  rfl

/-- The bias of the output projection as one row. -/
theorem bo_after (W : Valuation τ sig (Elt F)) :
    StableHlo.after hostOps1_2 (StableHlo.after hostOps1_1 (StableHlo.after hostOps1 W)) (Proc.devRef .tc main_v48)
      = shapeCast _ (W (Proc.devRef .tc main_arg5)) shapeCasts_S128_S1x128 := by
  after_results_simp
  rfl

end Cert.KernelIdeal.KV

end
-- ==== Proof.KI.R0Value.lean ====
import proofs.«158489_j47493748359308_1_alg».proof.Proof.KI.R0
import Idealize.ShloMosaic.Lib.Pipeline.Value
import Idealize.ShloMosaic.Lib.ValueIdx
import Idealize.ShloMosaic.PureOps.Ideal.Laws

set_option maxRecDepth 16384

noncomputable section

namespace Cert.KernelIdeal.R0

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the region is entered, at the ideal values
variable (V : (c : Dev nD) → (b : Ref sig .tc) → Buf (Elt Ideal) ((c : Thread nD τ).loc b))

/-! # The projection region at the ideal values: the output array as one function of the entry arrays -/

theorem zeros2 : (![0, 0] : Fin 2 → Nat) = fun _ => 0 := funext fun a => by fin_cases a <;> rfl

/-- Row `r`, column `j` of the projected array: the row of the input times the column of the weight matrix. -/
def G0 (A : S100000x128.Idx → Elt Ideal .f32) (W : S128x384.Idx → Elt Ideal .f32) : S100000x384.Idx → Elt Ideal .f32 :=
  fun i => ∑ k : Fin 128, A (ix2 (i 0 : Fin 100000) k) * W (ix2 k (i 1 : Fin 384))

theorem G0_apply (A : S100000x128.Idx → Elt Ideal .f32) (W : S128x384.Idx → Elt Ideal .f32) (r : Fin 100000) (j : Fin 384) :
    G0 A W (ix2 r j) = ∑ k : Fin 128, A (ix2 r k) * W (ix2 k j) := rfl

/-- The projection's contraction: rows by the one shared axis by columns. -/
abbrev D := dot_S2000x128_S128x384_S2000x384_1_0_0_1_n_n

/-- The body's arithmetic on its loaded blocks, read at row `r`, column `j` of the tile: the narrowing of the
    operands is the identity at the ideal values, and the product into the zero accumulator is the sum over the
    shared axis. -/
theorem pay_apply (x0 : Vec Ideal S2000x128 .f32) (x1 : Vec Ideal S128x384 .f32) (r : Fin 2000) (j : Fin 384) :
    k0_pay1 x0 x1 (ix2 r j) = ∑ k : Fin 128, x0 (ix2 r k) * x1 (ix2 k j) := by
  unfold k0_pay1
  simp only [shapeCast_self]
  refine (Ideal.matmul_constant_zero_apply D none _ _ (ix2 r j)).trans ?_
  rw [← Equiv.sum_comp (contrEquiv1 D 128 rfl rfl).symm]
  refine Finset.sum_congr rfl fun k _ => ?_
  have c2 := contrEquiv1_symm_val D 128 rfl rfl k
  have l2 : D.lhsIdx (ix2 r j) ((contrEquiv1 D 128 rfl rfl).symm k) = ix2 r k := by
    funext ax; apply Fin.ext
    match ax with
    | ⟨0, _⟩ => simp [DotDims.lhsIdx, D, dot_S2000x128_S128x384_S2000x384_1_0_0_1_n_n]; rfl
    | ⟨1, _⟩ => simp [DotDims.lhsIdx, D, dot_S2000x128_S128x384_S2000x384_1_0_0_1_n_n]; exact c2
  have r2 : D.rhsIdx (ix2 r j) ((contrEquiv1 D 128 rfl rfl).symm k) = ix2 k j := by
    funext ax; apply Fin.ext
    match ax with
    | ⟨0, _⟩ => simp [DotDims.rhsIdx, D, dot_S2000x128_S128x384_S2000x384_1_0_0_1_n_n]; exact c2
    | ⟨1, _⟩ => simp [DotDims.rhsIdx, D, dot_S2000x128_S128x384_S2000x384_1_0_0_1_n_n]; rfl
  show x0 (D.lhsIdx (ix2 r j) ((contrEquiv1 D 128 rfl rfl).symm k)) * x1 (D.rhsIdx (ix2 r j) ((contrEquiv1 D 128 rfl rfl).symm k)) = _
  rw [l2, r2]

/-- The printed index maps, decided over the grid: the input tile moves with the output tile down the rows, no
    window moves along the columns, the weight matrix does not move. -/
theorem idx_facts : ∀ t : Fin cfg0.N, win0_2.index t (0 : Fin 2) = t.val ∧ win0_2.index t (1 : Fin 2) = 0
    ∧ win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- What point `t` writes back is block `t` of `G0` of the arrays as the region finds them. -/
theorem flushed_eq (c : Dev nD) (t : Fin cfg0.N) :
    (dat V c).flushed 2 t = ((cfg0.win 2).blk t).view.read (Elt Ideal) (G0 (V c main_arg0) (V c main_v0)) := by
  show (cfg0.win 2).cut (grid0.coords t) ((dat V c).after 2 t) = _
  rw [after_2]
  unfold out_2
  rw [View.canon_unit_zero zeros2]
  simp only [View.ld_unit_zero (S := S2000x128) zeros2, View.ld_unit_zero (S := S128x384) zeros2]
  obtain ⟨e0, e1, f0, f1, g0, g1⟩ := idx_facts t
  funext y
  obtain ⟨r, j, rfl⟩ : ∃ (r : Fin 2000) (j : Fin 384), y = ix2 r j := ⟨y 0, y 1, eq_ix2 y⟩
  show k0_pay1 (iblk V c 0 t) (iblk V c 1 t) (ix2 r j)
      = G0 (V c main_arg0) (V c main_v0) (((cfg0.win 2).blk t).view.emb (ix2 r j))
  have hr : t.val * 2000 + r.val < 100000 := by have := t.isLt; have := r.isLt; have : cfg0.N = 50 := N_0; omega
  have hemb : ((cfg0.win 2).blk t).view.emb (ix2 r j) = ix2 (⟨t.val * 2000 + r.val, hr⟩ : Fin 100000) j := by
    funext a; apply Fin.ext
    match a with
    | ⟨0, _⟩ => show win0_2.index t (0 : Fin 2) * 2000 + 1 * r.val = t.val * 2000 + r.val; omega
    | ⟨1, _⟩ => show win0_2.index t (1 : Fin 2) * 384 + 1 * j.val = j.val; omega
  have hA : ∀ k : Fin 128, iblk V c 0 t (ix2 r k) = V c main_arg0 (ix2 (⟨t.val * 2000 + r.val, hr⟩ : Fin 100000) k) := fun k => by
    show V c main_arg0 (((cfg0.win 0).blk t).view.emb (ix2 r k)) = _
    refine congrArg _ (funext fun a => Fin.ext ?_)
    match a with
    | ⟨0, _⟩ => show win0_0.index t (0 : Fin 2) * 2000 + 1 * r.val = t.val * 2000 + r.val; omega
    | ⟨1, _⟩ => show win0_0.index t (1 : Fin 2) * 128 + 1 * k.val = k.val; omega
  have hW : ∀ k : Fin 128, iblk V c 1 t (ix2 k j) = V c main_v0 (ix2 k j) := fun k => by
    show V c main_v0 (((cfg0.win 1).blk t).view.emb (ix2 k j)) = _
    refine congrArg _ (funext fun a => Fin.ext ?_)
    match a with
    | ⟨0, _⟩ => show win0_1.index t (0 : Fin 2) * 128 + 1 * k.val = k.val; omega
    | ⟨1, _⟩ => show win0_1.index t (1 : Fin 2) * 384 + 1 * j.val = j.val; omega
  refine (pay_apply _ _ r j).trans ?_
  rw [hemb, G0_apply]
  exact Finset.sum_congr rfl fun k _ => by rw [hA k, hW k]

/-- An index of the array is in point `t`'s block iff each coordinate is in the block's range on its axis. -/
theorem mem_blk (t : Fin cfg0.N) (i : S100000x384.Idx) :
    i ∈ ((cfg0.win 2).blk t).view.set ↔ ∀ a : Fin 2, win0_2.index t a * S2000x384.size a ≤ (i a).val ∧ (i a).val < win0_2.index t a * S2000x384.size a + S2000x384.size a := by
  show i ∈ ((View.whole main_v1).slice (win0_2.rect t)).set ↔ _
  rw [View.set_slice_whole, Rect.mem_set_unit]
  exact Iff.rfl

/-- Every index of the array is in some point's block: row `r` in the block of point `r / 2000`. -/
theorem cover (i : S100000x384.Idx) :
    ∃ t : Fin cfg0.N, (cfg0.win 2).flush t = true ∧ i ∈ ((cfg0.win 2).blk t).view.set := by
  have hi0 : (i 0).val < 100000 := (i 0).isLt
  have hi1 : (i 1).val < 384 := (i 1).isLt
  have hN : cfg0.N = 50 := N_0
  refine ⟨⟨(i 0).val / 2000, by omega⟩, flush0_2 _, ?_⟩
  rw [mem_blk]
  obtain ⟨e0, e1, -⟩ := idx_facts ⟨(i 0).val / 2000, by omega⟩
  intro a
  match a with
  | ⟨0, _⟩ => show win0_2.index _ (0 : Fin 2) * 2000 ≤ (i 0).val ∧ (i 0).val < win0_2.index _ (0 : Fin 2) * 2000 + 2000; rw [e0]; show (i 0).val / 2000 * 2000 ≤ (i 0).val ∧ (i 0).val < (i 0).val / 2000 * 2000 + 2000; omega
  | ⟨1, _⟩ => show win0_2.index _ (1 : Fin 2) * 384 ≤ (i 1).val ∧ (i 1).val < win0_2.index _ (1 : Fin 2) * 384 + 384; rw [e1]; omega

/-- THE OUTPUT ARRAY after the region: `G0` of the arrays as the region finds them. -/
theorem arr_out (c : Dev nD) : (dat V c).arrAt 2 cfg0.N = G0 (V c (Pipeline.arrRef spec0 0)) (V c (Pipeline.arrRef spec0 1)) :=
  (dat V c).arrAt_eq_of_cover 2 (G0 (V c main_arg0) (V c main_v0)) (fun t _ => flushed_eq V c t) cover

/-- The input arrays are left as found. -/
theorem arr_in_0 (c : Dev nD) : (dat V c).arrAt 0 cfg0.N = V c (Pipeline.arrRef spec0 0) := ((dat V c).arrAt_in 0 rfl _).trans (A_eq V c 0)
theorem arr_in_1 (c : Dev nD) : (dat V c).arrAt 1 cfg0.N = V c (Pipeline.arrRef spec0 1) := ((dat V c).arrAt_in 1 rfl _).trans (A_eq V c 1)

end Cert.KernelIdeal.R0

end
-- ==== Proof.Stages.lean ====
import proofs.«158489_j47493748359308_1_alg».proof.Proof.Gen.ReferenceIdeal
import Idealize.ShloMosaic.Lib.Pipeline.Value

/-!
# The reference's six stages

The reference computes, from the node features `h`, the weights and the edge list:
the three projections `Q`, `K`, `V` (`projS`); the edge-softmax aggregation `attn` (`attnS`: gather the
endpoints' rows, the clamped exponential score per edge and head, the two sums over the edges
landing on a node, their quotient); `x = h + (attn·Wo + bo)` (`xS`); a batch normalisation over the
rows (`bnS`, the variance as the mean squared deviation); the feed-forward block with its residual
(`ffnS`); and the same batch normalisation again.  Each stage is the reference's operations in the
order printed, over the stage's inputs; `refS` is their composition.
-/

noncomputable section

namespace Cert.ReferenceIdeal.Stages

open Cert.ReferenceIdeal Cert.ReferenceIdeal.Gen Idealize.ShloMosaic Idealize.ShloMosaic.TcCoe Idealize.SL.Sem Idealize.ShloMosaic.StableHlo

variable {F : FTy → Type} [FloatOps F]

/-- One projection, `h·W` with its 128 columns read as 8 heads of 16. -/
def projS (h : (⟨S100000x128, .f32⟩ : BufTy).Contents (Elt F)) (W : (⟨S128x128, .f32⟩ : BufTy).Contents (Elt F)) : (⟨S100000x8x16, .f32⟩ : BufTy).Contents (Elt F) :=
  let v0 : (⟨S100000x128, .f32⟩ : BufTy).Contents (Elt F) := Host.dotGeneral dot_S100000x128_S128x128_S100000x128_1_0_0_1_n_n none (h) (W)
  shapeCast _ (v0) shapeCasts_S100000x128_S100000x8x16

/-- An index array made ready for a gather: a negative index counted from the end, then one index per row. -/
def edgeRow (e : (⟨S1600000, .i32⟩ : BufTy).Contents (Elt F)) : (⟨S1600000x1, .i32⟩ : BufTy).Contents (Elt F) :=
  let c : (⟨S_, .i32⟩ : BufTy).Contents (Elt F) := constantI S_ 32 0#32
  let v6 : (⟨S1600000, .i32⟩ : BufTy).Contents (Elt F) := broadcastInDim S1600000 ![] bcast_S_S1600000 (c)
  let v7 : (⟨S1600000, .i1⟩ : BufTy).Contents (Elt F) := cmpi .slt (e) (v6)
  let c_0 : (⟨S_, .i32⟩ : BufTy).Contents (Elt F) := constantI S_ 32 100000#32
  let v8 : (⟨S1600000, .i32⟩ : BufTy).Contents (Elt F) := broadcastInDim S1600000 ![] bcast_S_S1600000 (c_0)
  let v9 : (⟨S1600000, .i32⟩ : BufTy).Contents (Elt F) := addi (e) (v8)
  let v10 : (⟨S1600000, .i32⟩ : BufTy).Contents (Elt F) := select (v7) (v9) (e)
  broadcastInDim S1600000x1 ![0] bcast_S1600000_S1600000x1_0 (v10)

/-- The score of each edge and head: `exp (min 5 (max (-5) (⟨K[src], Q[dst]⟩ / 4)))`. -/
def scoreS (Q K : (⟨S100000x8x16, .f32⟩ : BufTy).Contents (Elt F)) (src dst : (⟨S1600000, .i32⟩ : BufTy).Contents (Elt F)) : (⟨S1600000x8, .f32⟩ : BufTy).Contents (Elt F) :=
  let v12 : (⟨S1600000x8x16, .f32⟩ : BufTy).Contents (Elt F) := Host.gather gather_S100000x8x16_S1600000x1_S1600000x8x16_12_0_n_n_0_1_1816 (K) (edgeRow src)
  let v19 : (⟨S1600000x8x16, .f32⟩ : BufTy).Contents (Elt F) := Host.gather gather_S100000x8x16_S1600000x1_S1600000x8x16_12_0_n_n_0_1_1816 (Q) (edgeRow dst)
  let v20 : (⟨S1600000x8x16, .f32⟩ : BufTy).Contents (Elt F) := mulf (v12) (v19)
  let cst : (⟨S_, .f32⟩ : BufTy).Contents (Elt F) := constant S_ .f32 0x00000000#32
  let v21 : (⟨S1600000x8, .f32⟩ : BufTy).Contents (Elt F) := Host.reduceAdd (v20) (cst) reducesTo_S1600000x8x16_S1600000x8_d2 h_S_
  let cst_3 : (⟨S_, .f32⟩ : BufTy).Contents (Elt F) := constant S_ .f32 0x40800000#32
  let v22 : (⟨S1600000x8, .f32⟩ : BufTy).Contents (Elt F) := broadcastInDim S1600000x8 ![] bcast_S_S1600000x8 (cst_3)
  let v23 : (⟨S1600000x8, .f32⟩ : BufTy).Contents (Elt F) := Host.divf (v21) (v22)
  let cst_4 : (⟨S_, .f32⟩ : BufTy).Contents (Elt F) := constant S_ .f32 0xC0A00000#32
  let cst_5 : (⟨S_, .f32⟩ : BufTy).Contents (Elt F) := constant S_ .f32 0x40A00000#32
  let call0_v0 : (⟨S_, .f32⟩ : BufTy).Contents (Elt F) := id (cst_4)
  let call0_v1 : (⟨S1600000x8, .f32⟩ : BufTy).Contents (Elt F) := broadcastInDim S1600000x8 ![] bcast_S_S1600000x8 (call0_v0)
  let call0_v2 : (⟨S1600000x8, .f32⟩ : BufTy).Contents (Elt F) := maximumf (call0_v1) (v23)
  let call0_v3 : (⟨S_, .f32⟩ : BufTy).Contents (Elt F) := id (cst_5)
  let call0_v4 : (⟨S1600000x8, .f32⟩ : BufTy).Contents (Elt F) := broadcastInDim S1600000x8 ![] bcast_S_S1600000x8 (call0_v3)
  let v24 : (⟨S1600000x8, .f32⟩ : BufTy).Contents (Elt F) := minimumf (call0_v4) (call0_v2)
  Host.exp (v24)

/-- The aggregation over the edges: per node and head the sum `z` of the scores of the edges landing on it and
    the sum `wV` of `V[src]` weighted by them, and `wV / z`, the 8 heads of 16 read as 128 columns. -/
def attnS (Q K V : (⟨S100000x8x16, .f32⟩ : BufTy).Contents (Elt F)) (src dst : (⟨S1600000, .i32⟩ : BufTy).Contents (Elt F)) : (⟨S100000x128, .f32⟩ : BufTy).Contents (Elt F) :=
  let score : (⟨S1600000x8, .f32⟩ : BufTy).Contents (Elt F) := scoreS Q K src dst
  let v32 : (⟨S1600000x8x16, .f32⟩ : BufTy).Contents (Elt F) := Host.gather gather_S100000x8x16_S1600000x1_S1600000x8x16_12_0_n_n_0_1_1816 (V) (edgeRow src)
  let v33 : (⟨S1600000x8x1, .f32⟩ : BufTy).Contents (Elt F) := broadcastInDim S1600000x8x1 ![0, 1] bcast_S1600000x8_S1600000x8x1_0_1 (score)
  let v34 : (⟨S1600000x8x16, .f32⟩ : BufTy).Contents (Elt F) := broadcastInDim S1600000x8x16 ![0, 1, 2] bcast_S1600000x8x1_S1600000x8x16_0_1_2 (v33)
  let v35 : (⟨S1600000x8x16, .f32⟩ : BufTy).Contents (Elt F) := mulf (v32) (v34)
  let cst_8 : (⟨S_, .f32⟩ : BufTy).Contents (Elt F) := constant S_ .f32 0x00000000#32
  let v36 : (⟨S100000x8x16, .f32⟩ : BufTy).Contents (Elt F) := broadcastInDim S100000x8x16 ![] bcast_S_S100000x8x16 (cst_8)
  let v37 : (⟨S1600000x1, .i32⟩ : BufTy).Contents (Elt F) := broadcastInDim S1600000x1 ![0] bcast_S1600000_S1600000x1_0 (dst)
  let v38 : (⟨S100000x8x16, .f32⟩ : BufTy).Contents (Elt F) := Host.scatterAdd scatter_S100000x8x16_S1600000x1_S1600000x8x16_12_0_0_1 (v36) (v37) (v35)
  let cst_9 : (⟨S_, .f32⟩ : BufTy).Contents (Elt F) := constant S_ .f32 0x00000000#32
  let v39 : (⟨S100000x8, .f32⟩ : BufTy).Contents (Elt F) := broadcastInDim S100000x8 ![] bcast_S_S100000x8 (cst_9)
  let v40 : (⟨S1600000x1, .i32⟩ : BufTy).Contents (Elt F) := broadcastInDim S1600000x1 ![0] bcast_S1600000_S1600000x1_0 (dst)
  let v41 : (⟨S100000x8, .f32⟩ : BufTy).Contents (Elt F) := Host.scatterAdd scatter_S100000x8_S1600000x1_S1600000x8_1_0_0_1 (v39) (v40) (score)
  let v42 : (⟨S100000x8x1, .f32⟩ : BufTy).Contents (Elt F) := broadcastInDim S100000x8x1 ![0, 1] bcast_S100000x8_S100000x8x1_0_1 (v41)
  let v43 : (⟨S100000x8x16, .f32⟩ : BufTy).Contents (Elt F) := broadcastInDim S100000x8x16 ![0, 1, 2] bcast_S100000x8x1_S100000x8x16_0_1_2 (v42)
  let v44 : (⟨S100000x8x16, .f32⟩ : BufTy).Contents (Elt F) := Host.divf (v38) (v43)
  shapeCast _ (v44) shapeCasts_S100000x8x16_S100000x128

/-- `x = h + (attn·Wo + bo)`. -/
def xS (h attn : (⟨S100000x128, .f32⟩ : BufTy).Contents (Elt F)) (Wo : (⟨S128x128, .f32⟩ : BufTy).Contents (Elt F)) (bo : (⟨S128, .f32⟩ : BufTy).Contents (Elt F)) : (⟨S100000x128, .f32⟩ : BufTy).Contents (Elt F) :=
  let v46 : (⟨S100000x128, .f32⟩ : BufTy).Contents (Elt F) := Host.dotGeneral dot_S100000x128_S128x128_S100000x128_1_0_0_1_n_n none (attn) (Wo)
  let v47 : (⟨S1x128, .f32⟩ : BufTy).Contents (Elt F) := broadcastInDim S1x128 ![1] bcast_S128_S1x128_1 (bo)
  let v48 : (⟨S100000x128, .f32⟩ : BufTy).Contents (Elt F) := broadcastInDim S100000x128 ![0, 1] bcast_S1x128_S100000x128_0_1 (v47)
  let v49 : (⟨S100000x128, .f32⟩ : BufTy).Contents (Elt F) := addf (v46) (v48)
  addf (h) (v49)

/-- Batch normalisation over the rows: `(x − μ) · rsqrt (σ² + eps) · g + b` with `μ` the column mean and
    `σ²` the column mean of `(x − μ)²`. -/
def bnS (x : (⟨S100000x128, .f32⟩ : BufTy).Contents (Elt F)) (g b : (⟨S128, .f32⟩ : BufTy).Contents (Elt F)) : (⟨S100000x128, .f32⟩ : BufTy).Contents (Elt F) :=
  let cst_10 : (⟨S_, .f32⟩ : BufTy).Contents (Elt F) := constant S_ .f32 0x00000000#32
  let v51 : (⟨S128, .f32⟩ : BufTy).Contents (Elt F) := Host.reduceAdd (x) (cst_10) reducesTo_S100000x128_S128_d0 h_S_
  let cst_11 : (⟨S_, .f32⟩ : BufTy).Contents (Elt F) := constant S_ .f32 0x47C35000#32
  let v52 : (⟨S128, .f32⟩ : BufTy).Contents (Elt F) := broadcastInDim S128 ![] bcast_S_S128 (cst_11)
  let v53 : (⟨S128, .f32⟩ : BufTy).Contents (Elt F) := Host.divf (v51) (v52)
  let v54 : (⟨S1x128, .f32⟩ : BufTy).Contents (Elt F) := broadcastInDim S1x128 ![1] bcast_S128_S1x128_1 (v53)
  let v55 : (⟨S100000x128, .f32⟩ : BufTy).Contents (Elt F) := broadcastInDim S100000x128 ![0, 1] bcast_S1x128_S100000x128_0_1 (v54)
  let v56 : (⟨S100000x128, .f32⟩ : BufTy).Contents (Elt F) := subf (x) (v55)
  let v57 : (⟨S100000x128, .f32⟩ : BufTy).Contents (Elt F) := mulf (v56) (v56)
  let cst_12 : (⟨S_, .f32⟩ : BufTy).Contents (Elt F) := constant S_ .f32 0x00000000#32
  let v58 : (⟨S128, .f32⟩ : BufTy).Contents (Elt F) := Host.reduceAdd (v57) (cst_12) reducesTo_S100000x128_S128_d0 h_S_
  let cst_13 : (⟨S_, .f32⟩ : BufTy).Contents (Elt F) := constant S_ .f32 0x47C35000#32
  let v59 : (⟨S128, .f32⟩ : BufTy).Contents (Elt F) := broadcastInDim S128 ![] bcast_S_S128 (cst_13)
  let v60 : (⟨S128, .f32⟩ : BufTy).Contents (Elt F) := Host.divf (v58) (v59)
  let v61 : (⟨S1x128, .f32⟩ : BufTy).Contents (Elt F) := broadcastInDim S1x128 ![1] bcast_S128_S1x128_1 (v53)
  let v62 : (⟨S100000x128, .f32⟩ : BufTy).Contents (Elt F) := broadcastInDim S100000x128 ![0, 1] bcast_S1x128_S100000x128_0_1 (v61)
  let v63 : (⟨S100000x128, .f32⟩ : BufTy).Contents (Elt F) := subf (x) (v62)
  let cst_14 : (⟨S_, .f32⟩ : BufTy).Contents (Elt F) := constant S_ .f32 0x3727C5AC#32
  let v64 : (⟨S128, .f32⟩ : BufTy).Contents (Elt F) := broadcastInDim S128 ![] bcast_S_S128 (cst_14)
  let v65 : (⟨S128, .f32⟩ : BufTy).Contents (Elt F) := addf (v60) (v64)
  let v66 : (⟨S128, .f32⟩ : BufTy).Contents (Elt F) := Host.rsqrt (v65)
  let v67 : (⟨S1x128, .f32⟩ : BufTy).Contents (Elt F) := broadcastInDim S1x128 ![1] bcast_S128_S1x128_1 (v66)
  let v68 : (⟨S100000x128, .f32⟩ : BufTy).Contents (Elt F) := broadcastInDim S100000x128 ![0, 1] bcast_S1x128_S100000x128_0_1 (v67)
  let v69 : (⟨S100000x128, .f32⟩ : BufTy).Contents (Elt F) := mulf (v63) (v68)
  let v70 : (⟨S1x128, .f32⟩ : BufTy).Contents (Elt F) := broadcastInDim S1x128 ![1] bcast_S128_S1x128_1 (g)
  let v71 : (⟨S100000x128, .f32⟩ : BufTy).Contents (Elt F) := broadcastInDim S100000x128 ![0, 1] bcast_S1x128_S100000x128_0_1 (v70)
  let v72 : (⟨S100000x128, .f32⟩ : BufTy).Contents (Elt F) := mulf (v69) (v71)
  let v73 : (⟨S1x128, .f32⟩ : BufTy).Contents (Elt F) := broadcastInDim S1x128 ![1] bcast_S128_S1x128_1 (b)
  let v74 : (⟨S100000x128, .f32⟩ : BufTy).Contents (Elt F) := broadcastInDim S100000x128 ![0, 1] bcast_S1x128_S100000x128_0_1 (v73)
  addf (v72) (v74)

/-- The feed-forward block with its residual: `xn + (max (xn·Wf1 + bf1) 0 · Wf2 + bf2)`. -/
def ffnS (xn : (⟨S100000x128, .f32⟩ : BufTy).Contents (Elt F)) (Wf1 : (⟨S128x256, .f32⟩ : BufTy).Contents (Elt F)) (bf1 : (⟨S256, .f32⟩ : BufTy).Contents (Elt F)) (Wf2 : (⟨S256x128, .f32⟩ : BufTy).Contents (Elt F)) (bf2 : (⟨S128, .f32⟩ : BufTy).Contents (Elt F)) : (⟨S100000x128, .f32⟩ : BufTy).Contents (Elt F) :=
  let v76 : (⟨S100000x256, .f32⟩ : BufTy).Contents (Elt F) := Host.dotGeneral dot_S100000x128_S128x256_S100000x256_1_0_0_1_n_n none (xn) (Wf1)
  let v77 : (⟨S1x256, .f32⟩ : BufTy).Contents (Elt F) := broadcastInDim S1x256 ![1] bcast_S256_S1x256_1 (bf1)
  let v78 : (⟨S100000x256, .f32⟩ : BufTy).Contents (Elt F) := broadcastInDim S100000x256 ![0, 1] bcast_S1x256_S100000x256_0_1 (v77)
  let v79 : (⟨S100000x256, .f32⟩ : BufTy).Contents (Elt F) := addf (v76) (v78)
  let call1_cst : (⟨S_, .f32⟩ : BufTy).Contents (Elt F) := constant S_ .f32 0x00000000#32
  let call1_v0 : (⟨S100000x256, .f32⟩ : BufTy).Contents (Elt F) := broadcastInDim S100000x256 ![] bcast_S_S100000x256 (call1_cst)
  let v80 : (⟨S100000x256, .f32⟩ : BufTy).Contents (Elt F) := maximumf (v79) (call1_v0)
  let v81 : (⟨S100000x128, .f32⟩ : BufTy).Contents (Elt F) := Host.dotGeneral dot_S100000x256_S256x128_S100000x128_1_0_0_1_n_n none (v80) (Wf2)
  let v82 : (⟨S1x128, .f32⟩ : BufTy).Contents (Elt F) := broadcastInDim S1x128 ![1] bcast_S128_S1x128_1 (bf2)
  let v83 : (⟨S100000x128, .f32⟩ : BufTy).Contents (Elt F) := broadcastInDim S100000x128 ![0, 1] bcast_S1x128_S100000x128_0_1 (v82)
  let v84 : (⟨S100000x128, .f32⟩ : BufTy).Contents (Elt F) := addf (v81) (v83)
  addf (xn) (v84)

/-- The reference as the composition of its stages. -/
def refS (x0 : (⟨S100000x128, .f32⟩ : BufTy).Contents (Elt F)) (x1 x2 x3 x4 : (⟨S128x128, .f32⟩ : BufTy).Contents (Elt F)) (x5 x6 x7 : (⟨S128, .f32⟩ : BufTy).Contents (Elt F)) (x8 : (⟨S128x256, .f32⟩ : BufTy).Contents (Elt F)) (x9 : (⟨S256, .f32⟩ : BufTy).Contents (Elt F)) (x10 : (⟨S256x128, .f32⟩ : BufTy).Contents (Elt F)) (x11 x12 x13 : (⟨S128, .f32⟩ : BufTy).Contents (Elt F)) (x14 x15 : (⟨S1600000, .i32⟩ : BufTy).Contents (Elt F)) : (⟨S100000x128, .f32⟩ : BufTy).Contents (Elt F) :=
  bnS (ffnS (bnS (xS x0 (attnS (projS x0 x1) (projS x0 x2) (projS x0 x3) x14 x15) x4 x5) x6 x7) x8 x9 x10 x11) x12 x13

end Cert.ReferenceIdeal.Stages

end
-- ==== Proof.LibHostDot.lean ====
/-
  A plain matrix product on the host, read at an index.  `jnp`'s `A @ B` of an m×k by a k×n matrix lowers to a
  `dot_general` contracting the left operand's axis 1 with the right operand's axis 0; over the extended reals its entry
  (r, c) is the sum over the contracted coordinate i of `A (r, i) · B (i, c)`, whatever the precision and schedule.
  The extents are arbitrary naturals; nothing here depends on a program.  The second form takes the record by name
  together with the equation that spells its fields, for a record a program declares as a definition.
-/
import Idealize.ShloMosaic.Lib.Pipeline.Value
import Idealize.ShloMosaic.Lib.ValueIdx
import Idealize.ShloMosaic.PureOps.Ideal.Laws

noncomputable section

open scoped BigOperators

namespace Cert.LibHostDot

open Idealize.ShloMosaic Idealize.ShloMosaic.ValueIdx

/-- The host's product of an m×k by a k×n matrix, read at (r, c): the sum over the contracted coordinate. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  simp only [Host.dotGeneral]
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- The same for a record given by name, with the equation that spells it. -/
theorem dotGeneral_plain_apply' {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    Host.dotGeneral d prec A B (ix2 r c) = ∑ i : Fin k, A (ix2 r i) * B (ix2 i c) := by
  subst hd
  exact dotGeneral_plain_apply w prec A B r c

end Cert.LibHostDot

end
-- ==== Proof.KI.Heads.lean ====
import proofs.«158489_j47493748359308_1_alg».proof.Proof.KI.AttnKer
import proofs.«158489_j47493748359308_1_alg».proof.Proof.KI.R0Value
import proofs.«158489_j47493748359308_1_alg».proof.Proof.Stages
import proofs.«158489_j47493748359308_1_alg».proof.Proof.LibHostDot
import Idealize.ShloMosaic.Lib.IdealHost

/-!
# The three slices of the fused projection are the reference's three projections

The first kernel multiplies `h` by the three weight matrices laid side by side, `[Wq | Wk | Wv]`; column `c` of
the product's block `s ∈ {0, 1, 2}` is column `c` of `h·W_s`, because entry `(k, 128·s + c)` of the
concatenation is entry `(k, c)` of its piece `s`.  Read as 8 heads of 16 these are the reference's `Q`, `K`, `V`.
-/

set_option maxRecDepth 16384

noncomputable section

open scoped BigOperators

namespace Cert.KernelIdeal.KV

open Cert.KernelIdeal Cert.KernelIdeal.Gen Idealize.ShloMosaic Idealize.ShloMosaic.ValueIdx

/-- 128 columns read as 8 heads of 16: head `hh`, lane `d` is column `16·hh + d`. -/
theorem heads_apply {α : Type} (X : S100000x128.Idx → α) (n : Fin 100000) (hh : Fin 8) (d : Fin 16) :
    shapeCast S100000x8x16 X shapeCasts_S100000x128_S100000x8x16 (ix3 n hh d) = X (ix2 n ⟨16 * hh.val + d.val, by omega⟩) :=
  shapeCast_apply X _ _ _ (by
    rw [Shape.rowMajor_val_two, Shape.rowMajor_val_three]
    show n.val * 128 + (16 * hh.val + d.val) = (n.val * 8 + hh.val) * 16 + d.val
    omega)

/-- The three weight matrices side by side. -/
abbrev wcat (Wq Wk Wv : FVec Ideal S128x128 .f32) : FVec Ideal S128x384 .f32 :=
  concatenate S128x384 1 [⟨S128x128, Wq⟩, ⟨S128x128, Wk⟩, ⟨S128x128, Wv⟩] concatenates_S128x128_S128x128_S128x128_S128x384_d1

theorem wcat_q (Wq Wk Wv : FVec Ideal S128x128 .f32) (k : Fin 128) (c : Fin 128) :
    wcat Wq Wk Wv (ix2 k ⟨c.val, by omega⟩) = Wq (ix2 k c) :=
  concatenate_apply_piece (t := S128x384) (1 : Fin 2) [⟨S128x128, Wq⟩, ⟨S128x128, Wk⟩, ⟨S128x128, Wv⟩]
    concatenates_S128x128_S128x128_S128x128_S128x384_d1 (ix2 k ⟨c.val, by omega⟩) 0 (by show 0 < 3; omega) S128x128 Wq rfl rfl 0 rfl (ix2 k c)
    (fun b hb => by
      match b with
      | ⟨0, _⟩ => rfl
      | ⟨1, _⟩ => exact absurd rfl hb)
    (by show 0 + c.val = c.val; omega)

theorem wcat_k (Wq Wk Wv : FVec Ideal S128x128 .f32) (k : Fin 128) (c : Fin 128) :
    wcat Wq Wk Wv (ix2 k ⟨128 + c.val, by omega⟩) = Wk (ix2 k c) :=
  concatenate_apply_piece (t := S128x384) (1 : Fin 2) [⟨S128x128, Wq⟩, ⟨S128x128, Wk⟩, ⟨S128x128, Wv⟩]
    concatenates_S128x128_S128x128_S128x128_S128x384_d1 (ix2 k ⟨128 + c.val, by omega⟩) 1 (by show 1 < 3; omega) S128x128 Wk rfl rfl 128 rfl (ix2 k c)
    (fun b hb => by
      match b with
      | ⟨0, _⟩ => rfl
      | ⟨1, _⟩ => exact absurd rfl hb)
    (by show 128 + c.val = 128 + c.val; omega)

theorem wcat_v (Wq Wk Wv : FVec Ideal S128x128 .f32) (k : Fin 128) (c : Fin 128) :
    wcat Wq Wk Wv (ix2 k ⟨256 + c.val, by omega⟩) = Wv (ix2 k c) :=
  concatenate_apply_piece (t := S128x384) (1 : Fin 2) [⟨S128x128, Wq⟩, ⟨S128x128, Wk⟩, ⟨S128x128, Wv⟩]
    concatenates_S128x128_S128x128_S128x128_S128x384_d1 (ix2 k ⟨256 + c.val, by omega⟩) 2 (by show 2 < 3; omega) S128x128 Wv rfl rfl 256 rfl (ix2 k c)
    (fun b hb => by
      match b with
      | ⟨0, _⟩ => rfl
      | ⟨1, _⟩ => exact absurd rfl hb)
    (by show 256 + c.val = 256 + c.val; omega)

/-- The reference's projection at head `hh`, lane `d`. -/
theorem projS_apply (h : FVec Ideal S100000x128 .f32) (W : FVec Ideal S128x128 .f32) (n : Fin 100000) (hh : Fin 8) (d : Fin 16) :
    Cert.ReferenceIdeal.Stages.projS (F := Ideal) h W (ix3 n hh d)
      = ∑ k : Fin 128, h (ix2 n k) * W (ix2 k ⟨16 * hh.val + d.val, by omega⟩) := by
  unfold Cert.ReferenceIdeal.Stages.projS
  dsimp only
  rw [show (ix3 n hh d : Cert.ReferenceIdeal.S100000x8x16.Idx) = (ix3 n hh d : S100000x8x16.Idx) from rfl]
  rw [heads_apply (α := EReal) _ n hh d]
  exact Cert.LibHostDot.dotGeneral_plain_apply' _ Cert.ReferenceIdeal.Gen.dot_S100000x128_S128x128_S100000x128_1_0_0_1_n_n_wf rfl none h W n _

variable (h : FVec Ideal S100000x128 .f32) (Wq Wk Wv : FVec Ideal S128x128 .f32)

/-- Columns `0 … 127` of the fused product, as heads, are `Q`. -/
theorem heads_q : headsAt0 (F := Ideal) (R0.G0 h (wcat Wq Wk Wv)) = Cert.ReferenceIdeal.Stages.projS (F := Ideal) h Wq := by
  funext i
  obtain ⟨n, hh, d, rfl⟩ : ∃ (n : Fin 100000) (hh : Fin 8) (d : Fin 16), i = ix3 n hh d := ⟨i 0, i 1, i 2, eq_ix3 i⟩
  rw [projS_apply]
  unfold headsAt0
  rw [heads_apply]
  rw [extractStridedSlice_apply _ _ _ _ (ix2 n ⟨16 * hh.val + d.val, by omega⟩) (fun a => by fin_cases a <;> simp [ix2])]
  rw [R0.G0_apply]
  exact Finset.sum_congr rfl fun k _ => congrArg (h (ix2 n k) * ·) (wcat_q Wq Wk Wv k ⟨16 * hh.val + d.val, by omega⟩)

/-- Columns `128 … 255` of the fused product, as heads, are `K`. -/
theorem heads_k : headsAt128 (F := Ideal) (R0.G0 h (wcat Wq Wk Wv)) = Cert.ReferenceIdeal.Stages.projS (F := Ideal) h Wk := by
  funext i
  obtain ⟨n, hh, d, rfl⟩ : ∃ (n : Fin 100000) (hh : Fin 8) (d : Fin 16), i = ix3 n hh d := ⟨i 0, i 1, i 2, eq_ix3 i⟩
  rw [projS_apply]
  unfold headsAt128
  rw [heads_apply]
  rw [extractStridedSlice_apply _ _ _ _ (ix2 n ⟨128 + (16 * hh.val + d.val), by omega⟩) (fun a => by fin_cases a <;> simp [ix2])]
  rw [R0.G0_apply]
  exact Finset.sum_congr rfl fun k _ => congrArg (h (ix2 n k) * ·) (wcat_k Wq Wk Wv k ⟨16 * hh.val + d.val, by omega⟩)

/-- Columns `256 … 383` of the fused product, as heads, are `V`. -/
theorem heads_v : headsAt256 (F := Ideal) (R0.G0 h (wcat Wq Wk Wv)) = Cert.ReferenceIdeal.Stages.projS (F := Ideal) h Wv := by
  funext i
  obtain ⟨n, hh, d, rfl⟩ : ∃ (n : Fin 100000) (hh : Fin 8) (d : Fin 16), i = ix3 n hh d := ⟨i 0, i 1, i 2, eq_ix3 i⟩
  rw [projS_apply]
  unfold headsAt256
  rw [heads_apply]
  rw [extractStridedSlice_apply _ _ _ _ (ix2 n ⟨256 + (16 * hh.val + d.val), by omega⟩) (fun a => by fin_cases a <;> simp [ix2])]
  rw [R0.G0_apply]
  exact Finset.sum_congr rfl fun k _ => congrArg (h (ix2 n k) * ·) (wcat_v Wq Wk Wv k ⟨16 * hh.val + d.val, by omega⟩)

end Cert.KernelIdeal.KV

end
-- ==== Proof.LibERealCoe.lean ====
import Mathlib.Data.EReal.Operations
import Mathlib.Data.Finset.Lattice.Fold
import Mathlib.Algebra.BigOperators.Group.Finset.Basic

/-!
# The coercion `ℝ → EReal` commutes with `max`, `min`, finite sums and finite suprema

The coercion is known to commute with `+`, `-`, `*` and negation (`EReal.coe_add`, `EReal.coe_sub`,
`EReal.coe_mul`, `EReal.coe_neg`).  This file adds the companions for `max`, `min`, `∑ i ∈ S`, `Finset.sup'` and `Finset.inf'` (namespace
`ERealCoe`), each stated with the real operation inside the coercion on the left.
-/

namespace ERealCoe

open Finset

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

theorem coe_finset_sum {ι : Type*} (S : Finset ι) (f : ι → ℝ) :
    ((∑ i ∈ S, f i : ℝ) : EReal) = ∑ i ∈ S, ((f i : ℝ) : EReal) := by
  classical
  induction S using Finset.induction_on with
  | empty => simp
  | insert a S ha ih => rw [sum_insert ha, sum_insert ha, EReal.coe_add, ih]

theorem coe_sum {ι : Type*} [Fintype ι] (f : ι → ℝ) :
    ((∑ i, f i : ℝ) : EReal) = ∑ i, ((f i : ℝ) : EReal) :=
  coe_finset_sum univ f

theorem coe_sup' {ι : Type*} (S : Finset ι) (hS : S.Nonempty) (f : ι → ℝ) :
    ((S.sup' hS f : ℝ) : EReal) = S.sup' hS fun i => ((f i : ℝ) : EReal) :=
  apply_sup'_eq_sup'_comp hS (fun x : ℝ => (x : EReal)) coe_max

theorem coe_inf' {ι : Type*} (S : Finset ι) (hS : S.Nonempty) (f : ι → ℝ) :
    ((S.inf' hS f : ℝ) : EReal) = S.inf' hS fun i => ((f i : ℝ) : EReal) :=
  apply_inf'_eq_inf'_comp hS (fun x : ℝ => (x : EReal)) coe_min

end ERealCoe
-- ==== Proof.LibFinite.lean ====
import Idealize.ShloMosaic.PureOps.Ideal
import proofs.«158489_j47493748359308_1_alg».proof.Proof.LibERealCoe

/-!
# Extended reals that are real numbers

`IsReal x` says that the extended real `x` is (the coercion of) a real number, and `IsPosReal x`
that it is a positive real number.  The file proves that the two predicates are closed under the
operations of the ideal float instance that keep a finite computation finite: sums, differences,
products, negation, maxima and minima, finite sums, the quotient by a nonzero real, the exponential,
and the reciprocal square root of a positive real; and that the exponential of a value clamped between
two real bounds is a positive real whatever the clamped value is, the infinities included.
-/

namespace ERealFinite

open Idealize.ShloMosaic

/-- The extended real `x` is a real number. -/
def IsReal (x : EReal) : Prop := ∃ r : ℝ, x = (r : EReal)

/-- The extended real `x` is a positive real number. -/
def IsPosReal (x : EReal) : Prop := ∃ r : ℝ, 0 < r ∧ x = (r : EReal)

theorem isReal_coe (r : ℝ) : IsReal (r : EReal) := ⟨r, rfl⟩

theorem isReal_zero : IsReal 0 := ⟨0, rfl⟩

theorem isReal_one : IsReal 1 := ⟨1, rfl⟩

theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩
    induction x using EReal.rec with
    | bot => exact absurd rfl hb
    | top => exact absurd rfl ht
    | coe r => exact ⟨r, rfl⟩

theorem IsPosReal.isReal {x : EReal} (h : IsPosReal x) : IsReal x := by
  obtain ⟨r, _, rfl⟩ := h; exact ⟨r, rfl⟩

theorem IsPosReal.ne_zero {x : EReal} (h : IsPosReal x) : x ≠ 0 := by
  obtain ⟨r, hr, rfl⟩ := h
  exact fun h0 => hr.ne' (by exact_mod_cast h0)

theorem IsPosReal.pos {x : EReal} (h : IsPosReal x) : 0 < x := by
  obtain ⟨r, hr, rfl⟩ := h
  exact_mod_cast hr

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

theorem IsReal.max {x y : EReal} (hx : IsReal x) (hy : IsReal y) : IsReal (max x y) := by
  obtain ⟨a, rfl⟩ := hx; obtain ⟨b, rfl⟩ := hy
  exact ⟨Max.max a b, (ERealCoe.coe_max a b).symm⟩

theorem IsReal.min {x y : EReal} (hx : IsReal x) (hy : IsReal y) : IsReal (min x y) := by
  obtain ⟨a, rfl⟩ := hx; obtain ⟨b, rfl⟩ := hy
  exact ⟨Min.min a b, (ERealCoe.coe_min a b).symm⟩

/-- A finite sum of real numbers is a real number. -/
theorem isReal_sum {ι : Type*} (S : Finset ι) (f : ι → EReal) (h : ∀ i ∈ S, IsReal (f i)) :
    IsReal (∑ i ∈ S, f i) := by
  classical
  induction S using Finset.induction_on with
  | empty => rw [Finset.sum_empty]; exact isReal_zero
  | insert a S ha ih =>
    rw [Finset.sum_insert ha]
    exact (h a (Finset.mem_insert_self a S)).add (ih fun i hi => h i (Finset.mem_insert_of_mem hi))

theorem isReal_sum_univ {ι : Type*} [Fintype ι] (f : ι → EReal) (h : ∀ i, IsReal (f i)) :
    IsReal (∑ i, f i) :=
  isReal_sum Finset.univ f fun i _ => h i

/-- The ideal quotient of two reals, the divisor not zero, is the real quotient. -/
theorem div_coe_coe (a : ℝ) {b : ℝ} (hb : b ≠ 0) :
    Ideal.div (a : EReal) (b : EReal) = ((a / b : ℝ) : EReal) := by
  rw [Ideal.div_coe hb, ← EReal.coe_mul, mul_one_div]

theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  exact ⟨a / b, div_coe_coe a hb⟩

theorem IsReal.div_pos {x y : EReal} (hx : IsReal x) (hy : IsPosReal y) : IsReal (Ideal.div x y) :=
  hx.div hy.isReal hy.ne_zero

theorem IsReal.exp {x : EReal} (hx : IsReal x) : IsReal (Ideal.exp x) := by
  obtain ⟨a, rfl⟩ := hx
  exact ⟨Real.exp a, Ideal.exp_coe a⟩

theorem IsReal.exp_pos {x : EReal} (hx : IsReal x) : IsPosReal (Ideal.exp x) := by
  obtain ⟨a, rfl⟩ := hx
  exact ⟨Real.exp a, Real.exp_pos a, Ideal.exp_coe a⟩

/-- The reciprocal square root of a positive real is a positive real. -/
theorem IsPosReal.rsqrt {x : EReal} (hx : IsPosReal x) : IsPosReal (Ideal.rsqrt x) := by
  obtain ⟨r, hr, rfl⟩ := hx
  refine ⟨(Real.sqrt r)⁻¹, inv_pos.mpr (Real.sqrt_pos.mpr hr), ?_⟩
  rw [Ideal.rsqrt_coe, if_neg (not_lt.mpr hr.le), if_neg hr.ne']

/-- A value clamped between two real bounds is a real number, the infinities included. -/
theorem isReal_clamp (lo hi : ℝ) (s : EReal) : IsReal (Min.min (hi : EReal) (Max.max (lo : EReal) s)) := by
  induction s using EReal.rec with
  | bot => rw [max_eq_left bot_le]; exact (isReal_coe hi).min (isReal_coe lo)
  | top => rw [max_eq_right le_top, min_eq_left le_top]; exact isReal_coe hi
  | coe r => exact (isReal_coe hi).min ((isReal_coe lo).max (isReal_coe r))

/-- The exponential of a clamped value is a positive real, whatever the clamped value is. -/
theorem isPosReal_exp_clamp (lo hi : ℝ) (s : EReal) :
    IsPosReal (Ideal.exp (Min.min (hi : EReal) (Max.max (lo : EReal) s))) :=
  (isReal_clamp lo hi s).exp_pos

theorem IsPosReal.add {x y : EReal} (hx : IsPosReal x) (hy : IsPosReal y) : IsPosReal (x + y) := by
  obtain ⟨a, ha, rfl⟩ := hx; obtain ⟨b, hb, rfl⟩ := hy
  exact ⟨a + b, add_pos ha hb, (EReal.coe_add a b).symm⟩

theorem IsPosReal.mul {x y : EReal} (hx : IsPosReal x) (hy : IsPosReal y) : IsPosReal (x * y) := by
  obtain ⟨a, ha, rfl⟩ := hx; obtain ⟨b, hb, rfl⟩ := hy
  exact ⟨a * b, mul_pos ha hb, (EReal.coe_mul a b).symm⟩

/-- A nonnegative real plus a positive real is a positive real. -/
theorem isPosReal_add_of_nonneg {a : ℝ} (ha : 0 ≤ a) {y : EReal} (hy : IsPosReal y) :
    IsPosReal ((a : EReal) + y) := by
  obtain ⟨b, hb, rfl⟩ := hy
  exact ⟨a + b, add_pos_of_nonneg_of_pos ha hb, (EReal.coe_add a b).symm⟩

/-- A sum of positive reals over a nonempty finite set is a positive real. -/
theorem isPosReal_sum {ι : Type*} (S : Finset ι) (hS : S.Nonempty) (f : ι → EReal)
    (h : ∀ i ∈ S, IsPosReal (f i)) : IsPosReal (∑ i ∈ S, f i) := by
  classical
  induction hS using Finset.Nonempty.cons_induction with
  | singleton a => rw [Finset.sum_singleton]; exact h a (Finset.mem_singleton_self a)
  | cons a S ha hS ih =>
    rw [Finset.sum_cons]
    exact (h a (Finset.mem_cons_self a S)).add (ih fun i hi => h i (Finset.mem_cons_of_mem hi))

end ERealFinite
-- ==== Proof.ConstsF32.lean ====
import Idealize.ShloMosaic.PureOps.Ideal.Laws
import proofs.«158489_j47493748359308_1_alg».proof.Proof.LibFinite

/-!
# The single-precision constants of the layer as real numbers

The bit patterns the two programs print for `1.0e5` (the number of rows), `1.0e-5` (the batch-norm
`eps`), `±5.0` (the clamp's bounds), `4.0` and `0.25` (the score scale, as a divisor and as a factor)
denote these reals at the ideal instance.
-/

namespace ConstsF32

open Idealize.ShloMosaic ERealFinite

/-- `1.0e5`: the number of rows. -/
theorem ofBits_rows : Ideal.ofBits .f32 0x47C35000#32 = ((100000 : ℝ) : EReal) := by
  simp [Ideal.ofBits, Ideal.ieee, -EReal.coe_mul]; norm_num

/-- `5.0`: the clamp's upper bound. -/
theorem ofBits_five : Ideal.ofBits .f32 0x40A00000#32 = ((5 : ℝ) : EReal) := by
  simp [Ideal.ofBits, Ideal.ieee, -EReal.coe_mul]; norm_num

/-- `-5.0`: the clamp's lower bound. -/
theorem ofBits_neg_five : Ideal.ofBits .f32 0xC0A00000#32 = ((-5 : ℝ) : EReal) := by
  simp [Ideal.ofBits, Ideal.ieee, -EReal.coe_mul]; norm_num

/-- `4.0`: the square root of the head width, the reference's divisor. -/
theorem ofBits_four : Ideal.ofBits .f32 0x40800000#32 = ((4 : ℝ) : EReal) := by
  simp [Ideal.ofBits, Ideal.ieee, -EReal.coe_mul]; norm_num

/-- `0.25`: its reciprocal, the kernel's factor. -/
theorem ofBits_quarter : Ideal.ofBits .f32 0x3E800000#32 = ((1 / 4 : ℝ) : EReal) := by
  simp [Ideal.ofBits, Ideal.ieee, -EReal.coe_mul]; norm_num

/-- The batch-norm `eps` (the single-precision number nearest `1.0e-5`) is a positive real. -/
theorem ofBits_eps : Ideal.ofBits .f32 0x3727C5AC#32 = (((10995116 : ℝ) * (2 : ℝ) ^ (-40 : ℤ) : ℝ) : EReal) := by
  simp [Ideal.ofBits, Ideal.ieee, -EReal.coe_mul] <;> norm_num

theorem isPosReal_eps : IsPosReal (Ideal.ofBits .f32 0x3727C5AC#32) :=
  ⟨_, by positivity, ofBits_eps⟩

/-- Dividing by `4.0` is multiplying by `0.25`, on every extended real. -/
theorem div_four_eq_mul_quarter (x : EReal) :
    Ideal.div x (Ideal.ofBits .f32 0x40800000#32) = x * Ideal.ofBits .f32 0x3E800000#32 := by
  rw [ofBits_four, ofBits_quarter, Ideal.div_coe (by norm_num : (4 : ℝ) ≠ 0)]

end ConstsF32
-- ==== Proof.KI.AttnEq.lean ====
import proofs.«158489_j47493748359308_1_alg».proof.Proof.KI.AttnKer
import proofs.«158489_j47493748359308_1_alg».proof.Proof.Stages
import proofs.«158489_j47493748359308_1_alg».proof.Proof.ConstsF32
import Idealize.ShloMosaic.Lib.IdealHost

/-!
# The kernel's aggregation is the reference's

Over the extended reals the kernel's score `⟨K[src], Q[dst]⟩ · ¼` is the reference's `⟨K[src], Q[dst]⟩ / 4`
(division by `4` is multiplication by `¼` on every extended real), and every other operation of the two
aggregations is the same operation on the same operands: `attnK = attnS`.
-/

set_option maxRecDepth 16384

noncomputable section

namespace Cert.KernelIdeal.KV

open Cert.KernelIdeal Cert.KernelIdeal.Gen Idealize.ShloMosaic Idealize.ShloMosaic.ValueIdx

/-- A product with the splat of `¼` is the quotient by the splat of `4`. -/
theorem quarter_eq (x : FVec Ideal S1600000x8 .f32) :
    mulf (F := Ideal) x (broadcastInDim S1600000x8 ![] bcast_S_S1600000x8 (constant (F := Ideal) S_ .f32 0x3E800000#32))
      = Host.divf (F := Ideal) x (broadcastInDim S1600000x8 ![] bcast_S_S1600000x8 (constant (F := Ideal) S_ .f32 0x40800000#32)) := by
  funext j
  rw [mulf_apply, hostDivf_apply, broadcastInDim_scalar_apply, broadcastInDim_scalar_apply]
  exact (ConstsF32.div_four_eq_mul_quarter _).symm

/-- The index preparation of the two programs is one function. -/
theorem edgeRow_eq (e : (⟨S1600000, .i32⟩ : BufTy).Contents (Elt Ideal)) : edgeRow (F := Ideal) e = Cert.ReferenceIdeal.Stages.edgeRow (F := Ideal) e := rfl

/-- The scores of the two programs agree. -/
theorem scoreK_eq (Q K : FVec Ideal S100000x8x16 .f32) (src dst : (⟨S1600000, .i32⟩ : BufTy).Contents (Elt Ideal)) :
    scoreK (F := Ideal) Q K src dst = Cert.ReferenceIdeal.Stages.scoreS (F := Ideal) Q K src dst := by
  unfold scoreK Cert.ReferenceIdeal.Stages.scoreS
  dsimp only
  rw [quarter_eq]
  rfl

/-- The aggregations of the two programs agree. -/
theorem attnK_eq (Q K V : FVec Ideal S100000x8x16 .f32) (src dst : (⟨S1600000, .i32⟩ : BufTy).Contents (Elt Ideal)) :
    attnK (F := Ideal) Q K V src dst = Cert.ReferenceIdeal.Stages.attnS (F := Ideal) Q K V src dst := by
  unfold attnK Cert.ReferenceIdeal.Stages.attnS
  dsimp only
  rw [scoreK_eq]
  rfl

end Cert.KernelIdeal.KV

end
-- ==== Proof.KI.R1Pieces.lean ====
import proofs.«158489_j47493748359308_1_alg».proof.Proof.KI.R1Frame
import Idealize.ShloMosaic.Lib.Pipeline.Value

set_option maxRecDepth 16384

noncomputable section

namespace Cert.KernelIdeal.R1

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1: what each case's stores leave, as the body's arithmetic on the blocks

Each output's staging buffer after the body is one whole-block store's payload: the tile `h + attn·Wo + bo`, and each
accumulator's previous contents (zero at the first point) plus the tile's column sums (of squares). -/

theorem hz : (![0, 0] : Fin 2 → Nat) = fun _ => 0 := funext fun a => by fin_cases a <;> rfl

/-- A later point leaves in output 4: the tile. -/
theorem out_B_4_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i) (x0 : Vec F S2000x128 .f32) (x1 : Vec F S2000x128 .f32) (x2 : Vec F S128x128 .f32) (x3 : Vec F S1x128 .f32) (xo5 : Vec F S1x128 .f32) (xo6 : Vec F S1x128 .f32) :
    out_B_4 c i arg1 harg1 arg2 harg2 arg3 harg3 arg4 harg4 arg5 harg5 arg6 harg6 arg7 harg7 hc x0 x1 x2 x3 xo5 xo6 = k1_pay3 x1 x2 x0 x3 := by
  unfold out_B_4
  rw [View.read_writes_eq_canon _ _ _ (cover_B_4 c i arg1 harg1 arg2 harg2 arg3 harg3 arg4 harg4 arg5 harg5 arg6 harg6 arg7 harg7 hc x0 x1 x2 x3 xo5 xo6)]
  unfold kernelRun_B
  dsimp only
  rw [View.canon_unit_zero hz]
  simp only [View.readAt_eq_ld, harg1.read_unread, harg2.read_unread, harg3.read_unread, harg4.read_unread,
    View.ld_unit_zero (S := S2000x128) hz, View.ld_unit_zero (S := S128x128) hz, View.ld_unit_zero (S := S1x128) hz]

/-- A later point leaves in output 5: the running contents plus the tile's column sums. -/
theorem out_B_5_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i) (x0 : Vec F S2000x128 .f32) (x1 : Vec F S2000x128 .f32) (x2 : Vec F S128x128 .f32) (x3 : Vec F S1x128 .f32) (xo5 : Vec F S1x128 .f32) (xo6 : Vec F S1x128 .f32) :
    out_B_5 c i arg1 harg1 arg2 harg2 arg3 harg3 arg4 harg4 arg5 harg5 arg6 harg6 arg7 harg7 hc x0 x1 x2 x3 xo5 xo6 = k1_pay4 x1 x2 x0 x3 xo5 := by
  unfold out_B_5
  rw [View.read_writes_eq_canon _ _ _ (cover_B_5 c i arg1 harg1 arg2 harg2 arg3 harg3 arg4 harg4 arg5 harg5 arg6 harg6 arg7 harg7 hc x0 x1 x2 x3 xo5 xo6)]
  unfold kernelRun_B
  dsimp only
  rw [View.canon_unit_zero hz]
  simp only [View.readAt_eq_ld, harg1.read_unread, harg2.read_unread, harg3.read_unread, harg4.read_unread, harg6.read_unread,
    View.ld_unit_zero (S := S2000x128) hz, View.ld_unit_zero (S := S128x128) hz, View.ld_unit_zero (S := S1x128) hz]

/-- A later point leaves in output 6: the running contents plus the tile's column sums of squares. -/
theorem out_B_6_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : ¬cond i) (x0 : Vec F S2000x128 .f32) (x1 : Vec F S2000x128 .f32) (x2 : Vec F S128x128 .f32) (x3 : Vec F S1x128 .f32) (xo5 : Vec F S1x128 .f32) (xo6 : Vec F S1x128 .f32) :
    out_B_6 c i arg1 harg1 arg2 harg2 arg3 harg3 arg4 harg4 arg5 harg5 arg6 harg6 arg7 harg7 hc x0 x1 x2 x3 xo5 xo6 = k1_pay5 x1 x2 x0 x3 xo6 := by
  unfold out_B_6
  rw [View.read_writes_eq_canon _ _ _ (cover_B_6 c i arg1 harg1 arg2 harg2 arg3 harg3 arg4 harg4 arg5 harg5 arg6 harg6 arg7 harg7 hc x0 x1 x2 x3 xo5 xo6)]
  unfold kernelRun_B
  dsimp only
  rw [View.canon_unit_zero hz]
  simp only [View.readAt_eq_ld, harg1.read_unread, harg2.read_unread, harg3.read_unread, harg4.read_unread, harg7.read_unread,
    View.ld_unit_zero (S := S2000x128) hz, View.ld_unit_zero (S := S128x128) hz, View.ld_unit_zero (S := S1x128) hz]

/-- The first point leaves in output 4: the tile. -/
theorem out_A_4_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i) (x0 : Vec F S2000x128 .f32) (x1 : Vec F S2000x128 .f32) (x2 : Vec F S128x128 .f32) (x3 : Vec F S1x128 .f32) :
    out_A_4 c i arg1 harg1 arg2 harg2 arg3 harg3 arg4 harg4 arg5 harg5 arg6 harg6 arg7 harg7 hc x0 x1 x2 x3 = k1_pay3 x1 x2 x0 x3 := by
  unfold out_A_4
  rw [View.read_writes_eq_canon _ _ _ (cover_A_4 c i arg1 harg1 arg2 harg2 arg3 harg3 arg4 harg4 arg5 harg5 arg6 harg6 arg7 harg7 hc x0 x1 x2 x3)]
  unfold kernelRun_A
  dsimp only
  rw [View.canon_unit_zero hz]
  simp only [View.readAt_eq_ld, harg1.read_unread, harg2.read_unread, harg3.read_unread, harg4.read_unread,
    View.ld_unit_zero (S := S2000x128) hz, View.ld_unit_zero (S := S128x128) hz, View.ld_unit_zero (S := S1x128) hz]

/-- The first point leaves in output 5: zero plus the tile's column sums. -/
theorem out_A_5_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i) (x0 : Vec F S2000x128 .f32) (x1 : Vec F S2000x128 .f32) (x2 : Vec F S128x128 .f32) (x3 : Vec F S1x128 .f32) :
    out_A_5 c i arg1 harg1 arg2 harg2 arg3 harg3 arg4 harg4 arg5 harg5 arg6 harg6 arg7 harg7 hc x0 x1 x2 x3 = k1_pay4 x1 x2 x0 x3 (k1_pay1 (F := F)) := by
  unfold out_A_5
  rw [View.read_writes_eq_canon _ _ _ (cover_A_5 c i arg1 harg1 arg2 harg2 arg3 harg3 arg4 harg4 arg5 harg5 arg6 harg6 arg7 harg7 hc x0 x1 x2 x3)]
  unfold kernelRun_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S2000x128) hz, View.ld_unit_zero (S := S128x128) hz, View.ld_unit_zero (S := S1x128) hz]

/-- The first point leaves in output 6: zero plus the tile's column sums of squares. -/
theorem out_A_6_eq (c : Dev nD) (i : grid1.Coords) (arg1 : Memref sig .tc .vmem S2000x128 .f32) (harg1 : arg1.IsWhole) (arg2 : Memref sig .tc .vmem S2000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S2000x128 .f32) (harg5 : arg5.IsWhole) (arg6 : Memref sig .tc .vmem S1x128 .f32) (harg6 : arg6.IsWhole) (arg7 : Memref sig .tc .vmem S1x128 .f32) (harg7 : arg7.IsWhole) (hc : cond i) (x0 : Vec F S2000x128 .f32) (x1 : Vec F S2000x128 .f32) (x2 : Vec F S128x128 .f32) (x3 : Vec F S1x128 .f32) :
    out_A_6 c i arg1 harg1 arg2 harg2 arg3 harg3 arg4 harg4 arg5 harg5 arg6 harg6 arg7 harg7 hc x0 x1 x2 x3 = k1_pay5 x1 x2 x0 x3 (k1_pay2 (F := F)) := by
  unfold out_A_6
  rw [View.read_writes_eq_canon _ _ _ (cover_A_6 c i arg1 harg1 arg2 harg2 arg3 harg3 arg4 harg4 arg5 harg5 arg6 harg6 arg7 harg7 hc x0 x1 x2 x3)]
  unfold kernelRun_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread,
    View.ld_unit_zero (S := S2000x128) hz, View.ld_unit_zero (S := S128x128) hz, View.ld_unit_zero (S := S1x128) hz]

end Cert.KernelIdeal.R1

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.LibColumnSum.lean ====
/-
  The sum of each COLUMN of a rank-2 vector over the extended reals: reducing an [a, b] vector along axis 0 leaves a
  length-`b` vector whose entry `l` is the sum of the `a` entries of column `l`.
-/
import Idealize.ShloMosaic.Lib.ValueIdx
import Idealize.ShloMosaic.PureOps.Ideal.Laws

noncomputable section

namespace Cert.LibColumnSum

open Idealize.ShloMosaic Idealize.ShloMosaic.ValueIdx

variable {a b : ℕ} {φ : FTy}

/-- The reduced index `l` of a column reduction with the row `k` put back is `(k, l)`. -/
theorem lift_col (h : (⟨2, ![a, b]⟩ : Shape).Reduces [0] ⟨1, ![b]⟩) (l : Fin b) (k : Fin a) :
    h.lift (ix1 l) k = ix2 k l := by
  funext c; apply Fin.ext
  fin_cases c <;> rfl

/-- A column sum at column `l` is the sum of that column's entries. -/
theorem colsum_apply (src : FVec Ideal ⟨2, ![a, b]⟩ φ) (acc : BitVec φ.bits)
    (h : (⟨2, ![a, b]⟩ : Shape).Reduces [0] ⟨1, ![b]⟩)
    (hφ : FKind.Formats φ) (hacc : acc = FKind.add.neutral φ hφ) (l : Fin b) :
    multiReduction .add [0] ⟨1, ![b]⟩ src acc h hφ hacc (ix1 l) = ∑ k : Fin a, src (ix2 k l) :=
  (Ideal.multiReduction_add_single src acc h hφ hacc (ix1 l)).trans
    (Finset.sum_congr rfl fun k _ => congrArg src (lift_col h l k))

end Cert.LibColumnSum

end
-- ==== Proof.KI.R1Tile.lean ====
import proofs.«158489_j47493748359308_1_alg».proof.Proof.Gen.KernelIdeal.Skeleton
import proofs.«158489_j47493748359308_1_alg».proof.Proof.LibRowOps
import proofs.«158489_j47493748359308_1_alg».proof.Proof.LibColumnSum
import Idealize.ShloMosaic.Lib.Pipeline.Value
import Idealize.ShloMosaic.Lib.ValueIdx

noncomputable section

namespace Cert.KernelIdeal.R1

open Cert.KernelIdeal.Gen
open Idealize.ShloMosaic Idealize.ShloMosaic.ValueIdx
open scoped BigOperators

/-! # Region 1 over the extended reals: one tile's arithmetic, entry by entry

For a tile of 2000 rows: the stored entry `(r, j)` is `h r j + ∑ₖ attn r k · Wo k j + bo j`; the column-sum accumulator
gains `∑ᵣ` of the stored entries of column `j`, the sum-of-squares accumulator `∑ᵣ` of their squares. -/

variable (xa : Vec Ideal S2000x128 .f32) (xw : Vec Ideal S128x128 .f32) (xh : Vec Ideal S2000x128 .f32) (xb : Vec Ideal S1x128 .f32)

/-- Entry `(r, j)` of the tile the body stores. -/
def tileVal (r : Fin 2000) (j : Fin 128) : EReal :=
  xh (ix2 r j) + ∑ k : Fin 128, xa (ix2 r k) * xw (ix2 k j) + xb (ix2 (0 : Fin 1) j)

/-- The stored tile at an entry. -/
theorem pay3_apply (r : Fin 2000) (j : Fin 128) :
    k1_pay3 (F := Ideal) xa xw xh xb (ix2 r j) = tileVal xa xw xh xb r j := by
  unfold k1_pay3 tileVal
  rw [addf_apply, addf_apply]
  refine congrArg₂ (· + ·) (congrArg (xh (ix2 r j) + ·) ?_) ?_
  · exact (Cert.KernelBody.matmul_plain_zero_apply dot_S2000x128_S128x128_S2000x128_1_0_0_1_n_n_wf none _ _ r j).trans
      (Finset.sum_congr rfl fun k _ => by rw [truncf_apply, truncf_apply, shapeCast_self])
  · exact (Cert.KernelBody.broadcastTo_row_apply _ broadcasts_S1x128_S2000x128 r j).trans (by rw [shapeCast_self])

/-- The zero row the first point stores into the column-sum accumulator. -/
theorem pay1_apply (j : Fin 128) : k1_pay1 (F := Ideal) (ix2 (0 : Fin 1) j) = 0 := by
  unfold k1_pay1
  rw [broadcast_apply]
  exact Ideal.ofBits_zero_f32

/-- The zero row the first point stores into the sum-of-squares accumulator. -/
theorem pay2_apply (j : Fin 128) : k1_pay2 (F := Ideal) (ix2 (0 : Fin 1) j) = 0 := by
  unfold k1_pay2
  rw [broadcast_apply]
  exact Ideal.ofBits_zero_f32

/-- The column-sum accumulator after a point: what it held plus the tile's column sums. -/
theorem pay4_apply (acc : Vec Ideal S1x128 .f32) (j : Fin 128) :
    k1_pay4 (F := Ideal) xa xw xh xb acc (ix2 (0 : Fin 1) j) = acc (ix2 (0 : Fin 1) j) + ∑ r : Fin 2000, tileVal xa xw xh xb r j := by
  unfold k1_pay4
  rw [addf_apply, shapeCast_self]
  refine congrArg (acc (ix2 (0 : Fin 1) j) + ·) ?_
  refine (Cert.KernelBody.shapeCast_row_apply _ shapeCasts_S128_S1x128 j).trans ?_
  refine (Cert.LibColumnSum.colsum_apply (k1_pay3 (F := Ideal) xa xw xh xb) 0x00000000#32 reduces_S2000x128_S128 (.inl rfl) rfl j).trans ?_
  exact Finset.sum_congr rfl fun r _ => pay3_apply xa xw xh xb r j

/-- The sum-of-squares accumulator after a point: what it held plus the tile's column sums of squares. -/
theorem pay5_apply (acc : Vec Ideal S1x128 .f32) (j : Fin 128) :
    k1_pay5 (F := Ideal) xa xw xh xb acc (ix2 (0 : Fin 1) j)
      = acc (ix2 (0 : Fin 1) j) + ∑ r : Fin 2000, tileVal xa xw xh xb r j * tileVal xa xw xh xb r j := by
  unfold k1_pay5
  rw [addf_apply, shapeCast_self]
  refine congrArg (acc (ix2 (0 : Fin 1) j) + ·) ?_
  refine (Cert.KernelBody.shapeCast_row_apply _ shapeCasts_S128_S1x128 j).trans ?_
  refine (Cert.LibColumnSum.colsum_apply (mulf (k1_pay3 (F := Ideal) xa xw xh xb) (k1_pay3 (F := Ideal) xa xw xh xb)) 0x00000000#32 reduces_S2000x128_S128 (.inl rfl) rfl j).trans ?_
  exact Finset.sum_congr rfl fun r _ => by rw [mulf_apply, pay3_apply]

end Cert.KernelIdeal.R1

end
-- ==== Proof.LibTileAccum.lean ====
/-
  Joining a sum accumulated tile by tile to the whole sum.

  The adjacency-weighted sum over all 8192 nodes is computed as eight partial sums, one per tile of 1024 consecutive
  nodes, added one after the other into an accumulator that starts at zero. Over the extended reals addition is
  commutative and associative (an additive commutative monoid), so the accumulated value is the sum over all nodes.
  Nothing here distributes a product over a sum, so no finiteness is needed.
-/
import Mathlib.Algebra.BigOperators.Fin
import Mathlib.Data.Fintype.BigOperators
import Mathlib.Logic.Equiv.Fin.Basic
import Mathlib.Data.EReal.Basic

noncomputable section

open scoped BigOperators

namespace Cert.Accum

/-- A sum over `Fin (m * n)` read as `m` consecutive blocks of `n` terms: block `k`, position `j` is term
    `j + n * k`. -/
theorem blocks_sum {M : Type*} [AddCommMonoid M] (m n : ℕ) (f : Fin (m * n) → M) :
    ∑ k : Fin m, ∑ j : Fin n, f (finProdFinEquiv (k, j)) = ∑ x : Fin (m * n), f x := by
  rw [← Fintype.sum_prod_type' (fun k j => f (finProdFinEquiv (k, j)))]
  exact Equiv.sum_comp finProdFinEquiv f

/-- Eight tiles of 1024 terms make up the sum of all 8192 terms. -/
theorem tiles_sum (f : Fin 8192 → EReal) :
    ∑ k : Fin 8, ∑ j : Fin 1024, f ⟨k.val * 1024 + j.val, by omega⟩ = ∑ n : Fin 8192, f n := by
  refine Eq.trans ?_ (blocks_sum 8 1024 f)
  refine Finset.sum_congr rfl fun k _ => Finset.sum_congr rfl fun j _ => congrArg f (Fin.ext ?_)
  show k.val * 1024 + j.val = j.val + 1024 * k.val
  omega

/-- Eight terms added one after the other into a zero accumulator are their sum. -/
theorem fold8 (d : Fin 8 → EReal) :
    (((((((0 + d 0) + d 1) + d 2) + d 3) + d 4) + d 5) + d 6) + d 7 = ∑ k : Fin 8, d k := by
  rw [Fin.sum_univ_eight, zero_add]

/-- The accumulator after tile `n`: it starts at zero, and each tile adds its partial sum. -/
def accN (d : ℕ → EReal) : ℕ → EReal
  | 0 => 0 + d 0
  | n + 1 => accN d n + d (n + 1)

/-- The accumulator after tile `n` is the sum of the partial sums of tiles `0 … n`. -/
theorem accN_eq (d : ℕ → EReal) (n : ℕ) : accN d n = ∑ k ∈ Finset.range (n + 1), d k := by
  induction n with
  | zero => simp [accN]
  | succ n ih => rw [accN, ih, Finset.sum_range_succ d (n + 1)]

/-- After the eighth tile the accumulator is the sum of all eight partial sums. -/
theorem accN_seven (d : ℕ → EReal) : accN d 7 = ∑ k : Fin 8, d k.val := by
  rw [accN_eq, Finset.sum_range]

/-- The accumulator after the eighth tile, when tile `k`'s partial sum is the sum of `f` over the tile's 1024 terms,
    is the sum of `f` over all 8192 terms. -/
theorem accN_tiles (f : Fin 8192 → EReal) (d : ℕ → EReal)
    (hd : ∀ k : Fin 8, d k.val = ∑ j : Fin 1024, f ⟨k.val * 1024 + j.val, by omega⟩) :
    accN d 7 = ∑ n : Fin 8192, f n := by
  rw [accN_seven, ← tiles_sum f]
  exact Finset.sum_congr rfl fun k _ => hd k

end Cert.Accum

end
-- ==== Proof.KI.R1Value.lean ====
import proofs.«158489_j47493748359308_1_alg».proof.Proof.KI.R1Pieces
import proofs.«158489_j47493748359308_1_alg».proof.Proof.KI.R1Tile
import proofs.«158489_j47493748359308_1_alg».proof.Proof.LibTileAccum
import Idealize.ShloMosaic.Lib.Pipeline.Value
import Idealize.ShloMosaic.Lib.ValueIdx

set_option maxRecDepth 16384

noncomputable section

namespace Cert.KernelIdeal.R1

open Cert.KernelIdeal.Gen
open Idealize.ShloMosaic Idealize.ShloMosaic.TcCoe Idealize.ShloMosaic.ValueIdx Idealize.SL.Sem
open Idealize.ShloMosaic.Pipeline (Dat)
open scoped BigOperators

/-! # Region 1 over the extended reals: the three output arrays as functions of the entry arrays

With `x r j = h r j + ∑ₖ attn r k · Wo k j + bo j` over all 100000 rows: the tile output array ends holding `x`, the
column-sum array `∑ᵣ x r j` and the sum-of-squares array `∑ᵣ (x r j)²`; the four input arrays are left as found. -/

/-- The layer's activations before the first normalisation, from the four arrays the region reads: row `r`, column `j`. -/
def xpre (h a : (⟨2, ![100000, 128]⟩ : Shape).Idx → EReal) (w : (⟨2, ![128, 128]⟩ : Shape).Idx → EReal)
    (b : (⟨2, ![1, 128]⟩ : Shape).Idx → EReal) (r : Fin 100000) (j : Fin 128) : EReal :=
  h (ix2 r j) + ∑ k : Fin 128, a (ix2 r k) * w (ix2 k j) + b (ix2 (0 : Fin 1) j)

variable (V : (c : Dev nD) → (b : Ref sig .tc) → Buf (Elt Ideal) ((c : Thread nD τ).loc b))

/-- The same at the contents the region is entered with. -/
def X (c : Dev nD) (r : Fin 100000) (j : Fin 128) : EReal :=
  xpre (V c main_arg0 : S100000x128.Idx → Elt Ideal .f32) (V c main_v47 : S100000x128.Idx → Elt Ideal .f32)
    (V c main_arg4 : S128x128.Idx → Elt Ideal .f32) (V c main_v48 : S1x128.Idx → Elt Ideal .f32) r j

/-! ## The windows' blocks, entry by entry -/

/-- The printed index maps, decided over the grid: the three row-tiled windows are at block row `t`, every other
    block index is zero. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

theorem N50 : cfg1.N = 50 := N_1

/-- Row `r` of tile `t` is row `2000 t + r` of the array. -/
theorem row_lt (t : Fin cfg1.N) (r : Fin 2000) : t.val * 2000 + r.val < 100000 := by
  have h50 : t.val < 50 := lt_of_lt_of_eq t.isLt N50
  have := r.isLt; omega

/-- The input tile's block at point `t` is rows `2000 t …` of its array. -/
theorem iblk0_apply (c : Dev nD) (t : Fin cfg1.N) (r : Fin 2000) (j : Fin 128) :
    (iblk V c 0 t : Vec Ideal S2000x128 .f32) (ix2 r j)
      = (V c main_arg0 : S100000x128.Idx → Elt Ideal .f32) (ix2 ⟨t.val * 2000 + r.val, row_lt t r⟩ j) := by
  unfold iblk
  rw [View.read_apply]
  show V c main_arg0 _ = V c main_arg0 _
  congr 1
  funext a
  apply Fin.ext
  match a with
  | ⟨0, _⟩ => show win1_0.index t 0 * 2000 + 1 * r.val = t.val * 2000 + r.val; rw [(idx_facts t).1]; omega
  | ⟨1, _⟩ => show win1_0.index t 1 * 128 + 1 * j.val = j.val; rw [(idx_facts t).2.1]; omega

/-- The attention tile's block at point `t` is rows `2000 t …` of its array. -/
theorem iblk1_apply (c : Dev nD) (t : Fin cfg1.N) (r : Fin 2000) (j : Fin 128) :
    (iblk V c 1 t : Vec Ideal S2000x128 .f32) (ix2 r j)
      = (V c main_v47 : S100000x128.Idx → Elt Ideal .f32) (ix2 ⟨t.val * 2000 + r.val, row_lt t r⟩ j) := by
  unfold iblk
  rw [View.read_apply]
  show V c main_v47 _ = V c main_v47 _
  congr 1
  funext a
  apply Fin.ext
  match a with
  | ⟨0, _⟩ => show win1_1.index t 0 * 2000 + 1 * r.val = t.val * 2000 + r.val; rw [(idx_facts t).2.2.1]; omega
  | ⟨1, _⟩ => show win1_1.index t 1 * 128 + 1 * j.val = j.val; rw [(idx_facts t).2.2.2.1]; omega

/-- The weight window's block is the whole weight matrix at every point. -/
theorem iblk2_apply (c : Dev nD) (t : Fin cfg1.N) (k : Fin 128) (j : Fin 128) :
    (iblk V c 2 t : Vec Ideal S128x128 .f32) (ix2 k j) = (V c main_arg4 : S128x128.Idx → Elt Ideal .f32) (ix2 k j) := by
  unfold iblk
  rw [View.read_apply]
  show V c main_arg4 _ = V c main_arg4 _
  congr 1
  funext a
  apply Fin.ext
  match a with
  | ⟨0, _⟩ => show win1_2.index t 0 * 128 + 1 * k.val = k.val; rw [(idx_facts t).2.2.2.2.1]; omega
  | ⟨1, _⟩ => show win1_2.index t 1 * 128 + 1 * j.val = j.val; rw [(idx_facts t).2.2.2.2.2.1]; omega

/-- The bias window's block is the whole bias row at every point. -/
theorem iblk3_apply (c : Dev nD) (t : Fin cfg1.N) (j : Fin 128) :
    (iblk V c 3 t : Vec Ideal S1x128 .f32) (ix2 (0 : Fin 1) j) = (V c main_v48 : S1x128.Idx → Elt Ideal .f32) (ix2 (0 : Fin 1) j) := by
  unfold iblk
  rw [View.read_apply]
  show V c main_v48 _ = V c main_v48 _
  congr 1
  funext a
  apply Fin.ext
  match a with
  | ⟨0, _⟩ => show win1_3.index t 0 * 1 + 1 * 0 = 0; rw [(idx_facts t).2.2.2.2.2.2.1]
  | ⟨1, _⟩ => show win1_3.index t 1 * 128 + 1 * j.val = j.val; rw [(idx_facts t).2.2.2.2.2.2.2.1]; omega

/-- So the tile the body stores at point `t` is rows `2000 t …` of `x`. -/
theorem tile_eq (c : Dev nD) (t : Fin cfg1.N) (r : Fin 2000) (j : Fin 128) :
    tileVal (iblk V c 1 t) (iblk V c 2 t) (iblk V c 0 t) (iblk V c 3 t) r j = X V c ⟨t.val * 2000 + r.val, row_lt t r⟩ j := by
  unfold tileVal X xpre
  rw [iblk0_apply V c t r j, iblk3_apply V c t j]
  refine congrArg₂ (· + ·) (congrArg₂ (· + ·) rfl ?_) rfl
  exact Finset.sum_congr rfl fun k _ => by rw [iblk1_apply V c t r k, iblk2_apply V c t k j]

/-! ## What the outputs' staging buffers hold after each point -/

/-- The tile output's staging buffer after point `t` is that point's tile. -/
theorem outs_tile (c : Dev nD) (t : Fin cfg1.N) :
    (outsAt V c t.val t.isLt).1 = k1_pay3 (F := Ideal) (iblk V c 1 t) (iblk V c 2 t) (iblk V c 0 t) (iblk V c 3 t) := by
  by_cases h0 : t.val % 50 = 0
  · rw [outsAt_A V c t h0]
    dsimp only
    exact out_A_4_eq c (grid1.coords t) (ms0 t) (hs0 t) (ms1 t) (hs1 t) (ms2 t) (hs2 t) (ms3 t) (hs3 t) (ms4 t) (hs4 t) (ms5 t) (hs5 t) (ms6 t) (hs6 t) ((hcond t).mpr h0) (iblk V c 0 t) (iblk V c 1 t) (iblk V c 2 t) (iblk V c 3 t)
  · rw [outsAt_B V c t h0]
    dsimp only
    exact out_B_4_eq c (grid1.coords t) (ms0 t) (hs0 t) (ms1 t) (hs1 t) (ms2 t) (hs2 t) (ms3 t) (hs3 t) (ms4 t) (hs4 t) (ms5 t) (hs5 t) (ms6 t) (hs6 t) (fun h => h0 ((hcond t).mp h)) (iblk V c 0 t) (iblk V c 1 t) (iblk V c 2 t) (iblk V c 3 t) (outsAt V c (t.val - 1) (Nat.lt_of_le_of_lt (Nat.sub_le _ _) t.isLt)).2.1 (outsAt V c (t.val - 1) (Nat.lt_of_le_of_lt (Nat.sub_le _ _) t.isLt)).2.2

/-- Tile `k`'s contribution to column `j` of the column sums (zero past the last tile). -/
def tileSum (c : Dev nD) (j : Fin 128) (k : ℕ) : EReal :=
  if h : k < 50 then ∑ r : Fin 2000, X V c ⟨k * 2000 + r.val, by have := r.isLt; omega⟩ j else 0

/-- The column-sum accumulator after point `n`: zero plus the contributions of tiles `0 … n`, added in order. -/
theorem outs_sum (c : Dev nD) (j : Fin 128) : ∀ (n : ℕ) (h : n < cfg1.N),
    (outsAt V c n h).2.1 (ix2 (0 : Fin 1) j) = Cert.Accum.accN (tileSum V c j) n
  | 0, h => by
    rw [outsAt_A V c ⟨0, h⟩ rfl]
    dsimp only
    refine (congrFun (out_A_5_eq c (grid1.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) (ms6 ⟨0, h⟩) (hs6 ⟨0, h⟩) ((hcond ⟨0, h⟩).mpr rfl) (iblk V c 0 ⟨0, h⟩) (iblk V c 1 ⟨0, h⟩) (iblk V c 2 ⟨0, h⟩) (iblk V c 3 ⟨0, h⟩)) (ix2 (0 : Fin 1) j)).trans ?_
    rw [pay4_apply, pay1_apply]
    unfold Cert.Accum.accN tileSum
    rw [dif_pos (by decide : 0 < 50)]
    refine congrArg (0 + ·) (Finset.sum_congr rfl fun r _ => ?_)
    exact tile_eq V c ⟨0, h⟩ r j
  | n + 1, h => by
    have h50 : n + 1 < 50 := lt_of_lt_of_eq h N50
    have hB : ¬(⟨n + 1, h⟩ : Fin cfg1.N).val % 50 = 0 := by dsimp only; omega
    rw [outsAt_B V c ⟨n + 1, h⟩ hB]
    dsimp only
    refine (congrFun (out_B_5_eq c (grid1.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (fun hh => hB ((hcond ⟨n + 1, h⟩).mp hh)) (iblk V c 0 ⟨n + 1, h⟩) (iblk V c 1 ⟨n + 1, h⟩) (iblk V c 2 ⟨n + 1, h⟩) (iblk V c 3 ⟨n + 1, h⟩) (outsAt V c n (Nat.lt_of_succ_lt h)).2.1 (outsAt V c n (Nat.lt_of_succ_lt h)).2.2) (ix2 (0 : Fin 1) j)).trans ?_
    rw [pay4_apply, outs_sum c j n (Nat.lt_of_succ_lt h)]
    show _ = Cert.Accum.accN (tileSum V c j) n + tileSum V c j (n + 1)
    refine congrArg (Cert.Accum.accN (tileSum V c j) n + ·) ?_
    unfold tileSum
    rw [dif_pos h50]
    refine Finset.sum_congr rfl fun r _ => ?_
    exact tile_eq V c ⟨n + 1, h⟩ r j

/-- After the last point it is the sum over all 100000 rows. -/
theorem outs_sum_all (c : Dev nD) (j : Fin 128) :
    Cert.Accum.accN (tileSum V c j) 49 = ∑ r : Fin 100000, X V c r j := by
  rw [Cert.Accum.accN_eq, Finset.sum_range]
  refine Eq.trans ?_ (Cert.Accum.blocks_sum 50 2000 (fun r : Fin 100000 => X V c r j))
  refine Finset.sum_congr rfl fun k _ => ?_
  unfold tileSum
  rw [dif_pos k.isLt]
  refine Finset.sum_congr rfl fun r _ => ?_
  have e : (⟨k.val * 2000 + r.val, by have := k.isLt; have := r.isLt; omega⟩ : Fin 100000) = finProdFinEquiv (k, r) :=
    Fin.ext (by show k.val * 2000 + r.val = r.val + 2000 * k.val; omega)
  rw [← e]

/-- Tile `k`'s contribution to column `j` of the column sums of squares (zero past the last tile). -/
def tileSq (c : Dev nD) (j : Fin 128) (k : ℕ) : EReal :=
  if h : k < 50 then ∑ r : Fin 2000, X V c ⟨k * 2000 + r.val, by have := r.isLt; omega⟩ j * X V c ⟨k * 2000 + r.val, by have := r.isLt; omega⟩ j else 0

/-- The sum-of-squares accumulator after point `n`: zero plus the contributions of tiles `0 … n`, added in order. -/
theorem outs_sq (c : Dev nD) (j : Fin 128) : ∀ (n : ℕ) (h : n < cfg1.N),
    (outsAt V c n h).2.2 (ix2 (0 : Fin 1) j) = Cert.Accum.accN (tileSq V c j) n
  | 0, h => by
    rw [outsAt_A V c ⟨0, h⟩ rfl]
    dsimp only
    refine (congrFun (out_A_6_eq c (grid1.coords ⟨0, h⟩) (ms0 ⟨0, h⟩) (hs0 ⟨0, h⟩) (ms1 ⟨0, h⟩) (hs1 ⟨0, h⟩) (ms2 ⟨0, h⟩) (hs2 ⟨0, h⟩) (ms3 ⟨0, h⟩) (hs3 ⟨0, h⟩) (ms4 ⟨0, h⟩) (hs4 ⟨0, h⟩) (ms5 ⟨0, h⟩) (hs5 ⟨0, h⟩) (ms6 ⟨0, h⟩) (hs6 ⟨0, h⟩) ((hcond ⟨0, h⟩).mpr rfl) (iblk V c 0 ⟨0, h⟩) (iblk V c 1 ⟨0, h⟩) (iblk V c 2 ⟨0, h⟩) (iblk V c 3 ⟨0, h⟩)) (ix2 (0 : Fin 1) j)).trans ?_
    rw [pay5_apply, pay2_apply]
    unfold Cert.Accum.accN tileSq
    rw [dif_pos (by decide : 0 < 50)]
    refine congrArg (0 + ·) (Finset.sum_congr rfl fun r _ => ?_)
    rw [tile_eq V c ⟨0, h⟩ r j]
  | n + 1, h => by
    have h50 : n + 1 < 50 := lt_of_lt_of_eq h N50
    have hB : ¬(⟨n + 1, h⟩ : Fin cfg1.N).val % 50 = 0 := by dsimp only; omega
    rw [outsAt_B V c ⟨n + 1, h⟩ hB]
    dsimp only
    refine (congrFun (out_B_6_eq c (grid1.coords ⟨n + 1, h⟩) (ms0 ⟨n + 1, h⟩) (hs0 ⟨n + 1, h⟩) (ms1 ⟨n + 1, h⟩) (hs1 ⟨n + 1, h⟩) (ms2 ⟨n + 1, h⟩) (hs2 ⟨n + 1, h⟩) (ms3 ⟨n + 1, h⟩) (hs3 ⟨n + 1, h⟩) (ms4 ⟨n + 1, h⟩) (hs4 ⟨n + 1, h⟩) (ms5 ⟨n + 1, h⟩) (hs5 ⟨n + 1, h⟩) (ms6 ⟨n + 1, h⟩) (hs6 ⟨n + 1, h⟩) (fun hh => hB ((hcond ⟨n + 1, h⟩).mp hh)) (iblk V c 0 ⟨n + 1, h⟩) (iblk V c 1 ⟨n + 1, h⟩) (iblk V c 2 ⟨n + 1, h⟩) (iblk V c 3 ⟨n + 1, h⟩) (outsAt V c n (Nat.lt_of_succ_lt h)).2.1 (outsAt V c n (Nat.lt_of_succ_lt h)).2.2) (ix2 (0 : Fin 1) j)).trans ?_
    rw [pay5_apply, outs_sq c j n (Nat.lt_of_succ_lt h)]
    show _ = Cert.Accum.accN (tileSq V c j) n + tileSq V c j (n + 1)
    refine congrArg (Cert.Accum.accN (tileSq V c j) n + ·) ?_
    unfold tileSq
    rw [dif_pos h50]
    refine Finset.sum_congr rfl fun r _ => ?_
    rw [tile_eq V c ⟨n + 1, h⟩ r j]

/-- After the last point it is the sum over all 100000 rows. -/
theorem outs_sq_all (c : Dev nD) (j : Fin 128) :
    Cert.Accum.accN (tileSq V c j) 49 = ∑ r : Fin 100000, X V c r j * X V c r j := by
  rw [Cert.Accum.accN_eq, Finset.sum_range]
  refine Eq.trans ?_ (Cert.Accum.blocks_sum 50 2000 (fun r : Fin 100000 => X V c r j * X V c r j))
  refine Finset.sum_congr rfl fun k _ => ?_
  unfold tileSq
  rw [dif_pos k.isLt]
  refine Finset.sum_congr rfl fun r _ => ?_
  have e : (⟨k.val * 2000 + r.val, by have := k.isLt; have := r.isLt; omega⟩ : Fin 100000) = finProdFinEquiv (k, r) :=
    Fin.ext (by show k.val * 2000 + r.val = r.val + 2000 * k.val; omega)
  rw [← e]

end Cert.KernelIdeal.R1

end
-- ==== Proof.KI.R1Arrays.lean ====
import proofs.«158489_j47493748359308_1_alg».proof.Proof.KI.R1Value

set_option maxRecDepth 16384

noncomputable section

namespace Cert.KernelIdeal.R1

open Cert.KernelIdeal.Gen
open Idealize.ShloMosaic Idealize.ShloMosaic.TcCoe Idealize.ShloMosaic.ValueIdx Idealize.SL.Sem
open Idealize.ShloMosaic.Pipeline (Dat)
open scoped BigOperators

/-! # Region 1 over the extended reals: from the staging buffers to the arrays

The tile output is written back at every point (block `t` of `x`, together covering the array); each accumulator once,
after the last point, when it holds the sum over all rows. -/

variable (V : (c : Dev nD) → (b : Ref sig .tc) → Buf (Elt Ideal) ((c : Thread nD τ).loc b))

/-! ## The three arrays as functions of `x` -/

/-- The tile output array after the region: `x`, entry by entry. -/
def xArr (c : Dev nD) : Buf (Elt Ideal) ((c : Thread nD τ).loc main_v49_0) :=
  (fun i : S100000x128.Idx => X V c (i 0) (i 1))

theorem xArr_apply (c : Dev nD) (r : Fin 100000) (j : Fin 128) :
    (xArr V c : S100000x128.Idx → Elt Ideal .f32) (ix2 r j) = X V c r j := rfl

/-- The column-sum array after the region: the sum over all 100000 rows, column by column. -/
def sumArr (c : Dev nD) : Buf (Elt Ideal) ((c : Thread nD τ).loc main_v49_1) :=
  (fun i : S1x128.Idx => ((∑ r : Fin 100000, X V c r (i 1) : EReal) : Elt Ideal .f32))

theorem sumArr_apply (c : Dev nD) (j : Fin 128) :
    (sumArr V c : S1x128.Idx → Elt Ideal .f32) (ix2 (0 : Fin 1) j) = ∑ r : Fin 100000, X V c r j := rfl

/-- The sum-of-squares array after the region: the sum over all 100000 rows, column by column. -/
def sqArr (c : Dev nD) : Buf (Elt Ideal) ((c : Thread nD τ).loc main_v49_2) :=
  (fun i : S1x128.Idx => ((∑ r : Fin 100000, X V c r (i 1) * X V c r (i 1) : EReal) : Elt Ideal .f32))

theorem sqArr_apply (c : Dev nD) (j : Fin 128) :
    (sqArr V c : S1x128.Idx → Elt Ideal .f32) (ix2 (0 : Fin 1) j) = ∑ r : Fin 100000, X V c r j * X V c r j := rfl

/-! ## What each write-back writes -/

section WriteBacks
attribute [local irreducible] xArr sumArr sqArr

/-- What point `t` writes back of the tile output is block `t` of `x`. -/
theorem flushed4_eq (c : Dev nD) (t : Fin cfg1.N) :
    (dat V c).flushed 4 t = ((cfg1.win 4).blk t).view.read (Elt Ideal) (xArr V c) := by
  show (cfg1.win 4).cut (grid1.coords t) ((dat V c).after 4 t) = _
  rw [after_4, outs_tile V c t]
  funext y
  obtain ⟨r, j, rfl⟩ : ∃ (r : Fin 2000) (j : Fin 128), y = ix2 r j := ⟨y 0, y 1, eq_ix2 y⟩
  rw [View.read_apply]
  have hx : (cfg1.win 4).xinj (grid1.coords t) (ix2 r j) = ix2 r j := funext fun a => Fin.ext rfl
  show k1_pay3 (F := Ideal) (iblk V c 1 t) (iblk V c 2 t) (iblk V c 0 t) (iblk V c 3 t) ((cfg1.win 4).xinj (grid1.coords t) (ix2 r j)) = _
  rw [hx, pay3_apply, tile_eq V c t r j]
  show X V c ⟨t.val * 2000 + r.val, row_lt t r⟩ j = xArr V c (((cfg1.win 4).blk t).view.emb (ix2 r j))
  have hi : ((cfg1.win 4).blk t).view.emb (ix2 r j) = ix2 (⟨t.val * 2000 + r.val, row_lt t r⟩ : Fin 100000) j := by
    funext a
    apply Fin.ext
    match a with
    | ⟨0, _⟩ => show win1_4.index t 0 * 2000 + 1 * r.val = t.val * 2000 + r.val; rw [(idx_facts t).2.2.2.2.2.2.2.2.1]; omega
    | ⟨1, _⟩ => show win1_4.index t 1 * 128 + 1 * j.val = j.val; rw [(idx_facts t).2.2.2.2.2.2.2.2.2.1]; omega
  rw [hi]
  exact (xArr_apply V c ⟨t.val * 2000 + r.val, row_lt t r⟩ j).symm
/-- Its one write-back, at the last point, writes that. -/
theorem flushed5_eq (c : Dev nD) (t : Fin cfg1.N) (hf : (cfg1.win 5).flush t = true) :
    (dat V c).flushed 5 t = ((cfg1.win 5).blk t).view.read (Elt Ideal) (sumArr V c) := by
  have h50 : t.val < 50 := lt_of_lt_of_eq t.isLt N50
  have h49 : t.val = 49 := by have := (flush1_5 t).mp hf; omega
  show (cfg1.win 5).cut (grid1.coords t) ((dat V c).after 5 t) = _
  rw [after_5]
  funext y
  obtain ⟨z, j, rfl⟩ : ∃ (z : Fin 1) (j : Fin 128), y = ix2 z j := ⟨y 0, y 1, eq_ix2 y⟩
  obtain rfl : z = 0 := Subsingleton.elim _ _
  rw [View.read_apply]
  have hx : (cfg1.win 5).xinj (grid1.coords t) (ix2 (0 : Fin 1) j) = ix2 (0 : Fin 1) j := funext fun a => Fin.ext rfl
  show (outsAt V c t.val t.isLt).2.1 ((cfg1.win 5).xinj (grid1.coords t) (ix2 (0 : Fin 1) j)) = _
  rw [hx, outs_sum V c j t.val t.isLt]
  show _ = sumArr V c (((cfg1.win 5).blk t).view.emb (ix2 (0 : Fin 1) j))
  have hi : ((cfg1.win 5).blk t).view.emb (ix2 (0 : Fin 1) j) = ix2 (0 : Fin 1) j := by
    funext a
    apply Fin.ext
    match a with
    | ⟨0, _⟩ => show win1_5.index t 0 * 1 + 1 * 0 = 0; rw [(idx_facts t).2.2.2.2.2.2.2.2.2.2.1]
    | ⟨1, _⟩ => show win1_5.index t 1 * 128 + 1 * j.val = j.val; rw [(idx_facts t).2.2.2.2.2.2.2.2.2.2.2.1]; omega
  rw [hi]
  refine Eq.trans ?_ (sumArr_apply V c j).symm
  rw [h49]
  exact outs_sum_all V c j
/-- Its one write-back, at the last point, writes that. -/
theorem flushed6_eq (c : Dev nD) (t : Fin cfg1.N) (hf : (cfg1.win 6).flush t = true) :
    (dat V c).flushed 6 t = ((cfg1.win 6).blk t).view.read (Elt Ideal) (sqArr V c) := by
  have h50 : t.val < 50 := lt_of_lt_of_eq t.isLt N50
  have h49 : t.val = 49 := by have := (flush1_6 t).mp hf; omega
  show (cfg1.win 6).cut (grid1.coords t) ((dat V c).after 6 t) = _
  rw [after_6]
  funext y
  obtain ⟨z, j, rfl⟩ : ∃ (z : Fin 1) (j : Fin 128), y = ix2 z j := ⟨y 0, y 1, eq_ix2 y⟩
  obtain rfl : z = 0 := Subsingleton.elim _ _
  rw [View.read_apply]
  have hx : (cfg1.win 6).xinj (grid1.coords t) (ix2 (0 : Fin 1) j) = ix2 (0 : Fin 1) j := funext fun a => Fin.ext rfl
  show (outsAt V c t.val t.isLt).2.2 ((cfg1.win 6).xinj (grid1.coords t) (ix2 (0 : Fin 1) j)) = _
  rw [hx, outs_sq V c j t.val t.isLt]
  show _ = sqArr V c (((cfg1.win 6).blk t).view.emb (ix2 (0 : Fin 1) j))
  have hi : ((cfg1.win 6).blk t).view.emb (ix2 (0 : Fin 1) j) = ix2 (0 : Fin 1) j := by
    funext a
    apply Fin.ext
    match a with
    | ⟨0, _⟩ => show win1_6.index t 0 * 1 + 1 * 0 = 0; rw [(idx_facts t).2.2.2.2.2.2.2.2.2.2.2.2.1]
    | ⟨1, _⟩ => show win1_6.index t 1 * 128 + 1 * j.val = j.val; rw [(idx_facts t).2.2.2.2.2.2.2.2.2.2.2.2.2]; omega
  rw [hi]
  refine Eq.trans ?_ (sqArr_apply V c j).symm
  rw [h49]
  exact outs_sq_all V c j

end WriteBacks

/-! ## The write-backs cover the arrays -/

/-- Row `i₀` of the tile output array lies in the block of point `i₀ / 2000`. -/
theorem cover4 (i : S100000x128.Idx) :
    ∃ t : Fin cfg1.N, (cfg1.win 4).flush t = true ∧ i ∈ ((cfg1.win 4).blk t).view.set := by
  have hi0 : (i 0).val < 100000 := idx2_lt0 i
  have hi1 : (i 1).val < 128 := idx2_lt1 i
  have ht : (i 0).val / 2000 < cfg1.N := lt_of_lt_of_eq (by omega) N50.symm
  refine ⟨⟨(i 0).val / 2000, ht⟩, flush1_4 _, ?_⟩
  show i ∈ ((View.whole main_v49_0).slice (win1_4.rect ⟨(i 0).val / 2000, ht⟩)).set
  rw [View.set_slice_whole, Rect.mem_set_unit]
  intro a
  match a with
  | ⟨0, _⟩ =>
    show win1_4.index ⟨(i 0).val / 2000, ht⟩ 0 * 2000 ≤ (i 0).val ∧ (i 0).val < win1_4.index ⟨(i 0).val / 2000, ht⟩ 0 * 2000 + 2000
    rw [(idx_facts ⟨(i 0).val / 2000, ht⟩).2.2.2.2.2.2.2.2.1]
    show (i 0).val / 2000 * 2000 ≤ (i 0).val ∧ (i 0).val < (i 0).val / 2000 * 2000 + 2000
    omega
  | ⟨1, _⟩ =>
    show win1_4.index ⟨(i 0).val / 2000, ht⟩ 1 * 128 ≤ (i 1).val ∧ (i 1).val < win1_4.index ⟨(i 0).val / 2000, ht⟩ 1 * 128 + 128
    rw [(idx_facts ⟨(i 0).val / 2000, ht⟩).2.2.2.2.2.2.2.2.2.1]
    omega

/-- THE TILE OUTPUT ARRAY after the region is `x`. -/
theorem final4 (c : Dev nD) : (dat V c).arrAt 4 cfg1.N = xArr V c :=
  (dat V c).arrAt_eq_of_cover 4 (xArr V c) (fun t _ => flushed4_eq V c t) cover4

/-- The last grid point. -/
def tLast : Fin cfg1.N := ⟨49, lt_of_lt_of_eq (by decide) N50.symm⟩

/-- Every entry of the row lies in the last point's block. -/
theorem cover5 (i : S1x128.Idx) :
    ∃ t : Fin cfg1.N, (cfg1.win 5).flush t = true ∧ i ∈ ((cfg1.win 5).blk t).view.set := by
  have hi0 : (i 0).val < 1 := idx2_lt0 i
  have hi1 : (i 1).val < 128 := idx2_lt1 i
  refine ⟨tLast, (flush1_5 tLast).mpr rfl, ?_⟩
  show i ∈ ((View.whole main_v49_1).slice (win1_5.rect tLast)).set
  rw [View.set_slice_whole, Rect.mem_set_unit]
  intro a
  match a with
  | ⟨0, _⟩ =>
    show win1_5.index tLast 0 * 1 ≤ (i 0).val ∧ (i 0).val < win1_5.index tLast 0 * 1 + 1
    rw [(idx_facts tLast).2.2.2.2.2.2.2.2.2.2.1]; omega
  | ⟨1, _⟩ =>
    show win1_5.index tLast 1 * 128 ≤ (i 1).val ∧ (i 1).val < win1_5.index tLast 1 * 128 + 128
    rw [(idx_facts tLast).2.2.2.2.2.2.2.2.2.2.2.1]; omega

/-- THE COLUMN-SUM ARRAY after the region. -/
theorem final5 (c : Dev nD) : (dat V c).arrAt 5 cfg1.N = sumArr V c :=
  (dat V c).arrAt_eq_of_cover 5 (sumArr V c) (flushed5_eq V c) cover5

/-- Every entry of the row lies in the last point's block. -/
theorem cover6 (i : S1x128.Idx) :
    ∃ t : Fin cfg1.N, (cfg1.win 6).flush t = true ∧ i ∈ ((cfg1.win 6).blk t).view.set := by
  have hi0 : (i 0).val < 1 := idx2_lt0 i
  have hi1 : (i 1).val < 128 := idx2_lt1 i
  refine ⟨tLast, (flush1_6 tLast).mpr rfl, ?_⟩
  show i ∈ ((View.whole main_v49_2).slice (win1_6.rect tLast)).set
  rw [View.set_slice_whole, Rect.mem_set_unit]
  intro a
  match a with
  | ⟨0, _⟩ =>
    show win1_6.index tLast 0 * 1 ≤ (i 0).val ∧ (i 0).val < win1_6.index tLast 0 * 1 + 1
    rw [(idx_facts tLast).2.2.2.2.2.2.2.2.2.2.2.2.1]; omega
  | ⟨1, _⟩ =>
    show win1_6.index tLast 1 * 128 ≤ (i 1).val ∧ (i 1).val < win1_6.index tLast 1 * 128 + 128
    rw [(idx_facts tLast).2.2.2.2.2.2.2.2.2.2.2.2.2]; omega

/-- THE SUM-OF-SQUARES ARRAY after the region. -/
theorem final6 (c : Dev nD) : (dat V c).arrAt 6 cfg1.N = sqArr V c :=
  (dat V c).arrAt_eq_of_cover 6 (sqArr V c) (flushed6_eq V c) cover6
/-! ## The region's arrays after it, index by index -/

/-- The tile output array at row `r`, column `j`. -/
theorem arr_x (c : Dev nD) (r : Fin 100000) (j : Fin 128) :
    ((dat V c).arrAt 4 cfg1.N : S100000x128.Idx → Elt Ideal .f32) (ix2 r j) = X V c r j := by
  rw [final4 V c]; rfl

/-- The column-sum array at column `j`. -/
theorem arr_sum (c : Dev nD) (j : Fin 128) :
    ((dat V c).arrAt 5 cfg1.N : S1x128.Idx → Elt Ideal .f32) (ix2 (0 : Fin 1) j) = ∑ r : Fin 100000, X V c r j := by
  rw [final5 V c]; rfl

/-- The sum-of-squares array at column `j`. -/
theorem arr_sumsq (c : Dev nD) (j : Fin 128) :
    ((dat V c).arrAt 6 cfg1.N : S1x128.Idx → Elt Ideal .f32) (ix2 (0 : Fin 1) j) = ∑ r : Fin 100000, X V c r j * X V c r j := by
  rw [final6 V c]; rfl

/-- The four input arrays are left as the region found them. -/
theorem arr_in0 (c : Dev nD) : (dat V c).arrAt 0 cfg1.N = V c main_arg0 := ((dat V c).arrAt_in 0 rfl _).trans (A_eq V c 0)
theorem arr_in1 (c : Dev nD) : (dat V c).arrAt 1 cfg1.N = V c main_v47 := ((dat V c).arrAt_in 1 rfl _).trans (A_eq V c 1)
theorem arr_in2 (c : Dev nD) : (dat V c).arrAt 2 cfg1.N = V c main_arg4 := ((dat V c).arrAt_in 2 rfl _).trans (A_eq V c 2)
theorem arr_in3 (c : Dev nD) : (dat V c).arrAt 3 cfg1.N = V c main_v48 := ((dat V c).arrAt_in 3 rfl _).trans (A_eq V c 3)

end Cert.KernelIdeal.R1

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.StageRead.lean ====
import proofs.«158489_j47493748359308_1_alg».proof.Proof.Stages
import proofs.«158489_j47493748359308_1_alg».proof.Proof.LibHostRows
import proofs.«158489_j47493748359308_1_alg».proof.Proof.LibHostDot
import Idealize.ShloMosaic.Lib.IdealHost

/-!
# The dense stages read at an index

Over the extended reals: `x = h + (attn·Wo + bo)` at `(r, c)` is `h (r, c) + (∑ₖ attn (r, k) · Wo (k, c) + bo c)`
(`xS_apply`); the feed-forward block at `(r, c)` is `xn (r, c) + (∑ₖ max (∑ₘ xn (r, m) · Wf1 (m, k) + bf1 k) 0 · Wf2 (k, c) + bf2 c)`
(`ffnS_apply`); and the batch normalisation at `(r, c)` is `(x (r, c) − μ c) · rsqrt (σ² c + eps) · g c + b c` with
`μ c` the mean of column `c` and `σ² c` the mean of its squared deviations (`bnS_eq_bnR`).  `bnK` is the same
normalisation with the variance spelt as the mean of the squares minus the squared mean.
-/

noncomputable section

open scoped BigOperators

namespace Cert.ReferenceIdeal.Stages

open Cert.ReferenceIdeal Cert.ReferenceIdeal.Gen Idealize.ShloMosaic Idealize.ShloMosaic.ValueIdx
open Cert.LibHostRows Cert.LibHostDot

/-- The number of rows, as the programs print it. -/
abbrev rowsN : EReal := Ideal.ofBits .f32 0x47C35000#32
/-- The batch normalisation's `eps`, as the programs print it. -/
abbrev epsN : EReal := Ideal.ofBits .f32 0x3727C5AC#32

/-- The mean of a column. -/
def colMean (X : FVec Ideal S100000x128 .f32) (c : Fin 128) : EReal :=
  Ideal.div (∑ r : Fin 100000, X (ix2 r c)) rowsN

/-- The variance of a column as the mean of the squared deviations. -/
def colVarR (X : FVec Ideal S100000x128 .f32) (c : Fin 128) : EReal :=
  Ideal.div (∑ r : Fin 100000, (X (ix2 r c) - colMean X c) * (X (ix2 r c) - colMean X c)) rowsN

/-- The variance of a column as the mean of the squares minus the squared mean. -/
def colVarK (X : FVec Ideal S100000x128 .f32) (c : Fin 128) : EReal :=
  Ideal.div (∑ r : Fin 100000, X (ix2 r c) * X (ix2 r c)) rowsN - colMean X c * colMean X c

/-- Batch normalisation, the variance as the mean of the squared deviations. -/
def bnR (X : FVec Ideal S100000x128 .f32) (g b : FVec Ideal S128 .f32) : FVec Ideal S100000x128 .f32 := fun i =>
  (X i - colMean X (i 1)) * Ideal.rsqrt (colVarR X (i 1) + epsN) * g (ix1 (i 1)) + b (ix1 (i 1))

/-- Batch normalisation, the variance as the mean of the squares minus the squared mean. -/
def bnK (X : FVec Ideal S100000x128 .f32) (g b : FVec Ideal S128 .f32) : FVec Ideal S100000x128 .f32 := fun i =>
  (X i - colMean X (i 1)) * Ideal.rsqrt (colVarK X (i 1) + epsN) * g (ix1 (i 1)) + b (ix1 (i 1))

/-! ## The batch normalisation -/

/-- A vector of 128 entries broadcast down the 100000 rows, as printed. -/
def rowB (y : FVec Ideal S128 .f32) : FVec Ideal S100000x128 .f32 :=
  broadcastInDim S100000x128 ![0, 1] bcast_S1x128_S100000x128_0_1 (broadcastInDim S1x128 ![1] bcast_S128_S1x128_1 y)

theorem rowB_apply (y : FVec Ideal S128 .f32) (i : S100000x128.Idx) : rowB y i = y (ix1 (i 1)) :=
  rowBroadcast_apply bcast_S128_S1x128_1 bcast_S1x128_S100000x128_0_1 y i

/-- A scalar constant broadcast to 128 entries, as printed. -/
def constV (w : BitVec 32) : FVec Ideal S128 .f32 := broadcastInDim S128 ![] bcast_S_S128 (constant (F := Ideal) S_ .f32 w)

theorem constV_apply (w : BitVec 32) (j : S128.Idx) : constV w j = Ideal.ofBits .f32 w := by
  unfold constV
  rw [broadcastInDim_scalar_apply]
  rfl

/-- The column sums, as printed. -/
def colSumV (X : FVec Ideal S100000x128 .f32) : FVec Ideal S128 .f32 :=
  Host.reduceAdd (F := Ideal) X (constant (F := Ideal) S_ .f32 0x00000000#32) reducesTo_S100000x128_S128_d0 h_S_

theorem colSumV_apply (X : FVec Ideal S100000x128 .f32) (j : S128.Idx) : colSumV X j = ∑ r : Fin 100000, X (ix2 r (j 0)) := by
  unfold colSumV
  rw [colSum_apply reducesTo_S100000x128_S128_d0 (by decide) h_S_]
  show Ideal.ofBits .f32 0x00000000#32 + _ = _
  rw [Ideal.ofBits_zero_f32, zero_add]

/-- The column means, as printed. -/
def meanV (X : FVec Ideal S100000x128 .f32) : FVec Ideal S128 .f32 := Host.divf (F := Ideal) (colSumV X) (constV 0x47C35000#32)

theorem meanV_apply (X : FVec Ideal S100000x128 .f32) (j : S128.Idx) : meanV X j = colMean X (j 0) := by
  unfold meanV colMean
  rw [hostDivf_apply, colSumV_apply, constV_apply]

/-- The column variances, as printed. -/
def varV (X : FVec Ideal S100000x128 .f32) : FVec Ideal S128 .f32 :=
  Host.divf (F := Ideal) (colSumV (mulf (F := Ideal) (subf (F := Ideal) X (rowB (meanV X))) (subf (F := Ideal) X (rowB (meanV X))))) (constV 0x47C35000#32)

theorem varV_apply (X : FVec Ideal S100000x128 .f32) (j : S128.Idx) : varV X j = colVarR X (j 0) := by
  unfold varV colVarR
  rw [hostDivf_apply, colSumV_apply, constV_apply]
  refine congrArg (Ideal.div · rowsN) (Finset.sum_congr rfl fun r _ => ?_)
  rw [mulf_apply, subf_apply, rowB_apply, meanV_apply]

/-- The reciprocal standard deviations, as printed. -/
def rsV (X : FVec Ideal S100000x128 .f32) : FVec Ideal S128 .f32 := Host.rsqrt (F := Ideal) (addf (F := Ideal) (varV X) (constV 0x3727C5AC#32))

theorem rsV_apply (X : FVec Ideal S100000x128 .f32) (j : S128.Idx) : rsV X j = Ideal.rsqrt (colVarR X (j 0) + epsN) := by
  unfold rsV
  show Ideal.rsqrt (addf (F := Ideal) (varV X) (constV 0x3727C5AC#32) j) = _
  rw [addf_apply, varV_apply, constV_apply]

/-- The printed batch normalisation over its named parts. -/
theorem bnS_unfold (X : FVec Ideal S100000x128 .f32) (g b : FVec Ideal S128 .f32) :
    bnS (F := Ideal) X g b = addf (F := Ideal) (mulf (F := Ideal) (mulf (F := Ideal) (subf (F := Ideal) X (rowB (meanV X))) (rowB (rsV X))) (rowB g)) (rowB b) := rfl

/-- The printed batch normalisation read at an index. -/
theorem bnS_eq_bnR (X : FVec Ideal S100000x128 .f32) (g b : FVec Ideal S128 .f32) : bnS (F := Ideal) X g b = bnR X g b := by
  funext i
  rw [bnS_unfold, addf_apply, mulf_apply, mulf_apply, subf_apply, rowB_apply, rowB_apply, rowB_apply, rowB_apply,
    meanV_apply, rsV_apply]
  rfl

/-! ## The two dense stages around it -/

/-- `x = h + (attn·Wo + bo)` read at `(r, c)`. -/
theorem xS_apply2 (h attn : FVec Ideal S100000x128 .f32) (Wo : FVec Ideal S128x128 .f32) (bo : FVec Ideal S128 .f32) (r : Fin 100000) (c : Fin 128) :
    xS (F := Ideal) h attn Wo bo (ix2 r c)
      = h (ix2 r c) + ((∑ k : Fin 128, attn (ix2 r k) * Wo (ix2 k c)) + bo (ix1 c)) := by
  show h (ix2 r c) + (Host.dotGeneral (F := Ideal) dot_S100000x128_S128x128_S100000x128_1_0_0_1_n_n none attn Wo (ix2 r c)
    + rowB bo (ix2 r c)) = _
  rw [dotGeneral_plain_apply' dot_S100000x128_S128x128_S100000x128_1_0_0_1_n_n
    dot_S100000x128_S128x128_S100000x128_1_0_0_1_n_n_wf rfl none attn Wo r c, rowB_apply]

theorem xS_apply (h attn : FVec Ideal S100000x128 .f32) (Wo : FVec Ideal S128x128 .f32) (bo : FVec Ideal S128 .f32) (i : S100000x128.Idx) :
    xS (F := Ideal) h attn Wo bo i
      = h i + ((∑ k : Fin 128, attn (ix2 (i 0) k) * Wo (ix2 k (i 1))) + bo (ix1 (i 1))) := by
  have hi := eq_ix2 i
  rw [congrArg (xS (F := Ideal) h attn Wo bo) hi, congrArg h hi]
  exact xS_apply2 h attn Wo bo (i 0) (i 1)

/-- The hidden layer of the feed-forward block at row `r` and unit `k`. -/
def hidden (xn : FVec Ideal S100000x128 .f32) (Wf1 : FVec Ideal S128x256 .f32) (bf1 : FVec Ideal S256 .f32) (r : Fin 100000) (k : Fin 256) : EReal :=
  max ((∑ m : Fin 128, xn (ix2 r m) * Wf1 (ix2 m k)) + bf1 (ix1 k)) 0

/-- The hidden layer, as printed. -/
def hiddenV (xn : FVec Ideal S100000x128 .f32) (Wf1 : FVec Ideal S128x256 .f32) (bf1 : FVec Ideal S256 .f32) : FVec Ideal S100000x256 .f32 :=
  maximumf (F := Ideal) (addf (F := Ideal) (Host.dotGeneral (F := Ideal) dot_S100000x128_S128x256_S100000x256_1_0_0_1_n_n none xn Wf1)
      (broadcastInDim S100000x256 ![0, 1] bcast_S1x256_S100000x256_0_1 (broadcastInDim S1x256 ![1] bcast_S256_S1x256_1 bf1)))
    (broadcastInDim S100000x256 ![] bcast_S_S100000x256 (constant (F := Ideal) S_ .f32 0x00000000#32))

theorem hiddenV_apply (xn : FVec Ideal S100000x128 .f32) (Wf1 : FVec Ideal S128x256 .f32) (bf1 : FVec Ideal S256 .f32) (r : Fin 100000) (k : Fin 256) :
    hiddenV xn Wf1 bf1 (ix2 r k) = hidden xn Wf1 bf1 r k := by
  unfold hiddenV hidden
  rw [maximumf_apply, addf_apply, dotGeneral_plain_apply' dot_S100000x128_S128x256_S100000x256_1_0_0_1_n_n
    dot_S100000x128_S128x256_S100000x256_1_0_0_1_n_n_wf rfl none xn Wf1 r k,
    rowBroadcast_apply bcast_S256_S1x256_1 bcast_S1x256_S100000x256_0_1 bf1 (ix2 r k), broadcastInDim_scalar_apply]
  show max _ (Ideal.ofBits .f32 0x00000000#32) = _
  rw [Ideal.ofBits_zero_f32]

/-- The feed-forward block with its residual read at `(r, c)`. -/
theorem ffnS_apply2 (xn : FVec Ideal S100000x128 .f32) (Wf1 : FVec Ideal S128x256 .f32) (bf1 : FVec Ideal S256 .f32) (Wf2 : FVec Ideal S256x128 .f32) (bf2 : FVec Ideal S128 .f32)
    (r : Fin 100000) (c : Fin 128) :
    ffnS (F := Ideal) xn Wf1 bf1 Wf2 bf2 (ix2 r c)
      = xn (ix2 r c) + ((∑ k : Fin 256, hidden xn Wf1 bf1 r k * Wf2 (ix2 k c)) + bf2 (ix1 c)) := by
  show xn (ix2 r c) + (Host.dotGeneral (F := Ideal) dot_S100000x256_S256x128_S100000x128_1_0_0_1_n_n none (hiddenV xn Wf1 bf1) Wf2 (ix2 r c)
    + rowB bf2 (ix2 r c)) = _
  rw [dotGeneral_plain_apply' dot_S100000x256_S256x128_S100000x128_1_0_0_1_n_n
    dot_S100000x256_S256x128_S100000x128_1_0_0_1_n_n_wf rfl none (hiddenV xn Wf1 bf1) Wf2 r c, rowB_apply]
  simp only [hiddenV_apply]

theorem ffnS_apply (xn : FVec Ideal S100000x128 .f32) (Wf1 : FVec Ideal S128x256 .f32) (bf1 : FVec Ideal S256 .f32) (Wf2 : FVec Ideal S256x128 .f32) (bf2 : FVec Ideal S128 .f32)
    (i : S100000x128.Idx) :
    ffnS (F := Ideal) xn Wf1 bf1 Wf2 bf2 i
      = xn i + ((∑ k : Fin 256, hidden xn Wf1 bf1 (i 0) k * Wf2 (ix2 k (i 1))) + bf2 (ix1 (i 1))) := by
  have hi := eq_ix2 i
  rw [congrArg (ffnS (F := Ideal) xn Wf1 bf1 Wf2 bf2) hi, congrArg xn hi]
  exact ffnS_apply2 xn Wf1 bf1 Wf2 bf2 (i 0) (i 1)

end Cert.ReferenceIdeal.Stages

end
-- ==== Proof.KI.Chain1.lean ====
import proofs.«158489_j47493748359308_1_alg».proof.Proof.KI.HalvesInst
import proofs.«158489_j47493748359308_1_alg».proof.Proof.KI.Heads
import proofs.«158489_j47493748359308_1_alg».proof.Proof.KI.AttnEq
import proofs.«158489_j47493748359308_1_alg».proof.Proof.KI.R1Arrays
import proofs.«158489_j47493748359308_1_alg».proof.Proof.StageRead
import Idealize.ShloMosaic.Lib.ValueLayout

/-!
# The kernel's value up to the first batch normalisation's statistics

What the second kernel finds: `h` and the output projection's weights as launched, the bias as one row, and the
aggregated features `attn` — the host stretch's `attnK` of the three slices of the first kernel's product, which
is the reference's `attnS` of its three projections.  What it leaves: `x = (h + attn·Wo) + bo`, which is the
reference's `h + (attn·Wo + bo)`, and the column sums of `x` and of `x²`.
-/

set_option maxRecDepth 16384

noncomputable section

open scoped BigOperators

namespace Cert.KernelIdeal.KV

open Cert.KernelIdeal Cert.KernelIdeal.Gen Idealize.ShloMosaic Idealize.ShloMosaic.TcCoe Idealize.SL.Sem Idealize.ShloMosaic.ValueIdx
open Cert.ReferenceIdeal.Stages (projS attnS xS bnK ffnS colMean colVarK)

variable (m : (ℓ : Loc nD τ sig) → Buf (Elt Ideal) ℓ) (c : Dev nD)

/-- The four regions' halves at the ideal instance. -/
abbrev HI : Asm.Halves Ideal := Asm.halves

/-- Argument 0 as launched, on core `c`. -/
abbrev a0 := m ((c.tc : Thread nD τ).loc main_arg0)
/-- Argument 1 as launched, on core `c`. -/
abbrev a1 := m ((c.tc : Thread nD τ).loc main_arg1)
/-- Argument 2 as launched, on core `c`. -/
abbrev a2 := m ((c.tc : Thread nD τ).loc main_arg2)
/-- Argument 3 as launched, on core `c`. -/
abbrev a3 := m ((c.tc : Thread nD τ).loc main_arg3)
/-- Argument 4 as launched, on core `c`. -/
abbrev a4 := m ((c.tc : Thread nD τ).loc main_arg4)
/-- Argument 5 as launched, on core `c`. -/
abbrev a5 := m ((c.tc : Thread nD τ).loc main_arg5)
/-- Argument 6 as launched, on core `c`. -/
abbrev a6 := m ((c.tc : Thread nD τ).loc main_arg6)
/-- Argument 7 as launched, on core `c`. -/
abbrev a7 := m ((c.tc : Thread nD τ).loc main_arg7)
/-- Argument 8 as launched, on core `c`. -/
abbrev a8 := m ((c.tc : Thread nD τ).loc main_arg8)
/-- Argument 9 as launched, on core `c`. -/
abbrev a9 := m ((c.tc : Thread nD τ).loc main_arg9)
/-- Argument 10 as launched, on core `c`. -/
abbrev a10 := m ((c.tc : Thread nD τ).loc main_arg10)
/-- Argument 11 as launched, on core `c`. -/
abbrev a11 := m ((c.tc : Thread nD τ).loc main_arg11)
/-- Argument 12 as launched, on core `c`. -/
abbrev a12 := m ((c.tc : Thread nD τ).loc main_arg12)
/-- Argument 13 as launched, on core `c`. -/
abbrev a13 := m ((c.tc : Thread nD τ).loc main_arg13)
/-- Argument 14 as launched, on core `c`. -/
abbrev a14 := m ((c.tc : Thread nD τ).loc main_arg14)
/-- Argument 15 as launched, on core `c`. -/
abbrev a15 := m ((c.tc : Thread nD τ).loc main_arg15)

/-- The aggregated features: the reference's aggregation of its three projections. -/
abbrev attnR : FVec Ideal S100000x128 .f32 :=
  attnS (F := Ideal) (projS (a0 m c) (a1 m c)) (projS (a0 m c) (a2 m c)) (projS (a0 m c) (a3 m c)) (a14 m c) (a15 m c)
/-- `x = h + (attn·Wo + bo)`. -/
abbrev x1R : FVec Ideal S100000x128 .f32 := xS (F := Ideal) (a0 m c) (attnR m c) (a4 m c) (a5 m c)

/-! ## Region 0 -/

theorem B1_arg0 : Asm.B1 m c main_arg0 = a0 m c := Gen.V1_of m c main_arg0 (by decide)

theorem B1_v0 : Asm.B1 m c main_v0 = wcat (a1 m c) (a2 m c) (a3 m c) := by
  show StableHlo.after hostOps0 (Gen.V0 m c) (Proc.devRef .tc main_v0) = _
  after_results_simp
  rfl

theorem o2_eq : Asm.o2 HI m c = R0.G0 (a0 m c) (wcat (a1 m c) (a2 m c) (a3 m c)) := by
  have e := R0.arr_out (Asm.B1 m) c
  rw [show Asm.B1 m c (Pipeline.arrRef spec0 0) = a0 m c from B1_arg0 m c,
      show Asm.B1 m c (Pipeline.arrRef spec0 1) = wcat (a1 m c) (a2 m c) (a3 m c) from B1_v0 m c] at e
  exact e

/-! ## The stretch before region 1 -/

theorem V2A_v1 : Gen.V2 m (Asm.outsA HI m) c main_v1 = Asm.o2 HI m c :=
  (Function.update_self _ _ _).trans (Asm.put_same c main_v1 _ _)

theorem B5_v47 : Asm.B5 HI m c main_v47 = attnR m c := by
  show StableHlo.after hostOps1_2 (StableHlo.after hostOps1_1 (StableHlo.after hostOps1 (Gen.V2 m (Asm.outsA HI m) c))) (Proc.devRef .tc main_v47) = _
  rw [attn_after, V2A_v1, o2_eq, heads_q, heads_k, heads_v,
    show Gen.V2 m (Asm.outsA HI m) c main_arg14 = a14 m c from (Gen.V2_of m _ c main_arg14 (by decide)).trans (Gen.V1_of m c main_arg14 (by decide)),
    show Gen.V2 m (Asm.outsA HI m) c main_arg15 = a15 m c from (Gen.V2_of m _ c main_arg15 (by decide)).trans (Gen.V1_of m c main_arg15 (by decide))]
  exact attnK_eq _ _ _ _ _

theorem B5_v48 : Asm.B5 HI m c main_v48 = shapeCast S1x128 (a5 m c) shapeCasts_S128_S1x128 := by
  show StableHlo.after hostOps1_2 (StableHlo.after hostOps1_1 (StableHlo.after hostOps1 (Gen.V2 m (Asm.outsA HI m) c))) (Proc.devRef .tc main_v48) = _
  rw [bo_after,
    show Gen.V2 m (Asm.outsA HI m) c main_arg5 = a5 m c from (Gen.V2_of m _ c main_arg5 (by decide)).trans (Gen.V1_of m c main_arg5 (by decide))]

theorem B5_arg0 : Asm.B5 HI m c main_arg0 = a0 m c := (Gen.V5_of m _ c main_arg0 (by decide)).trans <| (Gen.V4_of m _ c main_arg0 (by decide)).trans <| (Gen.V3_of m _ c main_arg0 (by decide)).trans <| (Gen.V2_of m _ c main_arg0 (by decide)).trans (Gen.V1_of m c main_arg0 (by decide))
theorem B5_arg4 : Asm.B5 HI m c main_arg4 = a4 m c := (Gen.V5_of m _ c main_arg4 (by decide)).trans <| (Gen.V4_of m _ c main_arg4 (by decide)).trans <| (Gen.V3_of m _ c main_arg4 (by decide)).trans <| (Gen.V2_of m _ c main_arg4 (by decide)).trans (Gen.V1_of m c main_arg4 (by decide))

/-! ## Region 1 -/

/-- The second kernel's `x` at `(r, j)` is the reference's. -/
theorem X1_eq (r : Fin 100000) (j : Fin 128) : R1.X (Asm.B5 HI m) c r j = x1R m c (ix2 r j) := by
  show _ = xS (F := Ideal) (a0 m c) (attnR m c) (a4 m c) (a5 m c) (ix2 r j)
  rw [Cert.ReferenceIdeal.Stages.xS_apply2]
  unfold R1.X R1.xpre
  rw [B5_arg0, B5_v47, B5_arg4, B5_v48, shapeCast_a_1a_apply]
  exact add_assoc _ _ _

/-- What the second kernel leaves in its tile output: `x`. -/
theorem o6_0_eq : (Asm.o6_0 HI m c : FVec Ideal S100000x128 .f32) = x1R m c := by
  funext (i : S100000x128.Idx)
  obtain ⟨r, j, rfl⟩ : ∃ (r : Fin 100000) (j : Fin 128), i = ix2 r j := ⟨i 0, i 1, eq_ix2 i⟩
  exact (R1.arr_x (Asm.B5 HI m) c r j).trans (X1_eq m c r j)

/-- What it leaves in its first accumulator: the column sums of `x`. -/
theorem o6_1_apply (j : Fin 128) : (Asm.o6_1 HI m c : FVec Ideal S1x128 .f32) (ix2 0 j) = ∑ r : Fin 100000, x1R m c (ix2 r j) := by
  have h1 : ((R1.dat (Asm.B5 HI m) c).arrAt 5 cfg1.N : S1x128.Idx → Elt Ideal .f32) (ix2 (0 : Fin 1) j)
      = ∑ r : Fin 100000, R1.X (Asm.B5 HI m) c r j := R1.arr_sum (Asm.B5 HI m) c j
  have h2 : (∑ r : Fin 100000, R1.X (Asm.B5 HI m) c r j) = ∑ r : Fin 100000, x1R m c (ix2 r j) :=
    Finset.sum_congr rfl fun r _ => X1_eq m c r j
  exact h1.trans h2

/-- What it leaves in its second accumulator: the column sums of `x²`. -/
theorem o6_2_apply (j : Fin 128) : (Asm.o6_2 HI m c : FVec Ideal S1x128 .f32) (ix2 0 j) = ∑ r : Fin 100000, x1R m c (ix2 r j) * x1R m c (ix2 r j) := by
  have h1 : ((R1.dat (Asm.B5 HI m) c).arrAt 6 cfg1.N : S1x128.Idx → Elt Ideal .f32) (ix2 (0 : Fin 1) j)
      = ∑ r : Fin 100000, R1.X (Asm.B5 HI m) c r j * R1.X (Asm.B5 HI m) c r j := R1.arr_sumsq (Asm.B5 HI m) c j
  have h2 : (∑ r : Fin 100000, R1.X (Asm.B5 HI m) c r j * R1.X (Asm.B5 HI m) c r j) = ∑ r : Fin 100000, x1R m c (ix2 r j) * x1R m c (ix2 r j) :=
    Finset.sum_congr rfl fun r _ => by rw [X1_eq]
  exact h1.trans h2

end Cert.KernelIdeal.KV

end
-- ==== Proof.KI.Glue.lean ====
import proofs.«158489_j47493748359308_1_alg».proof.Proof.Gen.KernelIdeal.Regions
import Idealize.ShloMosaic.Lib.StableHlo.Run

/-!
# The host glue between the kernels that carry the batch-normalisation statistics

After a kernel that leaves the column sums `S` and the column sums of squares `Q` of its output, the host forms
the mean `S / n` and the variance `Q / n − (S / n)²` (`n = 100000` rows) and reads the affine parameters and the
biases as single rows.  `meanRow` and `varRow` are those two rows as printed; the buffers the next kernel reads hold them.
-/

set_option maxRecDepth 16384

noncomputable section

namespace Cert.KernelIdeal.KV

open Cert.KernelIdeal Cert.KernelIdeal.Gen Idealize.ShloMosaic Idealize.ShloMosaic.TcCoe Idealize.SL.Sem Idealize.ShloMosaic.StableHlo

variable {F : FTy → Type} [FloatOps F]

/-- The number of rows, splat over one row of 128. -/
abbrev rowsRow : (⟨S1x128, .f32⟩ : BufTy).Contents (Elt F) := broadcastInDim S1x128 ![] bcast_S_S1x128 (constant S_ .f32 0x47C35000#32)
/-- The column means from the column sums. -/
def meanRow (S : (⟨S1x128, .f32⟩ : BufTy).Contents (Elt F)) : (⟨S1x128, .f32⟩ : BufTy).Contents (Elt F) := Host.divf S rowsRow
/-- The column variances from the column sums and the column sums of squares: mean of squares minus squared mean. -/
def varRow (S Q : (⟨S1x128, .f32⟩ : BufTy).Contents (Elt F)) : (⟨S1x128, .f32⟩ : BufTy).Contents (Elt F) := subf (Host.divf Q rowsRow) (mulf (meanRow S) (meanRow S))

variable (W : Valuation τ sig (Elt F))

/-! ## Between the second and the third kernel -/

theorem mean1_after : StableHlo.after hostOps2 W (Proc.devRef .tc main_v51) = meanRow (W (Proc.devRef .tc main_v49_1)) := by
  after_results_simp
  rfl
theorem var1_after : StableHlo.after hostOps2 W (Proc.devRef .tc main_v55)
    = varRow (W (Proc.devRef .tc main_v49_1)) (W (Proc.devRef .tc main_v49_2)) := by
  after_results_simp
  rfl
theorem g1_after : StableHlo.after hostOps2 W (Proc.devRef .tc main_v56) = shapeCast S1x128 (W (Proc.devRef .tc main_arg6)) shapeCasts_S128_S1x128 := by
  after_results_simp
  rfl
theorem b1_after : StableHlo.after hostOps2 W (Proc.devRef .tc main_v57) = shapeCast S1x128 (W (Proc.devRef .tc main_arg7)) shapeCasts_S128_S1x128 := by
  after_results_simp
  rfl
theorem bf1_after : StableHlo.after hostOps2 W (Proc.devRef .tc main_v58) = shapeCast S1x256 (W (Proc.devRef .tc main_arg9)) shapeCasts_S256_S1x256 := by
  after_results_simp
  rfl
theorem bf2_after : StableHlo.after hostOps2 W (Proc.devRef .tc main_v59) = shapeCast S1x128 (W (Proc.devRef .tc main_arg11)) shapeCasts_S128_S1x128 := by
  after_results_simp
  rfl

/-! ## Between the third and the fourth kernel -/

theorem mean2_after : StableHlo.after hostOps3 W (Proc.devRef .tc main_v62) = meanRow (W (Proc.devRef .tc main_v60_1)) := by
  after_results_simp
  rfl
theorem var2_after : StableHlo.after hostOps3 W (Proc.devRef .tc main_v66)
    = varRow (W (Proc.devRef .tc main_v60_1)) (W (Proc.devRef .tc main_v60_2)) := by
  after_results_simp
  rfl
theorem g2_after : StableHlo.after hostOps3 W (Proc.devRef .tc main_v67) = shapeCast S1x128 (W (Proc.devRef .tc main_arg12)) shapeCasts_S128_S1x128 := by
  after_results_simp
  rfl
theorem b2_after : StableHlo.after hostOps3 W (Proc.devRef .tc main_v68) = shapeCast S1x128 (W (Proc.devRef .tc main_arg13)) shapeCasts_S128_S1x128 := by
  after_results_simp
  rfl

end Cert.KernelIdeal.KV

end
-- ==== Proof.KI.R2Spec.lean ====
import proofs.«158489_j47493748359308_1_alg».proof.Proof.Gen.KernelIdeal
import Idealize.ShloMosaic.Lib.ValueIdx
import Idealize.ShloMosaic.PureOps.Ideal.Laws

noncomputable section

open scoped BigOperators

namespace Cert.KernelIdeal.R2

open Idealize.ShloMosaic Idealize.ShloMosaic.ValueIdx

/-! # The feed-forward region over the extended reals, entry by entry

The batch statistics and the affine and bias parameters reach the region as one-row arrays, so they are read at
`(0, c)`. -/

/-- The batch normalisation's `eps`, as the program prints it. -/
abbrev epsN : EReal := Ideal.ofBits .f32 0x3727C5AC#32

/-- The normalised activations: `(x − mean)·rsqrt(var + eps)·gamma + beta`, column by column. -/
def xnI (X : FVec Ideal S100000x128 .f32) (mean var g b : FVec Ideal S1x128 .f32) : FVec Ideal S100000x128 .f32 := fun i =>
  (X i - mean (ix2 0 (i 1))) * Ideal.rsqrt (var (ix2 0 (i 1)) + epsN) * g (ix2 0 (i 1)) + b (ix2 0 (i 1))

/-- The feed-forward block with its residual: `xn + (relu(xn·Wf1 + bf1)·Wf2 + bf2)`. -/
def ffnI (xn : FVec Ideal S100000x128 .f32) (Wf1 : FVec Ideal S128x256 .f32) (bf1 : FVec Ideal S1x256 .f32)
    (Wf2 : FVec Ideal S256x128 .f32) (bf2 : FVec Ideal S1x128 .f32) : FVec Ideal S100000x128 .f32 := fun i =>
  xn i + ((∑ k : Fin 256, max ((∑ m : Fin 128, xn (ix2 (i 0) m) * Wf1 (ix2 m k)) + bf1 (ix2 0 k)) 0 * Wf2 (ix2 k (i 1)))
    + bf2 (ix2 0 (i 1)))

theorem xnI_apply (X : FVec Ideal S100000x128 .f32) (mean var g b : FVec Ideal S1x128 .f32) (r : Fin 100000) (c : Fin 128) :
    xnI X mean var g b (ix2 r c)
      = (X (ix2 r c) - mean (ix2 0 c)) * Ideal.rsqrt (var (ix2 0 c) + epsN) * g (ix2 0 c) + b (ix2 0 c) := rfl

theorem ffnI_apply (xn : FVec Ideal S100000x128 .f32) (Wf1 : FVec Ideal S128x256 .f32) (bf1 : FVec Ideal S1x256 .f32)
    (Wf2 : FVec Ideal S256x128 .f32) (bf2 : FVec Ideal S1x128 .f32) (r : Fin 100000) (c : Fin 128) :
    ffnI xn Wf1 bf1 Wf2 bf2 (ix2 r c)
      = xn (ix2 r c) + ((∑ k : Fin 256, max ((∑ m : Fin 128, xn (ix2 r m) * Wf1 (ix2 m k)) + bf1 (ix2 0 k)) 0 * Wf2 (ix2 k c))
        + bf2 (ix2 0 c)) := rfl

end Cert.KernelIdeal.R2

end
-- ==== Proof.KI.R3Value.lean ====
import proofs.«158489_j47493748359308_1_alg».proof.Proof.KI.R3
import Idealize.ShloMosaic.Lib.Pipeline.Value
import Idealize.ShloMosaic.Lib.ValueIdx
import Idealize.ShloMosaic.PureOps.Ideal.Laws

set_option maxRecDepth 16384

noncomputable section

namespace Cert.KernelIdeal.R3

open Cert.KernelIdeal Cert.KernelIdeal.Gen
open Idealize.ShloMosaic Idealize.ShloMosaic.TcCoe Idealize.SL.Sem Idealize.ShloMosaic.ValueIdx
open Idealize.ShloMosaic.Pipeline (Dat)
open scoped BigOperators

-- the TensorCore's buffer contents when the region is entered, at the ideal values
variable (V : (c : Dev nD) → (b : Ref sig .tc) → Buf (Elt Ideal) ((c : Thread nD τ).loc b))

/-! # The final normalisation region at the ideal values: the output array as one function of the entry arrays -/

theorem zeros2 : (![0, 0] : Fin 2 → Nat) = fun _ => 0 := funext fun a => by fin_cases a <;> rfl

/-- Row `r`, column `j` of the normalised array: the entry minus the column's mean, times the reciprocal square root
    of the column's variance plus the small constant, times the column's scale, plus the column's shift. -/
def G3 (X : S100000x128.Idx → Elt Ideal .f32) (mean var gamma beta : S1x128.Idx → Elt Ideal .f32) :
    S100000x128.Idx → Elt Ideal .f32 := fun i =>
  ((X i - mean (ix2 (0 : Fin 1) (i 1 : Fin 128))) * Ideal.rsqrt (var (ix2 (0 : Fin 1) (i 1 : Fin 128)) + Ideal.ofBits .f32 0x3727C5AC#32))
    * gamma (ix2 (0 : Fin 1) (i 1 : Fin 128)) + beta (ix2 (0 : Fin 1) (i 1 : Fin 128))

theorem G3_apply (X : S100000x128.Idx → Elt Ideal .f32) (mean var gamma beta : S1x128.Idx → Elt Ideal .f32) (r : Fin 100000) (j : Fin 128) :
    G3 X mean var gamma beta (ix2 r j)
      = ((X (ix2 r j) - mean (ix2 0 j)) * Ideal.rsqrt (var (ix2 0 j) + Ideal.ofBits .f32 0x3727C5AC#32)) * gamma (ix2 0 j) + beta (ix2 0 j) := rfl

/-- A parameter row spread over the tile's rows, read at row `r`, column `j`, is the row's entry at column `j`. -/
theorem row_spread {α : Type} (v : S1x128.Idx → α) (r : Fin 2000) (j : Fin 128) :
    broadcastTo S2000x128 v broadcasts_S1x128_S2000x128 (ix2 r j) = v (ix2 0 j) :=
  broadcastTo_apply v broadcasts_S1x128_S2000x128 (ix2 r j) (ix2 0 j) (fun a => by
    match a with
    | ⟨0, _⟩ => rfl
    | ⟨1, _⟩ => rfl)

/-- The body's arithmetic on its loaded blocks, read at row `r`, column `j` of the tile. -/
theorem pay_apply (x0 : Vec Ideal S2000x128 .f32) (x1 x2 x3 x4 : Vec Ideal S1x128 .f32) (r : Fin 2000) (j : Fin 128) :
    k3_pay1 x0 x1 x2 x3 x4 (ix2 r j)
      = ((x0 (ix2 r j) - x1 (ix2 0 j)) * Ideal.rsqrt (x2 (ix2 0 j) + Ideal.ofBits .f32 0x3727C5AC#32)) * x3 (ix2 0 j) + x4 (ix2 0 j) := by
  unfold k3_pay1
  simp only [shapeCast_self]
  simp only [addf_apply, mulf_apply, subf_apply, row_spread]
  rfl

/-- The printed index maps, decided over the grid: the input tile moves with the output tile down the rows, no
    window moves along the columns, the parameter rows do not move. -/
theorem idx_facts : ∀ t : Fin cfg3.N, win3_5.index t (0 : Fin 2) = t.val ∧ win3_5.index t (1 : Fin 2) = 0
    ∧ win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- A parameter row's block at any point, read at column `j`, is the array's entry at column `j`. -/
theorem row_block (c : Dev nD) (t : Fin cfg3.N) (j : Fin 128) :
    iblk V c 1 t (ix2 0 j) = V c main_v62 (ix2 0 j) ∧ iblk V c 2 t (ix2 0 j) = V c main_v66 (ix2 0 j)
    ∧ iblk V c 3 t (ix2 0 j) = V c main_v67 (ix2 0 j) ∧ iblk V c 4 t (ix2 0 j) = V c main_v68 (ix2 0 j) := by
  obtain ⟨-, -, -, -, a0, a1, b0, b1, c0, c1, d0, d1⟩ := idx_facts t
  refine ⟨?_, ?_, ?_, ?_⟩
  · show V c main_v62 (((cfg3.win 1).blk t).view.emb (ix2 0 j)) = V c main_v62 (ix2 0 j)
    refine congrArg _ (funext fun a => Fin.ext ?_)
    match a with
    | ⟨0, _⟩ => show win3_1.index t (0 : Fin 2) * 1 + 1 * 0 = 0; omega
    | ⟨1, _⟩ => show win3_1.index t (1 : Fin 2) * 128 + 1 * j.val = j.val; omega
  · show V c main_v66 (((cfg3.win 2).blk t).view.emb (ix2 0 j)) = V c main_v66 (ix2 0 j)
    refine congrArg _ (funext fun a => Fin.ext ?_)
    match a with
    | ⟨0, _⟩ => show win3_2.index t (0 : Fin 2) * 1 + 1 * 0 = 0; omega
    | ⟨1, _⟩ => show win3_2.index t (1 : Fin 2) * 128 + 1 * j.val = j.val; omega
  · show V c main_v67 (((cfg3.win 3).blk t).view.emb (ix2 0 j)) = V c main_v67 (ix2 0 j)
    refine congrArg _ (funext fun a => Fin.ext ?_)
    match a with
    | ⟨0, _⟩ => show win3_3.index t (0 : Fin 2) * 1 + 1 * 0 = 0; omega
    | ⟨1, _⟩ => show win3_3.index t (1 : Fin 2) * 128 + 1 * j.val = j.val; omega
  · show V c main_v68 (((cfg3.win 4).blk t).view.emb (ix2 0 j)) = V c main_v68 (ix2 0 j)
    refine congrArg _ (funext fun a => Fin.ext ?_)
    match a with
    | ⟨0, _⟩ => show win3_4.index t (0 : Fin 2) * 1 + 1 * 0 = 0; omega
    | ⟨1, _⟩ => show win3_4.index t (1 : Fin 2) * 128 + 1 * j.val = j.val; omega

/-- What point `t` writes back is block `t` of `G3` of the arrays as the region finds them. -/
theorem flushed_eq (c : Dev nD) (t : Fin cfg3.N) :
    (dat V c).flushed 5 t = ((cfg3.win 5).blk t).view.read (Elt Ideal)
      (G3 (V c main_v60_0) (V c main_v62) (V c main_v66) (V c main_v67) (V c main_v68)) := by
  show (cfg3.win 5).cut (grid3.coords t) ((dat V c).after 5 t) = _
  rw [after_5]
  unfold out_5
  rw [View.canon_unit_zero zeros2]
  simp only [View.ld_unit_zero (S := S2000x128) zeros2, View.ld_unit_zero (S := S1x128) zeros2]
  obtain ⟨e0, e1, f0, f1, -⟩ := idx_facts t
  funext y
  obtain ⟨r, j, rfl⟩ : ∃ (r : Fin 2000) (j : Fin 128), y = ix2 r j := ⟨y 0, y 1, eq_ix2 y⟩
  show k3_pay1 (iblk V c 0 t) (iblk V c 1 t) (iblk V c 2 t) (iblk V c 3 t) (iblk V c 4 t) (ix2 r j)
      = G3 (V c main_v60_0) (V c main_v62) (V c main_v66) (V c main_v67) (V c main_v68) (((cfg3.win 5).blk t).view.emb (ix2 r j))
  have hr : t.val * 2000 + r.val < 100000 := by have := t.isLt; have := r.isLt; have : cfg3.N = 50 := N_3; omega
  have hemb : ((cfg3.win 5).blk t).view.emb (ix2 r j) = ix2 (⟨t.val * 2000 + r.val, hr⟩ : Fin 100000) j := by
    funext a; apply Fin.ext
    match a with
    | ⟨0, _⟩ => show win3_5.index t (0 : Fin 2) * 2000 + 1 * r.val = t.val * 2000 + r.val; omega
    | ⟨1, _⟩ => show win3_5.index t (1 : Fin 2) * 128 + 1 * j.val = j.val; omega
  have hemb0 : ((cfg3.win 0).blk t).view.emb (ix2 r j) = ix2 (⟨t.val * 2000 + r.val, hr⟩ : Fin 100000) j := by
    funext a; apply Fin.ext
    match a with
    | ⟨0, _⟩ => show win3_0.index t (0 : Fin 2) * 2000 + 1 * r.val = t.val * 2000 + r.val; omega
    | ⟨1, _⟩ => show win3_0.index t (1 : Fin 2) * 128 + 1 * j.val = j.val; omega
  have hx : iblk V c 0 t (ix2 r j) = V c main_v60_0 (ix2 (⟨t.val * 2000 + r.val, hr⟩ : Fin 100000) j) := by
    show V c main_v60_0 (((cfg3.win 0).blk t).view.emb (ix2 r j)) = _
    exact congrArg _ hemb0
  obtain ⟨h1, h2, h3, h4⟩ := row_block V c t j
  refine (pay_apply _ _ _ _ _ r j).trans ?_
  rw [hemb, G3_apply, hx, h1, h2, h3, h4]

/-- An index of the array is in point `t`'s block iff each coordinate is in the block's range on its axis. -/
theorem mem_blk (t : Fin cfg3.N) (i : S100000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole main_v69).slice (win3_5.rect t)).set ↔ _
  rw [View.set_slice_whole, Rect.mem_set_unit]
  exact Iff.rfl

/-- Every index of the array is in some point's block: row `r` in the block of point `r / 2000`. -/
theorem cover (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 50 := N_3
  refine ⟨⟨(i 0).val / 2000, by omega⟩, flush3_5 _, ?_⟩
  rw [mem_blk]
  obtain ⟨e0, e1, -⟩ := idx_facts ⟨(i 0).val / 2000, by omega⟩
  intro a
  match a with
  | ⟨0, _⟩ => show win3_5.index _ (0 : Fin 2) * 2000 ≤ (i 0).val ∧ (i 0).val < win3_5.index _ (0 : Fin 2) * 2000 + 2000; rw [e0]; show (i 0).val / 2000 * 2000 ≤ (i 0).val ∧ (i 0).val < (i 0).val / 2000 * 2000 + 2000; omega
  | ⟨1, _⟩ => show win3_5.index _ (1 : Fin 2) * 128 ≤ (i 1).val ∧ (i 1).val < win3_5.index _ (1 : Fin 2) * 128 + 128; rw [e1]; omega

/-- THE OUTPUT ARRAY after the region: `G3` of the arrays as the region finds them. -/
theorem arr_out (c : Dev nD) : (dat V c).arrAt 5 cfg3.N
    = G3 (V c (Pipeline.arrRef spec3 0)) (V c (Pipeline.arrRef spec3 1)) (V c (Pipeline.arrRef spec3 2)) (V c (Pipeline.arrRef spec3 3)) (V c (Pipeline.arrRef spec3 4)) :=
  (dat V c).arrAt_eq_of_cover 5 (G3 (V c main_v60_0) (V c main_v62) (V c main_v66) (V c main_v67) (V c main_v68))
    (fun t _ => flushed_eq V c t) cover

/-- The input arrays are left as found. -/
theorem arr_in_0 (c : Dev nD) : (dat V c).arrAt 0 cfg3.N = V c (Pipeline.arrRef spec3 0) := ((dat V c).arrAt_in 0 rfl _).trans (A_eq V c 0)
theorem arr_in_1 (c : Dev nD) : (dat V c).arrAt 1 cfg3.N = V c (Pipeline.arrRef spec3 1) := ((dat V c).arrAt_in 1 rfl _).trans (A_eq V c 1)
theorem arr_in_2 (c : Dev nD) : (dat V c).arrAt 2 cfg3.N = V c (Pipeline.arrRef spec3 2) := ((dat V c).arrAt_in 2 rfl _).trans (A_eq V c 2)
theorem arr_in_3 (c : Dev nD) : (dat V c).arrAt 3 cfg3.N = V c (Pipeline.arrRef spec3 3) := ((dat V c).arrAt_in 3 rfl _).trans (A_eq V c 3)
theorem arr_in_4 (c : Dev nD) : (dat V c).arrAt 4 cfg3.N = V c (Pipeline.arrRef spec3 4) := ((dat V c).arrAt_in 4 rfl _).trans (A_eq V c 4)

end Cert.KernelIdeal.R3

end
-- ==== Proof.KI.Bridge.lean ====
import proofs.«158489_j47493748359308_1_alg».proof.Proof.KI.R2Spec
import proofs.«158489_j47493748359308_1_alg».proof.Proof.KI.R3Value
import proofs.«158489_j47493748359308_1_alg».proof.Proof.StageRead
import Idealize.ShloMosaic.Lib.ValueLayout
import Idealize.ShloMosaic.Lib.IdealHost

/-!
# The kernels' entrywise forms meet the reference's stages

Pure index algebra over the extended reals.  With a mean row and a variance row that hold the column means of
`X` and its column variances spelt as mean of squares minus squared mean, and the scale and shift read as
one-row arrays, the normalisation the third and fourth kernels apply entrywise is the batch normalisation
`bnK` (`xnI_eq_bnK`, `G3_eq_bnK`); and the third kernel's feed-forward block, its biases read as one-row
arrays, is the reference's (`ffnI_eq_ffnS`).
-/

noncomputable section

open scoped BigOperators

namespace Cert.KernelIdeal.KV

open Cert.KernelIdeal Cert.KernelIdeal.Gen
open Idealize.ShloMosaic Idealize.ShloMosaic.ValueIdx
open Cert.ReferenceIdeal.Stages (colMean colVarK colVarR bnK bnR ffnS hidden)

/-- The batch normalisation `bnK` at `(r, c)`. -/
theorem bnK_apply2 (X : FVec Ideal S100000x128 .f32) (g b : FVec Ideal S128 .f32) (r : Fin 100000) (c : Fin 128) :
    bnK X g b (ix2 r c)
      = (X (ix2 r c) - colMean X c) * Ideal.rsqrt (colVarK X c + Ideal.ofBits .f32 0x3727C5AC#32) * g (ix1 c)
        + b (ix1 c) := rfl

/-! ## The normalisation and the feed-forward block, entrywise -/

/-- A vector read as a one-row array, at column `c`. -/
theorem row_apply {a : ℕ} (y : FVec Ideal ⟨1, ![a]⟩ .f32) (h : (⟨1, ![a]⟩ : Shape).ShapeCasts ⟨2, ![1, a]⟩) (c : Fin a) :
    shapeCast ⟨2, ![1, a]⟩ y h (ix2 0 c) = y (ix1 c) :=
  shapeCast_a_1a_apply y h 0 c

/-- The third kernel's normalisation is `bnK`, given the mean and variance rows. -/
theorem xnI_eq_bnK (X : FVec Ideal S100000x128 .f32) (mean var : FVec Ideal S1x128 .f32) (g b : FVec Ideal S128 .f32)
    (hm : ∀ j : Fin 128, mean (ix2 0 j) = colMean X j) (hv : ∀ j : Fin 128, var (ix2 0 j) = colVarK X j) :
    R2.xnI X mean var (shapeCast S1x128 g shapeCasts_S128_S1x128) (shapeCast S1x128 b shapeCasts_S128_S1x128)
      = bnK X g b := by
  funext i
  obtain ⟨r, c, rfl⟩ : ∃ r c, i = ix2 r c := ⟨i 0, i 1, eq_ix2 i⟩
  rw [R2.xnI_apply, bnK_apply2, hm, hv, row_apply g shapeCasts_S128_S1x128 c, row_apply b shapeCasts_S128_S1x128 c]

/-- The fourth kernel's normalisation is `bnK`, given the mean and variance rows. -/
theorem G3_eq_bnK (X : FVec Ideal S100000x128 .f32) (mean var : FVec Ideal S1x128 .f32) (g b : FVec Ideal S128 .f32)
    (hm : ∀ j : Fin 128, mean (ix2 0 j) = colMean X j) (hv : ∀ j : Fin 128, var (ix2 0 j) = colVarK X j) :
    R3.G3 X mean var (shapeCast S1x128 g shapeCasts_S128_S1x128) (shapeCast S1x128 b shapeCasts_S128_S1x128)
      = bnK X g b := by
  funext i
  obtain ⟨r, c, rfl⟩ : ∃ r c, i = ix2 r c := ⟨i 0, i 1, eq_ix2 i⟩
  rw [R3.G3_apply, bnK_apply2, hm, hv, row_apply g shapeCasts_S128_S1x128 c, row_apply b shapeCasts_S128_S1x128 c]

/-- The third kernel's feed-forward block is the reference's. -/
theorem ffnI_eq_ffnS (xn : FVec Ideal S100000x128 .f32) (Wf1 : FVec Ideal S128x256 .f32) (bf1 : FVec Ideal S256 .f32)
    (Wf2 : FVec Ideal S256x128 .f32) (bf2 : FVec Ideal S128 .f32) :
    R2.ffnI xn Wf1 (shapeCast S1x256 bf1 shapeCasts_S256_S1x256) Wf2 (shapeCast S1x128 bf2 shapeCasts_S128_S1x128)
      = ffnS (F := Ideal) xn Wf1 bf1 Wf2 bf2 := by
  funext i
  obtain ⟨r, c, rfl⟩ : ∃ r c, i = ix2 r c := ⟨i 0, i 1, eq_ix2 i⟩
  rw [R2.ffnI_apply, Cert.ReferenceIdeal.Stages.ffnS_apply2, row_apply bf2 shapeCasts_S128_S1x128 c]
  refine congrArg (xn _ + ·) (congrArg (· + _) (Finset.sum_congr rfl fun k _ => ?_))
  rw [row_apply bf1 shapeCasts_S256_S1x256 k]
  rfl

end Cert.KernelIdeal.KV

end
-- ==== Proof.KI.BridgeGlue.lean ====
import proofs.«158489_j47493748359308_1_alg».proof.Proof.KI.Glue
import proofs.«158489_j47493748359308_1_alg».proof.Proof.StageRead
import Idealize.ShloMosaic.Lib.IdealHost

/-!
# The host's mean and variance rows are the column means and variances

Between two kernels the host divides the accumulated column sums and sums of squares by the number of rows and
subtracts the squared mean.  Over the extended reals, from a sum row that holds the column sums of `X` the mean
row holds the column means of `X` (`meanRow_apply`), and with a sum-of-squares row that holds the column sums of
its squares the variance row holds the column variances spelt as mean of squares minus squared mean
(`varRow_apply`).
-/

noncomputable section

open scoped BigOperators

namespace Cert.KernelIdeal.KV

open Cert.KernelIdeal Cert.KernelIdeal.Gen
open Idealize.ShloMosaic Idealize.ShloMosaic.ValueIdx
open Cert.ReferenceIdeal.Stages (colMean colVarK)

theorem rowsRow_apply (i : S1x128.Idx) : rowsRow (F := Ideal) i = Ideal.ofBits .f32 0x47C35000#32 := by
  show broadcastInDim S1x128 ![] bcast_S_S1x128 (constant (F := Ideal) S_ .f32 0x47C35000#32) i = _
  rw [broadcastInDim_scalar_apply]
  rfl

theorem meanRow_apply (S : FVec Ideal S1x128 .f32) (X : FVec Ideal S100000x128 .f32)
    (hS : ∀ j : Fin 128, S (ix2 0 j) = ∑ r : Fin 100000, X (ix2 r j)) (j : Fin 128) :
    meanRow (F := Ideal) S (ix2 0 j) = colMean X j := by
  unfold meanRow colMean
  rw [hostDivf_apply, rowsRow_apply, hS]

theorem varRow_apply (S Q : FVec Ideal S1x128 .f32) (X : FVec Ideal S100000x128 .f32)
    (hS : ∀ j : Fin 128, S (ix2 0 j) = ∑ r : Fin 100000, X (ix2 r j))
    (hQ : ∀ j : Fin 128, Q (ix2 0 j) = ∑ r : Fin 100000, X (ix2 r j) * X (ix2 r j)) (j : Fin 128) :
    varRow (F := Ideal) S Q (ix2 0 j) = colVarK X j := by
  unfold varRow colVarK
  rw [subf_apply, mulf_apply, hostDivf_apply, rowsRow_apply, hQ, meanRow_apply S X hS j]

end Cert.KernelIdeal.KV

end
-- ==== Proof.KI.R2Out.lean ====
import proofs.«158489_j47493748359308_1_alg».proof.Proof.KI.R2Frame
import Idealize.ShloMosaic.Lib.Pipeline.Value

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The feed-forward region: what each run leaves in each output, in closed form (any float interpretation)

The tile result is `x2 = xn + (relu(xn·Wf1 + bf1)·Wf2 + bf2)` with `xn` the batch-normalised input tile; the two
accumulator blocks receive the running value plus the tile's column sum of `x2`, resp. of `x2·x2`; at the first
tile the running value is the zero row just stored. -/

theorem hz : (![0, 0] : Fin 2 → Nat) = fun _ => 0 := funext fun a => by fin_cases a <;> rfl

/-- The tile result, from the nine input blocks: the arithmetic of the printed body (its named payloads). -/
def tileOut (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) : Vec F S2000x128 .f32 :=
  k2_pay1 (k2_pay6 x0 x1 x2 x3 x4) (k2_pay7 x0 x1 x2 x3 x4 x5 x6) (k2_pay8 x7) x8

/-- The column sum of a tile, as a `(1,128)` row. -/
def colSum (y : Vec F S2000x128 .f32) : Vec F S1x128 .f32 :=
  shapeCast S1x128 (multiReduction .add [0] S128 y 0x00000000#32 reduces_S2000x128_S128 (.inl rfl) rfl) shapeCasts_S128_S1x128

/-- The zero row the first tile stores into both accumulator blocks. -/
def zeroRow : Vec F S1x128 .f32 := broadcast S1x128 (Scalar.ofBits .f32 0x00000000#32)

set_option maxHeartbeats 1000000 in
theorem out_B_9_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) :
    out_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11 = tileOut x0 x1 x2 x3 x4 x5 x6 x7 x8 := by
  unfold out_B_9
  rw [View.read_writes_eq_canon _ _ _ (cover_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11)]
  unfold kernelRun_B
  dsimp only
  sl_unfold_words
  rw [View.canon_unit_zero hz]
  unfold tileOut
  simp only [View.readAt_eq_ld, harg1.read_unread, harg2.read_unread, harg3.read_unread, harg4.read_unread, harg5.read_unread, harg6.read_unread, harg7.read_unread, harg8.read_unread, harg9.read_unread, View.ld_unit_zero (S := S2000x128) hz, View.ld_unit_zero (S := S1x128) hz, View.ld_unit_zero (S := S128x256) hz, View.ld_unit_zero (S := S1x256) hz, View.ld_unit_zero (S := S256x128) hz, shapeCast_self]

set_option maxHeartbeats 1000000 in
theorem out_B_10_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) :
    out_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11 = addf xo10 (colSum (tileOut x0 x1 x2 x3 x4 x5 x6 x7 x8)) := by
  unfold out_B_10
  rw [View.read_writes_eq_canon _ _ _ (cover_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11)]
  unfold kernelRun_B
  dsimp only
  sl_unfold_words
  rw [View.canon_unit_zero hz]
  unfold tileOut colSum k2_pay2
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x128) hz, View.ld_unit_zero (S := S1x128) hz, View.ld_unit_zero (S := S128x256) hz, View.ld_unit_zero (S := S1x256) hz, View.ld_unit_zero (S := S256x128) hz, shapeCast_self]

set_option maxHeartbeats 1000000 in
theorem out_B_11_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : ¬cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) (xo10 : Vec F S1x128 .f32) (xo11 : Vec F S1x128 .f32) :
    out_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11 = addf xo11 (colSum (mulf (tileOut x0 x1 x2 x3 x4 x5 x6 x7 x8) (tileOut x0 x1 x2 x3 x4 x5 x6 x7 x8))) := by
  unfold out_B_11
  rw [View.read_writes_eq_canon _ _ _ (cover_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 xo10 xo11)]
  unfold kernelRun_B
  dsimp only
  sl_unfold_words
  rw [View.canon_unit_zero hz]
  unfold tileOut colSum k2_pay3
  simp only [View.readAt_eq_ld, harg1.read_unread, harg2.read_unread, harg3.read_unread, harg4.read_unread, harg5.read_unread, harg6.read_unread, harg7.read_unread, harg8.read_unread, harg9.read_unread, harg11.read_unread, harg12.read_unread, View.ld_unit_zero (S := S2000x128) hz, View.ld_unit_zero (S := S1x128) hz, View.ld_unit_zero (S := S128x256) hz, View.ld_unit_zero (S := S1x256) hz, View.ld_unit_zero (S := S256x128) hz, shapeCast_self]

set_option maxHeartbeats 1000000 in
theorem out_A_9_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) :
    out_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = tileOut x0 x1 x2 x3 x4 x5 x6 x7 x8 := by
  unfold out_A_9
  rw [View.read_writes_eq_canon _ _ _ (cover_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun_A
  dsimp only
  sl_unfold_words
  rw [View.canon_unit_zero hz]
  unfold tileOut
  simp only [View.readAt_eq_ld, harg1.read_unread, harg2.read_unread, harg3.read_unread, harg4.read_unread, harg5.read_unread, harg6.read_unread, harg7.read_unread, harg8.read_unread, harg9.read_unread, View.ld_unit_zero (S := S2000x128) hz, View.ld_unit_zero (S := S1x128) hz, View.ld_unit_zero (S := S128x256) hz, View.ld_unit_zero (S := S1x256) hz, View.ld_unit_zero (S := S256x128) hz, shapeCast_self]

set_option maxHeartbeats 1000000 in
theorem out_A_10_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) :
    out_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = addf zeroRow (colSum (tileOut x0 x1 x2 x3 x4 x5 x6 x7 x8)) := by
  unfold out_A_10
  rw [View.read_writes_eq_canon _ _ _ (cover_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun_A
  dsimp only
  sl_unfold_words
  rw [View.canon_cons_unit_zero (S := S1x128) hz, View.readCov_unit_zero (S := S1x128) _ hz]
  unfold tileOut colSum zeroRow k2_pay2 k2_pay4
  simp only [View.readAt_eq_ld, harg1.read_unread, harg2.read_unread, harg3.read_unread, harg4.read_unread, harg5.read_unread, harg6.read_unread, harg7.read_unread, harg8.read_unread, harg9.read_unread, View.ld_unit_zero (S := S2000x128) hz, View.ld_unit_zero (S := S1x128) hz, View.ld_unit_zero (S := S128x256) hz, View.ld_unit_zero (S := S1x256) hz, View.ld_unit_zero (S := S256x128) hz, shapeCast_self]

set_option maxHeartbeats 1000000 in
theorem out_A_11_eq (c : Dev nD) (i : grid2.Coords) (arg1 : Memref sig .tc .vmem S2000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x256 .f32) (harg6 : arg6.IsWhole) (arg7 : Memref sig .tc .vmem S1x256 .f32) (harg7 : arg7.IsWhole) (arg8 : Memref sig .tc .vmem S256x128 .f32) (harg8 : arg8.IsWhole) (arg9 : Memref sig .tc .vmem S1x128 .f32) (harg9 : arg9.IsWhole) (arg10 : Memref sig .tc .vmem S2000x128 .f32) (harg10 : arg10.IsWhole) (arg11 : Memref sig .tc .vmem S1x128 .f32) (harg11 : arg11.IsWhole) (arg12 : Memref sig .tc .vmem S1x128 .f32) (harg12 : arg12.IsWhole) (hc0 : cond0 i)
    (x0 : Vec F S2000x128 .f32) (x1 : Vec F S1x128 .f32) (x2 : Vec F S1x128 .f32) (x3 : Vec F S1x128 .f32) (x4 : Vec F S1x128 .f32) (x5 : Vec F S128x256 .f32) (x6 : Vec F S1x256 .f32) (x7 : Vec F S256x128 .f32) (x8 : Vec F S1x128 .f32) :
    out_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8 = addf zeroRow (colSum (mulf (tileOut x0 x1 x2 x3 x4 x5 x6 x7 x8) (tileOut x0 x1 x2 x3 x4 x5 x6 x7 x8))) := by
  unfold out_A_11
  rw [View.read_writes_eq_canon _ _ _ (cover_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x8)]
  unfold kernelRun_A
  dsimp only
  sl_unfold_words
  rw [View.canon_cons_unit_zero (S := S1x128) hz, View.readCov_unit_zero (S := S1x128) _ hz]
  unfold tileOut colSum zeroRow k2_pay3 k2_pay5
  simp only [View.readAt_eq_ld, harg1.read_unread, harg2.read_unread, harg3.read_unread, harg4.read_unread, harg5.read_unread, harg6.read_unread, harg7.read_unread, harg8.read_unread, harg9.read_unread, View.ld_unit_zero (S := S2000x128) hz, View.ld_unit_zero (S := S1x128) hz, View.ld_unit_zero (S := S128x256) hz, View.ld_unit_zero (S := S1x256) hz, View.ld_unit_zero (S := S256x128) hz, shapeCast_self]

end Cert.KernelIdeal.R2

end
-- ==== Proof.KI.R2Chain.lean ====
import proofs.«158489_j47493748359308_1_alg».proof.Proof.KI.R2Out

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-! # The feed-forward region: the three outputs point by point, in closed form (any float interpretation) -/

variable (V : (c : Dev nD) → (b : Ref sig .tc) → Buf (Elt F) ((c : Thread nD τ).loc b))

/-- The tile result at grid point `t`, from the nine input blocks there. -/
def tileAt (c : Dev nD) (t : Fin cfg2.N) : Vec F S2000x128 .f32 :=
  tileOut (iblk V c 0 t) (iblk V c 1 t) (iblk V c 2 t) (iblk V c 3 t) (iblk V c 4 t) (iblk V c 5 t) (iblk V c 6 t) (iblk V c 7 t) (iblk V c 8 t)

/-- The ORDERED running column sum after point `n`: `0 + s₀`, then `+ sₙ`, with `sₖ` tile `k`'s column sum. -/
def chainSum (c : Dev nD) : (n : ℕ) → n < cfg2.N → Vec F S1x128 .f32
  | 0, h => addf zeroRow (colSum (tileAt V c ⟨0, h⟩))
  | n + 1, h => addf (chainSum c n (Nat.lt_of_succ_lt h)) (colSum (tileAt V c ⟨n + 1, h⟩))

/-- The ORDERED running column sum of squares after point `n`. -/
def chainSq (c : Dev nD) : (n : ℕ) → n < cfg2.N → Vec F S1x128 .f32
  | 0, h => addf zeroRow (colSum (mulf (tileAt V c ⟨0, h⟩) (tileAt V c ⟨0, h⟩)))
  | n + 1, h => addf (chainSq c n (Nat.lt_of_succ_lt h)) (colSum (mulf (tileAt V c ⟨n + 1, h⟩) (tileAt V c ⟨n + 1, h⟩)))

/-- What the three staging buffers hold after point `n` is the tile result there and the two running sums — by
    induction on the point. -/
theorem outsAt_eq (c : Dev nD) : ∀ (n : ℕ) (h : n < cfg2.N),
    outsAt V c n h = ⟨tileAt V c ⟨n, h⟩, chainSum V c n h, chainSq V c n h⟩
  | 0, h => by
    rw [outsAt_A V c ⟨0, h⟩ rfl]
    unfold outA
    rw [out_A_9_eq, out_A_10_eq, out_A_11_eq]
    rfl
  | n + 1, h => by
    rw [outsAt_B V c ⟨n + 1, h⟩ (Nat.succ_ne_zero n)]
    unfold outB
    rw [out_B_9_eq, out_B_10_eq, out_B_11_eq]
    show OutBlocks.mk _ (addf (outsAt V c n _).sum _) (addf (outsAt V c n _).sq _) = _
    rw [outsAt_eq c n]
    rfl

theorem outsAt_tile (c : Dev nD) (t : Fin cfg2.N) : (outsAt V c t.val t.isLt).tile = tileAt V c t := by
  rw [outsAt_eq]
theorem outsAt_sum (c : Dev nD) (t : Fin cfg2.N) : (outsAt V c t.val t.isLt).sum = chainSum V c t.val t.isLt := by
  rw [outsAt_eq]
theorem outsAt_sq (c : Dev nD) (t : Fin cfg2.N) : (outsAt V c t.val t.isLt).sq = chainSq V c t.val t.isLt := by
  rw [outsAt_eq]

end Cert.KernelIdeal.R2

end
-- ==== Proof.KI.R2Arr.lean ====
import proofs.«158489_j47493748359308_1_alg».proof.Proof.KI.R2Chain
import Idealize.ShloMosaic.Lib.ValueIdx

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

open Idealize.ShloMosaic.ValueIdx

/-! # The feed-forward region: the arrays after the region, as functions of the arrays found when it is entered
(any float interpretation) -/

variable (V : (c : Dev nD) → (b : Ref sig .tc) → Buf (Elt F) ((c : Thread nD τ).loc b))

/-! ## The inputs are left as found -/

/-- An input window's array after the region is the array the region found. -/
theorem arr_in (c : Dev nD) (w : Fin cfg2.W) (hw : (cfg2.win w).isOut = false) :
    (dat V c).arrAt w cfg2.N = V c (Pipeline.arrRef spec2 w) :=
  ((dat V c).arrAt_in w hw _).trans (A_eq V c w)

/-! ## The input blocks as parts of the arrays -/

/-- The row-tile windows (the activations read, the result written) are at block `(t, 0)` at point `t`. -/
theorem idx_tiles : ∀ t : Fin cfg2.N, (win2_0.index t 0 = t.val ∧ win2_0.index t 1 = 0) ∧ (win2_9.index t 0 = t.val ∧ win2_9.index t 1 = 0) :=
  (by decide +kernel : ∀ t : Fin grid2.N, (win2_0.index t 0 = t.val ∧ win2_0.index t 1 = 0) ∧ (win2_9.index t 0 = t.val ∧ win2_9.index t 1 = 0))

/-- The activations' block at point `t` is rows `2000·t … 2000·t + 1999` of the array. -/
theorem iblk0_apply (c : Dev nD) (t : Fin cfg2.N) (j : Fin 2000) (l : Fin 128) (k : S100000x128.Idx)
    (hk0 : (k 0).val = t.val * 2000 + j.val) (hk1 : (k 1).val = l.val) :
    (iblk V c 0 t : Vec F S2000x128 .f32) (ix2 j l) = (V c main_v49_0 : S100000x128.Idx → Elt F .f32) k := by
  obtain ⟨⟨h0, h1⟩, -⟩ := idx_tiles t
  unfold iblk
  rw [View.read_apply]
  show V c main_v49_0 _ = V c main_v49_0 _
  congr 1
  funext a
  apply Fin.ext
  match a with
  | ⟨0, _⟩ => show win2_0.index t 0 * 2000 + 1 * j.val = (k 0).val; rw [h0, hk0]; omega
  | ⟨1, _⟩ => show win2_0.index t 1 * 128 + 1 * l.val = (k 1).val; rw [h1, hk1]; omega

/-- Window 1's block is its whole array at every point. -/
theorem iblk1_eq (c : Dev nD) (t : Fin cfg2.N) : (iblk V c 1 t : Vec F S1x128 .f32) = V c main_v51 := by
  have hz' : (fun a => win2_1.index t a * main_v51.ty.shape.size a) = fun _ => 0 := funext fun a => by fin_cases a <;> rfl
  unfold iblk
  exact Memref.read_access_unit_zero (Elt F) main_v51 hz' (fun a => by rw [congrFun hz' a]; simp) (V c main_v51)

/-- Window 2's block is its whole array at every point. -/
theorem iblk2_eq (c : Dev nD) (t : Fin cfg2.N) : (iblk V c 2 t : Vec F S1x128 .f32) = V c main_v55 := by
  have hz' : (fun a => win2_2.index t a * main_v55.ty.shape.size a) = fun _ => 0 := funext fun a => by fin_cases a <;> rfl
  unfold iblk
  exact Memref.read_access_unit_zero (Elt F) main_v55 hz' (fun a => by rw [congrFun hz' a]; simp) (V c main_v55)

/-- Window 3's block is its whole array at every point. -/
theorem iblk3_eq (c : Dev nD) (t : Fin cfg2.N) : (iblk V c 3 t : Vec F S1x128 .f32) = V c main_v56 := by
  have hz' : (fun a => win2_3.index t a * main_v56.ty.shape.size a) = fun _ => 0 := funext fun a => by fin_cases a <;> rfl
  unfold iblk
  exact Memref.read_access_unit_zero (Elt F) main_v56 hz' (fun a => by rw [congrFun hz' a]; simp) (V c main_v56)

/-- Window 4's block is its whole array at every point. -/
theorem iblk4_eq (c : Dev nD) (t : Fin cfg2.N) : (iblk V c 4 t : Vec F S1x128 .f32) = V c main_v57 := by
  have hz' : (fun a => win2_4.index t a * main_v57.ty.shape.size a) = fun _ => 0 := funext fun a => by fin_cases a <;> rfl
  unfold iblk
  exact Memref.read_access_unit_zero (Elt F) main_v57 hz' (fun a => by rw [congrFun hz' a]; simp) (V c main_v57)

/-- Window 5's block is its whole array at every point. -/
theorem iblk5_eq (c : Dev nD) (t : Fin cfg2.N) : (iblk V c 5 t : Vec F S128x256 .f32) = V c main_arg8 := by
  have hz' : (fun a => win2_5.index t a * main_arg8.ty.shape.size a) = fun _ => 0 := funext fun a => by fin_cases a <;> rfl
  unfold iblk
  exact Memref.read_access_unit_zero (Elt F) main_arg8 hz' (fun a => by rw [congrFun hz' a]; simp) (V c main_arg8)

/-- Window 6's block is its whole array at every point. -/
theorem iblk6_eq (c : Dev nD) (t : Fin cfg2.N) : (iblk V c 6 t : Vec F S1x256 .f32) = V c main_v58 := by
  have hz' : (fun a => win2_6.index t a * main_v58.ty.shape.size a) = fun _ => 0 := funext fun a => by fin_cases a <;> rfl
  unfold iblk
  exact Memref.read_access_unit_zero (Elt F) main_v58 hz' (fun a => by rw [congrFun hz' a]; simp) (V c main_v58)

/-- Window 7's block is its whole array at every point. -/
theorem iblk7_eq (c : Dev nD) (t : Fin cfg2.N) : (iblk V c 7 t : Vec F S256x128 .f32) = V c main_arg10 := by
  have hz' : (fun a => win2_7.index t a * main_arg10.ty.shape.size a) = fun _ => 0 := funext fun a => by fin_cases a <;> rfl
  unfold iblk
  exact Memref.read_access_unit_zero (Elt F) main_arg10 hz' (fun a => by rw [congrFun hz' a]; simp) (V c main_arg10)

/-- Window 8's block is its whole array at every point. -/
theorem iblk8_eq (c : Dev nD) (t : Fin cfg2.N) : (iblk V c 8 t : Vec F S1x128 .f32) = V c main_v59 := by
  have hz' : (fun a => win2_8.index t a * main_v59.ty.shape.size a) = fun _ => 0 := funext fun a => by fin_cases a <;> rfl
  unfold iblk
  exact Memref.read_access_unit_zero (Elt F) main_v59 hz' (fun a => by rw [congrFun hz' a]; simp) (V c main_v59)

/-! ## The two accumulated blocks -/

/-- The last grid point. -/
abbrev t49 : Fin cfg2.N := ⟨49, by rw [show cfg2.N = 50 from N_2]; decide⟩

/-- The running column sum after the last point, as contents of its array (its one block is the array). -/
abbrev result10 (c : Dev nD) : Buf (Elt F) ((c : Thread nD τ).loc main_v60_1) := chainSum V c 49 (by rw [show cfg2.N = 50 from N_2]; decide)

/-- Its one write-back, at the last point, writes that. -/
theorem flushed_10 (c : Dev nD) (t : Fin cfg2.N) (hf : (cfg2.win 10).flush t = true) :
    (dat V c).flushed 10 t = ((cfg2.win 10).blk t).view.read (Elt F) (result10 V c) := by
  have hN : cfg2.N = 50 := N_2
  have h49 : t.val = 49 := by have := (flush2_10 t).mp hf; have := t.isLt; omega
  obtain rfl : t = t49 := Fin.ext h49
  show (cfg2.win 10).cut (grid2.coords t49) ((dat V c).after 10 t49) = _
  rw [after_10, outsAt_sum]
  have hz' : (fun a => win2_10.index t49 a * main_v60_1.ty.shape.size a) = fun _ => 0 := funext fun a => by fin_cases a <;> rfl
  exact (Memref.read_access_unit_zero (Elt F) main_v60_1 hz' (fun a => by rw [congrFun hz' a]; simp) (result10 V c)).symm

/-- So the array ends holding it: the last point's block covers the array. -/
theorem final_10 (c : Dev nD) : (dat V c).arrAt 10 cfg2.N = result10 V c :=
  (dat V c).arrAt_eq_of_cover 10 (result10 V c) (flushed_10 V c) fun i =>
    ⟨t49, (flush2_10 t49).mpr rfl, by
      show i ∈ ((View.whole main_v60_1).slice (win2_10.rect t49)).set
      rw [View.set_slice_whole, Rect.mem_set_unit]
      intro a
      have h0 : (i 0 : Nat) < 1 := (i 0).isLt
      have h1 : (i 1 : Nat) < 128 := (i 1).isLt
      match a with
      | ⟨0, _⟩ => show win2_10.index t49 0 * win2_10.size 0 ≤ (i 0 : Nat) ∧ (i 0 : Nat) < win2_10.index t49 0 * win2_10.size 0 + win2_10.xsize (grid2.coords t49) 0
                  rw [show win2_10.index t49 0 * win2_10.size 0 = 0 from rfl, show win2_10.xsize (grid2.coords t49) 0 = 1 from rfl]; omega
      | ⟨1, _⟩ => show win2_10.index t49 1 * win2_10.size 1 ≤ (i 1 : Nat) ∧ (i 1 : Nat) < win2_10.index t49 1 * win2_10.size 1 + win2_10.xsize (grid2.coords t49) 1
                  rw [show win2_10.index t49 1 * win2_10.size 1 = 0 from rfl, show win2_10.xsize (grid2.coords t49) 1 = 128 from rfl]; omega⟩

/-- The running column sum of squares after the last point, as contents of its array (its one block is the array). -/
abbrev result11 (c : Dev nD) : Buf (Elt F) ((c : Thread nD τ).loc main_v60_2) := chainSq V c 49 (by rw [show cfg2.N = 50 from N_2]; decide)

/-- Its one write-back, at the last point, writes that. -/
theorem flushed_11 (c : Dev nD) (t : Fin cfg2.N) (hf : (cfg2.win 11).flush t = true) :
    (dat V c).flushed 11 t = ((cfg2.win 11).blk t).view.read (Elt F) (result11 V c) := by
  have hN : cfg2.N = 50 := N_2
  have h49 : t.val = 49 := by have := (flush2_11 t).mp hf; have := t.isLt; omega
  obtain rfl : t = t49 := Fin.ext h49
  show (cfg2.win 11).cut (grid2.coords t49) ((dat V c).after 11 t49) = _
  rw [after_11, outsAt_sq]
  have hz' : (fun a => win2_11.index t49 a * main_v60_2.ty.shape.size a) = fun _ => 0 := funext fun a => by fin_cases a <;> rfl
  exact (Memref.read_access_unit_zero (Elt F) main_v60_2 hz' (fun a => by rw [congrFun hz' a]; simp) (result11 V c)).symm

/-- So the array ends holding it: the last point's block covers the array. -/
theorem final_11 (c : Dev nD) : (dat V c).arrAt 11 cfg2.N = result11 V c :=
  (dat V c).arrAt_eq_of_cover 11 (result11 V c) (flushed_11 V c) fun i =>
    ⟨t49, (flush2_11 t49).mpr rfl, by
      show i ∈ ((View.whole main_v60_2).slice (win2_11.rect t49)).set
      rw [View.set_slice_whole, Rect.mem_set_unit]
      intro a
      have h0 : (i 0 : Nat) < 1 := (i 0).isLt
      have h1 : (i 1 : Nat) < 128 := (i 1).isLt
      match a with
      | ⟨0, _⟩ => show win2_11.index t49 0 * win2_11.size 0 ≤ (i 0 : Nat) ∧ (i 0 : Nat) < win2_11.index t49 0 * win2_11.size 0 + win2_11.xsize (grid2.coords t49) 0
                  rw [show win2_11.index t49 0 * win2_11.size 0 = 0 from rfl, show win2_11.xsize (grid2.coords t49) 0 = 1 from rfl]; omega
      | ⟨1, _⟩ => show win2_11.index t49 1 * win2_11.size 1 ≤ (i 1 : Nat) ∧ (i 1 : Nat) < win2_11.index t49 1 * win2_11.size 1 + win2_11.xsize (grid2.coords t49) 1
                  rw [show win2_11.index t49 1 * win2_11.size 1 = 0 from rfl, show win2_11.xsize (grid2.coords t49) 1 = 128 from rfl]; omega⟩

/-! ## The row-tile output -/

/-- The result array as ONE function of the arrays found: row `r` is row `r % 2000` of tile `r / 2000`'s result. -/
def G9 (c : Dev nD) : Buf (Elt F) ((c : Thread nD τ).loc main_v60_0) := fun i =>
  (tileAt V c ⟨(i 0).val / 2000, by
      have h : (i 0).val < 100000 := (i 0).isLt
      rw [show cfg2.N = 50 from N_2]; omega⟩ : S2000x128.Idx → Elt F .f32)
    (ix2 ⟨(i 0).val % 2000, Nat.mod_lt _ (by decide)⟩ ⟨(i 1).val, (i 1).isLt⟩)

/-- At an index of tile `t`'s rows it is that tile's result. -/
theorem G9_at (c : Dev nD) (t : Fin cfg2.N) (j : Fin 2000) (l : Fin 128) (i : S100000x128.Idx)
    (hi0 : (i 0).val = t.val * 2000 + j.val) (hi1 : (i 1).val = l.val) :
    G9 V c i = (tileAt V c t : S2000x128.Idx → Elt F .f32) (ix2 j l) := by
  unfold G9
  have hj := j.isLt
  have e1 : (⟨(i 0).val / 2000, by have h : (i 0).val < 100000 := (i 0).isLt; rw [show cfg2.N = 50 from N_2]; omega⟩ : Fin cfg2.N) = t :=
    Fin.ext (by show (i 0).val / 2000 = t.val; omega)
  have e2 : (ix2 ⟨(i 0).val % 2000, Nat.mod_lt _ (by decide)⟩ ⟨(i 1).val, (i 1).isLt⟩ : S2000x128.Idx) = ix2 j l := by
    funext a
    match a with
    | ⟨0, _⟩ => exact Fin.ext (by show (i 0).val % 2000 = j.val; omega)
    | ⟨1, _⟩ => exact Fin.ext hi1
  exact congrArg₂ (fun a b => (tileAt V c a : S2000x128.Idx → Elt F .f32) b) e1 e2

/-- What point `t` writes back is block `t` of it. -/
theorem flushed_9 (c : Dev nD) (t : Fin cfg2.N) (hf : (cfg2.win 9).flush t = true) :
    (dat V c).flushed 9 t = ((cfg2.win 9).blk t).view.read (Elt F) (G9 V c) := by
  obtain ⟨-, h0, h1⟩ := idx_tiles t
  show (cfg2.win 9).cut (grid2.coords t) ((dat V c).after 9 t) = _
  rw [after_9, outsAt_tile]
  funext x
  rw [View.read_apply]
  show (tileAt V c t : S2000x128.Idx → Elt F .f32) _ = G9 V c _
  rw [G9_at V c t ⟨(x 0).val, (x 0).isLt⟩ ⟨(x 1).val, (x 1).isLt⟩]
  · congr 1
    funext a
    match a with
    | ⟨0, _⟩ => rfl
    | ⟨1, _⟩ => rfl
  · show win2_9.index t 0 * 2000 + 1 * (x 0).val = t.val * 2000 + (x 0).val
    rw [h0]; omega
  · show win2_9.index t 1 * 128 + 1 * (x 1).val = (x 1).val
    rw [h1]; omega

/-- So the result array ends holding it: row `r` is covered by point `r / 2000`. -/
theorem final_9 (c : Dev nD) : (dat V c).arrAt 9 cfg2.N = G9 V c :=
  (dat V c).arrAt_eq_of_cover 9 (G9 V c) (flushed_9 V c) fun i => by
    have hi0 : (i 0 : Nat) < 100000 := (i 0).isLt
    have hi1 : (i 1 : Nat) < 128 := (i 1).isLt
    have hlt : (i 0).val / 2000 < cfg2.N := by rw [show cfg2.N = 50 from N_2]; omega
    obtain ⟨-, h0, h1⟩ := idx_tiles ⟨(i 0).val / 2000, hlt⟩
    refine ⟨⟨(i 0).val / 2000, hlt⟩, flush2_9 _, ?_⟩
    show i ∈ ((View.whole main_v60_0).slice (win2_9.rect ⟨(i 0).val / 2000, hlt⟩)).set
    rw [View.set_slice_whole, Rect.mem_set_unit]
    intro a
    match a with
    | ⟨0, _⟩ => show win2_9.index ⟨(i 0).val / 2000, hlt⟩ 0 * 2000 ≤ (i 0 : Nat) ∧ (i 0 : Nat) < win2_9.index ⟨(i 0).val / 2000, hlt⟩ 0 * 2000 + 2000
                rw [h0]; show (i 0).val / 2000 * 2000 ≤ (i 0).val ∧ (i 0).val < (i 0).val / 2000 * 2000 + 2000; omega
    | ⟨1, _⟩ => show win2_9.index ⟨(i 0).val / 2000, hlt⟩ 1 * 128 ≤ (i 1 : Nat) ∧ (i 1 : Nat) < win2_9.index ⟨(i 0).val / 2000, hlt⟩ 1 * 128 + 128
                rw [h1]; omega

end Cert.KernelIdeal.R2

end
-- ==== Proof.KI.R2Tile.lean ====
import proofs.«158489_j47493748359308_1_alg».proof.Proof.KI.R2Out
import proofs.«158489_j47493748359308_1_alg».proof.Proof.KI.R2Spec
import proofs.«158489_j47493748359308_1_alg».proof.Proof.LibRowOps
import proofs.«158489_j47493748359308_1_alg».proof.Proof.LibColumnSum

set_option maxRecDepth 16384

noncomputable section

open scoped BigOperators

namespace Cert.KernelIdeal.R2

open Idealize.ShloMosaic Idealize.ShloMosaic.ValueIdx
open Cert.KernelIdeal.Gen Cert.KernelBody Cert.LibColumnSum

/-! # One row tile of the feed-forward region over the extended reals, entry by entry -/

/-- A matrix product accumulated into the zero splat, for a contraction record a program declares by name. -/
theorem matmul_named_apply {m k n : ℕ} {φ₁ φ₂ : FTy}
    (d : DotDims ⟨2, ![m, k]⟩ ⟨2, ![k, n]⟩ ⟨2, ![m, n]⟩)
    (w : DotDims.WF ⟨2, ![m, k]⟩ ⟨2, ![k, n]⟩ ⟨2, ![m, n]⟩ [1] [0] [0] [1] [] [])
    (hd : d = ⟨[1], [0], [0], [1], [], [], w⟩)
    (prec : Option ContractPrecision) (A : FVec Ideal ⟨2, ![m, k]⟩ φ₁) (B : FVec Ideal ⟨2, ![k, n]⟩ φ₂)
    (r : Fin m) (c : Fin n) :
    matmul d prec A B (constant (F := Ideal) ⟨2, ![m, n]⟩ .f32 0x00000000#32) (ix2 r c)
      = ∑ i : Fin k, A (ix2 r i) * B (ix2 i c) := by
  subst hd
  exact matmul_plain_zero_apply w prec A B r c

/-- The normalised entry `(j, c)` of a tile. -/
def xnT (x0 : FVec Ideal S2000x128 .f32) (x1 x2 x3 x4 : FVec Ideal S1x128 .f32) (j : Fin 2000) (c : Fin 128) : EReal :=
  (x0 (ix2 j c) - x1 (ix2 0 c)) * Ideal.rsqrt (x2 (ix2 0 c) + epsN) * x3 (ix2 0 c) + x4 (ix2 0 c)

/-- The hidden layer's entry `(j, k)` of a tile. -/
def hidT (x0 : FVec Ideal S2000x128 .f32) (x1 x2 x3 x4 : FVec Ideal S1x128 .f32) (x5 : FVec Ideal S128x256 .f32)
    (x6 : FVec Ideal S1x256 .f32) (j : Fin 2000) (k : Fin 256) : EReal :=
  max ((∑ m : Fin 128, xnT x0 x1 x2 x3 x4 j m * x5 (ix2 m k)) + x6 (ix2 0 k)) 0

theorem pay6_apply (x0 : FVec Ideal S2000x128 .f32) (x1 x2 x3 x4 : FVec Ideal S1x128 .f32) (j : Fin 2000) (c : Fin 128) :
    k2_pay6 (F := Ideal) x0 x1 x2 x3 x4 (ix2 j c) = xnT x0 x1 x2 x3 x4 j c := by
  unfold k2_pay6 xnT
  simp only [shapeCast_self]
  rw [addf_apply, mulf_apply, mulf_apply, subf_apply, broadcastTo_row_apply, broadcastTo_row_apply, broadcastTo_row_apply,
    broadcastTo_row_apply]
  rfl

theorem pay7_apply (x0 : FVec Ideal S2000x128 .f32) (x1 x2 x3 x4 : FVec Ideal S1x128 .f32) (x5 : FVec Ideal S128x256 .f32)
    (x6 : FVec Ideal S1x256 .f32) (j : Fin 2000) (k : Fin 256) :
    k2_pay7 (F := Ideal) x0 x1 x2 x3 x4 x5 x6 (ix2 j k) = hidT x0 x1 x2 x3 x4 x5 x6 j k := by
  unfold k2_pay7 hidT
  simp only [shapeCast_self]
  rw [truncf_apply, maximumf_apply, addf_apply, broadcast_apply,
    matmul_named_apply dot_S2000x128_S128x256_S2000x256_1_0_0_1_n_n dot_S2000x128_S128x256_S2000x256_1_0_0_1_n_n_wf rfl,
    broadcastTo_row_apply]
  simp only [truncf_apply, pay6_apply]
  show max _ (Ideal.ofBits .f32 0x00000000#32) = _
  rw [Ideal.ofBits_zero_f32]

/-- The tile result at `(j, c)`. -/
theorem tileOut_apply (x0 : FVec Ideal S2000x128 .f32) (x1 x2 x3 x4 : FVec Ideal S1x128 .f32) (x5 : FVec Ideal S128x256 .f32)
    (x6 : FVec Ideal S1x256 .f32) (x7 : FVec Ideal S256x128 .f32) (x8 : FVec Ideal S1x128 .f32) (j : Fin 2000) (c : Fin 128) :
    tileOut (F := Ideal) x0 x1 x2 x3 x4 x5 x6 x7 x8 (ix2 j c)
      = xnT x0 x1 x2 x3 x4 j c + ((∑ k : Fin 256, hidT x0 x1 x2 x3 x4 x5 x6 j k * x7 (ix2 k c)) + x8 (ix2 0 c)) := by
  unfold tileOut k2_pay1 k2_pay8
  simp only [shapeCast_self]
  rw [addf_apply, addf_apply, pay6_apply,
    matmul_named_apply dot_S2000x256_S256x128_S2000x128_1_0_0_1_n_n dot_S2000x256_S256x128_S2000x128_1_0_0_1_n_n_wf rfl,
    broadcastTo_row_apply]
  simp only [truncf_apply, pay7_apply]

/-- A tile's column sum at column `l`. -/
theorem colSum_apply (y : FVec Ideal S2000x128 .f32) (l : Fin 128) :
    colSum (F := Ideal) y (ix2 0 l) = ∑ k : Fin 2000, y (ix2 k l) := by
  unfold colSum
  rw [shapeCast_row_apply]
  exact colsum_apply y _ _ _ _ l

/-- The zero row is zero. -/
theorem zeroRow_apply (l : Fin 128) : zeroRow (F := Ideal) (ix2 0 l) = 0 := by
  unfold zeroRow
  rw [broadcast_apply]
  exact Ideal.ofBits_zero_f32

end Cert.KernelIdeal.R2

end
-- ==== Proof.KI.R2Value.lean ====
import proofs.«158489_j47493748359308_1_alg».proof.Proof.KI.R2Arr
import proofs.«158489_j47493748359308_1_alg».proof.Proof.KI.R2Tile
import proofs.«158489_j47493748359308_1_alg».proof.Proof.LibTileAccum

set_option maxRecDepth 16384

noncomputable section

open scoped BigOperators

namespace Cert.KernelIdeal.R2

open Idealize.ShloMosaic Idealize.ShloMosaic.TcCoe Idealize.SL.Sem
open Idealize.ShloMosaic.Pipeline (Dat)
open Idealize.ShloMosaic.ValueIdx
open Cert.KernelIdeal.Gen

/-! # The feed-forward region over the extended reals: the three output arrays after the region, entry by entry

The result array is `x2 = xn + (relu(xn·Wf1 + bf1)·Wf2 + bf2)` of the normalised activations `xn`; the two
accumulated rows are the sums over all 100000 rows of `x2` and of `x2·x2`, column by column: the fifty per-tile
column sums added one after the other into a zero row are the sum over all rows, addition over the extended reals being
commutative and associative. -/

variable (V : (c : Dev nD) → (b : Ref sig .tc) → Buf (Elt Ideal) ((c : Thread nD τ).loc b))

/-- The result array as a function of the arrays the region finds. -/
def x2Of (c : Dev nD) : FVec Ideal S100000x128 .f32 :=
  ffnI (xnI (V c main_v49_0) (V c main_v51) (V c main_v55) (V c main_v56) (V c main_v57))
    (V c main_arg8) (V c main_v58) (V c main_arg10) (V c main_v59)

/-- Tile `t`'s result at `(j, l)` is the result array's entry at row `2000·t + j`. -/
theorem tileAt_apply (c : Dev nD) (t : Fin cfg2.N) (j : Fin 2000) (l : Fin 128) (r : Fin 100000)
    (hr : r.val = t.val * 2000 + j.val) :
    (tileAt (F := Ideal) V c t : FVec Ideal S2000x128 .f32) (ix2 j l) = x2Of V c (ix2 r l) := by
  unfold tileAt
  rw [iblk1_eq, iblk2_eq, iblk3_eq, iblk4_eq, iblk5_eq, iblk6_eq, iblk7_eq, iblk8_eq, tileOut_apply]
  unfold x2Of
  rw [ffnI_apply]
  have hx : ∀ m : Fin 128, xnT (iblk V c 0 t) (V c main_v51) (V c main_v55) (V c main_v56) (V c main_v57) j m
      = xnI (V c main_v49_0) (V c main_v51) (V c main_v55) (V c main_v56) (V c main_v57) (ix2 r m) := fun m => by
    unfold xnT
    rw [xnI_apply, iblk0_apply V c t j m (ix2 r m) hr rfl]
  simp only [hidT, hx]

/-- The result array. -/
theorem arr9 (c : Dev nD) : (dat V c).arrAt 9 cfg2.N = x2Of V c := by
  rw [final_9]
  funext i
  have hi0 : (i 0).val < 100000 := (i 0).isLt
  unfold G9
  rw [tileAt_apply V c _ _ _ ⟨(i 0).val, hi0⟩ (by show (i 0).val = (i 0).val / 2000 * 2000 + (i 0).val % 2000; omega)]
  congr 1
  funext a
  match a with
  | ⟨0, _⟩ => rfl
  | ⟨1, _⟩ => rfl

/-! ## The two accumulated rows -/

/-- Tile `k`'s share of a column sum over all rows (zero past the fifty tiles). -/
def tileShare (g : Fin 100000 → EReal) (k : ℕ) : EReal :=
  if hk : k < 50 then ∑ j : Fin 2000, g ⟨k * 2000 + j.val, by have := j.isLt; omega⟩ else 0

/-- The fifty tiles' shares make up the sum over all rows. -/
theorem tileShare_sum (g : Fin 100000 → EReal) : ∑ k ∈ Finset.range 50, tileShare g k = ∑ r : Fin 100000, g r := by
  rw [Finset.sum_range]
  have hb := Cert.Accum.blocks_sum 50 2000 (fun x : Fin (50 * 2000) => g ⟨x.val, x.isLt⟩)
  refine Eq.trans ?_ (hb.trans ?_)
  · refine Finset.sum_congr rfl fun k _ => ?_
    unfold tileShare
    rw [dif_pos k.isLt]
    refine Finset.sum_congr rfl fun j _ => congrArg g (Fin.ext ?_)
    show k.val * 2000 + j.val = j.val + 2000 * k.val
    omega
  · rfl

/-- The running column sum after point `n`, at column `l`: the shares of tiles `0 … n`. -/
theorem chainSum_apply (c : Dev nD) (l : Fin 128) : ∀ (n : ℕ) (h : n < cfg2.N),
    (chainSum (F := Ideal) V c n h : FVec Ideal S1x128 .f32) (ix2 0 l)
      = ∑ k ∈ Finset.range (n + 1), tileShare (fun r => x2Of V c (ix2 r l)) k
  | 0, h => by
    show (addf (F := Ideal) (zeroRow (F := Ideal)) (colSum (tileAt V c ⟨0, h⟩)) : FVec Ideal S1x128 .f32) (ix2 0 l) = _
    rw [addf_apply, zeroRow_apply, zero_add, colSum_apply, Finset.sum_range_one]
    unfold tileShare
    rw [dif_pos (by decide)]
    exact Finset.sum_congr rfl fun j _ => tileAt_apply V c ⟨0, h⟩ j l _ rfl
  | n + 1, h => by
    have hN : n + 1 < 50 := lt_of_lt_of_eq h (show cfg2.N = 50 from N_2)
    show (addf (F := Ideal) (chainSum V c n _) (colSum (tileAt V c ⟨n + 1, h⟩)) : FVec Ideal S1x128 .f32) (ix2 0 l) = _
    rw [addf_apply, chainSum_apply c l n, colSum_apply, Finset.sum_range_succ _ (n + 1)]
    congr 1
    unfold tileShare
    rw [dif_pos hN]
    exact Finset.sum_congr rfl fun j _ => tileAt_apply V c ⟨n + 1, h⟩ j l _ rfl

/-- The running column sum of squares after point `n`, at column `l`. -/
theorem chainSq_apply (c : Dev nD) (l : Fin 128) : ∀ (n : ℕ) (h : n < cfg2.N),
    (chainSq (F := Ideal) V c n h : FVec Ideal S1x128 .f32) (ix2 0 l)
      = ∑ k ∈ Finset.range (n + 1), tileShare (fun r => x2Of V c (ix2 r l) * x2Of V c (ix2 r l)) k
  | 0, h => by
    show (addf (F := Ideal) (zeroRow (F := Ideal)) (colSum (mulf (tileAt V c ⟨0, h⟩) (tileAt V c ⟨0, h⟩))) : FVec Ideal S1x128 .f32) (ix2 0 l) = _
    rw [addf_apply, zeroRow_apply, zero_add, colSum_apply, Finset.sum_range_one]
    unfold tileShare
    rw [dif_pos (by decide)]
    refine Finset.sum_congr rfl fun j _ => ?_
    rw [mulf_apply, tileAt_apply V c ⟨0, h⟩ j l ⟨0 * 2000 + j.val, by have := j.isLt; omega⟩ rfl]
  | n + 1, h => by
    have hN : n + 1 < 50 := lt_of_lt_of_eq h (show cfg2.N = 50 from N_2)
    show (addf (F := Ideal) (chainSq V c n _) (colSum (mulf (tileAt V c ⟨n + 1, h⟩) (tileAt V c ⟨n + 1, h⟩))) : FVec Ideal S1x128 .f32) (ix2 0 l) = _
    rw [addf_apply, chainSq_apply c l n, colSum_apply, Finset.sum_range_succ _ (n + 1)]
    congr 1
    unfold tileShare
    rw [dif_pos hN]
    refine Finset.sum_congr rfl fun j _ => ?_
    rw [mulf_apply, tileAt_apply V c ⟨n + 1, h⟩ j l ⟨(n + 1) * 2000 + j.val, by have := j.isLt; omega⟩ rfl]

/-- The column-sum array: entry `(0, l)` is the sum of column `l` of the result over all rows. -/
theorem arr10_apply (c : Dev nD) (l : Fin 128) :
    ((dat V c).arrAt 10 cfg2.N : S1x128.Idx → EReal) (ix2 0 l) = ∑ r : Fin 100000, x2Of V c (ix2 r l) := by
  rw [final_10]
  show (chainSum (F := Ideal) V c 49 _ : FVec Ideal S1x128 .f32) (ix2 0 l) = _
  rw [chainSum_apply V c l 49, tileShare_sum]

/-- The column-sum-of-squares array: entry `(0, l)` is the sum of the squares of column `l` of the result. -/
theorem arr11_apply (c : Dev nD) (l : Fin 128) :
    ((dat V c).arrAt 11 cfg2.N : S1x128.Idx → EReal) (ix2 0 l)
      = ∑ r : Fin 100000, x2Of V c (ix2 r l) * x2Of V c (ix2 r l) := by
  rw [final_11]
  show (chainSq (F := Ideal) V c 49 _ : FVec Ideal S1x128 .f32) (ix2 0 l) = _
  rw [chainSq_apply V c l 49, tileShare_sum]

end Cert.KernelIdeal.R2

end
-- ==== Proof.RefStages.lean ====
import proofs.«158489_j47493748359308_1_alg».proof.Proof.Gen.ReferenceIdeal.Read
import proofs.«158489_j47493748359308_1_alg».proof.Proof.Stages

/-!
# The reference's result is the composition of its stages

The value the generated reading gives for each of the reference's stage boundaries — the projections, the
aggregation, `x`, the first normalisation, the feed-forward block, the result — is the stage applied to the
previous boundaries; so the result is `refS` of the arguments.
-/

noncomputable section

namespace Cert.ReferenceIdeal.Stages

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

variable (x0 : (⟨S100000x128, .f32⟩ : BufTy).Contents (Elt F)) (x1 x2 x3 x4 : (⟨S128x128, .f32⟩ : BufTy).Contents (Elt F)) (x5 x6 x7 : (⟨S128, .f32⟩ : BufTy).Contents (Elt F)) (x8 : (⟨S128x256, .f32⟩ : BufTy).Contents (Elt F)) (x9 : (⟨S256, .f32⟩ : BufTy).Contents (Elt F)) (x10 : (⟨S256x128, .f32⟩ : BufTy).Contents (Elt F)) (x11 x12 x13 : (⟨S128, .f32⟩ : BufTy).Contents (Elt F)) (x14 x15 : (⟨S1600000, .i32⟩ : BufTy).Contents (Elt F))

theorem q_eq : val_main_v1 (F := F) x0 x1 = projS x0 x1 := rfl
theorem k_eq : val_main_v3 (F := F) x0 x2 = projS x0 x2 := rfl
theorem v_eq : val_main_v5 (F := F) x0 x3 = projS x0 x3 := rfl

theorem attn_eq : val_main_v45 (F := F) x0 x1 x2 x3 x14 x15
    = attnS (val_main_v1 (F := F) x0 x1) (val_main_v3 (F := F) x0 x2) (val_main_v5 (F := F) x0 x3) x14 x15 := rfl

theorem x_eq : val_main_v50 (F := F) x0 x1 x2 x3 x4 x5 x14 x15 = xS x0 (val_main_v45 (F := F) x0 x1 x2 x3 x14 x15) x4 x5 := rfl

theorem xn_eq : val_main_v75 (F := F) x0 x1 x2 x3 x4 x5 x6 x7 x14 x15 = bnS (val_main_v50 (F := F) x0 x1 x2 x3 x4 x5 x14 x15) x6 x7 := rfl

theorem x2_eq : val_main_v85 (F := F) x0 x1 x2 x3 x4 x5 x6 x7 x8 x9 x10 x11 x14 x15 = ffnS (val_main_v75 (F := F) x0 x1 x2 x3 x4 x5 x6 x7 x14 x15) x8 x9 x10 x11 := rfl

theorem out_eq : val_main_v110 (F := F) x0 x1 x2 x3 x4 x5 x6 x7 x8 x9 x10 x11 x12 x13 x14 x15 = bnS (val_main_v85 (F := F) x0 x1 x2 x3 x4 x5 x6 x7 x8 x9 x10 x11 x14 x15) x12 x13 := rfl

/-- The value the generated reading gives for the reference's result is the composition of the stages. -/
theorem ref_eq_staged : val_main_v110 (F := F) x0 x1 x2 x3 x4 x5 x6 x7 x8 x9 x10 x11 x12 x13 x14 x15 = refS x0 x1 x2 x3 x4 x5 x6 x7 x8 x9 x10 x11 x12 x13 x14 x15 := by
  rw [out_eq, x2_eq, xn_eq, x_eq, attn_eq, q_eq, k_eq, v_eq]; rfl

end Cert.ReferenceIdeal.Stages

end
-- ==== Proof.LibScatterAdd.lean ====
import Idealize.ShloMosaic.PureOps.Ideal
import proofs.«158489_j47493748359308_1_alg».proof.Proof.LibFinite

/-!
# An accumulating scatter over the extended reals keeps real numbers real

The host's accumulating scatter gives, at each operand index, the operand's entry plus the sum of the
updates that land there (`scatterAdd_apply`).  So with real operand entries and real updates every entry of
the result is real (`scatterAdd_isReal`); and where the operand's entry is zero, the updates are positive
reals and at least one update lands, the entry is a positive real (`scatterAdd_isPosReal`).  The shapes and
the dimension numbers are arbitrary.
-/

noncomputable section

open scoped BigOperators

namespace Cert.LibScatterAdd

open Idealize.ShloMosaic ERealFinite

variable {s si su : Shape} {φ : FTy} {w : ℕ}

/-- The accumulating scatter read at an index. -/
theorem scatterAdd_apply (d : ScatterDims s si su) (x : FVec Ideal s φ) (idx : IVec si w) (upd : FVec Ideal su φ)
    (i : s.Idx) :
    Host.scatterAdd d x idx upd i
      = x i + ∑ j ∈ Finset.univ.filter (fun j => d.resultIdx? j idx = some i), upd j := rfl

/-- Real operand entries and real updates give real entries. -/
theorem scatterAdd_isReal (d : ScatterDims s si su) (x : FVec Ideal s φ) (idx : IVec si w) (upd : FVec Ideal su φ)
    (hx : ∀ i, IsReal (x i)) (hu : ∀ j, IsReal (upd j)) (i : s.Idx) :
    IsReal (Host.scatterAdd d x idx upd i) := by
  rw [scatterAdd_apply]
  exact (hx i).add (isReal_sum _ _ fun j _ => hu j)

/-- A zero operand entry on which at least one of the positive real updates lands becomes a positive real. -/
theorem scatterAdd_isPosReal (d : ScatterDims s si su) (x : FVec Ideal s φ) (idx : IVec si w) (upd : FVec Ideal su φ)
    (i : s.Idx) (hx : x i = 0) (hu : ∀ j, IsPosReal (upd j)) (hit : ∃ j, d.resultIdx? j idx = some i) :
    IsPosReal (Host.scatterAdd d x idx upd i) := by
  rw [scatterAdd_apply, hx, zero_add]
  obtain ⟨j, hj⟩ := hit
  exact isPosReal_sum _ ⟨j, Finset.mem_filter.mpr ⟨Finset.mem_univ j, hj⟩⟩ _ fun j _ => hu j

end Cert.LibScatterAdd

end
-- ==== Proof.RefAttnFinite.lean ====
import proofs.«158489_j47493748359308_1_alg».proof.Proof.Gen.ReferenceIdeal.Read
import proofs.«158489_j47493748359308_1_alg».proof.Proof.LibFinite
import proofs.«158489_j47493748359308_1_alg».proof.Proof.ConstsF32
import proofs.«158489_j47493748359308_1_alg».proof.Proof.LibScatterAdd

/-!
# The aggregation over the edges gives real numbers

With real node features and weights, the three projections are real.  Whatever the scaled inner product of
an edge is — an infinity included — its score `exp (min 5 (max (-5) s))` is a positive real.  Hence the
weighted sum `wV` at a node, a finite sum of reals, is real; the normaliser `z` at a node and head, the
sum of the scores of the edges landing there, is a positive real as soon as one edge lands on the node;
and their quotient is real.
-/

noncomputable section

namespace Cert.ReferenceIdeal.Finite

open Cert.ReferenceIdeal Cert.ReferenceIdeal.Gen Cert.ReferenceIdeal.Read Idealize.ShloMosaic Idealize.ShloMosaic.TcCoe Idealize.SL.Sem Idealize.ShloMosaic.StableHlo
open ERealFinite

variable (x0 : (⟨S100000x128, .f32⟩ : BufTy).Contents (Elt Ideal)) (x1 x2 x3 : (⟨S128x128, .f32⟩ : BufTy).Contents (Elt Ideal)) (x14 x15 : (⟨S1600000, .i32⟩ : BufTy).Contents (Elt Ideal))

/-- Every node and head receives at least one edge: for each entry of the normaliser there is an edge and head
    whose update lands on it. -/
def EveryNodeHit (x15 : (⟨S1600000, .i32⟩ : BufTy).Contents (Elt Ideal)) : Prop :=
  ∀ i : S100000x8.Idx, ∃ j : S1600000x8.Idx,
    scatter_S100000x8_S1600000x1_S1600000x8_1_0_0_1.resultIdx? j (val_main_v40 (F := Ideal) x15) = some i

theorem q_real (h0 : ∀ i, IsReal (x0 i)) (h1 : ∀ i, IsReal (x1 i)) (i : S100000x8x16.Idx) :
    IsReal (val_main_v1 (F := Ideal) x0 x1 i) := by
  rw [val_main_v1_apply, val_main_v0_apply]
  exact isReal_sum_univ _ fun k => (h0 _).mul (h1 _)

theorem k_real (h0 : ∀ i, IsReal (x0 i)) (h2 : ∀ i, IsReal (x2 i)) (i : S100000x8x16.Idx) :
    IsReal (val_main_v3 (F := Ideal) x0 x2 i) := by
  rw [val_main_v3_apply, val_main_v2_apply]
  exact isReal_sum_univ _ fun k => (h0 _).mul (h2 _)

theorem v_real (h0 : ∀ i, IsReal (x0 i)) (h3 : ∀ i, IsReal (x3 i)) (i : S100000x8x16.Idx) :
    IsReal (val_main_v5 (F := Ideal) x0 x3 i) := by
  rw [val_main_v5_apply, val_main_v4_apply]
  exact isReal_sum_univ _ fun k => (h0 _).mul (h3 _)

/-- A gathered row of `V` is a row of `V`. -/
theorem v_src_real (h0 : ∀ i, IsReal (x0 i)) (h3 : ∀ i, IsReal (x3 i)) (j : S1600000x8x16.Idx) :
    IsReal (val_main_v32 (F := Ideal) x0 x3 x14 j) := by
  unfold val_main_v32 Host.gather
  exact v_real x0 x3 h0 h3 _

/-- The score of an edge and head is a positive real, whatever the scaled inner product is. -/
theorem score_pos (j : S1600000x8.Idx) : IsPosReal (val_main_v25 (F := Ideal) x0 x1 x2 x14 x15 j) := by
  rw [val_main_v25_apply, val_main_v24_apply, val_main_call0_v4_apply, val_main_call0_v3_apply, val_main_cst_5_apply,
    val_main_call0_v2_apply, val_main_call0_v1_apply, val_main_call0_v0_apply, val_main_cst_4_apply]
  simp only [Ideal.hostUnary_exp_def, Ideal.minimumf_def, Ideal.maximumf_def, Ideal.ofBits_def,
    ConstsF32.ofBits_five, ConstsF32.ofBits_neg_five]
  exact isPosReal_exp_clamp (-5) 5 _

/-- The weighted row of an edge is real. -/
theorem weighted_real (h0 : ∀ i, IsReal (x0 i)) (h3 : ∀ i, IsReal (x3 i)) (j : S1600000x8x16.Idx) :
    IsReal (val_main_v35 (F := Ideal) x0 x1 x2 x3 x14 x15 j) := by
  rw [val_main_v35_apply, val_main_v34_apply, val_main_v33_apply]
  exact (v_src_real x0 x3 x14 h0 h3 j).mul (score_pos x0 x1 x2 x14 x15 _).isReal

/-- The weighted sum at a node is real. -/
theorem wV_real (h0 : ∀ i, IsReal (x0 i)) (h3 : ∀ i, IsReal (x3 i)) (i : S100000x8x16.Idx) :
    IsReal (val_main_v38 (F := Ideal) x0 x1 x2 x3 x14 x15 i) :=
  Cert.LibScatterAdd.scatterAdd_isReal (φ := .f32) scatter_S100000x8x16_S1600000x1_S1600000x8x16_12_0_0_1
    (val_main_v36 (F := Ideal)) (val_main_v37 (F := Ideal) x15) (val_main_v35 (F := Ideal) x0 x1 x2 x3 x14 x15)
    (fun i => by
      rw [val_main_v36_apply, val_main_cst_8_apply, Ideal.ofBits_def, Ideal.ofBits_zero_f32]; exact isReal_zero)
    (fun j => weighted_real x0 x1 x2 x3 x14 x15 h0 h3 j) i

/-- The normaliser at a node and head is a positive real when an edge lands on the node. -/
theorem z_pos (hit : EveryNodeHit x15) (i : S100000x8.Idx) :
    IsPosReal (val_main_v41 (F := Ideal) x0 x1 x2 x14 x15 i) :=
  Cert.LibScatterAdd.scatterAdd_isPosReal (φ := .f32) scatter_S100000x8_S1600000x1_S1600000x8_1_0_0_1
    (val_main_v39 (F := Ideal)) (val_main_v40 (F := Ideal) x15) (val_main_v25 (F := Ideal) x0 x1 x2 x14 x15) i
    (by rw [val_main_v39_apply, val_main_cst_9_apply, Ideal.ofBits_def, Ideal.ofBits_zero_f32])
    (fun j => score_pos x0 x1 x2 x14 x15 j) (hit i)

/-- The aggregated features are real. -/
theorem attn_real (h0 : ∀ i, IsReal (x0 i)) (h3 : ∀ i, IsReal (x3 i)) (hit : EveryNodeHit x15) (i : S100000x128.Idx) :
    IsReal (val_main_v45 (F := Ideal) x0 x1 x2 x3 x14 x15 i) := by
  rw [val_main_v45_apply, val_main_v44_apply, val_main_v43_apply, val_main_v42_apply, Ideal.hostDivf_def]
  exact (wV_real x0 x1 x2 x3 x14 x15 h0 h3 _).div_pos (z_pos x0 x1 x2 x14 x15 hit _)

end Cert.ReferenceIdeal.Finite

end
-- ==== Proof.LibVariance.lean ====
import Idealize.ShloMosaic.PureOps.Ideal
import proofs.«158489_j47493748359308_1_alg».proof.Proof.LibERealCoe
import proofs.«158489_j47493748359308_1_alg».proof.Proof.LibFinite

/-!
# The two spellings of a variance agree on real entries

For a finite family `X` of extended reals that are all real numbers, indexed by a type with `N`
elements (`N` a nonzero real), write `μ = (∑ X) / N`.  Then, with the ideal float instance's quotient,

  (∑ X·X) / N − μ·μ = (∑ (X − μ)·(X − μ)) / N,

and the common value is a real number that is not negative.  (With an infinite entry the identity
fails: the left side is `⊤ − ⊤`.)  The real-number identity is `real_var`; `var_eq` is the statement
over the extended reals, `var_nonneg` the sign, and `var_add_pos` says that the variance plus a
positive real is a positive real, which is what a reciprocal square root asks.
-/

namespace ERealVariance

open Idealize.ShloMosaic ERealFinite

variable {ι : Type*} [Fintype ι]

/-- Mean of squares minus squared mean is the mean squared deviation, over the reals. -/
theorem real_var (x : ι → ℝ) (N : ℝ) (hN : N ≠ 0) (hcard : (Fintype.card ι : ℝ) = N) :
    (∑ i, x i * x i) / N - (∑ i, x i) / N * ((∑ i, x i) / N)
      = (∑ i, (x i - (∑ i, x i) / N) * (x i - (∑ i, x i) / N)) / N := by
  set S := ∑ i, x i with hS
  have h1 : ∀ i, (x i - S / N) * (x i - S / N) = x i * x i - 2 * (S / N) * x i + S / N * (S / N) :=
    fun i => by ring
  simp only [h1]
  rw [Finset.sum_add_distrib, Finset.sum_sub_distrib, ← Finset.mul_sum, Finset.sum_const,
    Finset.card_univ, nsmul_eq_mul, hcard, ← hS]
  field_simp
  ring

/-- The mean squared deviation of reals is not negative when `N` is positive. -/
theorem real_var_nonneg (x : ι → ℝ) (N : ℝ) (hN : 0 < N) (m : ℝ) :
    0 ≤ (∑ i, (x i - m) * (x i - m)) / N :=
  div_nonneg (Finset.sum_nonneg fun i _ => mul_self_nonneg _) hN.le

/-- The sum of the coercions is the coercion of the sum. -/
theorem sum_coe (x : ι → ℝ) : (∑ i, (x i : EReal)) = ((∑ i, x i : ℝ) : EReal) :=
  (ERealCoe.coe_sum x).symm

/-- Both spellings of the variance of real entries, computed: each is the coercion of the real
    mean squared deviation. -/
theorem var_forms (x : ι → ℝ) (N : ℝ) (hN : N ≠ 0) (hcard : (Fintype.card ι : ℝ) = N) :
    Ideal.div (∑ i, (x i : EReal) * (x i : EReal)) (N : EReal)
        - Ideal.div (∑ i, (x i : EReal)) (N : EReal) * Ideal.div (∑ i, (x i : EReal)) (N : EReal)
      = (((∑ i, (x i - (∑ i, x i) / N) * (x i - (∑ i, x i) / N)) / N : ℝ) : EReal)
    ∧ Ideal.div (∑ i, ((x i : EReal) - Ideal.div (∑ i, (x i : EReal)) (N : EReal))
          * ((x i : EReal) - Ideal.div (∑ i, (x i : EReal)) (N : EReal))) (N : EReal)
      = (((∑ i, (x i - (∑ i, x i) / N) * (x i - (∑ i, x i) / N)) / N : ℝ) : EReal) := by
  have hmu : Ideal.div (∑ i, (x i : EReal)) (N : EReal) = (((∑ i, x i) / N : ℝ) : EReal) := by
    rw [sum_coe, div_coe_coe _ hN]
  constructor
  · rw [hmu]
    simp only [← EReal.coe_mul]
    rw [sum_coe, div_coe_coe _ hN, ← EReal.coe_sub, real_var x N hN hcard]
  · rw [hmu]
    simp only [← EReal.coe_sub, ← EReal.coe_mul]
    rw [sum_coe, div_coe_coe _ hN]

/-- The two spellings of the variance agree when every entry is a real number. -/
theorem var_eq (X : ι → EReal) (hX : ∀ i, IsReal (X i)) (Nn : EReal) (N : ℝ) (hNn : Nn = (N : EReal))
    (hN : N ≠ 0) (hcard : (Fintype.card ι : ℝ) = N) :
    Ideal.div (∑ i, X i * X i) Nn - Ideal.div (∑ i, X i) Nn * Ideal.div (∑ i, X i) Nn
      = Ideal.div (∑ i, (X i - Ideal.div (∑ i, X i) Nn) * (X i - Ideal.div (∑ i, X i) Nn)) Nn := by
  choose x hx using hX
  obtain rfl : X = fun i => (x i : EReal) := funext hx
  subst hNn
  obtain ⟨h1, h2⟩ := var_forms x N hN hcard
  exact h1.trans h2.symm

/-- The variance of real entries, in the mean-squared-deviation spelling, is a real that is not negative. -/
theorem var_nonneg (X : ι → EReal) (hX : ∀ i, IsReal (X i)) (Nn : EReal) (N : ℝ) (hNn : Nn = (N : EReal))
    (hN : 0 < N) (hcard : (Fintype.card ι : ℝ) = N) :
    ∃ v : ℝ, 0 ≤ v ∧
      Ideal.div (∑ i, (X i - Ideal.div (∑ i, X i) Nn) * (X i - Ideal.div (∑ i, X i) Nn)) Nn = (v : EReal) := by
  choose x hx using hX
  obtain rfl : X = fun i => (x i : EReal) := funext hx
  subst hNn
  exact ⟨_, real_var_nonneg x N hN _, (var_forms x N hN.ne' hcard).2⟩

/-- The mean of real entries is a real number. -/
theorem mean_isReal (X : ι → EReal) (hX : ∀ i, IsReal (X i)) (Nn : EReal) (N : ℝ) (hNn : Nn = (N : EReal))
    (hN : N ≠ 0) : IsReal (Ideal.div (∑ i, X i) Nn) := by
  subst hNn
  exact (isReal_sum_univ X hX).div (isReal_coe N) (fun h => hN (by exact_mod_cast h))

/-- The variance of real entries plus a positive real is a positive real (so that its reciprocal
    square root is a positive real). -/
theorem var_add_pos (X : ι → EReal) (hX : ∀ i, IsReal (X i)) (Nn : EReal) (N : ℝ) (hNn : Nn = (N : EReal))
    (hN : 0 < N) (hcard : (Fintype.card ι : ℝ) = N) {e : EReal} (he : IsPosReal e) :
    IsPosReal (Ideal.div (∑ i, (X i - Ideal.div (∑ i, X i) Nn) * (X i - Ideal.div (∑ i, X i) Nn)) Nn + e) := by
  obtain ⟨v, hv, hv'⟩ := var_nonneg X hX Nn N hNn hN hcard
  rw [hv']
  exact isPosReal_add_of_nonneg hv he

end ERealVariance
-- ==== Proof.StageFinite.lean ====
import proofs.«158489_j47493748359308_1_alg».proof.Proof.StageRead
import proofs.«158489_j47493748359308_1_alg».proof.Proof.LibFinite
import proofs.«158489_j47493748359308_1_alg».proof.Proof.LibVariance
import proofs.«158489_j47493748359308_1_alg».proof.Proof.ConstsF32

/-!
# The dense stages keep real numbers real, and the two variances agree on them

On real inputs: `x = h + (attn·Wo + bo)` is real; a column's mean is real, its variance plus `eps` is a positive
real, so the batch normalisation is real; the feed-forward block is real.  On a real input the variance as the
mean of the squared deviations equals the mean of the squares minus the squared mean (`colVar_eq`), so the two
spellings of the batch normalisation agree (`bnR_eq_bnK`).
-/

noncomputable section

open scoped BigOperators

namespace Cert.ReferenceIdeal.Stages

open Cert.ReferenceIdeal Cert.ReferenceIdeal.Gen Idealize.ShloMosaic Idealize.ShloMosaic.ValueIdx
open ERealFinite ERealVariance

theorem rowsN_eq : rowsN = ((100000 : ℝ) : EReal) := ConstsF32.ofBits_rows

theorem card_rows : (Fintype.card (Fin 100000) : ℝ) = 100000 := by simp

theorem xS_real (h attn : FVec Ideal S100000x128 .f32) (Wo : FVec Ideal S128x128 .f32) (bo : FVec Ideal S128 .f32)
    (hh : ∀ i, IsReal (h i)) (ha : ∀ i, IsReal (attn i)) (hW : ∀ i, IsReal (Wo i)) (hb : ∀ i, IsReal (bo i))
    (i : S100000x128.Idx) : IsReal (xS (F := Ideal) h attn Wo bo i) := by
  rw [xS_apply]
  exact (hh i).add ((isReal_sum_univ _ fun k => (ha _).mul (hW _)).add (hb _))

theorem colMean_real (X : FVec Ideal S100000x128 .f32) (hX : ∀ i, IsReal (X i)) (c : Fin 128) : IsReal (colMean X c) :=
  mean_isReal (fun r : Fin 100000 => X (ix2 r c)) (fun r => hX _) rowsN 100000 rowsN_eq (by norm_num)

/-- On a real input the two spellings of a column's variance agree. -/
theorem colVar_eq (X : FVec Ideal S100000x128 .f32) (hX : ∀ i, IsReal (X i)) (c : Fin 128) : colVarR X c = colVarK X c := by
  unfold colVarR colVarK colMean
  exact (var_eq (fun r : Fin 100000 => X (ix2 r c)) (fun r => hX _) rowsN 100000 rowsN_eq (by norm_num) card_rows).symm

theorem colVarR_add_eps_pos (X : FVec Ideal S100000x128 .f32) (hX : ∀ i, IsReal (X i)) (c : Fin 128) :
    IsPosReal (colVarR X c + epsN) := by
  unfold colVarR colMean
  exact var_add_pos (fun r : Fin 100000 => X (ix2 r c)) (fun r => hX _) rowsN 100000 rowsN_eq (by norm_num) card_rows
    ConstsF32.isPosReal_eps

theorem bnR_real (X : FVec Ideal S100000x128 .f32) (g b : FVec Ideal S128 .f32) (hX : ∀ i, IsReal (X i)) (hg : ∀ i, IsReal (g i))
    (hb : ∀ i, IsReal (b i)) (i : S100000x128.Idx) : IsReal (bnR X g b i) := by
  unfold bnR
  exact ((((hX i).sub (colMean_real X hX _)).mul (colVarR_add_eps_pos X hX _).rsqrt.isReal).mul (hg _)).add (hb _)

/-- On a real input the two spellings of the batch normalisation agree. -/
theorem bnR_eq_bnK (X : FVec Ideal S100000x128 .f32) (g b : FVec Ideal S128 .f32) (hX : ∀ i, IsReal (X i)) : bnR X g b = bnK X g b := by
  funext i
  exact congrArg (fun v => (X i - colMean X (i 1)) * Ideal.rsqrt (v + epsN) * g (ix1 (i 1)) + b (ix1 (i 1)))
    (colVar_eq X hX (i 1))

theorem hidden_real (xn : FVec Ideal S100000x128 .f32) (Wf1 : FVec Ideal S128x256 .f32) (bf1 : FVec Ideal S256 .f32)
    (hx : ∀ i, IsReal (xn i)) (hW : ∀ i, IsReal (Wf1 i)) (hb : ∀ i, IsReal (bf1 i)) (r : Fin 100000) (k : Fin 256) :
    IsReal (hidden xn Wf1 bf1 r k) := by
  unfold hidden
  exact ((isReal_sum_univ _ fun m => (hx _).mul (hW _)).add (hb _)).max isReal_zero

theorem ffnS_real (xn : FVec Ideal S100000x128 .f32) (Wf1 : FVec Ideal S128x256 .f32) (bf1 : FVec Ideal S256 .f32) (Wf2 : FVec Ideal S256x128 .f32) (bf2 : FVec Ideal S128 .f32)
    (hx : ∀ i, IsReal (xn i)) (hW1 : ∀ i, IsReal (Wf1 i)) (hb1 : ∀ i, IsReal (bf1 i)) (hW2 : ∀ i, IsReal (Wf2 i))
    (hb2 : ∀ i, IsReal (bf2 i)) (i : S100000x128.Idx) : IsReal (ffnS (F := Ideal) xn Wf1 bf1 Wf2 bf2 i) := by
  rw [ffnS_apply]
  exact (hx i).add ((isReal_sum_univ _ fun k => (hidden_real xn Wf1 bf1 hx hW1 hb1 _ k).mul (hW2 _)).add (hb2 _))

end Cert.ReferenceIdeal.Stages

end
-- ==== Proof.RefKernelForm.lean ====
import proofs.«158489_j47493748359308_1_alg».proof.Proof.RefStages
import proofs.«158489_j47493748359308_1_alg».proof.Proof.RefAttnFinite
import proofs.«158489_j47493748359308_1_alg».proof.Proof.StageFinite

/-!
# The reference's result with the variances spelt as mean of squares minus squared mean

When every float argument is real and every node receives an edge, the aggregated features, `x`, the first
normalisation and the feed-forward block's output are real entrywise; so in both batch normalisations the
variance as the mean of the squared deviations may be replaced by the mean of the squares minus the squared
mean, and the reference's result is `refK` of the arguments.
-/

noncomputable section

namespace Cert.ReferenceIdeal.Stages

open Cert.ReferenceIdeal Cert.ReferenceIdeal.Gen Cert.ReferenceIdeal.Read Cert.ReferenceIdeal.Finite Idealize.ShloMosaic
open ERealFinite

/-- Every float argument is real entrywise. -/
structure RealArgs (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) : Prop where
  h0 : ∀ i, IsReal (x0 i)
  h1 : ∀ i, IsReal (x1 i)
  h2 : ∀ i, IsReal (x2 i)
  h3 : ∀ i, IsReal (x3 i)
  h4 : ∀ i, IsReal (x4 i)
  h5 : ∀ i, IsReal (x5 i)
  h6 : ∀ i, IsReal (x6 i)
  h7 : ∀ i, IsReal (x7 i)
  h8 : ∀ i, IsReal (x8 i)
  h9 : ∀ i, IsReal (x9 i)
  h10 : ∀ i, IsReal (x10 i)
  h11 : ∀ i, IsReal (x11 i)
  h12 : ∀ i, IsReal (x12 i)
  h13 : ∀ i, IsReal (x13 i)

/-- The reference's composition with both variances spelt as mean of squares minus squared mean. -/
def refK (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal)) : (⟨S100000x128, .f32⟩ : BufTy).Contents (Elt Ideal) :=
  bnK (ffnS (F := Ideal) (bnK (xS (F := Ideal) x0 (attnS (F := Ideal) (projS x0 x1) (projS x0 x2) (projS x0 x3) x14 x15) x4 x5) x6 x7)
    x8 x9 x10 x11) x12 x13

/-- The aggregated features are real. -/
theorem ref_attn_real (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal))
    (hr : RealArgs x0 x1 x2 x3 x4 x5 x6 x7 x8 x9 x10 x11 x12 x13) (hit : EveryNodeHit x15) (i : S100000x128.Idx) :
    IsReal (val_main_v45 (F := Ideal) x0 x1 x2 x3 x14 x15 i) :=
  attn_real x0 x1 x2 x3 x14 x15 hr.h0 hr.h3 hit i

/-- `x = h + (attn·Wo + bo)` is real. -/
theorem ref_x_real (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal))
    (hr : RealArgs x0 x1 x2 x3 x4 x5 x6 x7 x8 x9 x10 x11 x12 x13) (hit : EveryNodeHit x15) (i : S100000x128.Idx) :
    IsReal (val_main_v50 (F := Ideal) x0 x1 x2 x3 x4 x5 x14 x15 i) := by
  rw [x_eq]
  exact xS_real _ _ _ _ hr.h0 (ref_attn_real x0 x1 x2 x3 x4 x5 x6 x7 x8 x9 x10 x11 x12 x13 x14 x15 hr hit) hr.h4 hr.h5 i

/-- The first normalisation with the variance as mean of squares minus squared mean. -/
theorem ref_xn_eq (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal))
    (hr : RealArgs x0 x1 x2 x3 x4 x5 x6 x7 x8 x9 x10 x11 x12 x13) (hit : EveryNodeHit x15) :
    val_main_v75 (F := Ideal) x0 x1 x2 x3 x4 x5 x6 x7 x14 x15 = bnK (val_main_v50 (F := Ideal) x0 x1 x2 x3 x4 x5 x14 x15) x6 x7 := by
  rw [xn_eq, bnS_eq_bnR]
  exact bnR_eq_bnK _ _ _ (ref_x_real x0 x1 x2 x3 x4 x5 x6 x7 x8 x9 x10 x11 x12 x13 x14 x15 hr hit)

/-- The first normalisation is real. -/
theorem ref_xn_real (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal))
    (hr : RealArgs x0 x1 x2 x3 x4 x5 x6 x7 x8 x9 x10 x11 x12 x13) (hit : EveryNodeHit x15) (i : S100000x128.Idx) :
    IsReal (val_main_v75 (F := Ideal) x0 x1 x2 x3 x4 x5 x6 x7 x14 x15 i) := by
  rw [xn_eq, bnS_eq_bnR]
  exact bnR_real _ _ _ (ref_x_real x0 x1 x2 x3 x4 x5 x6 x7 x8 x9 x10 x11 x12 x13 x14 x15 hr hit) hr.h6 hr.h7 i

/-- The feed-forward block's output is real. -/
theorem ref_x2_real (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal))
    (hr : RealArgs x0 x1 x2 x3 x4 x5 x6 x7 x8 x9 x10 x11 x12 x13) (hit : EveryNodeHit x15) (i : S100000x128.Idx) :
    IsReal (val_main_v85 (F := Ideal) x0 x1 x2 x3 x4 x5 x6 x7 x8 x9 x10 x11 x14 x15 i) := by
  rw [x2_eq]
  exact ffnS_real _ _ _ _ _ (ref_xn_real x0 x1 x2 x3 x4 x5 x6 x7 x8 x9 x10 x11 x12 x13 x14 x15 hr hit) hr.h8 hr.h9 hr.h10 hr.h11 i

/-- The result with the variance as mean of squares minus squared mean. -/
theorem ref_out_eq (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal))
    (hr : RealArgs x0 x1 x2 x3 x4 x5 x6 x7 x8 x9 x10 x11 x12 x13) (hit : EveryNodeHit x15) :
    val_main_v110 (F := Ideal) x0 x1 x2 x3 x4 x5 x6 x7 x8 x9 x10 x11 x12 x13 x14 x15 = bnK (val_main_v85 (F := Ideal) x0 x1 x2 x3 x4 x5 x6 x7 x8 x9 x10 x11 x14 x15) x12 x13 := by
  rw [out_eq, bnS_eq_bnR]
  exact bnR_eq_bnK _ _ _ (ref_x2_real x0 x1 x2 x3 x4 x5 x6 x7 x8 x9 x10 x11 x12 x13 x14 x15 hr hit)

/-- The reference's result is `refK` of the arguments. -/
theorem ref_eq_kernelForm (x0 : (⟨S100000x128, .f32⟩ : BufTy).Contents (Elt Ideal)) (x1 x2 x3 x4 : (⟨S128x128, .f32⟩ : BufTy).Contents (Elt Ideal)) (x5 x6 x7 : (⟨S128, .f32⟩ : BufTy).Contents (Elt Ideal)) (x8 : (⟨S128x256, .f32⟩ : BufTy).Contents (Elt Ideal)) (x9 : (⟨S256, .f32⟩ : BufTy).Contents (Elt Ideal)) (x10 : (⟨S256x128, .f32⟩ : BufTy).Contents (Elt Ideal)) (x11 x12 x13 : (⟨S128, .f32⟩ : BufTy).Contents (Elt Ideal)) (x14 x15 : (⟨S1600000, .i32⟩ : BufTy).Contents (Elt Ideal))
    (hr : RealArgs x0 x1 x2 x3 x4 x5 x6 x7 x8 x9 x10 x11 x12 x13) (hit : EveryNodeHit x15) :
    val_main_v110 (F := Ideal) x0 x1 x2 x3 x4 x5 x6 x7 x8 x9 x10 x11 x12 x13 x14 x15 = refK x0 x1 x2 x3 x4 x5 x6 x7 x8 x9 x10 x11 x12 x13 x14 x15 := by
  rw [ref_out_eq x0 x1 x2 x3 x4 x5 x6 x7 x8 x9 x10 x11 x12 x13 x14 x15 hr hit, x2_eq, ref_xn_eq x0 x1 x2 x3 x4 x5 x6 x7 x8 x9 x10 x11 x12 x13 x14 x15 hr hit, x_eq, attn_eq, q_eq, k_eq, v_eq]
  rfl

end Cert.ReferenceIdeal.Stages

end
-- ==== Proof.KI.Chain2.lean ====
import proofs.«158489_j47493748359308_1_alg».proof.Proof.KI.Chain1
import proofs.«158489_j47493748359308_1_alg».proof.Proof.KI.AsmReg1
import proofs.«158489_j47493748359308_1_alg».proof.Proof.KI.AsmReg2
import proofs.«158489_j47493748359308_1_alg».proof.Proof.KI.AsmReg3
import proofs.«158489_j47493748359308_1_alg».proof.Proof.KI.Glue
import proofs.«158489_j47493748359308_1_alg».proof.Proof.KI.Bridge
import proofs.«158489_j47493748359308_1_alg».proof.Proof.KI.BridgeGlue
import proofs.«158489_j47493748359308_1_alg».proof.Proof.KI.R2Value
import proofs.«158489_j47493748359308_1_alg».proof.Proof.KI.R3Value
import proofs.«158489_j47493748359308_1_alg».proof.Proof.RefKernelForm

/-!
# The kernel's value from the first batch normalisation to the result

The third kernel finds `x`, its column means and variances (mean of squares minus squared mean, formed by the host
from the second kernel's two accumulators) and the parameters as rows: what it normalises is the reference's first
batch normalisation in that spelling, and what it leaves is the feed-forward block's output with its column sums.
The fourth kernel normalises that with the statistics the host forms in the same way: the result is the reference's
composition with both variances spelt as mean of squares minus squared mean.
-/

set_option maxRecDepth 16384

noncomputable section

open scoped BigOperators

namespace Cert.KernelIdeal.KV

open Cert.KernelIdeal Cert.KernelIdeal.Gen Idealize.ShloMosaic Idealize.ShloMosaic.TcCoe Idealize.SL.Sem Idealize.ShloMosaic.ValueIdx
open Cert.ReferenceIdeal.Stages (projS attnS xS bnK ffnS colMean colVarK refK)

variable (m : (ℓ : Loc nD τ sig) → Buf (Elt Ideal) ℓ) (c : Dev nD)

/-- The first batch normalisation of `x`. -/
abbrev xnR : FVec Ideal S100000x128 .f32 := bnK (x1R m c) (a6 m c) (a7 m c)
/-- The feed-forward block with its residual. -/
abbrev x2R : FVec Ideal S100000x128 .f32 := ffnS (F := Ideal) (xnR m c) (a8 m c) (a9 m c) (a10 m c) (a11 m c)
/-- The second batch normalisation: the result. -/
abbrev outR : FVec Ideal S100000x128 .f32 := bnK (x2R m c) (a12 m c) (a13 m c)

/-! ## What the third kernel finds -/

theorem B7_eq (r : Ref sig .tc) : Asm.B7 HI m c r = StableHlo.after hostOps2 (Gen.V6 m (Asm.outs HI m) c) (Proc.devRef .tc r) :=
  congrFun (Asm.V7_eq HI m c).symm _

theorem B7_v49_0 : (Asm.B7 HI m c main_v49_0 : FVec Ideal S100000x128 .f32) = x1R m c :=
  ((congrFun (Asm.V7_eq HI m c).symm _).trans ((Gen.V7_of m _ c main_v49_0 (by decide)).trans (Asm.out1_4 HI m c))).trans (o6_0_eq m c)
theorem B7_v51 : Asm.B7 HI m c main_v51 = meanRow (Asm.o6_1 HI m c) := by
  rw [B7_eq, mean1_after]; exact congrArg meanRow (Asm.out1_5 HI m c)
theorem B7_v55 : Asm.B7 HI m c main_v55 = varRow (Asm.o6_1 HI m c) (Asm.o6_2 HI m c) := by
  rw [B7_eq, var1_after]; exact congrArg₂ varRow (Asm.out1_5 HI m c) (Asm.out1_6 HI m c)
theorem B7_v56 : Asm.B7 HI m c main_v56 = shapeCast S1x128 (a6 m c) shapeCasts_S128_S1x128 := by
  rw [B7_eq, g1_after]; exact congrArg (shapeCast S1x128 · shapeCasts_S128_S1x128) ((Gen.V6_of m _ c main_arg6 (by decide)).trans <| (Gen.V5_of m _ c main_arg6 (by decide)).trans <| (Gen.V4_of m _ c main_arg6 (by decide)).trans <| (Gen.V3_of m _ c main_arg6 (by decide)).trans <| (Gen.V2_of m _ c main_arg6 (by decide)).trans (Gen.V1_of m c main_arg6 (by decide)))
theorem B7_v57 : Asm.B7 HI m c main_v57 = shapeCast S1x128 (a7 m c) shapeCasts_S128_S1x128 := by
  rw [B7_eq, b1_after]; exact congrArg (shapeCast S1x128 · shapeCasts_S128_S1x128) ((Gen.V6_of m _ c main_arg7 (by decide)).trans <| (Gen.V5_of m _ c main_arg7 (by decide)).trans <| (Gen.V4_of m _ c main_arg7 (by decide)).trans <| (Gen.V3_of m _ c main_arg7 (by decide)).trans <| (Gen.V2_of m _ c main_arg7 (by decide)).trans (Gen.V1_of m c main_arg7 (by decide)))
theorem B7_v58 : Asm.B7 HI m c main_v58 = shapeCast S1x256 (a9 m c) shapeCasts_S256_S1x256 := by
  rw [B7_eq, bf1_after]; exact congrArg (shapeCast S1x256 · shapeCasts_S256_S1x256) ((Gen.V6_of m _ c main_arg9 (by decide)).trans <| (Gen.V5_of m _ c main_arg9 (by decide)).trans <| (Gen.V4_of m _ c main_arg9 (by decide)).trans <| (Gen.V3_of m _ c main_arg9 (by decide)).trans <| (Gen.V2_of m _ c main_arg9 (by decide)).trans (Gen.V1_of m c main_arg9 (by decide)))
theorem B7_v59 : Asm.B7 HI m c main_v59 = shapeCast S1x128 (a11 m c) shapeCasts_S128_S1x128 := by
  rw [B7_eq, bf2_after]; exact congrArg (shapeCast S1x128 · shapeCasts_S128_S1x128) ((Gen.V6_of m _ c main_arg11 (by decide)).trans <| (Gen.V5_of m _ c main_arg11 (by decide)).trans <| (Gen.V4_of m _ c main_arg11 (by decide)).trans <| (Gen.V3_of m _ c main_arg11 (by decide)).trans <| (Gen.V2_of m _ c main_arg11 (by decide)).trans (Gen.V1_of m c main_arg11 (by decide)))
theorem B7_arg8 : Asm.B7 HI m c main_arg8 = a8 m c :=
  (congrFun (Asm.V7_eq HI m c).symm _).trans ((Gen.V7_of m _ c main_arg8 (by decide)).trans ((Gen.V6_of m _ c main_arg8 (by decide)).trans <| (Gen.V5_of m _ c main_arg8 (by decide)).trans <| (Gen.V4_of m _ c main_arg8 (by decide)).trans <| (Gen.V3_of m _ c main_arg8 (by decide)).trans <| (Gen.V2_of m _ c main_arg8 (by decide)).trans (Gen.V1_of m c main_arg8 (by decide))))
theorem B7_arg10 : Asm.B7 HI m c main_arg10 = a10 m c :=
  (congrFun (Asm.V7_eq HI m c).symm _).trans ((Gen.V7_of m _ c main_arg10 (by decide)).trans ((Gen.V6_of m _ c main_arg10 (by decide)).trans <| (Gen.V5_of m _ c main_arg10 (by decide)).trans <| (Gen.V4_of m _ c main_arg10 (by decide)).trans <| (Gen.V3_of m _ c main_arg10 (by decide)).trans <| (Gen.V2_of m _ c main_arg10 (by decide)).trans (Gen.V1_of m c main_arg10 (by decide))))

/-! ## Region 2 -/

/-- The third kernel's tile output is the feed-forward block's output. -/
theorem x2Of_eq : R2.x2Of (Asm.B7 HI m) c = x2R m c := by
  unfold R2.x2Of
  rw [B7_v49_0, B7_v51, B7_v55, B7_v56, B7_v57, B7_arg8, B7_v58, B7_arg10, B7_v59]
  rw [xnI_eq_bnK (x1R m c) _ _ (a6 m c) (a7 m c)
    (fun j => meanRow_apply _ (x1R m c) (o6_1_apply m c) j)
    (fun j => varRow_apply _ _ (x1R m c) (o6_1_apply m c) (o6_2_apply m c) j)]
  exact ffnI_eq_ffnS _ _ _ _ _

theorem o8_0_eq : (Asm.o8_0 HI m c : FVec Ideal S100000x128 .f32) = x2R m c := by
  show ((R2.dat (Asm.B7 HI m) c).arrAt 9 cfg2.N : FVec Ideal S100000x128 .f32) = _
  rw [R2.arr9, x2Of_eq]
theorem o8_1_apply (j : Fin 128) : (Asm.o8_1 HI m c : FVec Ideal S1x128 .f32) (ix2 0 j) = ∑ r : Fin 100000, x2R m c (ix2 r j) := by
  show ((R2.dat (Asm.B7 HI m) c).arrAt 10 cfg2.N : FVec Ideal S1x128 .f32) (ix2 0 j) = _
  rw [R2.arr10_apply, x2Of_eq]
theorem o8_2_apply (j : Fin 128) : (Asm.o8_2 HI m c : FVec Ideal S1x128 .f32) (ix2 0 j) = ∑ r : Fin 100000, x2R m c (ix2 r j) * x2R m c (ix2 r j) := by
  show ((R2.dat (Asm.B7 HI m) c).arrAt 11 cfg2.N : FVec Ideal S1x128 .f32) (ix2 0 j) = _
  rw [R2.arr11_apply, x2Of_eq]

/-! ## What the fourth kernel finds -/

theorem B9_eq (r : Ref sig .tc) : Asm.B9 HI m c r = StableHlo.after hostOps3 (Gen.V8 m (Asm.outs HI m) c) (Proc.devRef .tc r) :=
  congrFun (Asm.V9_eq HI m c).symm _

theorem B9_v60_0 : (Asm.B9 HI m c main_v60_0 : FVec Ideal S100000x128 .f32) = x2R m c :=
  ((congrFun (Asm.V9_eq HI m c).symm _).trans ((Gen.V9_of m _ c main_v60_0 (by decide)).trans (Asm.out2_9 HI m c))).trans (o8_0_eq m c)
theorem B9_v62 : Asm.B9 HI m c main_v62 = meanRow (Asm.o8_1 HI m c) := by
  rw [B9_eq, mean2_after]; exact congrArg meanRow (Asm.out2_10 HI m c)
theorem B9_v66 : Asm.B9 HI m c main_v66 = varRow (Asm.o8_1 HI m c) (Asm.o8_2 HI m c) := by
  rw [B9_eq, var2_after]; exact congrArg₂ varRow (Asm.out2_10 HI m c) (Asm.out2_11 HI m c)
theorem B9_v67 : Asm.B9 HI m c main_v67 = shapeCast S1x128 (a12 m c) shapeCasts_S128_S1x128 := by
  rw [B9_eq, g2_after]; exact congrArg (shapeCast S1x128 · shapeCasts_S128_S1x128) ((Gen.V8_of m _ c main_arg12 (by decide)).trans <| (Gen.V7_of m _ c main_arg12 (by decide)).trans <| (Gen.V6_of m _ c main_arg12 (by decide)).trans <| (Gen.V5_of m _ c main_arg12 (by decide)).trans <| (Gen.V4_of m _ c main_arg12 (by decide)).trans <| (Gen.V3_of m _ c main_arg12 (by decide)).trans <| (Gen.V2_of m _ c main_arg12 (by decide)).trans (Gen.V1_of m c main_arg12 (by decide)))
theorem B9_v68 : Asm.B9 HI m c main_v68 = shapeCast S1x128 (a13 m c) shapeCasts_S128_S1x128 := by
  rw [B9_eq, b2_after]; exact congrArg (shapeCast S1x128 · shapeCasts_S128_S1x128) ((Gen.V8_of m _ c main_arg13 (by decide)).trans <| (Gen.V7_of m _ c main_arg13 (by decide)).trans <| (Gen.V6_of m _ c main_arg13 (by decide)).trans <| (Gen.V5_of m _ c main_arg13 (by decide)).trans <| (Gen.V4_of m _ c main_arg13 (by decide)).trans <| (Gen.V3_of m _ c main_arg13 (by decide)).trans <| (Gen.V2_of m _ c main_arg13 (by decide)).trans (Gen.V1_of m c main_arg13 (by decide)))

/-! ## Region 3: the result -/

set_option maxHeartbeats 8000000 in
/-- The kernel's result is the reference's composition with both variances as mean of squares minus squared mean. -/
theorem kernel_value : (Asm.o10 HI m c : FVec Ideal S100000x128 .f32)
    = refK (a0 m c) (a1 m c) (a2 m c) (a3 m c) (a4 m c) (a5 m c) (a6 m c) (a7 m c) (a8 m c) (a9 m c) (a10 m c) (a11 m c) (a12 m c) (a13 m c) (a14 m c) (a15 m c) := by
  show ((R3.dat (Asm.B9 HI m) c).arrAt 5 cfg3.N : FVec Ideal S100000x128 .f32) = outR m c
  rw [R3.arr_out]
  rw [show Asm.B9 HI m c (Pipeline.arrRef spec3 0) = x2R m c from B9_v60_0 m c,
      show Asm.B9 HI m c (Pipeline.arrRef spec3 1) = meanRow (Asm.o8_1 HI m c) from B9_v62 m c,
      show Asm.B9 HI m c (Pipeline.arrRef spec3 2) = varRow (Asm.o8_1 HI m c) (Asm.o8_2 HI m c) from B9_v66 m c,
      show Asm.B9 HI m c (Pipeline.arrRef spec3 3) = shapeCast S1x128 (a12 m c) shapeCasts_S128_S1x128 from B9_v67 m c,
      show Asm.B9 HI m c (Pipeline.arrRef spec3 4) = shapeCast S1x128 (a13 m c) shapeCasts_S128_S1x128 from B9_v68 m c]
  exact G3_eq_bnK (x2R m c) _ _ (a12 m c) (a13 m c)
    (fun j => meanRow_apply _ (x2R m c) (o8_1_apply m c) j)
    (fun j => varRow_apply _ _ (x2R m c) (o8_1_apply m c) (o8_2_apply m c) j)

end Cert.KernelIdeal.KV

end
-- ==== Proof.PreDecode.lean ====
import proofs.«158489_j47493748359308_1_alg».proof.Pre_finite_inputs
import proofs.«158489_j47493748359308_1_alg».proof.Proof.Gen.Pre_finite_inputs
import proofs.«158489_j47493748359308_1_alg».proof.Proof.LibFinite
import Idealize.ShloMosaic.Lib.ReduceAll
import Idealize.ShloMosaic.Lib.ValueIdx
import Idealize.ShloMosaic.PureOps.Ideal

/-!
# What the precondition on the inputs says

The precondition is a conjunction of fifteen tests, each reduced over a whole array by `and` from `true`: for each of
the fourteen float arrays, that every entry's absolute value is below the positive infinity; and that the number of edges
landing on each node — a scatter of ones into zeros along the destination array — is positive. Read back at the ideal
values: every entry of every float array is a real number, and every node receives an edge.
-/

noncomputable section

namespace Cert.Pre_finite_inputs.Decode

open Cert.Pre_finite_inputs
open Idealize.ShloMosaic Idealize.ShloMosaic.ValueIdx
open ERealFinite

instance : Subsingleton S_.Idx := ⟨fun a b => funext fun d => d.elim0⟩

/-! ## One float array -/

/-- The bit pattern of the positive infinity is the top of the extended reals. -/
theorem ofBits_inf : Ideal.ofBits .f32 0x7F800000#32 = ⊤ := by simp [Ideal.ofBits, Ideal.ieee]

/-- An extended real whose absolute value is below the positive infinity is a real number. -/
theorem isReal_of_abs_lt_inf (x : Ideal .f32)
    (h : FloatOps.cmpf .olt (FloatOps.hostAbsf x) (FloatOps.ofBits (F := Ideal) .f32 0x7F800000#32) = 1#1) : IsReal x := by
  have h1 : Ideal.cmp .olt (max (x : EReal) (-(x : EReal))) (Ideal.ofBits .f32 0x7F800000#32) = 1#1 := h
  rw [ofBits_inf] at h1
  unfold Ideal.cmp at h1
  have hlt : max (x : EReal) (-(x : EReal)) < ⊤ := by
    by_contra hn
    simp [hn] at h1
  rw [isReal_iff]
  rw [max_lt_iff] at hlt
  refine ⟨fun e => ?_, fun e => ?_⟩
  · rw [e] at hlt; exact absurd hlt.1 (lt_irrefl _)
  · rw [e] at hlt; simp at hlt

/-- One conjunct of the precondition: every entry's absolute value is below the positive infinity, so every
    entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant S_ .f32 0x7F800000#32)))
          (constantI S_ 1 1#1) hr hu ix0 = 1#1) (i : s.Idx) : IsReal (a i) :=
  isReal_of_abs_lt_inf (a i) (Host.reduce_andi_all _ _ hr hu ix0 e i)

/-! ## A scatter, read at an index -/

/-- A scatter leaves an operand entry as it was when no update lands on it. -/
theorem scatter_untouched {α : Type} {s si u : Shape} {w : Nat} (d : ScatterDims s si u) (f : α → α → α) (x : s.Idx → α)
    (idx : IVec si w) (upd : u.Idx → α) (i : s.Idx) (h : ∀ j : u.Idx, d.resultIdx? j idx ≠ some i) :
    Host.scatter d f x idx upd i = x i := by
  unfold Host.scatter
  have key : ∀ (l : List (Fin u.numel)) (r : s.Idx → α), r i = x i →
      (l.foldl (fun r n =>
        match d.resultIdx? (u.rowMajor.symm n) idx with
        | some i => fun i' => if i' = i then f (r i) (upd (u.rowMajor.symm n)) else r i'
        | none => r) r) i = x i := by
    intro l
    induction l with
    | nil => intro r hr; exact hr
    | cons n l ih =>
      intro r hr
      rw [List.foldl_cons]
      apply ih
      cases hres : d.resultIdx? (u.rowMajor.symm n) idx with
      | none => exact hr
      | some k =>
        have hne : i ≠ k := fun e => h _ (e ▸ hres)
        show (if i = k then f (r k) (upd (u.rowMajor.symm n)) else r i) = x i
        rw [if_neg hne]; exact hr
  exact key _ x rfl

/-- An update lands on an operand index exactly when, on every axis, its window's start plus its coordinate in the
    window is the index's coordinate. -/
theorem resultIdx?_eq_some_iff {s si u : Shape} {w : Nat} (d : ScatterDims s si u) (j : u.Idx) (idx : IVec si w) (i : s.Idx) :
    d.resultIdx? j idx = some i ↔ ∀ a, d.start j idx a + d.window j a = ((i a).val : Int) := by
  unfold ScatterDims.resultIdx?
  constructor
  · intro h
    split at h
    · rename_i hb
      have hi := Option.some.inj h
      intro a
      have := congrArg (fun g => (g a).val) hi
      simp only at this
      have h0 := (hb a).1
      omega
    · cases h
  · intro h
    have hb : ∀ a, 0 ≤ d.start j idx a + d.window j a ∧ d.start j idx a + d.window j a < s.size a := fun a => by
      rw [h a]; exact ⟨Int.natCast_nonneg _, by exact_mod_cast (i a).isLt⟩
    rw [dif_pos hb]
    congr 1
    funext a
    apply Fin.ext
    show (d.start j idx a + ↑(d.window j a)).toNat = (i a).val
    rw [h a]; exact Int.toNat_natCast _

/-! ## The degree count -/

/-- The degree count's scatter: one index column, each update a single entry. -/
abbrev dI := scatter_S100000_S1600000x1_S1600000_n_0_0_1

/-- Where the degree count's update `e` starts: the node named by entry `e` of the index array; the window is a point. -/
theorem dI_start (e : S1600000.Idx) (idx : IVec S1600000x1 32) :
    dI.start e idx (0 : Fin 1) = (idx (ix2 (e 0 : Fin 1600000) (0 : Fin 1))).toInt ∧ dI.window e (0 : Fin 1) = 0 := by
  constructor
  · unfold ScatterDims.start
    rw [dif_pos (by simp [dI, scatter_S100000_S1600000x1_S1600000_n_0_0_1])]
    congr 2
    funext b
    apply Fin.ext
    match b with
    | ⟨0, _⟩ => simp [ScatterDims.siIdx, ScatterDims.siCoord, dI, scatter_S100000_S1600000x1_S1600000_n_0_0_1]; rfl
    | ⟨1, _⟩ => simp [ScatterDims.siIdx, dI, scatter_S100000_S1600000x1_S1600000_n_0_0_1]
  · unfold ScatterDims.window
    rw [dif_neg (by simp [dI, scatter_S100000_S1600000x1_S1600000_n_0_0_1, Shape.kept])]

/-- Every node receives an edge: for each node there is an edge whose destination entry lands on it. -/
def EveryNodeHitI (a15 : IVec S1600000 32) : Prop :=
  ∀ i : S100000.Idx, ∃ j : S1600000.Idx,
    dI.resultIdx? j (broadcastInDim S1600000x1 ![0] Facts.bcast_S1600000_S1600000x1_0 a15) = some i

/-- When every entry of a scatter's result is above the matching entry of an array that agrees with the scatter's operand,
    every operand index receives an update: an index no update lands on keeps the operand's entry, which is not above itself. -/
theorem hit_of_all_above {s si u : Shape} {w : Nat} {axes : List (Fin s.rank)} (d : ScatterDims s si u)
    (f : BitVec 32 → BitVec 32 → BitVec 32) (x : s.Idx → BitVec 32) (idx : IVec si w) (upd : u.Idx → BitVec 32)
    (y : s.Idx → BitVec 32) (hxy : ∀ i, x i = y i) (hr : s.ReducesTo axes S_) (hu : 0 < S_.numel)
    (e : Host.reduce IntOp.andi (cmpi .sgt (Host.scatter d f x idx upd) y) (constantI S_ 1 1#1) hr hu ix0 = 1#1)
    (i : s.Idx) : ∃ j : u.Idx, d.resultIdx? j idx = some i := by
  by_contra hne
  have hne' : ∀ j : u.Idx, d.resultIdx? j idx ≠ some i := fun j hj => hne ⟨j, hj⟩
  have hi := Host.reduce_andi_all _ _ hr hu ix0 e i
  have hi' : IntOp.cmpi .sgt (Host.scatter d f x idx upd i) (y i) = 1#1 := hi
  rw [scatter_untouched d f x idx upd i hne', hxy i, IntOp.cmpi_sgt] at hi'
  exact lt_irrefl _ hi'

/-! ## The whole precondition -/

/-- The precondition read back: every entry of each of the fourteen float arrays is a real number, and every node
    receives an edge. -/
theorem decode (a0 : FVec Ideal S100000x128 .f32) (a1 a2 a3 a4 : FVec Ideal S128x128 .f32) (a5 a6 a7 : FVec Ideal S128 .f32)
    (a8 : FVec Ideal S128x256 .f32) (a9 : FVec Ideal S256 .f32) (a10 : FVec Ideal S256x128 .f32) (a11 a12 a13 : FVec Ideal S128 .f32)
    (a14 a15 : IVec S1600000 32)
    (h : fn (F := Ideal) a0 a1 a2 a3 a4 a5 a6 a7 a8 a9 a10 a11 a12 a13 a14 a15 = fun _ => 1#1) :
    (∀ i, IsReal (a0 i)) ∧ (∀ i, IsReal (a1 i)) ∧ (∀ i, IsReal (a2 i)) ∧ (∀ i, IsReal (a3 i)) ∧ (∀ i, IsReal (a4 i))
    ∧ (∀ i, IsReal (a5 i)) ∧ (∀ i, IsReal (a6 i)) ∧ (∀ i, IsReal (a7 i)) ∧ (∀ i, IsReal (a8 i)) ∧ (∀ i, IsReal (a9 i))
    ∧ (∀ i, IsReal (a10 i)) ∧ (∀ i, IsReal (a11 i)) ∧ (∀ i, IsReal (a12 i)) ∧ (∀ i, IsReal (a13 i))
    ∧ EveryNodeHitI a15 := by
  have h0 := congrFun h ix0
  dsimp only [fn, fn_part1, fn_part2, fn_part3, fn_part4] at h0
  have split : ∀ (X Y : IVec S_ 1), andi X Y ix0 = 1#1 → X ix0 = 1#1 ∧ Y ix0 = 1#1 := fun X Y e => IntOp.andi_eq_one.1 e
  obtain ⟨h0, c14⟩ := split _ _ h0
  obtain ⟨h0, c13⟩ := split _ _ h0
  obtain ⟨h0, c12⟩ := split _ _ h0
  obtain ⟨h0, c11⟩ := split _ _ h0
  obtain ⟨h0, c10⟩ := split _ _ h0
  obtain ⟨h0, c9⟩ := split _ _ h0
  obtain ⟨h0, c8⟩ := split _ _ h0
  obtain ⟨h0, c7⟩ := split _ _ h0
  obtain ⟨h0, c6⟩ := split _ _ h0
  obtain ⟨h0, c5⟩ := split _ _ h0
  obtain ⟨h0, c4⟩ := split _ _ h0
  obtain ⟨h0, c3⟩ := split _ _ h0
  obtain ⟨h0, c2⟩ := split _ _ h0
  obtain ⟨c0, c1⟩ := split _ _ h0
  exact ⟨all_real a0 _ _ _ c0, all_real a1 _ _ _ c1, all_real a2 _ _ _ c2, all_real a3 _ _ _ c3, all_real a4 _ _ _ c4,
    all_real a5 _ _ _ c5, all_real a6 _ _ _ c6, all_real a7 _ _ _ c7, all_real a8 _ _ _ c8, all_real a9 _ _ _ c9,
    all_real a10 _ _ _ c10, all_real a11 _ _ _ c11, all_real a12 _ _ _ c12, all_real a13 _ _ _ c13,
    fun i => hit_of_all_above _ _ _ _ _ _ (fun _ => rfl) _ _ c14 i⟩

end Cert.Pre_finite_inputs.Decode

end
-- ==== Proof.PreDecodeHit.lean ====
import proofs.«158489_j47493748359308_1_alg».proof.Proof.PreDecode
import proofs.«158489_j47493748359308_1_alg».proof.Proof.Gen.ReferenceIdeal.Read

noncomputable section

namespace Cert.Pre_finite_inputs.Decode

open Cert.Pre_finite_inputs
open Idealize.ShloMosaic Idealize.ShloMosaic.ValueIdx

/-! # Every node receives an edge, in the form the attention's normaliser needs

The precondition counts edges per node with a scatter of single entries; the attention's normaliser scatters one row of
eight heads per edge along the same index column. Edge `e` lands on node `n` in the first exactly when, for each head
`h`, update `(e, h)` lands on `(n, h)` in the second. -/

/-- The normaliser's scatter: one index column, each update a row of heads. -/
abbrev dF := Cert.ReferenceIdeal.scatter_S100000x8_S1600000x1_S1600000x8_1_0_0_1

/-- Where the normaliser's update `(e, h)` starts: the node named by entry `e` of the index column, head zero; its
    coordinate in the window is the head. -/
theorem dF_start (j : Cert.ReferenceIdeal.S1600000x8.Idx) (idx : IVec Cert.ReferenceIdeal.S1600000x1 32) :
    dF.start j idx (0 : Fin 2) = (idx (ix2 (j 0 : Fin 1600000) (0 : Fin 1))).toInt ∧ dF.window j (0 : Fin 2) = 0
    ∧ dF.start j idx (1 : Fin 2) = 0 ∧ dF.window j (1 : Fin 2) = (j 1).val := by
  refine ⟨?_, ?_, ?_, ?_⟩
  · unfold ScatterDims.start
    rw [dif_pos (by simp [dF, Cert.ReferenceIdeal.scatter_S100000x8_S1600000x1_S1600000x8_1_0_0_1])]
    congr 2
    funext b
    apply Fin.ext
    match b with
    | ⟨0, _⟩ => simp [ScatterDims.siIdx, ScatterDims.siCoord, dF, Cert.ReferenceIdeal.scatter_S100000x8_S1600000x1_S1600000x8_1_0_0_1, Shape.kept]; rfl
    | ⟨1, _⟩ => simp [ScatterDims.siIdx, dF, Cert.ReferenceIdeal.scatter_S100000x8_S1600000x1_S1600000x8_1_0_0_1]
  · unfold ScatterDims.window
    rw [dif_neg (by simp [dF, Cert.ReferenceIdeal.scatter_S100000x8_S1600000x1_S1600000x8_1_0_0_1, Shape.kept])]
  · unfold ScatterDims.start
    rw [dif_neg (by simp [dF, Cert.ReferenceIdeal.scatter_S100000x8_S1600000x1_S1600000x8_1_0_0_1])]
  · unfold ScatterDims.window
    rw [dif_pos (by simp [dF, Cert.ReferenceIdeal.scatter_S100000x8_S1600000x1_S1600000x8_1_0_0_1, Shape.kept])]
    simp [dF, Cert.ReferenceIdeal.scatter_S100000x8_S1600000x1_S1600000x8_1_0_0_1, Shape.kept]
    rfl

/-- Every node and head receives an edge, from every node receiving one. -/
theorem every_node_hit (x15 : (⟨Cert.ReferenceIdeal.S1600000, .i32⟩ : BufTy).Contents (Elt Ideal)) (h : EveryNodeHitI x15) :
    ∀ i : Cert.ReferenceIdeal.S100000x8.Idx, ∃ j : Cert.ReferenceIdeal.S1600000x8.Idx,
      dF.resultIdx? j (Cert.ReferenceIdeal.Read.val_main_v40 (F := Ideal) x15) = some i := by
  intro i
  obtain ⟨e, he⟩ := h (ix1 (i 0 : Fin 100000))
  rw [resultIdx?_eq_some_iff] at he
  have he0 := he 0
  obtain ⟨s0, w0⟩ := dI_start e (broadcastInDim S1600000x1 ![0] Facts.bcast_S1600000_S1600000x1_0 x15)
  rw [s0, w0] at he0
  refine ⟨ix2 (e 0 : Fin 1600000) (i 1 : Fin 8), ?_⟩
  rw [resultIdx?_eq_some_iff]
  obtain ⟨s0', w0', s1', w1'⟩ := dF_start (ix2 (e 0 : Fin 1600000) (i 1 : Fin 8)) (Cert.ReferenceIdeal.Read.val_main_v40 (F := Ideal) x15)
  intro a
  match a with
  | ⟨0, _⟩ =>
    show dF.start _ _ (0 : Fin 2) + ↑(dF.window _ (0 : Fin 2)) = ((i 0).val : Int)
    rw [s0', w0']
    exact he0
  | ⟨1, _⟩ =>
    show dF.start _ _ (1 : Fin 2) + ↑(dF.window _ (1 : Fin 2)) = ((i 1).val : Int)
    rw [s1', w1']
    simp

end Cert.Pre_finite_inputs.Decode

end
-- ==== Proof.PreToRef.lean ====
import proofs.«158489_j47493748359308_1_alg».proof.Defs
import proofs.«158489_j47493748359308_1_alg».proof.Proof.PreDecodeHit
import proofs.«158489_j47493748359308_1_alg».proof.Proof.RefKernelForm

/-!
# From the precondition to the reference's hypotheses

The precondition on the kernel's argument arrays, read back: on every core, every entry of each of the fourteen float
arguments is a real number, and every node and head receives an edge of the destination array.
-/

noncomputable section

namespace Cert.PreToRef

open Idealize.ShloMosaic Idealize.SL.Sem

/-- On every core the kernel's float arguments are real entrywise and every node and head receives an edge. -/
theorem real_args (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Stages.RealArgs
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
    ∧ Cert.ReferenceIdeal.Finite.EveryNodeHit (m ((c.tc : Thread Cert.KernelIdeal.nD Cert.KernelIdeal.τ).loc Cert.KernelIdeal.main_arg15)) := by
  obtain ⟨h0, h1, h2, h3, h4, h5, h6, h7, h8, h9, h10, h11, h12, h13, hI⟩ :=
    Cert.Pre_finite_inputs.Decode.decode _ _ _ _ _ _ _ _ _ _ _ _ _ _ _ _ (hpre c)
  exact ⟨⟨h0, h1, h2, h3, h4, h5, h6, h7, h8, h9, h10, h11, h12, h13⟩,
    Cert.Pre_finite_inputs.Decode.every_node_hit _ hI⟩

end Cert.PreToRef

end
-- ==== Proof.lean ====
/-
  A graph-transformer layer over 100000 nodes and 1600000 edges: four kernels (the fused Q·K·V projection; the
  output projection with its residual and the column sums of the result and of its square; the first batch
  normalisation, the feed-forward block with its residual and the same two column sums; the second batch
  normalisation) joined by host operations (the edge gathers, the clamped exponential scores, the two scatter-adds
  over the edges landing on each node and their quotient; the means and variances from the column sums), against the
  plain reference.

  At the ideal instance the two programs differ in three places.  The kernel multiplies `h` once by the three
  weight matrices side by side and slices the product, the reference multiplies three times: the same numbers.  The
  kernel multiplies the score by ¼, the reference divides it by 4: the same extended real, always.  And the kernel's
  batch-normalisation variance is the mean of the squares minus the squared mean, the reference's the mean of the
  squared deviations: equal when the normalised matrix is real entrywise.  It is: the float arguments are real by the
  precondition; a clamped score's exponential lies in [e⁻⁵, e⁵] whatever the score; every node receives an edge by the
  precondition, so each normaliser of the aggregation is a nonempty sum of positive reals and the quotient is real;
  sums, products, maxima and reciprocal square roots of positive reals keep reals real.

  The frames: each kernel's body run once per control case over symbolic blocks, the proof data per region at the
  contents the region is entered from, the four regions and six host stretches chained over the contents at each
  boundary.  The same run, read at the result buffer, names the kernel's result.
-/
import proofs.«158489_j47493748359308_1_alg».proof.Defs
import proofs.«158489_j47493748359308_1_alg».proof.Proof.Gen.Kernel
import proofs.«158489_j47493748359308_1_alg».proof.Proof.Gen.KernelIdeal
import proofs.«158489_j47493748359308_1_alg».proof.Proof.Gen.ReferenceIdeal
import proofs.«158489_j47493748359308_1_alg».proof.Proof.Gen.Pre_finite_inputs
import proofs.«158489_j47493748359308_1_alg».proof.Proof.Gen.ReferenceIdeal.Read
import proofs.«158489_j47493748359308_1_alg».proof.Proof.K.AsmRun
import proofs.«158489_j47493748359308_1_alg».proof.Proof.K.HalvesInst
import proofs.«158489_j47493748359308_1_alg».proof.Proof.KI.AsmRun
import proofs.«158489_j47493748359308_1_alg».proof.Proof.KI.Chain2
import proofs.«158489_j47493748359308_1_alg».proof.Proof.PreToRef
import Idealize.ShloMosaic.Adequacy
import Idealize.ShloMosaic.Init

set_option maxRecDepth 16384

noncomputable section

namespace Cert.Proof

open Idealize.ShloMosaic Idealize.SL.Sem

/-- The word-level program runs and leaves its arguments as launched. -/
theorem frame_k : Cert.frame_Kernel := fun m ρ _ => Cert.Kernel.Asm.frame (F := Bits) Cert.Kernel.Asm.halves m ρ

/-- The idealized program runs and leaves its arguments as launched. -/
theorem frame_ki : Cert.frame_KernelIdeal := fun m ρ _ => Cert.KernelIdeal.Asm.frame (F := Ideal) Cert.KernelIdeal.Asm.halves m ρ

/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- At the ideal instance both programs end at the reference's composition with the variances spelt as mean of
    squares minus squared mean: the kernel by its run through the four regions, the reference because everything it
    normalises is real under the precondition. -/
theorem algebraic : Cert.algebraic_KernelIdeal_ReferenceIdeal := by
  intro m ρ m' ρ' hpre hagree
  refine ⟨fun c => Cert.KernelIdeal.Asm.o10 Cert.KernelIdeal.KV.HI m c, Cert.KernelIdeal.Asm.run_value Cert.KernelIdeal.KV.HI m ρ, ?_⟩
  refine (θ_run Cert.ReferenceIdeal.defs _ _).mono (fun _ h c => ⟨(h c).1.trans ?_, (h c).2⟩)
    (Cert.ReferenceIdeal.Value.run (F := Ideal) m' ρ')
  obtain ⟨hr, hit⟩ := Cert.PreToRef.real_args m hpre c
  obtain ⟨h0, h1, h2, h3, h4, h5, h6, h7, h8, h9, h10, h11, h12, h13, h14, h15⟩ := hagree c
  rw [Cert.ReferenceIdeal.Read.val_main_v110_eq, h0, h1, h2, h3, h4, h5, h6, h7, h8, h9, h10, h11, h12, h13, h14, h15]
  rw [Cert.ReferenceIdeal.Stages.ref_eq_kernelForm _ _ _ _ _ _ _ _ _ _ _ _ _ _ _ _ hr hit]
  exact (Cert.KernelIdeal.KV.kernel_value m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
